-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v240)) (v1 : (c : Dev Cert.KernelIdeal.nD) → Buf (Elt Ideal) ((c.tc : Thread Cert.KernelIdeal.nD Cert.KernelIdeal.τ).loc Cert.KernelIdeal.main_v285)) (v2 : (c : Dev Cert.KernelIdeal.nD) → Buf (Elt Ideal) ((c.tc : Thread Cert.KernelIdeal.nD Cert.KernelIdeal.τ).loc Cert.KernelIdeal.main_v281)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v240) = v0 c
          ∧ r.2.mem ((c.tc : Thread Cert.KernelIdeal.nD Cert.KernelIdeal.τ).loc Cert.KernelIdeal.main_v285) = v1 c
          ∧ r.2.mem ((c.tc : Thread Cert.KernelIdeal.nD Cert.KernelIdeal.τ).loc Cert.KernelIdeal.main_v281) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v249) = v0 c
          ∧ r.2.mem ((c.tc : Thread Cert.ReferenceIdeal.nD Cert.ReferenceIdeal.τ).loc Cert.ReferenceIdeal.main_v289) = v1 c
          ∧ r.2.mem ((c.tc : Thread Cert.ReferenceIdeal.nD Cert.ReferenceIdeal.τ).loc Cert.ReferenceIdeal.main_v287) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S65536 : Shape := ⟨1, ![65536]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S4096x2048 : Shape := ⟨2, ![4096, 2048]⟩
abbrev S2048 : Shape := ⟨1, ![2048]⟩
abbrev S2048x4096 : Shape := ⟨2, ![2048, 4096]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_

variable [Facts]

def fn_part7 {F : FTy → Type} [FloatOps F] (main_arg31 : FVec F S64 .f32) (main_v118 : IVec S_ 1) (main_v119 : FVec F S64x64 .f32) : IVec S_ 1 :=
  let main_cst_46 : FVec F S_ .f32 := constant S_ .f32 0x7F800000#32
  let main_v120 : FVec F S64x64 .f32 := broadcastInDim S64x64 ![] bcast_S_S64x64 main_cst_46
  let main_v121 : IVec S64x64 1 := cmpf .olt main_v119 main_v120
  let main_c_47 : IVec S_ 1 := constantI S_ 1 1#1
  let main_v122 : IVec S_ 1 := (fun x v => Host.reduce IntOp.andi x v reducesTo_S64x64_S_d0_1 h_S_) main_v121 main_c_47
  let main_v123 : IVec S_ 1 := andi main_v118 main_v122
  let main_v124 : FVec F S64 .f32 := Host.absf main_arg31
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  main_v128

def fn_part6 {F : FTy → Type} [FloatOps F] (main_arg27 : FVec F S4096 .f32) (main_arg28 : FVec F S64x64 .f32) (main_arg29 : FVec F S64 .f32) (main_arg30 : FVec F S64x64 .f32) (main_arg31 : FVec F S64 .f32) (main_v98 : IVec S_ 1) (main_v101 : IVec S2048x4096 1) (main_c_39 : IVec S_ 1) : IVec S_ 1 :=
  let main_v102 : IVec S_ 1 := (fun x v => Host.reduce IntOp.andi x v reducesTo_S2048x4096_S_d0_1 h_S_) main_v101 main_c_39
  let main_v103 : IVec S_ 1 := andi main_v98 main_v102
  let main_v104 : FVec F S4096 .f32 := Host.absf main_arg27
  let main_cst_40 : FVec F S_ .f32 := constant S_ .f32 0x7F800000#32
  let main_v105 : FVec F S4096 .f32 := broadcastInDim S4096 ![] bcast_S_S4096 main_cst_40
  let main_v106 : IVec S4096 1 := cmpf .olt main_v104 main_v105
  let main_c_41 : IVec S_ 1 := constantI S_ 1 1#1
  let main_v107 : IVec S_ 1 := (fun x v => Host.reduce IntOp.andi x v reducesTo_S4096_S_d0 h_S_) main_v106 main_c_41
  let main_v108 : IVec S_ 1 := andi main_v103 main_v107
  let main_v109 : FVec F S64x64 .f32 := Host.absf main_arg28
  let main_cst_42 : FVec F S_ .f32 := constant S_ .f32 0x7F800000#32
  let main_v110 : FVec F S64x64 .f32 := broadcastInDim S64x64 ![] bcast_S_S64x64 main_cst_42
  let main_v111 : IVec S64x64 1 := cmpf .olt main_v109 main_v110
  let main_c_43 : IVec S_ 1 := constantI S_ 1 1#1
  let main_v112 : IVec S_ 1 := (fun x v => Host.reduce IntOp.andi x v reducesTo_S64x64_S_d0_1 h_S_) main_v111 main_c_43
  let main_v113 : IVec S_ 1 := andi main_v108 main_v112
  let main_v114 : FVec F S64 .f32 := Host.absf main_arg29
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x64 .f32 := Host.absf main_arg30
  fn_part7 (F := F) main_arg31 main_v118 main_v119

def fn_part5 {F : FTy → Type} [FloatOps F] (main_arg24 : FVec F S4096x2048 .f32) (main_arg25 : FVec F S2048 .f32) (main_arg26 : FVec F S2048x4096 .f32) (main_arg27 : FVec F S4096 .f32) (main_arg28 : FVec F S64x64 .f32) (main_arg29 : FVec F S64 .f32) (main_arg30 : FVec F S64x64 .f32) (main_arg31 : FVec F S64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S4096x2048 .f32 := Host.absf main_arg24
  let main_cst_34 : FVec F S_ .f32 := constant S_ .f32 0x7F800000#32
  let main_v90 : FVec F S4096x2048 .f32 := broadcastInDim S4096x2048 ![] bcast_S_S4096x2048 main_cst_34
  let main_v91 : IVec S4096x2048 1 := cmpf .olt main_v89 main_v90
  let main_c_35 : IVec S_ 1 := constantI S_ 1 1#1
  let main_v92 : IVec S_ 1 := (fun x v => Host.reduce IntOp.andi x v reducesTo_S4096x2048_S_d0_1 h_S_) main_v91 main_c_35
  let main_v93 : IVec S_ 1 := andi main_v88 main_v92
  let main_v94 : FVec F S2048 .f32 := Host.absf main_arg25
  let main_cst_36 : FVec F S_ .f32 := constant S_ .f32 0x7F800000#32
  let main_v95 : FVec F S2048 .f32 := broadcastInDim S2048 ![] bcast_S_S2048 main_cst_36
  let main_v96 : IVec S2048 1 := cmpf .olt main_v94 main_v95
  let main_c_37 : IVec S_ 1 := constantI S_ 1 1#1
  let main_v97 : IVec S_ 1 := (fun x v => Host.reduce IntOp.andi x v reducesTo_S2048_S_d0 h_S_) main_v96 main_c_37
  let main_v98 : IVec S_ 1 := andi main_v93 main_v97
  let main_v99 : FVec F S2048x4096 .f32 := Host.absf main_arg26
  let main_cst_38 : FVec F S_ .f32 := constant S_ .f32 0x7F800000#32
  let main_v100 : FVec F S2048x4096 .f32 := broadcastInDim S2048x4096 ![] bcast_S_S2048x4096 main_cst_38
  let main_v101 : IVec S2048x4096 1 := cmpf .olt main_v99 main_v100
  let main_c_39 : IVec S_ 1 := constantI S_ 1 1#1
  fn_part6 (F := F) main_arg27 main_arg28 main_arg29 main_arg30 main_arg31 main_v98 main_v101 main_c_39

def fn_part4 {F : FTy → Type} [FloatOps F] (main_arg20 : FVec F S64 .f32) (main_arg21 : FVec F S64x64 .f32) (main_arg22 : FVec F S64x64 .f32) (main_arg23 : FVec F S64x64 .f32) (main_arg24 : FVec F S4096x2048 .f32) (main_arg25 : FVec F S2048 .f32) (main_arg26 : FVec F S2048x4096 .f32) (main_arg27 : FVec F S4096 .f32) (main_arg28 : FVec F S64x64 .f32) (main_arg29 : FVec F S64 .f32) (main_arg30 : FVec F S64x64 .f32) (main_arg31 : FVec F S64 .f32) (main_v63 : IVec S_ 1) (main_v67 : IVec S_ 1) : IVec S_ 1 :=
  let main_v68 : IVec S_ 1 := andi main_v63 main_v67
  let main_v69 : FVec F S64 .f32 := Host.absf main_arg20
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg21
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64x64 .f32 := Host.absf main_arg22
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64x64 .f32 := Host.absf main_arg23
  let main_cst_32 : FVec F S_ .f32 := constant S_ .f32 0x7F800000#32
  fn_part5 (F := F) main_arg24 main_arg25 main_arg26 main_arg27 main_arg28 main_arg29 main_arg30 main_arg31 main_v83 main_v84 main_cst_32

def fn_part3 {F : FTy → Type} [FloatOps F] (main_arg17 : FVec F S512x128 .f32) (main_arg18 : FVec F S128 .f32) (main_arg19 : FVec F S128x64 .f32) (main_arg20 : FVec F S64 .f32) (main_arg21 : FVec F S64x64 .f32) (main_arg22 : FVec F S64x64 .f32) (main_arg23 : FVec F S64x64 .f32) (main_arg24 : FVec F S4096x2048 .f32) (main_arg25 : FVec F S2048 .f32) (main_arg26 : FVec F S2048x4096 .f32) (main_arg27 : FVec F S4096 .f32) (main_arg28 : FVec F S64x64 .f32) (main_arg29 : FVec F S64 .f32) (main_arg30 : FVec F S64x64 .f32) (main_arg31 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S512x128 .f32 := Host.absf main_arg17
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg19
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg20 main_arg21 main_arg22 main_arg23 main_arg24 main_arg25 main_arg26 main_arg27 main_arg28 main_arg29 main_arg30 main_arg31 main_v63 main_v67

def fn_part2 {F : FTy → Type} [FloatOps F] (main_arg13 : FVec F S512x128 .f32) (main_arg14 : FVec F S128 .f32) (main_arg15 : FVec F S128x64 .f32) (main_arg16 : FVec F S64 .f32) (main_arg17 : FVec F S512x128 .f32) (main_arg18 : FVec F S128 .f32) (main_arg19 : FVec F S128x64 .f32) (main_arg20 : FVec F S64 .f32) (main_arg21 : FVec F S64x64 .f32) (main_arg22 : FVec F S64x64 .f32) (main_arg23 : FVec F S64x64 .f32) (main_arg24 : FVec F S4096x2048 .f32) (main_arg25 : FVec F S2048 .f32) (main_arg26 : FVec F S2048x4096 .f32) (main_arg27 : FVec F S4096 .f32) (main_arg28 : FVec F S64x64 .f32) (main_arg29 : FVec F S64 .f32) (main_arg30 : FVec F S64x64 .f32) (main_arg31 : FVec F S64 .f32) (main_v33 : IVec S_ 1) : IVec S_ 1 :=
  let main_v34 : FVec F S512x128 .f32 := Host.absf main_arg13
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg15
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg16
  let main_cst_18 : FVec F S_ .f32 := constant S_ .f32 0x7F800000#32
  let main_v50 : FVec F S64 .f32 := broadcastInDim S64 ![] bcast_S_S64 main_cst_18
  fn_part3 (F := F) main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg10 : FVec F S128 .f32) (main_arg11 : FVec F S128x64 .f32) (main_arg12 : FVec F S64 .f32) (main_arg13 : FVec F S512x128 .f32) (main_arg14 : FVec F S128 .f32) (main_arg15 : FVec F S128x64 .f32) (main_arg16 : FVec F S64 .f32) (main_arg17 : FVec F S512x128 .f32) (main_arg18 : FVec F S128 .f32) (main_arg19 : FVec F S128x64 .f32) (main_arg20 : FVec F S64 .f32) (main_arg21 : FVec F S64x64 .f32) (main_arg22 : FVec F S64x64 .f32) (main_arg23 : FVec F S64x64 .f32) (main_arg24 : FVec F S4096x2048 .f32) (main_arg25 : FVec F S2048 .f32) (main_arg26 : FVec F S2048x4096 .f32) (main_arg27 : FVec F S4096 .f32) (main_arg28 : FVec F S64x64 .f32) (main_arg29 : FVec F S64 .f32) (main_arg30 : FVec F S64x64 .f32) (main_arg31 : FVec F S64 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg11
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg12
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S4096x512 .f32) (main_arg1 : FVec F S4096x512 .f32) (main_arg2 : FVec F S4096x512 .f32) (main_arg3 : IVec S65536 32) (main_arg4 : IVec S65536 32) (main_arg5 : IVec S65536 32) (main_arg6 : IVec S65536 32) (main_arg7 : IVec S65536 32) (main_arg8 : IVec S65536 32) (main_arg9 : FVec F S512x128 .f32) (main_arg10 : FVec F S128 .f32) (main_arg11 : FVec F S128x64 .f32) (main_arg12 : FVec F S64 .f32) (main_arg13 : FVec F S512x128 .f32) (main_arg14 : FVec F S128 .f32) (main_arg15 : FVec F S128x64 .f32) (main_arg16 : FVec F S64 .f32) (main_arg17 : FVec F S512x128 .f32) (main_arg18 : FVec F S128 .f32) (main_arg19 : FVec F S128x64 .f32) (main_arg20 : FVec F S64 .f32) (main_arg21 : FVec F S64x64 .f32) (main_arg22 : FVec F S64x64 .f32) (main_arg23 : FVec F S64x64 .f32) (main_arg24 : FVec F S4096x2048 .f32) (main_arg25 : FVec F S2048 .f32) (main_arg26 : FVec F S2048x4096 .f32) (main_arg27 : FVec F S4096 .f32) (main_arg28 : FVec F S64x64 .f32) (main_arg29 : FVec F S64 .f32) (main_arg30 : FVec F S64x64 .f32) (main_arg31 : FVec F S64 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S512x128 .f32 := Host.absf main_arg9
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S4096x512 : Shape := ⟨2, ![4096, 512]⟩
abbrev S65536 : Shape := ⟨1, ![65536]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S4096x2048 : Shape := ⟨2, ![4096, 2048]⟩
abbrev S2048 : Shape := ⟨1, ![2048]⟩
abbrev S2048x4096 : Shape := ⟨2, ![2048, 4096]⟩
abbrev S4096 : Shape := ⟨1, ![4096]⟩
abbrev S_ : Shape := ⟨0, ![]⟩
abbrev S65536x1 : Shape := ⟨2, ![65536, 1]⟩
abbrev S4096x1 : Shape := ⟨2, ![4096, 1]⟩
abbrev S4096x128 : Shape := ⟨2, ![4096, 128]⟩
abbrev S65536x128 : Shape := ⟨2, ![65536, 128]⟩
abbrev S1x128 : Shape := ⟨2, ![1, 128]⟩
abbrev S4096x64 : Shape := ⟨2, ![4096, 64]⟩
abbrev S65536x64 : Shape := ⟨2, ![65536, 64]⟩
abbrev S1x64 : Shape := ⟨2, ![1, 64]⟩
abbrev S4096x4096 : Shape := ⟨2, ![4096, 4096]⟩
abbrev S65536x2 : Shape := ⟨2, ![65536, 2]⟩
abbrev S1x2048 : Shape := ⟨2, ![1, 2048]⟩
abbrev S512x512 : Shape := ⟨2, ![512, 512]⟩
abbrev S512x2048 : Shape := ⟨2, ![512, 2048]⟩
abbrev S1x4096 : Shape := ⟨2, ![1, 4096]⟩
abbrev S512x64 : Shape := ⟨2, ![512, 64]⟩
abbrev S64x4096 : Shape := ⟨2, ![64, 4096]⟩
abbrev S64x2048 : Shape := ⟨2, ![64, 2048]⟩

abbrev nBuf : Space → Nat
  | .hbm => 395
  | .vmem => 42
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S65536, .i32⟩
  | 4 => ⟨S65536, .i32⟩
  | 5 => ⟨S65536, .i32⟩
  | 6 => ⟨S65536, .i32⟩
  | 7 => ⟨S65536, .i32⟩
  | 8 => ⟨S65536, .i32⟩
  | 9 => ⟨S512x128, .f32⟩
  | 10 => ⟨S128, .f32⟩
  | 11 => ⟨S128x64, .f32⟩
  | 12 => ⟨S64, .f32⟩
  | 13 => ⟨S512x128, .f32⟩
  | 14 => ⟨S128, .f32⟩
  | 15 => ⟨S128x64, .f32⟩
  | 16 => ⟨S64, .f32⟩
  | 17 => ⟨S512x128, .f32⟩
  | 18 => ⟨S128, .f32⟩
  | 19 => ⟨S128x64, .f32⟩
  | 20 => ⟨S64, .f32⟩
  | 21 => ⟨S64x64, .f32⟩
  | 22 => ⟨S64x64, .f32⟩
  | 23 => ⟨S64x64, .f32⟩
  | 24 => ⟨S4096x2048, .f32⟩
  | 25 => ⟨S2048, .f32⟩
  | 26 => ⟨S2048x4096, .f32⟩
  | 27 => ⟨S4096, .f32⟩
  | 28 => ⟨S64x64, .f32⟩
  | 29 => ⟨S64, .f32⟩
  | 30 => ⟨S64x64, .f32⟩
  | 31 => ⟨S64, .f32⟩
  | 32 => ⟨S_, .f32⟩
  | 33 => ⟨S65536, .f32⟩
  | 34 => ⟨S_, .f32⟩
  | 35 => ⟨S4096, .f32⟩
  | 36 => ⟨S65536x1, .i32⟩
  | 37 => ⟨S4096, .f32⟩
  | 38 => ⟨S_, .f32⟩
  | 39 => ⟨S4096, .f32⟩
  | 40 => ⟨S4096, .f32⟩
  | 41 => ⟨S_, .f32⟩
  | 42 => ⟨S4096, .f32⟩
  | 43 => ⟨S65536x1, .i32⟩
  | 44 => ⟨S4096, .f32⟩
  | 45 => ⟨S_, .f32⟩
  | 46 => ⟨S4096, .f32⟩
  | 47 => ⟨S4096, .f32⟩
  | 48 => ⟨S_, .f32⟩
  | 49 => ⟨S4096, .f32⟩
  | 50 => ⟨S4096, .f32⟩
  | 51 => ⟨S_, .f32⟩
  | 52 => ⟨S4096, .f32⟩
  | 53 => ⟨S4096, .f32⟩
  | 54 => ⟨S4096x1, .f32⟩
  | 55 => ⟨S4096x512, .f32⟩
  | 56 => ⟨S4096x512, .f32⟩
  | 57 => ⟨S4096x128, .f32⟩
  | 58 => ⟨S_, .i32⟩
  | 59 => ⟨S65536, .i32⟩
  | 60 => ⟨S65536, .i1⟩
  | 61 => ⟨S_, .i32⟩
  | 62 => ⟨S65536, .i32⟩
  | 63 => ⟨S65536, .i32⟩
  | 64 => ⟨S65536, .i32⟩
  | 65 => ⟨S65536x1, .i32⟩
  | 66 => ⟨S65536x128, .f32⟩
  | 67 => ⟨S_, .f32⟩
  | 68 => ⟨S4096x128, .f32⟩
  | 69 => ⟨S65536x1, .i32⟩
  | 70 => ⟨S4096x128, .f32⟩
  | 71 => ⟨S4096x1, .f32⟩
  | 72 => ⟨S4096x128, .f32⟩
  | 73 => ⟨S4096x128, .f32⟩
  | 74 => ⟨S1x128, .f32⟩
  | 75 => ⟨S4096x128, .f32⟩
  | 76 => ⟨S4096x128, .f32⟩
  | 77 => ⟨S_, .f32⟩
  | 78 => ⟨S4096x128, .f32⟩
  | 79 => ⟨S4096x128, .f32⟩
  | 80 => ⟨S4096x1, .f32⟩
  | 81 => ⟨S4096x128, .f32⟩
  | 82 => ⟨S4096x128, .f32⟩
  | 83 => ⟨S4096x64, .f32⟩
  | 84 => ⟨S_, .i32⟩
  | 85 => ⟨S65536, .i32⟩
  | 86 => ⟨S65536, .i1⟩
  | 87 => ⟨S_, .i32⟩
  | 88 => ⟨S65536, .i32⟩
  | 89 => ⟨S65536, .i32⟩
  | 90 => ⟨S65536, .i32⟩
  | 91 => ⟨S65536x1, .i32⟩
  | 92 => ⟨S65536x64, .f32⟩
  | 93 => ⟨S_, .f32⟩
  | 94 => ⟨S4096x64, .f32⟩
  | 95 => ⟨S65536x1, .i32⟩
  | 96 => ⟨S4096x64, .f32⟩
  | 97 => ⟨S4096x1, .f32⟩
  | 98 => ⟨S4096x64, .f32⟩
  | 99 => ⟨S4096x64, .f32⟩
  | 100 => ⟨S1x64, .f32⟩
  | 101 => ⟨S4096x64, .f32⟩
  | 102 => ⟨S4096x64, .f32⟩
  | 103 => ⟨S_, .f32⟩
  | 104 => ⟨S65536, .f32⟩
  | 105 => ⟨S_, .f32⟩
  | 106 => ⟨S4096, .f32⟩
  | 107 => ⟨S65536x1, .i32⟩
  | 108 => ⟨S4096, .f32⟩
  | 109 => ⟨S_, .f32⟩
  | 110 => ⟨S4096, .f32⟩
  | 111 => ⟨S4096, .f32⟩
  | 112 => ⟨S_, .f32⟩
  | 113 => ⟨S4096, .f32⟩
  | 114 => ⟨S65536x1, .i32⟩
  | 115 => ⟨S4096, .f32⟩
  | 116 => ⟨S_, .f32⟩
  | 117 => ⟨S4096, .f32⟩
  | 118 => ⟨S4096, .f32⟩
  | 119 => ⟨S_, .f32⟩
  | 120 => ⟨S4096, .f32⟩
  | 121 => ⟨S4096, .f32⟩
  | 122 => ⟨S_, .f32⟩
  | 123 => ⟨S4096, .f32⟩
  | 124 => ⟨S4096, .f32⟩
  | 125 => ⟨S4096x1, .f32⟩
  | 126 => ⟨S4096x512, .f32⟩
  | 127 => ⟨S4096x512, .f32⟩
  | _ => ⟨S4096x512, .f32⟩

abbrev hbmTy0_1 (i : Nat) : BufTy := match i % 128 with
  | 0 => ⟨S4096x128, .f32⟩
  | 1 => ⟨S_, .i32⟩
  | 2 => ⟨S65536, .i32⟩
  | 3 => ⟨S65536, .i1⟩
  | 4 => ⟨S_, .i32⟩
  | 5 => ⟨S65536, .i32⟩
  | 6 => ⟨S65536, .i32⟩
  | 7 => ⟨S65536, .i32⟩
  | 8 => ⟨S65536x1, .i32⟩
  | 9 => ⟨S65536x128, .f32⟩
  | 10 => ⟨S_, .f32⟩
  | 11 => ⟨S4096x128, .f32⟩
  | 12 => ⟨S65536x1, .i32⟩
  | 13 => ⟨S4096x128, .f32⟩
  | 14 => ⟨S4096x1, .f32⟩
  | 15 => ⟨S4096x128, .f32⟩
  | 16 => ⟨S4096x128, .f32⟩
  | 17 => ⟨S1x128, .f32⟩
  | 18 => ⟨S4096x128, .f32⟩
  | 19 => ⟨S4096x128, .f32⟩
  | 20 => ⟨S_, .f32⟩
  | 21 => ⟨S4096x128, .f32⟩
  | 22 => ⟨S4096x128, .f32⟩
  | 23 => ⟨S4096x1, .f32⟩
  | 24 => ⟨S4096x128, .f32⟩
  | 25 => ⟨S4096x128, .f32⟩
  | 26 => ⟨S4096x64, .f32⟩
  | 27 => ⟨S_, .i32⟩
  | 28 => ⟨S65536, .i32⟩
  | 29 => ⟨S65536, .i1⟩
  | 30 => ⟨S_, .i32⟩
  | 31 => ⟨S65536, .i32⟩
  | 32 => ⟨S65536, .i32⟩
  | 33 => ⟨S65536, .i32⟩
  | 34 => ⟨S65536x1, .i32⟩
  | 35 => ⟨S65536x64, .f32⟩
  | 36 => ⟨S_, .f32⟩
  | 37 => ⟨S4096x64, .f32⟩
  | 38 => ⟨S65536x1, .i32⟩
  | 39 => ⟨S4096x64, .f32⟩
  | 40 => ⟨S4096x1, .f32⟩
  | 41 => ⟨S4096x64, .f32⟩
  | 42 => ⟨S4096x64, .f32⟩
  | 43 => ⟨S1x64, .f32⟩
  | 44 => ⟨S4096x64, .f32⟩
  | 45 => ⟨S4096x64, .f32⟩
  | 46 => ⟨S_, .f32⟩
  | 47 => ⟨S65536, .f32⟩
  | 48 => ⟨S_, .f32⟩
  | 49 => ⟨S4096, .f32⟩
  | 50 => ⟨S65536x1, .i32⟩
  | 51 => ⟨S4096, .f32⟩
  | 52 => ⟨S_, .f32⟩
  | 53 => ⟨S4096, .f32⟩
  | 54 => ⟨S4096, .f32⟩
  | 55 => ⟨S_, .f32⟩
  | 56 => ⟨S4096, .f32⟩
  | 57 => ⟨S65536x1, .i32⟩
  | 58 => ⟨S4096, .f32⟩
  | 59 => ⟨S_, .f32⟩
  | 60 => ⟨S4096, .f32⟩
  | 61 => ⟨S4096, .f32⟩
  | 62 => ⟨S_, .f32⟩
  | 63 => ⟨S4096, .f32⟩
  | 64 => ⟨S4096, .f32⟩
  | 65 => ⟨S_, .f32⟩
  | 66 => ⟨S4096, .f32⟩
  | 67 => ⟨S4096, .f32⟩
  | 68 => ⟨S4096x1, .f32⟩
  | 69 => ⟨S4096x512, .f32⟩
  | 70 => ⟨S4096x512, .f32⟩
  | 71 => ⟨S4096x128, .f32⟩
  | 72 => ⟨S_, .i32⟩
  | 73 => ⟨S65536, .i32⟩
  | 74 => ⟨S65536, .i1⟩
  | 75 => ⟨S_, .i32⟩
  | 76 => ⟨S65536, .i32⟩
  | 77 => ⟨S65536, .i32⟩
  | 78 => ⟨S65536, .i32⟩
  | 79 => ⟨S65536x1, .i32⟩
  | 80 => ⟨S65536x128, .f32⟩
  | 81 => ⟨S_, .f32⟩
  | 82 => ⟨S4096x128, .f32⟩
  | 83 => ⟨S65536x1, .i32⟩
  | 84 => ⟨S4096x128, .f32⟩
  | 85 => ⟨S4096x1, .f32⟩
  | 86 => ⟨S4096x128, .f32⟩
  | 87 => ⟨S4096x128, .f32⟩
  | 88 => ⟨S1x128, .f32⟩
  | 89 => ⟨S4096x128, .f32⟩
  | 90 => ⟨S4096x128, .f32⟩
  | 91 => ⟨S_, .f32⟩
  | 92 => ⟨S4096x128, .f32⟩
  | 93 => ⟨S4096x128, .f32⟩
  | 94 => ⟨S4096x1, .f32⟩
  | 95 => ⟨S4096x128, .f32⟩
  | 96 => ⟨S4096x128, .f32⟩
  | 97 => ⟨S4096x64, .f32⟩
  | 98 => ⟨S_, .i32⟩
  | 99 => ⟨S65536, .i32⟩
  | 100 => ⟨S65536, .i1⟩
  | 101 => ⟨S_, .i32⟩
  | 102 => ⟨S65536, .i32⟩
  | 103 => ⟨S65536, .i32⟩
  | 104 => ⟨S65536, .i32⟩
  | 105 => ⟨S65536x1, .i32⟩
  | 106 => ⟨S65536x64, .f32⟩
  | 107 => ⟨S_, .f32⟩
  | 108 => ⟨S4096x64, .f32⟩
  | 109 => ⟨S65536x1, .i32⟩
  | 110 => ⟨S4096x64, .f32⟩
  | 111 => ⟨S4096x1, .f32⟩
  | 112 => ⟨S4096x64, .f32⟩
  | 113 => ⟨S4096x64, .f32⟩
  | 114 => ⟨S1x64, .f32⟩
  | 115 => ⟨S4096x64, .f32⟩
  | 116 => ⟨S4096x64, .f32⟩
  | 117 => ⟨S4096x64, .f32⟩
  | 118 => ⟨S4096x64, .f32⟩
  | 119 => ⟨S4096x64, .f32⟩
  | 120 => ⟨S4096x64, .f32⟩
  | 121 => ⟨S4096x64, .f32⟩
  | 122 => ⟨S_, .f32⟩
  | 123 => ⟨S4096, .f32⟩
  | 124 => ⟨S_, .f32⟩
  | 125 => ⟨S4096, .f32⟩
  | 126 => ⟨S4096, .f32⟩
  | 127 => ⟨S4096x1, .f32⟩
  | _ => ⟨S4096x512, .f32⟩

abbrev hbmTy0_2 (i : Nat) : BufTy := match i % 128 with
  | 0 => ⟨S4096x64, .f32⟩
  | 1 => ⟨S4096x64, .f32⟩
  | 2 => ⟨S4096x64, .f32⟩
  | 3 => ⟨S_, .f32⟩
  | 4 => ⟨S4096, .f32⟩
  | 5 => ⟨S4096x1, .f32⟩
  | 6 => ⟨S4096x64, .f32⟩
  | 7 => ⟨S4096x64, .f32⟩
  | 8 => ⟨S_, .f32⟩
  | 9 => ⟨S4096x64, .f32⟩
  | 10 => ⟨S4096x64, .f32⟩
  | 11 => ⟨S_, .f32⟩
  | 12 => ⟨S4096x4096, .f32⟩
  | 13 => ⟨S_, .f32⟩
  | 14 => ⟨S4096x4096, .f32⟩
  | 15 => ⟨S_, .i32⟩
  | 16 => ⟨S65536, .i32⟩
  | 17 => ⟨S65536, .i1⟩
  | 18 => ⟨S_, .i32⟩
  | 19 => ⟨S65536, .i32⟩
  | 20 => ⟨S65536, .i32⟩
  | 21 => ⟨S65536, .i32⟩
  | 22 => ⟨S_, .i32⟩
  | 23 => ⟨S65536, .i32⟩
  | 24 => ⟨S65536, .i1⟩
  | 25 => ⟨S_, .i32⟩
  | 26 => ⟨S65536, .i32⟩
  | 27 => ⟨S65536, .i32⟩
  | 28 => ⟨S65536, .i32⟩
  | 29 => ⟨S65536x1, .i32⟩
  | 30 => ⟨S65536x1, .i32⟩
  | 31 => ⟨S65536x2, .i32⟩
  | 32 => ⟨S_, .f32⟩
  | 33 => ⟨S65536, .f32⟩
  | 34 => ⟨S4096x4096, .f32⟩
  | 35 => ⟨S4096x4096, .f32⟩
  | 36 => ⟨S_, .f32⟩
  | 37 => ⟨S4096x4096, .f32⟩
  | 38 => ⟨S_, .i32⟩
  | 39 => ⟨S65536, .i32⟩
  | 40 => ⟨S65536, .i1⟩
  | 41 => ⟨S_, .i32⟩
  | 42 => ⟨S65536, .i32⟩
  | 43 => ⟨S65536, .i32⟩
  | 44 => ⟨S65536, .i32⟩
  | 45 => ⟨S_, .i32⟩
  | 46 => ⟨S65536, .i32⟩
  | 47 => ⟨S65536, .i1⟩
  | 48 => ⟨S_, .i32⟩
  | 49 => ⟨S65536, .i32⟩
  | 50 => ⟨S65536, .i32⟩
  | 51 => ⟨S65536, .i32⟩
  | 52 => ⟨S65536x1, .i32⟩
  | 53 => ⟨S65536x1, .i32⟩
  | 54 => ⟨S65536x2, .i32⟩
  | 55 => ⟨S_, .f32⟩
  | 56 => ⟨S65536, .f32⟩
  | 57 => ⟨S4096x4096, .f32⟩
  | 58 => ⟨S4096x4096, .f32⟩
  | 59 => ⟨S_, .f32⟩
  | 60 => ⟨S4096x4096, .f32⟩
  | 61 => ⟨S_, .i32⟩
  | 62 => ⟨S65536, .i32⟩
  | 63 => ⟨S65536, .i1⟩
  | 64 => ⟨S_, .i32⟩
  | 65 => ⟨S65536, .i32⟩
  | 66 => ⟨S65536, .i32⟩
  | 67 => ⟨S65536, .i32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S65536x1, .i32⟩
  | 76 => ⟨S65536x1, .i32⟩
  | 77 => ⟨S65536x2, .i32⟩
  | 78 => ⟨S_, .f32⟩
  | 79 => ⟨S65536, .f32⟩
  | 80 => ⟨S4096x4096, .f32⟩
  | 81 => ⟨S4096x4096, .f32⟩
  | 82 => ⟨S1x2048, .f32⟩
  | 83 => ⟨S4096x2048, .f32⟩
  | 84 => ⟨S1x4096, .f32⟩
  | 85 => ⟨S4096x4096, .f32⟩
  | 86 => ⟨S4096x4096, .f32⟩
  | 87 => ⟨S4096x4096, .f32⟩
  | 88 => ⟨S_, .f32⟩
  | 89 => ⟨S4096x4096, .f32⟩
  | 90 => ⟨S4096x4096, .i1⟩
  | 91 => ⟨S4096x4096, .f32⟩
  | 92 => ⟨S4096x4096, .i32⟩
  | 93 => ⟨S4096x4096, .i32⟩
  | 94 => ⟨S_, .i32⟩
  | 95 => ⟨S4096x4096, .i32⟩
  | 96 => ⟨S4096x4096, .i32⟩
  | 97 => ⟨S4096x4096, .i1⟩
  | 98 => ⟨S4096x4096, .f32⟩
  | 99 => ⟨S4096x4096, .f32⟩
  | 100 => ⟨S_, .f32⟩
  | 101 => ⟨S4096, .f32⟩
  | 102 => ⟨S_, .f32⟩
  | 103 => ⟨S4096, .f32⟩
  | 104 => ⟨S4096, .f32⟩
  | 105 => ⟨S_, .f32⟩
  | 106 => ⟨S64, .f32⟩
  | 107 => ⟨S4096x1, .f32⟩
  | 108 => ⟨S4096x64, .f32⟩
  | 109 => ⟨S4096x64, .f32⟩
  | 110 => ⟨S1x64, .f32⟩
  | 111 => ⟨S4096x64, .f32⟩
  | 112 => ⟨S4096x1, .f32⟩
  | 113 => ⟨S4096x64, .f32⟩
  | 114 => ⟨S4096x64, .f32⟩
  | 115 => ⟨S4096x64, .f32⟩
  | 116 => ⟨S1x64, .f32⟩
  | 117 => ⟨S4096x64, .f32⟩
  | 118 => ⟨S4096x64, .f32⟩
  | 119 => ⟨S_, .f32⟩
  | 120 => ⟨S4096x64, .f32⟩
  | 121 => ⟨S4096x64, .f32⟩
  | 122 => ⟨S4096x1, .f32⟩
  | 123 => ⟨S4096x64, .f32⟩
  | 124 => ⟨S4096x64, .f32⟩
  | 125 => ⟨S1x64, .f32⟩
  | 126 => ⟨S4096x64, .f32⟩
  | 127 => ⟨S4096x1, .f32⟩
  | _ => ⟨S4096x512, .f32⟩

abbrev hbmTy0_3 (i : Nat) : BufTy := match i % 128 with
  | 0 => ⟨S4096x64, .f32⟩
  | 1 => ⟨S4096x64, .f32⟩
  | 2 => ⟨S4096x64, .f32⟩
  | 3 => ⟨S1x64, .f32⟩
  | 4 => ⟨S4096x64, .f32⟩
  | 5 => ⟨S4096x64, .f32⟩
  | 6 => ⟨S_, .f32⟩
  | 7 => ⟨S4096, .f32⟩
  | 8 => ⟨S64x4096, .f32⟩
  | 9 => ⟨S1x4096, .f32⟩
  | 10 => ⟨S4096x4096, .f32⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | _ => ⟨S4096x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x512, .f32⟩
  | .local _ .vmem, ⟨9, _⟩ => ⟨S512x512, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x512, .f32⟩
  | .local _ .vmem, ⟨18, _⟩ => ⟨S512x512, .f32⟩
  | .local _ .vmem, ⟨19, _⟩ => ⟨S512x64, .f32⟩
  | .local _ .vmem, ⟨20, _⟩ => ⟨S512x64, .f32⟩
  | .local _ .vmem, ⟨21, _⟩ => ⟨S1x64, .f32⟩
  | .local _ .vmem, ⟨22, _⟩ => ⟨S512x64, .f32⟩
  | .local _ .vmem, ⟨23, _⟩ => ⟨S512x64, .f32⟩
  | .local _ .vmem, ⟨24, _⟩ => ⟨S512x64, .f32⟩
  | .local _ .vmem, ⟨25, _⟩ => ⟨S512x512, .f32⟩
  | .local _ .vmem, ⟨26, _⟩ => ⟨S512x512, .f32⟩
  | .local _ .vmem, ⟨27, _⟩ => ⟨S512x64, .f32⟩
  | .local _ .vmem, ⟨28, _⟩ => ⟨S512x64, .f32⟩
  | .local _ .vmem, ⟨29, _⟩ => ⟨S1x64, .f32⟩
  | .local _ .vmem, ⟨30, _⟩ => ⟨S512x64, .f32⟩
  | .local _ .vmem, ⟨31, _⟩ => ⟨S512x64, .f32⟩
  | .local _ .vmem, ⟨32, _⟩ => ⟨S512x64, .f32⟩
  | .local _ .vmem, ⟨33, _⟩ => ⟨S512x64, .f32⟩
  | .local _ .vmem, ⟨34, _⟩ => ⟨S512x64, .f32⟩
  | .local _ .vmem, ⟨35, _⟩ => ⟨S64x2048, .f32⟩
  | .local _ .vmem, ⟨36, _⟩ => ⟨S64x2048, .f32⟩
  | .local _ .vmem, ⟨37, _⟩ => ⟨S1x2048, .f32⟩
  | .local _ .vmem, ⟨38, _⟩ => ⟨S1x2048, .f32⟩
  | .local _ .vmem, ⟨39, _⟩ => ⟨S512x2048, .f32⟩
  | .local _ .vmem, ⟨40, _⟩ => ⟨S512x2048, .f32⟩
  | .local _ .vmem, ⟨41, _⟩ => ⟨S512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_cst_0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_cst_1 : Ref sig .tc := ⟨.hbm, 38, rfl⟩
abbrev main_v4 : Ref sig .tc := ⟨.hbm, 39, rfl⟩
abbrev main_v5 : Ref sig .tc := ⟨.hbm, 40, rfl⟩
abbrev main_cst_2 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_cst_3 : Ref sig .tc := ⟨.hbm, 45, rfl⟩
abbrev main_v9 : Ref sig .tc := ⟨.hbm, 46, rfl⟩
abbrev main_v10 : Ref sig .tc := ⟨.hbm, 47, rfl⟩
abbrev main_cst_4 : Ref sig .tc := ⟨.hbm, 48, rfl⟩
abbrev main_v11 : Ref sig .tc := ⟨.hbm, 49, rfl⟩
abbrev main_v12 : Ref sig .tc := ⟨.hbm, 50, rfl⟩
abbrev main_cst_5 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_c : Ref sig .tc := ⟨.hbm, 58, rfl⟩
abbrev main_v19 : Ref sig .tc := ⟨.hbm, 59, rfl⟩
abbrev main_v20 : Ref sig .tc := ⟨.hbm, 60, rfl⟩
abbrev main_c_6 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_7 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_call0_cst : Ref sig .tc := ⟨.hbm, 77, rfl⟩
abbrev main_call0_v0 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_c_8 : Ref sig .tc := ⟨.hbm, 84, rfl⟩
abbrev main_v40 : Ref sig .tc := ⟨.hbm, 85, rfl⟩
abbrev main_v41 : Ref sig .tc := ⟨.hbm, 86, rfl⟩
abbrev main_c_9 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_10 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_11 : Ref sig .tc := ⟨.hbm, 103, rfl⟩
abbrev main_v56 : Ref sig .tc := ⟨.hbm, 104, rfl⟩
abbrev main_cst_12 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_13 : Ref sig .tc := ⟨.hbm, 109, rfl⟩
abbrev main_v60 : Ref sig .tc := ⟨.hbm, 110, rfl⟩
abbrev main_v61 : Ref sig .tc := ⟨.hbm, 111, rfl⟩
abbrev main_cst_14 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_15 : Ref sig .tc := ⟨.hbm, 116, rfl⟩
abbrev main_v65 : Ref sig .tc := ⟨.hbm, 117, rfl⟩
abbrev main_v66 : Ref sig .tc := ⟨.hbm, 118, rfl⟩
abbrev main_cst_16 : Ref sig .tc := ⟨.hbm, 119, rfl⟩
abbrev main_v67 : Ref sig .tc := ⟨.hbm, 120, rfl⟩
abbrev main_v68 : Ref sig .tc := ⟨.hbm, 121, rfl⟩
abbrev main_cst_17 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_c_18 : Ref sig .tc := ⟨.hbm, 129, rfl⟩
abbrev main_v75 : Ref sig .tc := ⟨.hbm, 130, rfl⟩
abbrev main_v76 : Ref sig .tc := ⟨.hbm, 131, rfl⟩
abbrev main_c_19 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_20 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_call1_cst : Ref sig .tc := ⟨.hbm, 148, rfl⟩
abbrev main_call1_v0 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_c_21 : Ref sig .tc := ⟨.hbm, 155, rfl⟩
abbrev main_v96 : Ref sig .tc := ⟨.hbm, 156, rfl⟩
abbrev main_v97 : Ref sig .tc := ⟨.hbm, 157, rfl⟩
abbrev main_c_22 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_23 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_24 : Ref sig .tc := ⟨.hbm, 174, rfl⟩
abbrev main_v112 : Ref sig .tc := ⟨.hbm, 175, rfl⟩
abbrev main_cst_25 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_cst_26 : Ref sig .tc := ⟨.hbm, 180, rfl⟩
abbrev main_v116 : Ref sig .tc := ⟨.hbm, 181, rfl⟩
abbrev main_v117 : Ref sig .tc := ⟨.hbm, 182, rfl⟩
abbrev main_cst_27 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_cst_28 : Ref sig .tc := ⟨.hbm, 187, rfl⟩
abbrev main_v121 : Ref sig .tc := ⟨.hbm, 188, rfl⟩
abbrev main_v122 : Ref sig .tc := ⟨.hbm, 189, rfl⟩
abbrev main_cst_29 : Ref sig .tc := ⟨.hbm, 190, rfl⟩
abbrev main_v123 : Ref sig .tc := ⟨.hbm, 191, rfl⟩
abbrev main_v124 : Ref sig .tc := ⟨.hbm, 192, rfl⟩
abbrev main_cst_30 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_c_31 : Ref sig .tc := ⟨.hbm, 200, rfl⟩
abbrev main_v131 : Ref sig .tc := ⟨.hbm, 201, rfl⟩
abbrev main_v132 : Ref sig .tc := ⟨.hbm, 202, rfl⟩
abbrev main_c_32 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_cst_33 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_call2_cst : Ref sig .tc := ⟨.hbm, 219, rfl⟩
abbrev main_call2_v0 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_c_34 : Ref sig .tc := ⟨.hbm, 226, rfl⟩
abbrev main_v152 : Ref sig .tc := ⟨.hbm, 227, rfl⟩
abbrev main_v153 : Ref sig .tc := ⟨.hbm, 228, rfl⟩
abbrev main_c_35 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_cst_36 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_cst_37 : Ref sig .tc := ⟨.hbm, 250, rfl⟩
abbrev main_v173 : Ref sig .tc := ⟨.hbm, 251, rfl⟩
abbrev main_cst_38 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_cst_39 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_call3_cst : Ref sig .tc := ⟨.hbm, 264, rfl⟩
abbrev main_call3_v0 : Ref sig .tc := ⟨.hbm, 265, rfl⟩
abbrev main_v184 : Ref sig .tc := ⟨.hbm, 266, rfl⟩
abbrev main_cst_40 : Ref sig .tc := ⟨.hbm, 267, rfl⟩
abbrev main_v185 : Ref sig .tc := ⟨.hbm, 268, rfl⟩
abbrev main_cst_41 : Ref sig .tc := ⟨.hbm, 269, rfl⟩
abbrev main_v186 : Ref sig .tc := ⟨.hbm, 270, rfl⟩
abbrev main_c_42 : Ref sig .tc := ⟨.hbm, 271, rfl⟩
abbrev main_v187 : Ref sig .tc := ⟨.hbm, 272, rfl⟩
abbrev main_v188 : Ref sig .tc := ⟨.hbm, 273, rfl⟩
abbrev main_c_43 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_c_44 : Ref sig .tc := ⟨.hbm, 278, rfl⟩
abbrev main_v192 : Ref sig .tc := ⟨.hbm, 279, rfl⟩
abbrev main_v193 : Ref sig .tc := ⟨.hbm, 280, rfl⟩
abbrev main_c_45 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_cst_46 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_cst_47 : Ref sig .tc := ⟨.hbm, 292, rfl⟩
abbrev main_v203 : Ref sig .tc := ⟨.hbm, 293, rfl⟩
abbrev main_c_48 : Ref sig .tc := ⟨.hbm, 294, rfl⟩
abbrev main_v204 : Ref sig .tc := ⟨.hbm, 295, rfl⟩
abbrev main_v205 : Ref sig .tc := ⟨.hbm, 296, rfl⟩
abbrev main_c_49 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_c_50 : Ref sig .tc := ⟨.hbm, 301, rfl⟩
abbrev main_v209 : Ref sig .tc := ⟨.hbm, 302, rfl⟩
abbrev main_v210 : Ref sig .tc := ⟨.hbm, 303, rfl⟩
abbrev main_c_51 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_cst_52 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_cst_53 : Ref sig .tc := ⟨.hbm, 315, rfl⟩
abbrev main_v220 : Ref sig .tc := ⟨.hbm, 316, rfl⟩
abbrev main_c_54 : Ref sig .tc := ⟨.hbm, 317, rfl⟩
abbrev main_v221 : Ref sig .tc := ⟨.hbm, 318, rfl⟩
abbrev main_v222 : Ref sig .tc := ⟨.hbm, 319, rfl⟩
abbrev main_c_55 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_c_56 : Ref sig .tc := ⟨.hbm, 324, rfl⟩
abbrev main_v226 : Ref sig .tc := ⟨.hbm, 325, rfl⟩
abbrev main_v227 : Ref sig .tc := ⟨.hbm, 326, rfl⟩
abbrev main_c_57 : Ref sig .tc := ⟨.hbm, 327, rfl⟩
abbrev main_v228 : Ref sig .tc := ⟨.hbm, 328, rfl⟩
abbrev main_v229 : Ref sig .tc := ⟨.hbm, 329, rfl⟩
abbrev main_v230 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_cst_58 : Ref sig .tc := ⟨.hbm, 334, rfl⟩
abbrev main_v234 : Ref sig .tc := ⟨.hbm, 335, rfl⟩
abbrev main_v235 : Ref sig .tc := ⟨.hbm, 336, rfl⟩
abbrev main_v236 : Ref sig .tc := ⟨.hbm, 337, rfl⟩
abbrev main_v237 : Ref sig .tc := ⟨.hbm, 338, rfl⟩
abbrev main_v238 : Ref sig .tc := ⟨.hbm, 339, rfl⟩
abbrev main_v239 : Ref sig .tc := ⟨.hbm, 340, rfl⟩
abbrev main_v240 : Ref sig .tc := ⟨.hbm, 341, rfl⟩
abbrev main_v241 : Ref sig .tc := ⟨.hbm, 342, rfl⟩
abbrev main_v242 : Ref sig .tc := ⟨.hbm, 343, rfl⟩
abbrev main_cst_59 : Ref sig .tc := ⟨.hbm, 344, rfl⟩
abbrev main_v243 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_c_60 : Ref sig .tc := ⟨.hbm, 350, rfl⟩
abbrev main_v248 : Ref sig .tc := ⟨.hbm, 351, rfl⟩
abbrev main_v249 : Ref sig .tc := ⟨.hbm, 352, rfl⟩
abbrev main_v250 : Ref sig .tc := ⟨.hbm, 353, rfl⟩
abbrev main_v251 : Ref sig .tc := ⟨.hbm, 354, rfl⟩
abbrev main_v252 : Ref sig .tc := ⟨.hbm, 355, rfl⟩
abbrev main_cst_61 : Ref sig .tc := ⟨.hbm, 356, rfl⟩
abbrev main_v253 : Ref sig .tc := ⟨.hbm, 357, rfl⟩
abbrev main_cst_62 : Ref sig .tc := ⟨.hbm, 358, rfl⟩
abbrev main_v254 : Ref sig .tc := ⟨.hbm, 359, rfl⟩
abbrev main_v255 : Ref sig .tc := ⟨.hbm, 360, rfl⟩
abbrev main_cst_63 : Ref sig .tc := ⟨.hbm, 361, rfl⟩
abbrev main_v256 : Ref sig .tc := ⟨.hbm, 362, rfl⟩
abbrev main_v257 : Ref sig .tc := ⟨.hbm, 363, rfl⟩
abbrev main_v258 : Ref sig .tc := ⟨.hbm, 364, rfl⟩
abbrev main_v259 : Ref sig .tc := ⟨.hbm, 365, rfl⟩
abbrev main_v260 : Ref sig .tc := ⟨.hbm, 366, rfl⟩
abbrev main_v261 : Ref sig .tc := ⟨.hbm, 367, rfl⟩
abbrev main_v262 : Ref sig .tc := ⟨.hbm, 368, rfl⟩
abbrev main_v263 : Ref sig .tc := ⟨.hbm, 369, rfl⟩
abbrev main_v264 : Ref sig .tc := ⟨.hbm, 370, rfl⟩
abbrev main_v265 : Ref sig .tc := ⟨.hbm, 371, rfl⟩
abbrev main_v266 : Ref sig .tc := ⟨.hbm, 372, rfl⟩
abbrev main_v267 : Ref sig .tc := ⟨.hbm, 373, rfl⟩
abbrev main_v268 : Ref sig .tc := ⟨.hbm, 374, rfl⟩
abbrev main_call4_cst : Ref sig .tc := ⟨.hbm, 375, rfl⟩
abbrev main_call4_v0 : Ref sig .tc := ⟨.hbm, 376, rfl⟩
abbrev main_v269 : Ref sig .tc := ⟨.hbm, 377, rfl⟩
abbrev main_v270 : Ref sig .tc := ⟨.hbm, 378, rfl⟩
abbrev main_v271 : Ref sig .tc := ⟨.hbm, 379, rfl⟩
abbrev main_v272 : Ref sig .tc := ⟨.hbm, 380, rfl⟩
abbrev main_v273 : Ref sig .tc := ⟨.hbm, 381, rfl⟩
abbrev main_v274 : Ref sig .tc := ⟨.hbm, 382, rfl⟩
abbrev main_v275 : Ref sig .tc := ⟨.hbm, 383, rfl⟩
abbrev main_v276 : Ref sig .tc := ⟨.hbm, 384, rfl⟩
abbrev main_v277 : Ref sig .tc := ⟨.hbm, 385, rfl⟩
abbrev main_v278 : Ref sig .tc := ⟨.hbm, 386, rfl⟩
abbrev main_v279 : Ref sig .tc := ⟨.hbm, 387, rfl⟩
abbrev main_v280 : Ref sig .tc := ⟨.hbm, 388, rfl⟩
abbrev main_v281 : Ref sig .tc := ⟨.hbm, 389, rfl⟩
abbrev main_cst_64 : Ref sig .tc := ⟨.hbm, 390, rfl⟩
abbrev main_v282 : Ref sig .tc := ⟨.hbm, 391, rfl⟩
abbrev main_v283 : Ref sig .tc := ⟨.hbm, 392, rfl⟩
abbrev main_v284 : Ref sig .tc := ⟨.hbm, 393, rfl⟩
abbrev main_v285 : Ref sig .tc := ⟨.hbm, 394, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_scratch0 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg3_1 : Ref sig .tc := ⟨.vmem, 40, rfl⟩
abbrev cc4_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 1, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 1, 8], ![false, false, false]⟩

def k3_cond2 (i : grid3.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 2 → Memref sig .tc .vmem S512x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![8, 2, 1], ![false, false, false]⟩

def k4_cond2 (i : grid4.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S64x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, false]

abbrev stage4_3 : Fin 2 → Memref sig .tc .vmem S512x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

class Facts₀ : Prop where
  bcast_S_S65536 : S_.BroadcastsInDim S65536 (![] : Fin 0 → Fin S65536.rank)
  bcast_S_S4096 : S_.BroadcastsInDim S4096 (![] : Fin 0 → Fin S4096.rank)
  bcast_S65536_S65536x1_0 : S65536.BroadcastsInDim S65536x1 (![0] : Fin 1 → Fin S65536x1.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  bcast_S_S4096x128 : S_.BroadcastsInDim S4096x128 (![] : Fin 0 → Fin S4096x128.rank)
  bcast_S4096x1_S4096x128_0_1 : S4096x1.BroadcastsInDim S4096x128 (![0, 1] : Fin 2 → Fin S4096x128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x64 : S_.BroadcastsInDim S4096x64 (![] : Fin 0 → Fin S4096x64.rank)
  bcast_S4096x1_S4096x64_0_1 : S4096x1.BroadcastsInDim S4096x64 (![0, 1] : Fin 2 → Fin S4096x64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S4096_d1 : S4096x64.ReducesTo [1] S4096
  h_S_ : 0 < S_.numel
  bcast_S_S4096x4096 : S_.BroadcastsInDim S4096x4096 (![] : Fin 0 → Fin S4096x4096.rank)
  concatenates_S65536x1_S65536x1_S65536x2_d1 : Shape.Concatenates [S65536x1, S65536x1] S65536x2 1
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4096_S1x4096 : S4096.ShapeCasts S1x4096
  transposes_S4096x4096_S4096x4096_1_0 : S4096x4096.Transposes [1, 0] S4096x4096
  reducesTo_S4096x4096_S4096_d1 : S4096x4096.ReducesTo [1] S4096
  bcast_S_S64 : S_.BroadcastsInDim S64 (![] : Fin 0 → Fin S64.rank)
  shapeCasts_S64_S1x64 : S64.ShapeCasts S1x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  transposes_S4096x64_S64x4096_1_0 : S4096x64.Transposes [1, 0] S64x4096
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  scatter_S4096_S65536x1_S65536_n_0_0_1_wf : ScatterDims.WF S4096 S65536x1 S65536 [] [0] [0] 1
  dot_S4096x512_S512x128_S4096x128_1_0_0_1_n_n_wf : DotDims.WF S4096x512 S512x128 S4096x128 [1] [0] [0] [1] [] []
  gather_S4096x128_S65536x1_S65536x128_1_0_n_n_0_1_1128_wf : GatherDims.WF S4096x128 S65536x1 S65536x128 [1] [0] [] [0] [] 1 ![1, 128]
  scatter_S4096x128_S65536x1_S65536x128_1_0_0_1_wf : ScatterDims.WF S4096x128 S65536x1 S65536x128 [1] [0] [0] 1
  dot_S4096x128_S128x64_S4096x64_1_0_0_1_n_n_wf : DotDims.WF S4096x128 S128x64 S4096x64 [1] [0] [0] [1] [] []
  gather_S4096x64_S65536x1_S65536x64_1_0_n_n_0_1_164_wf : GatherDims.WF S4096x64 S65536x1 S65536x64 [1] [0] [] [0] [] 1 ![1, 64]
  scatter_S4096x64_S65536x1_S65536x64_1_0_0_1_wf : ScatterDims.WF S4096x64 S65536x1 S65536x64 [1] [0] [0] 1
  dot_S4096x64_S64x64_S4096x64_1_0_0_1_n_n_wf : DotDims.WF S4096x64 S64x64 S4096x64 [1] [0] [0] [1] [] []
  scatter_S4096x4096_S65536x2_S65536_n_01_01_1_wf : ScatterDims.WF S4096x4096 S65536x2 S65536 [] [0, 1] [0, 1] 1
  dot_S512x512_S512x2048_S512x2048_1_0_0_1_n_n_wf : DotDims.WF S512x512 S512x2048 S512x2048 [1] [0] [0] [1] [] []
  dot_S512x512_S512x64_S512x64_1_0_0_1_n_n_wf : DotDims.WF S512x512 S512x64 S512x64 [1] [0] [0] [1] [] []
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x2048.size a
  hwx1_0 : ∀ i : grid1.Coords, EltTy.bits .f32 = 32 ∨ (Rect.block (s := S4096x2048) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x4096.size a
  hwx1_1 : ∀ i : grid1.Coords, EltTy.bits .f32 = 32 ∨ (Rect.block (s := S2048x4096) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x4096.size a
  hwx1_3 : ∀ i : grid1.Coords, EltTy.bits .f32 = 32 ∨ (Rect.block (s := S4096x4096) S512x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x4096.size a
  hwx2_0 : ∀ i : grid2.Coords, EltTy.bits .f32 = 32 ∨ (Rect.block (s := S4096x4096) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S4096x64.size a
  hwx2_1 : ∀ i : grid2.Coords, EltTy.bits .f32 = 32 ∨ (Rect.block (s := S4096x64) S512x64.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S4096x64.size a
  hwx2_3 : ∀ i : grid2.Coords, EltTy.bits .f32 = 32 ∨ (Rect.block (s := S4096x64) S512x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S4096x4096.size a
  hwx3_0 : ∀ i : grid3.Coords, EltTy.bits .f32 = 32 ∨ (Rect.block (s := S4096x4096) S512x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x64.size a ≤ S4096x64.size a
  hwx3_1 : ∀ i : grid3.Coords, EltTy.bits .f32 = 32 ∨ (Rect.block (s := S4096x64) S512x64.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x64.size a ≤ S4096x64.size a
  hwx3_3 : ∀ i : grid3.Coords, EltTy.bits .f32 = 32 ∨ (Rect.block (s := S4096x64) S512x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S4096x64.size a
  hwx4_0 : ∀ i : grid4.Coords, EltTy.bits .f32 = 32 ∨ (Rect.block (s := S4096x64) S512x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x2048.size a ≤ S64x4096.size a
  hwx4_1 : ∀ i : grid4.Coords, EltTy.bits .f32 = 32 ∨ (Rect.block (s := S64x4096) S64x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x4096.size a
  hwx4_2 : ∀ i : grid4.Coords, EltTy.bits .f32 = 32 ∨ (Rect.block (s := S1x4096) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x2048.size a ≤ S4096x4096.size a
  hwx4_3 : ∀ i : grid4.Coords, EltTy.bits .f32 = 32 ∨ (Rect.block (s := S4096x4096) S512x2048.size (cc4_transform_3 i) (hinb4_3 i)).WholeWords (EltTy.packing .f32)

variable [Facts₀]

def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def gather_S4096x128_S65536x1_S65536x128_1_0_n_n_0_1_1128 : GatherDims S4096x128 S65536x1 S65536x128 where
  offsetDims := [1]
  collapsedSliceDims := [0]
  operandBatchingDims := []
  startIndicesBatchingDims := []
  startIndexMap := [0]
  indexVectorDim := 1
  sliceSizes := ![1, 128]
  wf := gather_S4096x128_S65536x1_S65536x128_1_0_n_n_0_1_1128_wf
def scatter_S4096x128_S65536x1_S65536x128_1_0_0_1 : ScatterDims S4096x128 S65536x1 S65536x128 where
  updateWindowDims := [1]
  insertedWindowDims := [0]
  scatterDimsToOperandDims := [0]
  indexVectorDim := 1
  wf := scatter_S4096x128_S65536x1_S65536x128_1_0_0_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S4096x64_S65536x1_S65536x64_1_0_n_n_0_1_164 : GatherDims S4096x64 S65536x1 S65536x64 where
  offsetDims := [1]
  collapsedSliceDims := [0]
  operandBatchingDims := []
  startIndicesBatchingDims := []
  startIndexMap := [0]
  indexVectorDim := 1
  sliceSizes := ![1, 64]
  wf := gather_S4096x64_S65536x1_S65536x64_1_0_n_n_0_1_164_wf
def scatter_S4096x64_S65536x1_S65536x64_1_0_0_1 : ScatterDims S4096x64 S65536x1 S65536x64 where
  updateWindowDims := [1]
  insertedWindowDims := [0]
  scatterDimsToOperandDims := [0]
  indexVectorDim := 1
  wf := scatter_S4096x64_S65536x1_S65536x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def scatter_S4096x4096_S65536x2_S65536_n_01_01_1 : ScatterDims S4096x4096 S65536x2 S65536 where
  updateWindowDims := []
  insertedWindowDims := [0, 1]
  scatterDimsToOperandDims := [0, 1]
  indexVectorDim := 1
  wf := scatter_S4096x4096_S65536x2_S65536_n_01_01_1_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_v236) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg24) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v237) S1x2048.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v238) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v238) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg26) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v239) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v240) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v252) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v259) S512x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v260) S1x64.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v261) S512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v252) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v272) S512x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v273) S1x64.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v274) S512x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v281) S512x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v283) S64x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v284) S1x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v285) S512x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S65536 : Shape := ⟨1, ![65536]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S4096x2048 : Shape := ⟨2, ![4096, 2048]⟩
abbrev S2048 : Shape := ⟨1, ![2048]⟩
abbrev S2048x4096 : Shape := ⟨2, ![2048, 4096]⟩
abbrev S4096 : Shape := ⟨1, ![4096]⟩
abbrev S_ : Shape := ⟨0, ![]⟩
abbrev S65536x1 : Shape := ⟨2, ![65536, 1]⟩
abbrev S4096x1 : Shape := ⟨2, ![4096, 1]⟩
abbrev S4096x128 : Shape := ⟨2, ![4096, 128]⟩
abbrev S65536x128 : Shape := ⟨2, ![65536, 128]⟩
abbrev S1x128 : Shape := ⟨2, ![1, 128]⟩
abbrev S4096x64 : Shape := ⟨2, ![4096, 64]⟩
abbrev S65536x64 : Shape := ⟨2, ![65536, 64]⟩
abbrev S1x64 : Shape := ⟨2, ![1, 64]⟩
abbrev S4096x4096 : Shape := ⟨2, ![4096, 4096]⟩
abbrev S65536x2 : Shape := ⟨2, ![65536, 2]⟩
abbrev S1x2048 : Shape := ⟨2, ![1, 2048]⟩
abbrev S1x4096 : Shape := ⟨2, ![1, 4096]⟩
abbrev S64x4096 : Shape := ⟨2, ![64, 4096]⟩

abbrev nBuf : Space → Nat
  | .hbm => 407
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S65536, .i32⟩
  | 4 => ⟨S65536, .i32⟩
  | 5 => ⟨S65536, .i32⟩
  | 6 => ⟨S65536, .i32⟩
  | 7 => ⟨S65536, .i32⟩
  | 8 => ⟨S65536, .i32⟩
  | 9 => ⟨S512x128, .f32⟩
  | 10 => ⟨S128, .f32⟩
  | 11 => ⟨S128x64, .f32⟩
  | 12 => ⟨S64, .f32⟩
  | 13 => ⟨S512x128, .f32⟩
  | 14 => ⟨S128, .f32⟩
  | 15 => ⟨S128x64, .f32⟩
  | 16 => ⟨S64, .f32⟩
  | 17 => ⟨S512x128, .f32⟩
  | 18 => ⟨S128, .f32⟩
  | 19 => ⟨S128x64, .f32⟩
  | 20 => ⟨S64, .f32⟩
  | 21 => ⟨S64x64, .f32⟩
  | 22 => ⟨S64x64, .f32⟩
  | 23 => ⟨S64x64, .f32⟩
  | 24 => ⟨S4096x2048, .f32⟩
  | 25 => ⟨S2048, .f32⟩
  | 26 => ⟨S2048x4096, .f32⟩
  | 27 => ⟨S4096, .f32⟩
  | 28 => ⟨S64x64, .f32⟩
  | 29 => ⟨S64, .f32⟩
  | 30 => ⟨S64x64, .f32⟩
  | 31 => ⟨S64, .f32⟩
  | 32 => ⟨S_, .f32⟩
  | 33 => ⟨S65536, .f32⟩
  | 34 => ⟨S_, .f32⟩
  | 35 => ⟨S4096, .f32⟩
  | 36 => ⟨S65536x1, .i32⟩
  | 37 => ⟨S4096, .f32⟩
  | 38 => ⟨S_, .f32⟩
  | 39 => ⟨S4096, .f32⟩
  | 40 => ⟨S4096, .f32⟩
  | 41 => ⟨S_, .f32⟩
  | 42 => ⟨S4096, .f32⟩
  | 43 => ⟨S65536x1, .i32⟩
  | 44 => ⟨S4096, .f32⟩
  | 45 => ⟨S_, .f32⟩
  | 46 => ⟨S4096, .f32⟩
  | 47 => ⟨S4096, .f32⟩
  | 48 => ⟨S_, .f32⟩
  | 49 => ⟨S4096, .f32⟩
  | 50 => ⟨S4096, .f32⟩
  | 51 => ⟨S_, .f32⟩
  | 52 => ⟨S4096, .f32⟩
  | 53 => ⟨S4096, .f32⟩
  | 54 => ⟨S4096x1, .f32⟩
  | 55 => ⟨S4096x512, .f32⟩
  | 56 => ⟨S4096x512, .f32⟩
  | 57 => ⟨S4096x128, .f32⟩
  | 58 => ⟨S_, .i32⟩
  | 59 => ⟨S65536, .i32⟩
  | 60 => ⟨S65536, .i1⟩
  | 61 => ⟨S_, .i32⟩
  | 62 => ⟨S65536, .i32⟩
  | 63 => ⟨S65536, .i32⟩
  | 64 => ⟨S65536, .i32⟩
  | 65 => ⟨S65536x1, .i32⟩
  | 66 => ⟨S65536x128, .f32⟩
  | 67 => ⟨S_, .f32⟩
  | 68 => ⟨S4096x128, .f32⟩
  | 69 => ⟨S65536x1, .i32⟩
  | 70 => ⟨S4096x128, .f32⟩
  | 71 => ⟨S4096x1, .f32⟩
  | 72 => ⟨S4096x128, .f32⟩
  | 73 => ⟨S4096x128, .f32⟩
  | 74 => ⟨S1x128, .f32⟩
  | 75 => ⟨S4096x128, .f32⟩
  | 76 => ⟨S4096x128, .f32⟩
  | 77 => ⟨S_, .f32⟩
  | 78 => ⟨S4096x128, .f32⟩
  | 79 => ⟨S4096x128, .f32⟩
  | 80 => ⟨S4096x1, .f32⟩
  | 81 => ⟨S4096x128, .f32⟩
  | 82 => ⟨S4096x128, .f32⟩
  | 83 => ⟨S4096x64, .f32⟩
  | 84 => ⟨S_, .i32⟩
  | 85 => ⟨S65536, .i32⟩
  | 86 => ⟨S65536, .i1⟩
  | 87 => ⟨S_, .i32⟩
  | 88 => ⟨S65536, .i32⟩
  | 89 => ⟨S65536, .i32⟩
  | 90 => ⟨S65536, .i32⟩
  | 91 => ⟨S65536x1, .i32⟩
  | 92 => ⟨S65536x64, .f32⟩
  | 93 => ⟨S_, .f32⟩
  | 94 => ⟨S4096x64, .f32⟩
  | 95 => ⟨S65536x1, .i32⟩
  | 96 => ⟨S4096x64, .f32⟩
  | 97 => ⟨S4096x1, .f32⟩
  | 98 => ⟨S4096x64, .f32⟩
  | 99 => ⟨S4096x64, .f32⟩
  | 100 => ⟨S1x64, .f32⟩
  | 101 => ⟨S4096x64, .f32⟩
  | 102 => ⟨S4096x64, .f32⟩
  | 103 => ⟨S_, .f32⟩
  | 104 => ⟨S65536, .f32⟩
  | 105 => ⟨S_, .f32⟩
  | 106 => ⟨S4096, .f32⟩
  | 107 => ⟨S65536x1, .i32⟩
  | 108 => ⟨S4096, .f32⟩
  | 109 => ⟨S_, .f32⟩
  | 110 => ⟨S4096, .f32⟩
  | 111 => ⟨S4096, .f32⟩
  | 112 => ⟨S_, .f32⟩
  | 113 => ⟨S4096, .f32⟩
  | 114 => ⟨S65536x1, .i32⟩
  | 115 => ⟨S4096, .f32⟩
  | 116 => ⟨S_, .f32⟩
  | 117 => ⟨S4096, .f32⟩
  | 118 => ⟨S4096, .f32⟩
  | 119 => ⟨S_, .f32⟩
  | 120 => ⟨S4096, .f32⟩
  | 121 => ⟨S4096, .f32⟩
  | 122 => ⟨S_, .f32⟩
  | 123 => ⟨S4096, .f32⟩
  | 124 => ⟨S4096, .f32⟩
  | 125 => ⟨S4096x1, .f32⟩
  | 126 => ⟨S4096x512, .f32⟩
  | 127 => ⟨S4096x512, .f32⟩
  | _ => ⟨S4096x512, .f32⟩

abbrev hbmTy0_1 (i : Nat) : BufTy := match i % 128 with
  | 0 => ⟨S4096x128, .f32⟩
  | 1 => ⟨S_, .i32⟩
  | 2 => ⟨S65536, .i32⟩
  | 3 => ⟨S65536, .i1⟩
  | 4 => ⟨S_, .i32⟩
  | 5 => ⟨S65536, .i32⟩
  | 6 => ⟨S65536, .i32⟩
  | 7 => ⟨S65536, .i32⟩
  | 8 => ⟨S65536x1, .i32⟩
  | 9 => ⟨S65536x128, .f32⟩
  | 10 => ⟨S_, .f32⟩
  | 11 => ⟨S4096x128, .f32⟩
  | 12 => ⟨S65536x1, .i32⟩
  | 13 => ⟨S4096x128, .f32⟩
  | 14 => ⟨S4096x1, .f32⟩
  | 15 => ⟨S4096x128, .f32⟩
  | 16 => ⟨S4096x128, .f32⟩
  | 17 => ⟨S1x128, .f32⟩
  | 18 => ⟨S4096x128, .f32⟩
  | 19 => ⟨S4096x128, .f32⟩
  | 20 => ⟨S_, .f32⟩
  | 21 => ⟨S4096x128, .f32⟩
  | 22 => ⟨S4096x128, .f32⟩
  | 23 => ⟨S4096x1, .f32⟩
  | 24 => ⟨S4096x128, .f32⟩
  | 25 => ⟨S4096x128, .f32⟩
  | 26 => ⟨S4096x64, .f32⟩
  | 27 => ⟨S_, .i32⟩
  | 28 => ⟨S65536, .i32⟩
  | 29 => ⟨S65536, .i1⟩
  | 30 => ⟨S_, .i32⟩
  | 31 => ⟨S65536, .i32⟩
  | 32 => ⟨S65536, .i32⟩
  | 33 => ⟨S65536, .i32⟩
  | 34 => ⟨S65536x1, .i32⟩
  | 35 => ⟨S65536x64, .f32⟩
  | 36 => ⟨S_, .f32⟩
  | 37 => ⟨S4096x64, .f32⟩
  | 38 => ⟨S65536x1, .i32⟩
  | 39 => ⟨S4096x64, .f32⟩
  | 40 => ⟨S4096x1, .f32⟩
  | 41 => ⟨S4096x64, .f32⟩
  | 42 => ⟨S4096x64, .f32⟩
  | 43 => ⟨S1x64, .f32⟩
  | 44 => ⟨S4096x64, .f32⟩
  | 45 => ⟨S4096x64, .f32⟩
  | 46 => ⟨S_, .f32⟩
  | 47 => ⟨S65536, .f32⟩
  | 48 => ⟨S_, .f32⟩
  | 49 => ⟨S4096, .f32⟩
  | 50 => ⟨S65536x1, .i32⟩
  | 51 => ⟨S4096, .f32⟩
  | 52 => ⟨S_, .f32⟩
  | 53 => ⟨S4096, .f32⟩
  | 54 => ⟨S4096, .f32⟩
  | 55 => ⟨S_, .f32⟩
  | 56 => ⟨S4096, .f32⟩
  | 57 => ⟨S65536x1, .i32⟩
  | 58 => ⟨S4096, .f32⟩
  | 59 => ⟨S_, .f32⟩
  | 60 => ⟨S4096, .f32⟩
  | 61 => ⟨S4096, .f32⟩
  | 62 => ⟨S_, .f32⟩
  | 63 => ⟨S4096, .f32⟩
  | 64 => ⟨S4096, .f32⟩
  | 65 => ⟨S_, .f32⟩
  | 66 => ⟨S4096, .f32⟩
  | 67 => ⟨S4096, .f32⟩
  | 68 => ⟨S4096x1, .f32⟩
  | 69 => ⟨S4096x512, .f32⟩
  | 70 => ⟨S4096x512, .f32⟩
  | 71 => ⟨S4096x128, .f32⟩
  | 72 => ⟨S_, .i32⟩
  | 73 => ⟨S65536, .i32⟩
  | 74 => ⟨S65536, .i1⟩
  | 75 => ⟨S_, .i32⟩
  | 76 => ⟨S65536, .i32⟩
  | 77 => ⟨S65536, .i32⟩
  | 78 => ⟨S65536, .i32⟩
  | 79 => ⟨S65536x1, .i32⟩
  | 80 => ⟨S65536x128, .f32⟩
  | 81 => ⟨S_, .f32⟩
  | 82 => ⟨S4096x128, .f32⟩
  | 83 => ⟨S65536x1, .i32⟩
  | 84 => ⟨S4096x128, .f32⟩
  | 85 => ⟨S4096x1, .f32⟩
  | 86 => ⟨S4096x128, .f32⟩
  | 87 => ⟨S4096x128, .f32⟩
  | 88 => ⟨S1x128, .f32⟩
  | 89 => ⟨S4096x128, .f32⟩
  | 90 => ⟨S4096x128, .f32⟩
  | 91 => ⟨S_, .f32⟩
  | 92 => ⟨S4096x128, .f32⟩
  | 93 => ⟨S4096x128, .f32⟩
  | 94 => ⟨S4096x1, .f32⟩
  | 95 => ⟨S4096x128, .f32⟩
  | 96 => ⟨S4096x128, .f32⟩
  | 97 => ⟨S4096x64, .f32⟩
  | 98 => ⟨S_, .i32⟩
  | 99 => ⟨S65536, .i32⟩
  | 100 => ⟨S65536, .i1⟩
  | 101 => ⟨S_, .i32⟩
  | 102 => ⟨S65536, .i32⟩
  | 103 => ⟨S65536, .i32⟩
  | 104 => ⟨S65536, .i32⟩
  | 105 => ⟨S65536x1, .i32⟩
  | 106 => ⟨S65536x64, .f32⟩
  | 107 => ⟨S_, .f32⟩
  | 108 => ⟨S4096x64, .f32⟩
  | 109 => ⟨S65536x1, .i32⟩
  | 110 => ⟨S4096x64, .f32⟩
  | 111 => ⟨S4096x1, .f32⟩
  | 112 => ⟨S4096x64, .f32⟩
  | 113 => ⟨S4096x64, .f32⟩
  | 114 => ⟨S1x64, .f32⟩
  | 115 => ⟨S4096x64, .f32⟩
  | 116 => ⟨S4096x64, .f32⟩
  | 117 => ⟨S4096x64, .f32⟩
  | 118 => ⟨S4096x64, .f32⟩
  | 119 => ⟨S4096x64, .f32⟩
  | 120 => ⟨S4096x64, .f32⟩
  | 121 => ⟨S4096x64, .f32⟩
  | 122 => ⟨S_, .f32⟩
  | 123 => ⟨S4096, .f32⟩
  | 124 => ⟨S_, .f32⟩
  | 125 => ⟨S4096, .f32⟩
  | 126 => ⟨S4096, .f32⟩
  | 127 => ⟨S4096x1, .f32⟩
  | _ => ⟨S4096x512, .f32⟩

abbrev hbmTy0_2 (i : Nat) : BufTy := match i % 128 with
  | 0 => ⟨S4096x64, .f32⟩
  | 1 => ⟨S4096x64, .f32⟩
  | 2 => ⟨S4096x64, .f32⟩
  | 3 => ⟨S_, .f32⟩
  | 4 => ⟨S4096, .f32⟩
  | 5 => ⟨S4096x1, .f32⟩
  | 6 => ⟨S4096x64, .f32⟩
  | 7 => ⟨S4096x64, .f32⟩
  | 8 => ⟨S_, .f32⟩
  | 9 => ⟨S4096x64, .f32⟩
  | 10 => ⟨S4096x64, .f32⟩
  | 11 => ⟨S_, .f32⟩
  | 12 => ⟨S4096x4096, .f32⟩
  | 13 => ⟨S_, .f32⟩
  | 14 => ⟨S4096x4096, .f32⟩
  | 15 => ⟨S_, .i32⟩
  | 16 => ⟨S65536, .i32⟩
  | 17 => ⟨S65536, .i1⟩
  | 18 => ⟨S_, .i32⟩
  | 19 => ⟨S65536, .i32⟩
  | 20 => ⟨S65536, .i32⟩
  | 21 => ⟨S65536, .i32⟩
  | 22 => ⟨S_, .i32⟩
  | 23 => ⟨S65536, .i32⟩
  | 24 => ⟨S65536, .i1⟩
  | 25 => ⟨S_, .i32⟩
  | 26 => ⟨S65536, .i32⟩
  | 27 => ⟨S65536, .i32⟩
  | 28 => ⟨S65536, .i32⟩
  | 29 => ⟨S65536x1, .i32⟩
  | 30 => ⟨S65536x1, .i32⟩
  | 31 => ⟨S65536x2, .i32⟩
  | 32 => ⟨S_, .f32⟩
  | 33 => ⟨S65536, .f32⟩
  | 34 => ⟨S4096x4096, .f32⟩
  | 35 => ⟨S4096x4096, .f32⟩
  | 36 => ⟨S_, .f32⟩
  | 37 => ⟨S4096x4096, .f32⟩
  | 38 => ⟨S_, .i32⟩
  | 39 => ⟨S65536, .i32⟩
  | 40 => ⟨S65536, .i1⟩
  | 41 => ⟨S_, .i32⟩
  | 42 => ⟨S65536, .i32⟩
  | 43 => ⟨S65536, .i32⟩
  | 44 => ⟨S65536, .i32⟩
  | 45 => ⟨S_, .i32⟩
  | 46 => ⟨S65536, .i32⟩
  | 47 => ⟨S65536, .i1⟩
  | 48 => ⟨S_, .i32⟩
  | 49 => ⟨S65536, .i32⟩
  | 50 => ⟨S65536, .i32⟩
  | 51 => ⟨S65536, .i32⟩
  | 52 => ⟨S65536x1, .i32⟩
  | 53 => ⟨S65536x1, .i32⟩
  | 54 => ⟨S65536x2, .i32⟩
  | 55 => ⟨S_, .f32⟩
  | 56 => ⟨S65536, .f32⟩
  | 57 => ⟨S4096x4096, .f32⟩
  | 58 => ⟨S4096x4096, .f32⟩
  | 59 => ⟨S_, .f32⟩
  | 60 => ⟨S4096x4096, .f32⟩
  | 61 => ⟨S_, .i32⟩
  | 62 => ⟨S65536, .i32⟩
  | 63 => ⟨S65536, .i1⟩
  | 64 => ⟨S_, .i32⟩
  | 65 => ⟨S65536, .i32⟩
  | 66 => ⟨S65536, .i32⟩
  | 67 => ⟨S65536, .i32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S65536x1, .i32⟩
  | 76 => ⟨S65536x1, .i32⟩
  | 77 => ⟨S65536x2, .i32⟩
  | 78 => ⟨S_, .f32⟩
  | 79 => ⟨S65536, .f32⟩
  | 80 => ⟨S4096x4096, .f32⟩
  | 81 => ⟨S4096x4096, .f32⟩
  | 82 => ⟨S4096x2048, .f32⟩
  | 83 => ⟨S1x2048, .f32⟩
  | 84 => ⟨S4096x2048, .f32⟩
  | 85 => ⟨S4096x2048, .f32⟩
  | 86 => ⟨S_, .f32⟩
  | 87 => ⟨S4096x2048, .f32⟩
  | 88 => ⟨S4096x2048, .f32⟩
  | 89 => ⟨S4096x4096, .f32⟩
  | 90 => ⟨S1x4096, .f32⟩
  | 91 => ⟨S4096x4096, .f32⟩
  | 92 => ⟨S4096x4096, .f32⟩
  | 93 => ⟨S_, .f32⟩
  | 94 => ⟨S_, .f32⟩
  | 95 => ⟨S_, .f32⟩
  | 96 => ⟨S4096x4096, .f32⟩
  | 97 => ⟨S4096x4096, .f32⟩
  | 98 => ⟨S_, .f32⟩
  | 99 => ⟨S4096x4096, .f32⟩
  | 100 => ⟨S4096x4096, .f32⟩
  | 101 => ⟨S_, .f32⟩
  | 102 => ⟨S4096x4096, .f32⟩
  | 103 => ⟨S4096x4096, .f32⟩
  | 104 => ⟨S4096x4096, .f32⟩
  | 105 => ⟨S4096x4096, .f32⟩
  | 106 => ⟨S4096x4096, .f32⟩
  | 107 => ⟨S_, .f32⟩
  | 108 => ⟨S4096x4096, .f32⟩
  | 109 => ⟨S4096x4096, .i1⟩
  | 110 => ⟨S4096x4096, .f32⟩
  | 111 => ⟨S4096x4096, .i32⟩
  | 112 => ⟨S4096x4096, .i32⟩
  | 113 => ⟨S_, .i32⟩
  | 114 => ⟨S4096x4096, .i32⟩
  | 115 => ⟨S4096x4096, .i32⟩
  | 116 => ⟨S4096x4096, .i1⟩
  | 117 => ⟨S4096x4096, .f32⟩
  | 118 => ⟨S4096x4096, .f32⟩
  | 119 => ⟨S_, .f32⟩
  | 120 => ⟨S4096, .f32⟩
  | 121 => ⟨S_, .f32⟩
  | 122 => ⟨S4096, .f32⟩
  | 123 => ⟨S4096, .f32⟩
  | 124 => ⟨S4096x1, .f32⟩
  | 125 => ⟨S4096x64, .f32⟩
  | 126 => ⟨S4096x64, .f32⟩
  | 127 => ⟨S4096x64, .f32⟩
  | _ => ⟨S4096x512, .f32⟩

abbrev hbmTy0_3 (i : Nat) : BufTy := match i % 128 with
  | 0 => ⟨S4096x1, .f32⟩
  | 1 => ⟨S4096x64, .f32⟩
  | 2 => ⟨S4096x64, .f32⟩
  | 3 => ⟨S4096x64, .f32⟩
  | 4 => ⟨S1x64, .f32⟩
  | 5 => ⟨S4096x64, .f32⟩
  | 6 => ⟨S4096x64, .f32⟩
  | 7 => ⟨S_, .f32⟩
  | 8 => ⟨S4096x64, .f32⟩
  | 9 => ⟨S4096x64, .f32⟩
  | 10 => ⟨S4096x1, .f32⟩
  | 11 => ⟨S4096x64, .f32⟩
  | 12 => ⟨S4096x64, .f32⟩
  | 13 => ⟨S4096x64, .f32⟩
  | 14 => ⟨S4096x1, .f32⟩
  | 15 => ⟨S4096x64, .f32⟩
  | 16 => ⟨S4096x64, .f32⟩
  | 17 => ⟨S4096x64, .f32⟩
  | 18 => ⟨S1x64, .f32⟩
  | 19 => ⟨S4096x64, .f32⟩
  | 20 => ⟨S4096x64, .f32⟩
  | 21 => ⟨S64x4096, .f32⟩
  | 22 => ⟨S4096x4096, .f32⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_cst_0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_cst_1 : Ref sig .tc := ⟨.hbm, 38, rfl⟩
abbrev main_v4 : Ref sig .tc := ⟨.hbm, 39, rfl⟩
abbrev main_v5 : Ref sig .tc := ⟨.hbm, 40, rfl⟩
abbrev main_cst_2 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_cst_3 : Ref sig .tc := ⟨.hbm, 45, rfl⟩
abbrev main_v9 : Ref sig .tc := ⟨.hbm, 46, rfl⟩
abbrev main_v10 : Ref sig .tc := ⟨.hbm, 47, rfl⟩
abbrev main_cst_4 : Ref sig .tc := ⟨.hbm, 48, rfl⟩
abbrev main_v11 : Ref sig .tc := ⟨.hbm, 49, rfl⟩
abbrev main_v12 : Ref sig .tc := ⟨.hbm, 50, rfl⟩
abbrev main_cst_5 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_c : Ref sig .tc := ⟨.hbm, 58, rfl⟩
abbrev main_v19 : Ref sig .tc := ⟨.hbm, 59, rfl⟩
abbrev main_v20 : Ref sig .tc := ⟨.hbm, 60, rfl⟩
abbrev main_c_6 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_7 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_call0_cst : Ref sig .tc := ⟨.hbm, 77, rfl⟩
abbrev main_call0_v0 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_c_8 : Ref sig .tc := ⟨.hbm, 84, rfl⟩
abbrev main_v40 : Ref sig .tc := ⟨.hbm, 85, rfl⟩
abbrev main_v41 : Ref sig .tc := ⟨.hbm, 86, rfl⟩
abbrev main_c_9 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_10 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_11 : Ref sig .tc := ⟨.hbm, 103, rfl⟩
abbrev main_v56 : Ref sig .tc := ⟨.hbm, 104, rfl⟩
abbrev main_cst_12 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_13 : Ref sig .tc := ⟨.hbm, 109, rfl⟩
abbrev main_v60 : Ref sig .tc := ⟨.hbm, 110, rfl⟩
abbrev main_v61 : Ref sig .tc := ⟨.hbm, 111, rfl⟩
abbrev main_cst_14 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_15 : Ref sig .tc := ⟨.hbm, 116, rfl⟩
abbrev main_v65 : Ref sig .tc := ⟨.hbm, 117, rfl⟩
abbrev main_v66 : Ref sig .tc := ⟨.hbm, 118, rfl⟩
abbrev main_cst_16 : Ref sig .tc := ⟨.hbm, 119, rfl⟩
abbrev main_v67 : Ref sig .tc := ⟨.hbm, 120, rfl⟩
abbrev main_v68 : Ref sig .tc := ⟨.hbm, 121, rfl⟩
abbrev main_cst_17 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_c_18 : Ref sig .tc := ⟨.hbm, 129, rfl⟩
abbrev main_v75 : Ref sig .tc := ⟨.hbm, 130, rfl⟩
abbrev main_v76 : Ref sig .tc := ⟨.hbm, 131, rfl⟩
abbrev main_c_19 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_20 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_call1_cst : Ref sig .tc := ⟨.hbm, 148, rfl⟩
abbrev main_call1_v0 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_c_21 : Ref sig .tc := ⟨.hbm, 155, rfl⟩
abbrev main_v96 : Ref sig .tc := ⟨.hbm, 156, rfl⟩
abbrev main_v97 : Ref sig .tc := ⟨.hbm, 157, rfl⟩
abbrev main_c_22 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_23 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_24 : Ref sig .tc := ⟨.hbm, 174, rfl⟩
abbrev main_v112 : Ref sig .tc := ⟨.hbm, 175, rfl⟩
abbrev main_cst_25 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_cst_26 : Ref sig .tc := ⟨.hbm, 180, rfl⟩
abbrev main_v116 : Ref sig .tc := ⟨.hbm, 181, rfl⟩
abbrev main_v117 : Ref sig .tc := ⟨.hbm, 182, rfl⟩
abbrev main_cst_27 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_cst_28 : Ref sig .tc := ⟨.hbm, 187, rfl⟩
abbrev main_v121 : Ref sig .tc := ⟨.hbm, 188, rfl⟩
abbrev main_v122 : Ref sig .tc := ⟨.hbm, 189, rfl⟩
abbrev main_cst_29 : Ref sig .tc := ⟨.hbm, 190, rfl⟩
abbrev main_v123 : Ref sig .tc := ⟨.hbm, 191, rfl⟩
abbrev main_v124 : Ref sig .tc := ⟨.hbm, 192, rfl⟩
abbrev main_cst_30 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_c_31 : Ref sig .tc := ⟨.hbm, 200, rfl⟩
abbrev main_v131 : Ref sig .tc := ⟨.hbm, 201, rfl⟩
abbrev main_v132 : Ref sig .tc := ⟨.hbm, 202, rfl⟩
abbrev main_c_32 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_cst_33 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_call2_cst : Ref sig .tc := ⟨.hbm, 219, rfl⟩
abbrev main_call2_v0 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_c_34 : Ref sig .tc := ⟨.hbm, 226, rfl⟩
abbrev main_v152 : Ref sig .tc := ⟨.hbm, 227, rfl⟩
abbrev main_v153 : Ref sig .tc := ⟨.hbm, 228, rfl⟩
abbrev main_c_35 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_cst_36 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_cst_37 : Ref sig .tc := ⟨.hbm, 250, rfl⟩
abbrev main_v173 : Ref sig .tc := ⟨.hbm, 251, rfl⟩
abbrev main_cst_38 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_cst_39 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_call3_cst : Ref sig .tc := ⟨.hbm, 264, rfl⟩
abbrev main_call3_v0 : Ref sig .tc := ⟨.hbm, 265, rfl⟩
abbrev main_v184 : Ref sig .tc := ⟨.hbm, 266, rfl⟩
abbrev main_cst_40 : Ref sig .tc := ⟨.hbm, 267, rfl⟩
abbrev main_v185 : Ref sig .tc := ⟨.hbm, 268, rfl⟩
abbrev main_cst_41 : Ref sig .tc := ⟨.hbm, 269, rfl⟩
abbrev main_v186 : Ref sig .tc := ⟨.hbm, 270, rfl⟩
abbrev main_c_42 : Ref sig .tc := ⟨.hbm, 271, rfl⟩
abbrev main_v187 : Ref sig .tc := ⟨.hbm, 272, rfl⟩
abbrev main_v188 : Ref sig .tc := ⟨.hbm, 273, rfl⟩
abbrev main_c_43 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_c_44 : Ref sig .tc := ⟨.hbm, 278, rfl⟩
abbrev main_v192 : Ref sig .tc := ⟨.hbm, 279, rfl⟩
abbrev main_v193 : Ref sig .tc := ⟨.hbm, 280, rfl⟩
abbrev main_c_45 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_cst_46 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_cst_47 : Ref sig .tc := ⟨.hbm, 292, rfl⟩
abbrev main_v203 : Ref sig .tc := ⟨.hbm, 293, rfl⟩
abbrev main_c_48 : Ref sig .tc := ⟨.hbm, 294, rfl⟩
abbrev main_v204 : Ref sig .tc := ⟨.hbm, 295, rfl⟩
abbrev main_v205 : Ref sig .tc := ⟨.hbm, 296, rfl⟩
abbrev main_c_49 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_c_50 : Ref sig .tc := ⟨.hbm, 301, rfl⟩
abbrev main_v209 : Ref sig .tc := ⟨.hbm, 302, rfl⟩
abbrev main_v210 : Ref sig .tc := ⟨.hbm, 303, rfl⟩
abbrev main_c_51 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_cst_52 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_cst_53 : Ref sig .tc := ⟨.hbm, 315, rfl⟩
abbrev main_v220 : Ref sig .tc := ⟨.hbm, 316, rfl⟩
abbrev main_c_54 : Ref sig .tc := ⟨.hbm, 317, rfl⟩
abbrev main_v221 : Ref sig .tc := ⟨.hbm, 318, rfl⟩
abbrev main_v222 : Ref sig .tc := ⟨.hbm, 319, rfl⟩
abbrev main_c_55 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_c_56 : Ref sig .tc := ⟨.hbm, 324, rfl⟩
abbrev main_v226 : Ref sig .tc := ⟨.hbm, 325, rfl⟩
abbrev main_v227 : Ref sig .tc := ⟨.hbm, 326, rfl⟩
abbrev main_c_57 : Ref sig .tc := ⟨.hbm, 327, rfl⟩
abbrev main_v228 : Ref sig .tc := ⟨.hbm, 328, rfl⟩
abbrev main_v229 : Ref sig .tc := ⟨.hbm, 329, rfl⟩
abbrev main_v230 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_cst_58 : Ref sig .tc := ⟨.hbm, 334, rfl⟩
abbrev main_v234 : Ref sig .tc := ⟨.hbm, 335, rfl⟩
abbrev main_v235 : Ref sig .tc := ⟨.hbm, 336, rfl⟩
abbrev main_v236 : Ref sig .tc := ⟨.hbm, 337, rfl⟩
abbrev main_v237 : Ref sig .tc := ⟨.hbm, 338, rfl⟩
abbrev main_v238 : Ref sig .tc := ⟨.hbm, 339, rfl⟩
abbrev main_v239 : Ref sig .tc := ⟨.hbm, 340, rfl⟩
abbrev main_v240 : Ref sig .tc := ⟨.hbm, 341, rfl⟩
abbrev main_call4_cst : Ref sig .tc := ⟨.hbm, 342, rfl⟩
abbrev main_call4_v0 : Ref sig .tc := ⟨.hbm, 343, rfl⟩
abbrev main_v241 : Ref sig .tc := ⟨.hbm, 344, rfl⟩
abbrev main_v242 : Ref sig .tc := ⟨.hbm, 345, rfl⟩
abbrev main_v243 : Ref sig .tc := ⟨.hbm, 346, rfl⟩
abbrev main_v244 : Ref sig .tc := ⟨.hbm, 347, rfl⟩
abbrev main_v245 : Ref sig .tc := ⟨.hbm, 348, rfl⟩
abbrev main_cst_59 : Ref sig .tc := ⟨.hbm, 349, rfl⟩
abbrev main_cst_60 : Ref sig .tc := ⟨.hbm, 350, rfl⟩
abbrev main_call5_v0 : Ref sig .tc := ⟨.hbm, 351, rfl⟩
abbrev main_call5_v1 : Ref sig .tc := ⟨.hbm, 352, rfl⟩
abbrev main_call5_v2 : Ref sig .tc := ⟨.hbm, 353, rfl⟩
abbrev main_call5_v3 : Ref sig .tc := ⟨.hbm, 354, rfl⟩
abbrev main_call5_v4 : Ref sig .tc := ⟨.hbm, 355, rfl⟩
abbrev main_v246 : Ref sig .tc := ⟨.hbm, 356, rfl⟩
abbrev main_cst_61 : Ref sig .tc := ⟨.hbm, 357, rfl⟩
abbrev main_v247 : Ref sig .tc := ⟨.hbm, 358, rfl⟩
abbrev main_v248 : Ref sig .tc := ⟨.hbm, 359, rfl⟩
abbrev main_v249 : Ref sig .tc := ⟨.hbm, 360, rfl⟩
abbrev main_v250 : Ref sig .tc := ⟨.hbm, 361, rfl⟩
abbrev main_v251 : Ref sig .tc := ⟨.hbm, 362, rfl⟩
abbrev main_cst_62 : Ref sig .tc := ⟨.hbm, 363, rfl⟩
abbrev main_v252 : Ref sig .tc := ⟨.hbm, 364, rfl⟩
abbrev main_v253 : Ref sig .tc := ⟨.hbm, 365, rfl⟩
abbrev main_v254 : Ref sig .tc := ⟨.hbm, 366, rfl⟩
abbrev main_v255 : Ref sig .tc := ⟨.hbm, 367, rfl⟩
abbrev main_v256 : Ref sig .tc := ⟨.hbm, 368, rfl⟩
abbrev main_c_63 : Ref sig .tc := ⟨.hbm, 369, rfl⟩
abbrev main_v257 : Ref sig .tc := ⟨.hbm, 370, rfl⟩
abbrev main_v258 : Ref sig .tc := ⟨.hbm, 371, rfl⟩
abbrev main_v259 : Ref sig .tc := ⟨.hbm, 372, rfl⟩
abbrev main_v260 : Ref sig .tc := ⟨.hbm, 373, rfl⟩
abbrev main_v261 : Ref sig .tc := ⟨.hbm, 374, rfl⟩
abbrev main_cst_64 : Ref sig .tc := ⟨.hbm, 375, rfl⟩
abbrev main_v262 : Ref sig .tc := ⟨.hbm, 376, rfl⟩
abbrev main_cst_65 : Ref sig .tc := ⟨.hbm, 377, rfl⟩
abbrev main_v263 : Ref sig .tc := ⟨.hbm, 378, rfl⟩
abbrev main_v264 : Ref sig .tc := ⟨.hbm, 379, rfl⟩
abbrev main_v265 : Ref sig .tc := ⟨.hbm, 380, rfl⟩
abbrev main_v266 : Ref sig .tc := ⟨.hbm, 381, rfl⟩
abbrev main_v267 : Ref sig .tc := ⟨.hbm, 382, rfl⟩
abbrev main_v268 : Ref sig .tc := ⟨.hbm, 383, rfl⟩
abbrev main_v269 : Ref sig .tc := ⟨.hbm, 384, rfl⟩
abbrev main_v270 : Ref sig .tc := ⟨.hbm, 385, rfl⟩
abbrev main_v271 : Ref sig .tc := ⟨.hbm, 386, rfl⟩
abbrev main_v272 : Ref sig .tc := ⟨.hbm, 387, rfl⟩
abbrev main_v273 : Ref sig .tc := ⟨.hbm, 388, rfl⟩
abbrev main_v274 : Ref sig .tc := ⟨.hbm, 389, rfl⟩
abbrev main_v275 : Ref sig .tc := ⟨.hbm, 390, rfl⟩
abbrev main_call7_cst : Ref sig .tc := ⟨.hbm, 391, rfl⟩
abbrev main_call7_v0 : Ref sig .tc := ⟨.hbm, 392, rfl⟩
abbrev main_v276 : Ref sig .tc := ⟨.hbm, 393, rfl⟩
abbrev main_v277 : Ref sig .tc := ⟨.hbm, 394, rfl⟩
abbrev main_v278 : Ref sig .tc := ⟨.hbm, 395, rfl⟩
abbrev main_v279 : Ref sig .tc := ⟨.hbm, 396, rfl⟩
abbrev main_v280 : Ref sig .tc := ⟨.hbm, 397, rfl⟩
abbrev main_v281 : Ref sig .tc := ⟨.hbm, 398, rfl⟩
abbrev main_v282 : Ref sig .tc := ⟨.hbm, 399, rfl⟩
abbrev main_v283 : Ref sig .tc := ⟨.hbm, 400, rfl⟩
abbrev main_v284 : Ref sig .tc := ⟨.hbm, 401, rfl⟩
abbrev main_v285 : Ref sig .tc := ⟨.hbm, 402, rfl⟩
abbrev main_v286 : Ref sig .tc := ⟨.hbm, 403, rfl⟩
abbrev main_v287 : Ref sig .tc := ⟨.hbm, 404, rfl⟩
abbrev main_v288 : Ref sig .tc := ⟨.hbm, 405, rfl⟩
abbrev main_v289 : Ref sig .tc := ⟨.hbm, 406, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S4096 : S_.BroadcastsInDim S4096 (![] : Fin 0 → Fin S4096.rank)
  bcast_S65536_S65536x1_0 : S65536.BroadcastsInDim S65536x1 (![0] : Fin 1 → Fin S65536x1.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  bcast_S_S4096x128 : S_.BroadcastsInDim S4096x128 (![] : Fin 0 → Fin S4096x128.rank)
  bcast_S4096x1_S4096x128_0_1 : S4096x1.BroadcastsInDim S4096x128 (![0, 1] : Fin 2 → Fin S4096x128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x64 : S_.BroadcastsInDim S4096x64 (![] : Fin 0 → Fin S4096x64.rank)
  bcast_S4096x1_S4096x64_0_1 : S4096x1.BroadcastsInDim S4096x64 (![0, 1] : Fin 2 → Fin S4096x64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S4096_d1 : S4096x64.ReducesTo [1] S4096
  h_S_ : 0 < S_.numel
  bcast_S_S4096x4096 : S_.BroadcastsInDim S4096x4096 (![] : Fin 0 → Fin S4096x4096.rank)
  concatenates_S65536x1_S65536x1_S65536x2_d1 : Shape.Concatenates [S65536x1, S65536x1] S65536x2 1
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  reducesTo_S4096x4096_S4096_d1 : S4096x4096.ReducesTo [1] S4096
  transposes_S4096x64_S64x4096_1_0 : S4096x64.Transposes [1, 0] S64x4096
  scatter_S4096_S65536x1_S65536_n_0_0_1_wf : ScatterDims.WF S4096 S65536x1 S65536 [] [0] [0] 1
  dot_S4096x512_S512x128_S4096x128_1_0_0_1_n_n_wf : DotDims.WF S4096x512 S512x128 S4096x128 [1] [0] [0] [1] [] []
  gather_S4096x128_S65536x1_S65536x128_1_0_n_n_0_1_1128_wf : GatherDims.WF S4096x128 S65536x1 S65536x128 [1] [0] [] [0] [] 1 ![1, 128]
  scatter_S4096x128_S65536x1_S65536x128_1_0_0_1_wf : ScatterDims.WF S4096x128 S65536x1 S65536x128 [1] [0] [0] 1
  dot_S4096x128_S128x64_S4096x64_1_0_0_1_n_n_wf : DotDims.WF S4096x128 S128x64 S4096x64 [1] [0] [0] [1] [] []
  gather_S4096x64_S65536x1_S65536x64_1_0_n_n_0_1_164_wf : GatherDims.WF S4096x64 S65536x1 S65536x64 [1] [0] [] [0] [] 1 ![1, 64]
  scatter_S4096x64_S65536x1_S65536x64_1_0_0_1_wf : ScatterDims.WF S4096x64 S65536x1 S65536x64 [1] [0] [0] 1
  dot_S4096x64_S64x64_S4096x64_1_0_0_1_n_n_wf : DotDims.WF S4096x64 S64x64 S4096x64 [1] [0] [0] [1] [] []
  scatter_S4096x4096_S65536x2_S65536_n_01_01_1_wf : ScatterDims.WF S4096x4096 S65536x2 S65536 [] [0, 1] [0, 1] 1
  dot_S4096x4096_S4096x2048_S4096x2048_1_0_0_1_n_n_wf : DotDims.WF S4096x4096 S4096x2048 S4096x2048 [1] [0] [0] [1] [] []
  dot_S4096x2048_S2048x4096_S4096x4096_1_0_0_1_n_n_wf : DotDims.WF S4096x2048 S2048x4096 S4096x4096 [1] [0] [0] [1] [] []
  dot_S4096x4096_S4096x64_S4096x64_1_0_0_1_n_n_wf : DotDims.WF S4096x4096 S4096x64 S4096x64 [1] [0] [0] [1] [] []
  dot_S4096x64_S64x4096_S4096x4096_1_0_0_1_n_n_wf : DotDims.WF S4096x64 S64x4096 S4096x4096 [1] [0] [0] [1] [] []

variable [Facts₀]

def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def gather_S4096x128_S65536x1_S65536x128_1_0_n_n_0_1_1128 : GatherDims S4096x128 S65536x1 S65536x128 where
  offsetDims := [1]
  collapsedSliceDims := [0]
  operandBatchingDims := []
  startIndicesBatchingDims := []
  startIndexMap := [0]
  indexVectorDim := 1
  sliceSizes := ![1, 128]
  wf := gather_S4096x128_S65536x1_S65536x128_1_0_n_n_0_1_1128_wf
def scatter_S4096x128_S65536x1_S65536x128_1_0_0_1 : ScatterDims S4096x128 S65536x1 S65536x128 where
  updateWindowDims := [1]
  insertedWindowDims := [0]
  scatterDimsToOperandDims := [0]
  indexVectorDim := 1
  wf := scatter_S4096x128_S65536x1_S65536x128_1_0_0_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S4096x64_S65536x1_S65536x64_1_0_n_n_0_1_164 : GatherDims S4096x64 S65536x1 S65536x64 where
  offsetDims := [1]
  collapsedSliceDims := [0]
  operandBatchingDims := []
  startIndicesBatchingDims := []
  startIndexMap := [0]
  indexVectorDim := 1
  sliceSizes := ![1, 64]
  wf := gather_S4096x64_S65536x1_S65536x64_1_0_n_n_0_1_164_wf
def scatter_S4096x64_S65536x1_S65536x64_1_0_0_1 : ScatterDims S4096x64 S65536x1 S65536x64 where
  updateWindowDims := [1]
  insertedWindowDims := [0]
  scatterDimsToOperandDims := [0]
  indexVectorDim := 1
  wf := scatter_S4096x64_S65536x1_S65536x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def scatter_S4096x4096_S65536x2_S65536_n_01_01_1 : ScatterDims S4096x4096 S65536x2 S65536 where
  updateWindowDims := []
  insertedWindowDims := [0, 1]
  scatterDimsToOperandDims := [0, 1]
  indexVectorDim := 1
  wf := scatter_S4096x4096_S65536x2_S65536_n_01_01_1_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.KbRunHost.lean ====
import proofs.«122112_j6631429505271_1_alg».proof.Proof.Gen.Kernel.Launch
import proofs.«122112_j6631429505271_1_alg».proof.Proof.Gen.Kernel.Skeleton
import proofs.«122112_j6631429505271_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the host stretches write

Every operation of a stretch writes its own result buffer and allocates nothing; the references a stretch writes,
as a list, decide which buffers it leaves alone. -/

set_option maxHeartbeats 40000000 in
/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_cst, main_v0, main_cst_0, main_v1, main_v2, main_v3, main_cst_1, main_v4, main_v5, main_cst_2, main_v6, main_v7, main_v8, main_cst_3, main_v9, main_v10, main_cst_4, main_v11, main_v12, main_cst_5, main_v13, main_v14, main_v15, main_v16, main_v17, main_v18, main_c, main_v19, main_v20, main_c_6, main_v21, main_v22, main_v23, main_v24, main_v25, main_cst_7, main_v26, main_v27, main_v28, main_v29, main_v30, main_v31, main_v32, main_v33, main_v34]
set_option maxHeartbeats 40000000 in
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps0_1` allocates a buffer. -/
theorem hostOps0_1_fresh : (hostOps0_1 : List (HloOp τ sig (Elt F))).Forall fun op => op.fresh = ∅ := by
  simp only [List.Forall]; repeat' constructor
/-- The references `hostOps0_1`'s operations write. -/
abbrev hostOps0_1_W : List (Ref sig .tc) := [main_call0_cst, main_call0_v0, main_v35]
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 40000000 in
/-- No operation of `hostOps0_2` allocates a buffer. -/
theorem hostOps0_2_fresh : (hostOps0_2 : List (HloOp τ sig (Elt F))).Forall fun op => op.fresh = ∅ := by
  simp only [List.Forall]; repeat' constructor
/-- The references `hostOps0_2`'s operations write. -/
abbrev hostOps0_2_W : List (Ref sig .tc) := [main_v36, main_v37, main_v38, main_v39, main_c_8, main_v40, main_v41, main_c_9, main_v42, main_v43, main_v44, main_v45, main_v46, main_cst_10, main_v47, main_v48, main_v49, main_v50, main_v51, main_v52, main_v53, main_v54, main_v55, main_cst_11, main_v56, main_cst_12, main_v57, main_v58, main_v59, main_cst_13, main_v60, main_v61, main_cst_14, main_v62, main_v63, main_v64, main_cst_15, main_v65, main_v66, main_cst_16, main_v67, main_v68, main_cst_17, main_v69, main_v70, main_v71, main_v72, main_v73, main_v74, main_c_18, main_v75, main_v76, main_c_19, main_v77, main_v78, main_v79, main_v80, main_v81, main_cst_20, main_v82, main_v83, main_v84, main_v85, main_v86, main_v87, main_v88, main_v89, main_v90]
set_option maxHeartbeats 40000000 in
theorem hostOps0_2_writes : (hostOps0_2 : List (HloOp τ sig (Elt F))).Forall fun op => op.writes ⊆ (hostOps0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps0_3` allocates a buffer. -/
theorem hostOps0_3_fresh : (hostOps0_3 : List (HloOp τ sig (Elt F))).Forall fun op => op.fresh = ∅ := by
  simp only [List.Forall]; repeat' constructor
/-- The references `hostOps0_3`'s operations write. -/
abbrev hostOps0_3_W : List (Ref sig .tc) := [main_call1_cst, main_call1_v0, main_v91]
theorem hostOps0_3_writes : (hostOps0_3 : List (HloOp τ sig (Elt F))).Forall fun op => op.writes ⊆ (hostOps0_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 40000000 in
/-- No operation of `hostOps0_4` allocates a buffer. -/
theorem hostOps0_4_fresh : (hostOps0_4 : List (HloOp τ sig (Elt F))).Forall fun op => op.fresh = ∅ := by
  simp only [List.Forall]; repeat' constructor
/-- The references `hostOps0_4`'s operations write. -/
abbrev hostOps0_4_W : List (Ref sig .tc) := [main_v92, main_v93, main_v94, main_v95, main_c_21, main_v96, main_v97, main_c_22, main_v98, main_v99, main_v100, main_v101, main_v102, main_cst_23, main_v103, main_v104, main_v105, main_v106, main_v107, main_v108, main_v109, main_v110, main_v111, main_cst_24, main_v112, main_cst_25, main_v113, main_v114, main_v115, main_cst_26, main_v116, main_v117, main_cst_27, main_v118, main_v119, main_v120, main_cst_28, main_v121, main_v122, main_cst_29, main_v123, main_v124, main_cst_30, main_v125, main_v126, main_v127, main_v128, main_v129, main_v130, main_c_31, main_v131, main_v132, main_c_32, main_v133, main_v134, main_v135, main_v136, main_v137, main_cst_33, main_v138, main_v139, main_v140, main_v141, main_v142, main_v143, main_v144, main_v145, main_v146]
set_option maxHeartbeats 40000000 in
theorem hostOps0_4_writes : (hostOps0_4 : List (HloOp τ sig (Elt F))).Forall fun op => op.writes ⊆ (hostOps0_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps0_5` allocates a buffer. -/
theorem hostOps0_5_fresh : (hostOps0_5 : List (HloOp τ sig (Elt F))).Forall fun op => op.fresh = ∅ := by
  simp only [List.Forall]; repeat' constructor
/-- The references `hostOps0_5`'s operations write. -/
abbrev hostOps0_5_W : List (Ref sig .tc) := [main_call2_cst, main_call2_v0, main_v147]
theorem hostOps0_5_writes : (hostOps0_5 : List (HloOp τ sig (Elt F))).Forall fun op => op.writes ⊆ (hostOps0_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 40000000 in
/-- No operation of `hostOps0_6` allocates a buffer. -/
theorem hostOps0_6_fresh : (hostOps0_6 : List (HloOp τ sig (Elt F))).Forall fun op => op.fresh = ∅ := by
  simp only [List.Forall]; repeat' constructor
/-- The references `hostOps0_6`'s operations write. -/
abbrev hostOps0_6_W : List (Ref sig .tc) := [main_v148, main_v149, main_v150, main_v151, main_c_34, main_v152, main_v153, main_c_35, main_v154, main_v155, main_v156, main_v157, main_v158, main_cst_36, main_v159, main_v160, main_v161, main_v162, main_v163, main_v164, main_v165, main_v166, main_v167, main_v168, main_v169, main_v170, main_v171, main_v172, main_cst_37, main_v173, main_cst_38, main_v174, main_v175, main_v176, main_v177, main_v178, main_v179, main_cst_39, main_v180, main_v181, main_v182, main_v183]
set_option maxHeartbeats 40000000 in
theorem hostOps0_6_writes : (hostOps0_6 : List (HloOp τ sig (Elt F))).Forall fun op => op.writes ⊆ (hostOps0_6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps0_7` allocates a buffer. -/
theorem hostOps0_7_fresh : (hostOps0_7 : List (HloOp τ sig (Elt F))).Forall fun op => op.fresh = ∅ := by
  simp only [List.Forall]; repeat' constructor
/-- The references `hostOps0_7`'s operations write. -/
abbrev hostOps0_7_W : List (Ref sig .tc) := [main_call3_cst, main_call3_v0, main_v184]
theorem hostOps0_7_writes : (hostOps0_7 : List (HloOp τ sig (Elt F))).Forall fun op => op.writes ⊆ (hostOps0_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 40000000 in
/-- No operation of `hostOps0_8` allocates a buffer. -/
theorem hostOps0_8_fresh : (hostOps0_8 : List (HloOp τ sig (Elt F))).Forall fun op => op.fresh = ∅ := by
  simp only [List.Forall]; repeat' constructor
/-- The references `hostOps0_8`'s operations write. -/
abbrev hostOps0_8_W : List (Ref sig .tc) := [main_cst_40, main_v185, main_cst_41, main_v186, main_c_42, main_v187, main_v188, main_c_43, main_v189, main_v190, main_v191, main_c_44, main_v192, main_v193, main_c_45, main_v194, main_v195, main_v196, main_v197, main_v198, main_v199, main_cst_46, main_v200, main_v201, main_v202, main_cst_47, main_v203, main_c_48, main_v204, main_v205, main_c_49, main_v206, main_v207, main_v208, main_c_50, main_v209, main_v210, main_c_51, main_v211, main_v212, main_v213, main_v214, main_v215, main_v216, main_cst_52, main_v217, main_v218, main_v219, main_cst_53, main_v220, main_c_54, main_v221, main_v222, main_c_55, main_v223, main_v224, main_v225, main_c_56, main_v226, main_v227, main_c_57, main_v228, main_v229, main_v230, main_v231, main_v232, main_v233, main_cst_58, main_v234, main_v235, main_v236, main_v237]
set_option maxHeartbeats 40000000 in
theorem hostOps0_8_writes : (hostOps0_8 : List (HloOp τ sig (Elt F))).Forall fun op => op.writes ⊆ (hostOps0_8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v239]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v241, main_v242, main_cst_59, main_v243, main_v244, main_v245, main_v246, main_v247, main_c_60, main_v248, main_v249, main_v250, main_v251, main_v252, main_cst_61, main_v253, main_cst_62, main_v254, main_v255, main_cst_63, main_v256, main_v257, main_v258, main_v259, main_v260]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v262, main_v263, main_v264, main_v265, main_v266, main_v267, main_v268]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps3_1` allocates a buffer. -/
theorem hostOps3_1_fresh : (hostOps3_1 : List (HloOp τ sig (Elt F))).Forall fun op => op.fresh = ∅ := by
  simp only [List.Forall]; repeat' constructor
/-- The references `hostOps3_1`'s operations write. -/
abbrev hostOps3_1_W : List (Ref sig .tc) := [main_call4_cst, main_call4_v0, main_v269]
theorem hostOps3_1_writes : (hostOps3_1 : List (HloOp τ sig (Elt F))).Forall fun op => op.writes ⊆ (hostOps3_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps3_2` allocates a buffer. -/
theorem hostOps3_2_fresh : (hostOps3_2 : List (HloOp τ sig (Elt F))).Forall fun op => op.fresh = ∅ := by
  simp only [List.Forall]; repeat' constructor
/-- The references `hostOps3_2`'s operations write. -/
abbrev hostOps3_2_W : List (Ref sig .tc) := [main_v270, main_v271, main_v272, main_v273]
theorem hostOps3_2_writes : (hostOps3_2 : List (HloOp τ sig (Elt F))).Forall fun op => op.writes ⊆ (hostOps3_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v275, main_v276, main_v277, main_v278, main_v279, main_v280, main_v281, main_cst_64, main_v282, main_v283, main_v284]
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- The launch's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31]
/-- No operation of `hostOps0` writes an argument. -/
theorem hostOps0_args : ∀ r ∈ argRefs, r ∉ hostOps0_W := by decide
/-- No operation of `hostOps0_1` writes an argument. -/
theorem hostOps0_1_args : ∀ r ∈ argRefs, r ∉ hostOps0_1_W := by decide
/-- No operation of `hostOps0_2` writes an argument. -/
theorem hostOps0_2_args : ∀ r ∈ argRefs, r ∉ hostOps0_2_W := by decide
/-- No operation of `hostOps0_3` writes an argument. -/
theorem hostOps0_3_args : ∀ r ∈ argRefs, r ∉ hostOps0_3_W := by decide
/-- No operation of `hostOps0_4` writes an argument. -/
theorem hostOps0_4_args : ∀ r ∈ argRefs, r ∉ hostOps0_4_W := by decide
/-- No operation of `hostOps0_5` writes an argument. -/
theorem hostOps0_5_args : ∀ r ∈ argRefs, r ∉ hostOps0_5_W := by decide
/-- No operation of `hostOps0_6` writes an argument. -/
theorem hostOps0_6_args : ∀ r ∈ argRefs, r ∉ hostOps0_6_W := by decide
/-- No operation of `hostOps0_7` writes an argument. -/
theorem hostOps0_7_args : ∀ r ∈ argRefs, r ∉ hostOps0_7_W := by decide
/-- No operation of `hostOps0_8` writes an argument. -/
theorem hostOps0_8_args : ∀ r ∈ argRefs, r ∉ hostOps0_8_W := by decide
/-- No operation of `hostOps1` writes an argument. -/
theorem hostOps1_args : ∀ r ∈ argRefs, r ∉ hostOps1_W := by decide
/-- No operation of `hostOps2` writes an argument. -/
theorem hostOps2_args : ∀ r ∈ argRefs, r ∉ hostOps2_W := by decide
/-- No operation of `hostOps3` writes an argument. -/
theorem hostOps3_args : ∀ r ∈ argRefs, r ∉ hostOps3_W := by decide
/-- No operation of `hostOps3_1` writes an argument. -/
theorem hostOps3_1_args : ∀ r ∈ argRefs, r ∉ hostOps3_1_W := by decide
/-- No operation of `hostOps3_2` writes an argument. -/
theorem hostOps3_2_args : ∀ r ∈ argRefs, r ∉ hostOps3_2_W := by decide
/-- No operation of `hostOps4` writes an argument. -/
theorem hostOps4_args : ∀ r ∈ argRefs, r ∉ hostOps4_W := by decide

end Cert.Kernel.Hand

end
-- ==== Proof.KbR0Runs.lean ====
import proofs.«122112_j6631429505271_1_alg».proof.Proof.Gen.Kernel.Launch
import proofs.«122112_j6631429505271_1_alg».proof.Proof.Gen.Kernel.Skeleton
import proofs.«122112_j6631429505271_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions (region 0) -/

/-- The condition of the body's first conditional, from the grid coordinates (the scalar chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional, from the grid coordinates. -/
abbrev cond0_1 (i : grid0.Coords) : Prop := k0_cond2 i = 1#1
/-- It holds at the points ≡ 7 (mod 8) — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Windows 0, 1, 2 are never idle (inputs). -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the points of case A output 3 is idle: the case stores nothing into it. -/
theorem idleAt0_3_A : ∀ t : Fin cfg0.N, cond0_0 (grid0.coords t) → ¬cond0_1 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → (cfg0.win 3).flush t = false := by decide +kernel
/-- At the points of case B output 3 is idle: the case stores nothing into it. -/
theorem idleAt0_3_B : ∀ t : Fin cfg0.N, ¬cond0_0 (grid0.coords t) → ¬cond0_1 (grid0.coords t) → cfg0.idle 3 (grid0.coords t) = true := by decide +kernel
/-- At the points of case B the pipeline does not write output 3's block back. -/
theorem noFlush0_3_B : ∀ t : Fin cfg0.N, ¬cond0_0 (grid0.coords t) → ¬cond0_1 (grid0.coords t) → (cfg0.win 3).flush t = false := by decide +kernel
/-- At the points of case C output 3 is live: the case stores into it. -/
theorem liveAt0_3_C : ∀ t : Fin cfg0.N, ¬cond0_0 (grid0.coords t) → cond0_1 (grid0.coords t) → cfg0.idle 3 (grid0.coords t) = false := by decide +kernel

/-! ## The kernel body on any staging memrefs -/

/-- One staging buffer of output window 3, through which its contents are stated (the choice does not matter). -/
abbrev VO0_3 : View sig .tc .vmem S512x2048 .f32 := (Memref.whole cc0_stg3_0 : Memref sig .tc .vmem S512x2048 .f32).view
/-- Each window's current staging memref at point `t`, spelled as the pipeline passes it, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
/-- The scratch operand: a whole scoped buffer of the kernel's own, passed beside the windows. -/
abbrev scM0_0 : Memref sig .tc .vmem S512x2048 .f32 := Memref.whole cc0_scratch0
/-- The scratch the kernel carries between points, as a view: what it holds is stated through it. -/
abbrev VS0_0 : View sig .tc .vmem S512x2048 .f32 := scM0_0.view

/-- The region's invariant with the scratch operand as a memref owned at some contents, the other scoped buffers
    unopened: what the body obligation hands the run and takes back. -/
theorem PhiA0_eq (c : Dev nD) :
    (Pipeline.ΦA spec0 c : sProp 𝕄)
      = iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Hand

end
-- ==== Proof.KbR0RunA.lean ====
import proofs.«122112_j6631429505271_1_alg».proof.Proof.KbR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's memref and in the scratch, as pieces (last first), IN CASE A (first conditional taken, second not: the first step of a reduction),
    WITH the triple: on whole memrefs — the inputs' at their contents, the output's at contents handed back untouched, the scratch
    at anything — the body runs to the continuation holding the inputs' as they were, the scratch
    with its pieces written. -/
noncomputable def kernelRun0_A (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x512 .f32) (x1 : Vec F S512x2048 .f32) (x2 : Vec F S1x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨[], ?_, fun xi3 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KbR0RunB.lean ====
import proofs.«122112_j6631429505271_1_alg».proof.Proof.KbR0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's memref and in the scratch, as pieces (last first), IN CASE B (neither conditional taken: a middle step of a reduction),
    WITH the triple: on whole memrefs — the inputs' at their contents, the output's at contents handed back untouched, the scratch
    at the contents the point before left — the body runs to the continuation holding the inputs' as they were, the scratch
    with its pieces written. -/
noncomputable def kernelRun0_B (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x512 .f32) (x1 : Vec F S512x2048 .f32) (x2 : Vec F S1x2048 .f32) (xs0 : Vec F S512x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨[], ?_, fun xi3 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KbR0RunC.lean ====
import proofs.«122112_j6631429505271_1_alg».proof.Proof.KbR0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's memref and in the scratch, as pieces (last first), IN CASE C (first conditional not taken, second taken: the last step of a reduction),
    WITH the triple: on whole memrefs — the inputs' at their contents, the output's at anything, the scratch
    at the contents the point before left — the body runs to the continuation holding the inputs' as they were, the output's with its pieces written, the scratch
    with its pieces written. -/
noncomputable def kernelRun0_C (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S512x2048 .f32) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KbR0Body.lean ====
import proofs.«122112_j6631429505271_1_alg».proof.Proof.KbR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # REGION 0: pipeline 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof
    data whose array is `V`'s and whose body leaves the block in place: the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output's buffer and in the scratch -/

/-- Case A stores nothing into output 3 (idle at its points and not written back there): no pieces, a placeholder nothing consults. -/
def out0_A_3 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x512 .f32) (x1 : Vec F S512x2048 .f32) (x2 : Vec F S1x2048 .f32) : Vec F S512x2048 .f32 :=
  VO0_3.read (Elt F) (VO0_3.writes (Elt F) VO0_3.junk (kernelRun0_A c i arg3 harg3 arg4 harg4 arg5 harg5 arg6 harg6 arg7 harg7 hc0 hc1 x0 x1 x2).1)

/-- Case A's pieces for the scratch, which the kernel carries between points, cover it. -/
theorem scover0_A_0 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x512 .f32) (x1 : Vec F S512x2048 .f32) (x2 : Vec F S1x2048 .f32) (y : S512x2048.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S512x2048.size (by sl_kernel_rfl) y

/-- What case A leaves in the scratch: its pieces read back. -/
def sout0_A_0 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x512 .f32) (x1 : Vec F S512x2048 .f32) (x2 : Vec F S1x2048 .f32) : Vec F S512x2048 .f32 :=
  VS0_0.read (Elt F) (VS0_0.writes (Elt F) VS0_0.junk (kernelRun0_A c i arg3 harg3 arg4 harg4 arg5 harg5 arg6 harg6 arg7 harg7 hc0 hc1 x0 x1 x2).2.1)

/-- Case B stores nothing into output 3 (idle at its points and not written back there): no pieces, a placeholder nothing consults. -/
def out0_B_3 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x512 .f32) (x1 : Vec F S512x2048 .f32) (x2 : Vec F S1x2048 .f32) (xs0 : Vec F S512x2048 .f32) : Vec F S512x2048 .f32 :=
  VO0_3.read (Elt F) (VO0_3.writes (Elt F) VO0_3.junk (kernelRun0_B c i arg3 harg3 arg4 harg4 arg5 harg5 arg6 harg6 arg7 harg7 hc0 hc1 x0 x1 x2 xs0).1)

/-- Case B's pieces for the scratch, which the kernel carries between points, cover it. -/
theorem scover0_B_0 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x512 .f32) (x1 : Vec F S512x2048 .f32) (x2 : Vec F S1x2048 .f32) (xs0 : Vec F S512x2048 .f32) (y : S512x2048.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S512x2048.size (by sl_kernel_rfl) y

/-- What case B leaves in the scratch: its pieces read back. -/
def sout0_B_0 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x512 .f32) (x1 : Vec F S512x2048 .f32) (x2 : Vec F S1x2048 .f32) (xs0 : Vec F S512x2048 .f32) : Vec F S512x2048 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- Case C's pieces for output 3 tile its block, so they cover it. -/
theorem cover0_C_3 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S512x2048 .f32) (x2 : Vec F S1x2048 .f32) (xs0 : Vec F S512x2048 .f32) (y : S512x2048.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S512x2048.size (by sl_kernel_rfl) y

/-- What case C leaves in output 3's staging buffer: its pieces read back. -/
def out0_C_3 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S512x2048 .f32) (x2 : Vec F S1x2048 .f32) (xs0 : Vec F S512x2048 .f32) : Vec F S512x2048 .f32 :=
  VO0_3.read (Elt F) (VO0_3.writes (Elt F) VO0_3.junk (kernelRun0_C c i arg3 harg3 arg4 harg4 arg5 harg5 arg6 harg6 arg7 harg7 hc0 hc1 x0 x1 x2 xs0).1)

/-- Case C's pieces for the scratch, which the kernel carries between points, cover it. -/
theorem scover0_C_0 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S512x2048 .f32) (x2 : Vec F S1x2048 .f32) (xs0 : Vec F S512x2048 .f32) (y : S512x2048.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S512x2048.size (by sl_kernel_rfl) y

/-- What case C leaves in the scratch: its pieces read back. -/
def sout0_C_0 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S512x2048 .f32) (x2 : Vec F S1x2048 .f32) (xs0 : Vec F S512x2048 .f32) : Vec F S512x2048 .f32 :=
  VS0_0.read (Elt F) (VS0_0.writes (Elt F) VS0_0.junk (kernelRun0_C c i arg3 harg3 arg4 harg4 arg5 harg5 arg6 harg6 arg7 harg7 hc0 hc1 x0 x1 x2 xs0).2.1)

/-! ## What the output and the scratch hold after each point -/

/-- THE ACCUMULATION. What the output's staging buffer and the scratch hold after the body at position `n` (a pair:
    the output, then the scratch): the case the closed forms select at `n`, run at the point's memrefs and input
    blocks, over the scratch as the point before left it. -/
def outsAt0 (c : Dev nD) : (n : ℕ) → n < cfg0.N → Vec F S512x2048 .f32 × Vec F S512x2048 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the scratch at what the point before left in it, the other scoped buffers unopened, and the generator
    register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2)) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's contents. -/
theorem PhiS0_succ (c : Dev nD) (n : ℕ) (hn : n < cfg0.N) :
    PhiS0 V c (n + 1) hn = iprop(iprop(iprop(owns (c : Thread nD τ) scM0_0 fullShare ((outsAt0 V c n hn).2)) ∗ Pipeline.scopedRestBut (Ix := Unit) (Name := ℕ) (U := UR sig nD τ) (Lvl := ℕ) (Val := Elt F) spec0 c [cc0_scratch0]) ∗ (∃ r, prngReg c r)) := rfl

/-- Before a point that is not the first: the scratch at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in;
    so that case's run applies; the invariant hands the body the scratch at what the point before left (at anything
    at the first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      ·
        rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end

end Cert.Kernel.Hand

end
-- ==== Proof.KbR1Runs.lean ====
import proofs.«122112_j6631429505271_1_alg».proof.Proof.Gen.Kernel.Launch
import proofs.«122112_j6631429505271_1_alg».proof.Proof.Gen.Kernel.Skeleton
import proofs.«122112_j6631429505271_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions (region 1) -/

/-- The condition of the body's first conditional, from the grid coordinates (the scalar chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional, from the grid coordinates. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Windows 0, 1, 2 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A output 3 is idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B output 3 is idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C output 3 is live: the case stores into it. -/
theorem liveAt1_3_C : ∀ t : Fin cfg1.N, ¬cond1_0 (grid1.coords t) → cond1_1 (grid1.coords t) → cfg1.idle 3 (grid1.coords t) = false := by decide +kernel

/-! ## The kernel body on any staging memrefs -/

/-- One staging buffer of output window 3, through which its contents are stated (the choice does not matter). -/
abbrev VO1_3 : View sig .tc .vmem S512x2048 .f32 := (Memref.whole cc1_stg3_0 : Memref sig .tc .vmem S512x2048 .f32).view
/-- Each window's current staging memref at point `t`, spelled as the pipeline passes it, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S512x2048 .f32 := Memref.whole cc1_scratch0
/-- The scratch the kernel carries between points, as a view: what it holds is stated through it. -/
abbrev VS1_0 : View sig .tc .vmem S512x2048 .f32 := scM1_0.view

/-- The region's invariant with the scratch operand as a memref owned at some contents, the other scoped buffers
    unopened: what the body obligation hands the run and takes back. -/
theorem PhiA1_eq (c : Dev nD) :
    (Pipeline.ΦA spec1 c : sProp 𝕄)
      = iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.KbR1RunA.lean ====
import proofs.«122112_j6631429505271_1_alg».proof.Proof.KbR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's memref and in the scratch, as pieces (last first), IN CASE A (first conditional taken, second not: the first step of a reduction),
    WITH the triple: on whole memrefs — the inputs' at their contents, the output's at contents handed back untouched, the scratch
    at anything — the body runs to the continuation holding the inputs' as they were, the scratch
    with its pieces written. -/
noncomputable def kernelRun1_A (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .f32) (x1 : Vec F S512x2048 .f32) (x2 : Vec F S1x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KbR1RunB.lean ====
import proofs.«122112_j6631429505271_1_alg».proof.Proof.KbR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's memref and in the scratch, as pieces (last first), IN CASE B (neither conditional taken: a middle step of a reduction),
    WITH the triple: on whole memrefs — the inputs' at their contents, the output's at contents handed back untouched, the scratch
    at the contents the point before left — the body runs to the continuation holding the inputs' as they were, the scratch
    with its pieces written. -/
noncomputable def kernelRun1_B (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .f32) (x1 : Vec F S512x2048 .f32) (x2 : Vec F S1x2048 .f32) (xs0 : Vec F S512x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KbR1RunC.lean ====
import proofs.«122112_j6631429505271_1_alg».proof.Proof.KbR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's memref and in the scratch, as pieces (last first), IN CASE C (first conditional not taken, second taken: the last step of a reduction),
    WITH the triple: on whole memrefs — the inputs' at their contents, the output's at anything, the scratch
    at the contents the point before left — the body runs to the continuation holding the inputs' as they were, the output's with its pieces written, the scratch
    with its pieces written. -/
noncomputable def kernelRun1_C (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .f32) (x1 : Vec F S512x2048 .f32) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KbR1Body.lean ====
import proofs.«122112_j6631429505271_1_alg».proof.Proof.KbR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # REGION 1: pipeline 1, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof
    data whose array is `V`'s and whose body leaves the block in place: the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer and in the scratch -/

/-- Case A stores nothing into output 3 (idle at its points and not written back there): no pieces, a placeholder nothing consults. -/
def out1_A_3 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .f32) (x1 : Vec F S512x2048 .f32) (x2 : Vec F S1x2048 .f32) : Vec F S512x2048 .f32 :=
  VO1_3.read (Elt F) (VO1_3.writes (Elt F) VO1_3.junk (kernelRun1_A c i arg3 harg3 arg4 harg4 arg5 harg5 arg6 harg6 arg7 harg7 hc0 hc1 x0 x1 x2).1)

/-- Case A's pieces for the scratch, which the kernel carries between points, cover it. -/
theorem scover1_A_0 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .f32) (x1 : Vec F S512x2048 .f32) (x2 : Vec F S1x2048 .f32) (y : S512x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S512x2048.size (by sl_kernel_rfl) y

/-- What case A leaves in the scratch: its pieces read back. -/
def sout1_A_0 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .f32) (x1 : Vec F S512x2048 .f32) (x2 : Vec F S1x2048 .f32) : Vec F S512x2048 .f32 :=
  VS1_0.read (Elt F) (VS1_0.writes (Elt F) VS1_0.junk (kernelRun1_A c i arg3 harg3 arg4 harg4 arg5 harg5 arg6 harg6 arg7 harg7 hc0 hc1 x0 x1 x2).2.1)

/-- Case B stores nothing into output 3 (idle at its points and not written back there): no pieces, a placeholder nothing consults. -/
def out1_B_3 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .f32) (x1 : Vec F S512x2048 .f32) (x2 : Vec F S1x2048 .f32) (xs0 : Vec F S512x2048 .f32) : Vec F S512x2048 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's pieces for the scratch, which the kernel carries between points, cover it. -/
theorem scover1_B_0 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .f32) (x1 : Vec F S512x2048 .f32) (x2 : Vec F S1x2048 .f32) (xs0 : Vec F S512x2048 .f32) (y : S512x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S512x2048.size (by sl_kernel_rfl) y

/-- What case B leaves in the scratch: its pieces read back. -/
def sout1_B_0 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .f32) (x1 : Vec F S512x2048 .f32) (x2 : Vec F S1x2048 .f32) (xs0 : Vec F S512x2048 .f32) : Vec F S512x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's pieces for output 3 tile its block, so they cover it. -/
theorem cover1_C_3 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .f32) (x1 : Vec F S512x2048 .f32) (x2 : Vec F S1x2048 .f32) (xs0 : Vec F S512x2048 .f32) (y : S512x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S512x2048.size (by sl_kernel_rfl) y

/-- What case C leaves in output 3's staging buffer: its pieces read back. -/
def out1_C_3 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .f32) (x1 : Vec F S512x2048 .f32) (x2 : Vec F S1x2048 .f32) (xs0 : Vec F S512x2048 .f32) : Vec F S512x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's pieces for the scratch, which the kernel carries between points, cover it. -/
theorem scover1_C_0 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .f32) (x1 : Vec F S512x2048 .f32) (x2 : Vec F S1x2048 .f32) (xs0 : Vec F S512x2048 .f32) (y : S512x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S512x2048.size (by sl_kernel_rfl) y

/-- What case C leaves in the scratch: its pieces read back. -/
def sout1_C_0 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .f32) (x1 : Vec F S512x2048 .f32) (x2 : Vec F S1x2048 .f32) (xs0 : Vec F S512x2048 .f32) : Vec F S512x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output and the scratch hold after each point -/

/-- THE ACCUMULATION. What the output's staging buffer and the scratch hold after the body at position `n` (a pair:
    the output, then the scratch): the case the closed forms select at `n`, run at the point's memrefs and input
    blocks, over the scratch as the point before left it. -/
def outsAt1 (c : Dev nD) : (n : ℕ) → n < cfg1.N → Vec F S512x2048 .f32 × Vec F S512x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the scratch at what the point before left in it, the other scoped buffers unopened, and the generator
    register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    so that case's run applies; the invariant hands the body the scratch at what the point before left (at anything
    at the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end

end Cert.Kernel.Hand

end
-- ==== Proof.KbR2Runs.lean ====
import proofs.«122112_j6631429505271_1_alg».proof.Proof.Gen.Kernel.Launch
import proofs.«122112_j6631429505271_1_alg».proof.Proof.Gen.Kernel.Skeleton
import proofs.«122112_j6631429505271_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: what the three runs of its body share -/

/-! ## The body's branch conditions -/

/-- The condition of the body's first `scf.if` (reset the accumulator), from the grid coordinates: the reduction
    coordinate is zero. -/
abbrev cond2_0 (i : grid2.Coords) : Prop := (Scalar.cmpi .ne (Scalar.extui (Scalar.cmpi .eq (BitVec.ofNat 32 (i 2).val) 0#32)) 0#32) = 1#1
/-- It holds at the points ≡ 0 (mod 8) — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second `scf.if` (store the output): the reduction coordinate is the last. -/
abbrev cond2_1 (i : grid2.Coords) : Prop := k2_cond2 i = 1#1
/-- It holds at the points ≡ 7 (mod 8) — decided over the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- Windows 0, 1, 2 are never idle (inputs). -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the points of case A output 3 is idle: the case stores nothing into it. -/
theorem idleAt2_3_A : ∀ t : Fin cfg2.N, cond2_0 (grid2.coords t) → ¬cond2_1 (grid2.coords t) → cfg2.idle 3 (grid2.coords t) = true := by decide +kernel
/-- At the points of case A output 3's block is not written back. -/
theorem noFlush2_3_A : ∀ t : Fin cfg2.N, cond2_0 (grid2.coords t) → ¬cond2_1 (grid2.coords t) → (cfg2.win 3).flush t = false := by decide +kernel
/-- At the points of case B output 3 is idle: the case stores nothing into it. -/
theorem idleAt2_3_B : ∀ t : Fin cfg2.N, ¬cond2_0 (grid2.coords t) → ¬cond2_1 (grid2.coords t) → cfg2.idle 3 (grid2.coords t) = true := by decide +kernel
/-- At the points of case B output 3's block is not written back. -/
theorem noFlush2_3_B : ∀ t : Fin cfg2.N, ¬cond2_0 (grid2.coords t) → ¬cond2_1 (grid2.coords t) → (cfg2.win 3).flush t = false := by decide +kernel
/-- At the points of case C output 3 is live: the case stores into it. -/
theorem liveAt2_3_C : ∀ t : Fin cfg2.N, ¬cond2_0 (grid2.coords t) → cond2_1 (grid2.coords t) → cfg2.idle 3 (grid2.coords t) = false := by decide +kernel

/-! ## The staging and scratch memrefs -/

/-- One staging buffer of output window 3, through which its contents are stated (the choice does not matter). -/
abbrev VO2_3 : View sig .tc .vmem S512x64 .f32 := (Memref.whole cc2_stg3_0 : Memref sig .tc .vmem S512x64 .f32).view
/-- Each window's current staging memref at point `t`, spelled as the pipeline passes it, and its wholeness. -/
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x64 .f32 := win2_3.stage (cfg2.slots t 3)
abbrev hs2_3 (t : Fin cfg2.N) : (ms2_3 t).IsWhole := hstage2_3 ((cfg2.slots t 3).cast nbuf2_3)
/-- The scratch operand: a whole scoped buffer of the kernel's own, passed beside the windows. -/
abbrev scM2_0 : Memref sig .tc .vmem S512x64 .f32 := Memref.whole cc2_scratch0
/-- The scratch the kernel carries between points, as a view: what it holds is stated through it. -/
abbrev VS2_0 : View sig .tc .vmem S512x64 .f32 := scM2_0.view

/-- Every other scoped buffer of the core (the other calls' staging buffers and scratch), unopened. -/
abbrev rest2 (c : Dev nD) : sProp 𝕄 :=
  Pipeline.scopedRestBut (Ix := Unit) (Name := ℕ) (U := UR sig nD τ) (Lvl := ℕ) (Val := Elt F) spec2 c [cc2_scratch0]

/-- The region's invariant with the scratch operand as a memref owned at some contents, beside the unopened rest and
    the generator register: what the body obligation hands the run and takes back. -/
theorem PhiA2_eq (c : Dev nD) :
    (Pipeline.ΦA spec2 c : sProp 𝕄)
      = iprop(iprop(iprop((∃ d, owns (c : Thread nD τ) scM2_0 fullShare d)) ∗ rest2 c) ∗ (∃ r, prngReg c r)) := by
  unfold Pipeline.ΦA; rw [scopedRest2_split]; simp only [scM2_0, owns_whole]; try rfl

end Cert.Kernel.Hand

end
-- ==== Proof.KbR2RunA.lean ====
import proofs.«122112_j6631429505271_1_alg».proof.Proof.KbR2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref (`L3`) and in the scratch accumulator (`LS0`), as
    pieces (last first), IN CASE A (the accumulator is reset and the product added; nothing is stored into the output), WITH the proof that on whole memrefs — the three inputs' at their
    contents, the output's at contents `xi3` handed back untouched, the scratch at anything — the body runs to the
    continuation holding the inputs' as they were and the scratch with its pieces written. -/
noncomputable def kernelRun2_A (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x512 .f32) (x1 : Vec F S512x64 .f32) (x2 : Vec F S1x64 .f32) :
    Σ' (L3 : List (View.Piece (Elt F) S512x64 .f32)), { LS0 : List (View.Piece (Elt F) S512x64 .f32) //
      ∀ (xi3 : Vec F S512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨[], ?_, fun xi3 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KbR2RunB.lean ====
import proofs.«122112_j6631429505271_1_alg».proof.Proof.KbR2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref (`L3`) and in the scratch accumulator (`LS0`), as
    pieces (last first), IN CASE B (the product is added to the accumulator; nothing is stored into the output), WITH the proof that on whole memrefs — the three inputs' at their
    contents, the output's at contents `xi3` handed back untouched, the scratch at the contents `xs0` the point before left — the body runs to the
    continuation holding the inputs' as they were and the scratch with its pieces written. -/
noncomputable def kernelRun2_B (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x512 .f32) (x1 : Vec F S512x64 .f32) (x2 : Vec F S1x64 .f32) (xs0 : Vec F S512x64 .f32) :
    Σ' (L3 : List (View.Piece (Elt F) S512x64 .f32)), { LS0 : List (View.Piece (Elt F) S512x64 .f32) //
      ∀ (xi3 : Vec F S512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨[], ?_, fun xi3 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KbR2RunC.lean ====
import proofs.«122112_j6631429505271_1_alg».proof.Proof.KbR2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref (`L3`) and in the scratch accumulator (`LS0`), as
    pieces (last first), IN CASE C (the product is added to the accumulator and the output is stored from it and the bias), WITH the proof that on whole memrefs — the three inputs' at their
    contents, the output's at anything, the scratch at the contents `xs0` the point before left — the body runs to the
    continuation holding the inputs' as they were, the output's with its pieces written and the scratch with its pieces written. -/
noncomputable def kernelRun2_C (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x512 .f32) (x1 : Vec F S512x64 .f32) (x2 : Vec F S1x64 .f32) (xs0 : Vec F S512x64 .f32) :
    Σ' (L3 : List (View.Piece (Elt F) S512x64 .f32)), { LS0 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KbR2Body.lean ====
import proofs.«122112_j6631429505271_1_alg».proof.Proof.KbR2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered: the parameter the region's half is stated at
variable (V : (c : Dev nD) → (b : Ref sig .tc) → Buf (Elt F) ((c : Thread nD τ).loc b))

/-! # Region 2: the matrix-product kernel of pipeline 2, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for ANY proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the output's buffer and in the accumulator -/

/-- Case A stores nothing into output 3 (the window is idle at its points and not written back there): no pieces —
    a placeholder that nothing consults. -/
def out2_A_3 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x512 .f32) (x1 : Vec F S512x64 .f32) (x2 : Vec F S1x64 .f32) : Vec F S512x64 .f32 :=
  VO2_3.read (Elt F) (VO2_3.writes (Elt F) VO2_3.junk (kernelRun2_A c i arg3 harg3 arg4 harg4 arg5 harg5 arg6 harg6 arg7 harg7 hc0 hc1 x0 x1 x2).1)

/-- Case A's pieces for the scratch accumulator cover it (whole stores). -/
theorem scover2_A_0 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x512 .f32) (x1 : Vec F S512x64 .f32) (x2 : Vec F S1x64 .f32) (y : S512x64.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S512x64.size (by sl_kernel_rfl) y

/-- What case A leaves in the scratch accumulator: its pieces read back over junk. -/
def sout2_A_0 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x512 .f32) (x1 : Vec F S512x64 .f32) (x2 : Vec F S1x64 .f32) : Vec F S512x64 .f32 :=
  VS2_0.read (Elt F) (VS2_0.writes (Elt F) VS2_0.junk (kernelRun2_A c i arg3 harg3 arg4 harg4 arg5 harg5 arg6 harg6 arg7 harg7 hc0 hc1 x0 x1 x2).2.1)

/-- Case B stores nothing into output 3 (the window is idle at its points and not written back there): no pieces —
    a placeholder that nothing consults. -/
def out2_B_3 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x512 .f32) (x1 : Vec F S512x64 .f32) (x2 : Vec F S1x64 .f32) (xs0 : Vec F S512x64 .f32) : Vec F S512x64 .f32 :=
  VO2_3.read (Elt F) (VO2_3.writes (Elt F) VO2_3.junk (kernelRun2_B c i arg3 harg3 arg4 harg4 arg5 harg5 arg6 harg6 arg7 harg7 hc0 hc1 x0 x1 x2 xs0).1)

/-- Case B's pieces for the scratch accumulator cover it (whole stores). -/
theorem scover2_B_0 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x512 .f32) (x1 : Vec F S512x64 .f32) (x2 : Vec F S1x64 .f32) (xs0 : Vec F S512x64 .f32) (y : S512x64.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S512x64.size (by sl_kernel_rfl) y

/-- What case B leaves in the scratch accumulator: its pieces read back over junk. -/
def sout2_B_0 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x512 .f32) (x1 : Vec F S512x64 .f32) (x2 : Vec F S1x64 .f32) (xs0 : Vec F S512x64 .f32) : Vec F S512x64 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- Case C's pieces for output 3 tile its block (one whole store), so they cover it. -/
theorem cover2_C_3 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x512 .f32) (x1 : Vec F S512x64 .f32) (x2 : Vec F S1x64 .f32) (xs0 : Vec F S512x64 .f32) (y : S512x64.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S512x64.size (by sl_kernel_rfl) y

/-- What case C leaves in output 3's staging buffer: its pieces read back over junk. -/
def out2_C_3 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x512 .f32) (x1 : Vec F S512x64 .f32) (x2 : Vec F S1x64 .f32) (xs0 : Vec F S512x64 .f32) : Vec F S512x64 .f32 :=
  VO2_3.read (Elt F) (VO2_3.writes (Elt F) VO2_3.junk (kernelRun2_C c i arg3 harg3 arg4 harg4 arg5 harg5 arg6 harg6 arg7 harg7 hc0 hc1 x0 x1 x2 xs0).1)

/-- Case C's pieces for the scratch accumulator cover it (whole stores). -/
theorem scover2_C_0 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x512 .f32) (x1 : Vec F S512x64 .f32) (x2 : Vec F S1x64 .f32) (xs0 : Vec F S512x64 .f32) (y : S512x64.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S512x64.size (by sl_kernel_rfl) y

/-- What case C leaves in the scratch accumulator: its pieces read back over junk. -/
def sout2_C_0 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x512 .f32) (x1 : Vec F S512x64 .f32) (x2 : Vec F S1x64 .f32) (xs0 : Vec F S512x64 .f32) : Vec F S512x64 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## What the output and the accumulator hold after each point -/

/-- THE ACCUMULATION. What output 3's staging buffer and the scratch accumulator hold after the body at position `n`
    (a pair: the output, then the scratch): the case the closed forms select at `n`, run at the point's memrefs and
    input blocks, the accumulator at what this leaves at `n - 1`. The two conditions never hold together. -/
def outsAt2 (c : Dev nD) : (n : ℕ) → n < cfg2.N → Vec F S512x64 .f32 × Vec F S512x64 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 8 = 0) (h1 : ¬t.val % 8 = 7) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 8 = 0) (h1 : ¬t.val % 8 = 7) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 8 = 0) (h1 : t.val % 8 = 7) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the scratch at anything);
    afterwards the scratch accumulator at what the point before left in it, the unopened rest and the generator
    register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ rest2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(iprop(owns (c : Thread nD τ) scM2_0 fullShare ((outsAt2 V c n hn).2)) ∗ rest2 c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ rest2 c) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the output's at `outsAt2`; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; so
    that case's run applies; the invariant hands the body the accumulator at what the point before left (at anything at
    the first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 8 = 0
  · by_cases h1 : t.val % 8 = 7
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      ·
        rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Region2

end Cert.Kernel.Hand

end
-- ==== Proof.KbR3Runs.lean ====
import proofs.«122112_j6631429505271_1_alg».proof.Proof.Gen.Kernel.Launch
import proofs.«122112_j6631429505271_1_alg».proof.Proof.Gen.Kernel.Skeleton
import proofs.«122112_j6631429505271_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: what the three runs of its body share -/

/-! ## The body's branch conditions -/

/-- The condition of the body's first `scf.if` (reset the accumulator), from the grid coordinates: the reduction
    coordinate is zero. -/
abbrev cond3_0 (i : grid3.Coords) : Prop := (Scalar.cmpi .ne (Scalar.extui (Scalar.cmpi .eq (BitVec.ofNat 32 (i 2).val) 0#32)) 0#32) = 1#1
/-- It holds at the points ≡ 0 (mod 8) — decided over the grid. -/
theorem hcond3_0 : ∀ t : Fin cfg3.N, cond3_0 (grid3.coords t) ↔ t.val % 8 = 0 :=
  (by decide +kernel : ∀ t : Fin grid3.N, cond3_0 (grid3.coords t) ↔ t.val % 8 = 0)

/-- The condition of the body's second `scf.if` (store the output): the reduction coordinate is the last. -/
abbrev cond3_1 (i : grid3.Coords) : Prop := k3_cond2 i = 1#1
/-- It holds at the points ≡ 7 (mod 8) — decided over the grid. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- Windows 0, 1, 2 are never idle (inputs). -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At the points of case A output 3 is idle: the case stores nothing into it. -/
theorem idleAt3_3_A : ∀ t : Fin cfg3.N, cond3_0 (grid3.coords t) → ¬cond3_1 (grid3.coords t) → cfg3.idle 3 (grid3.coords t) = true := by decide +kernel
/-- At the points of case A output 3's block is not written back. -/
theorem noFlush3_3_A : ∀ t : Fin cfg3.N, cond3_0 (grid3.coords t) → ¬cond3_1 (grid3.coords t) → (cfg3.win 3).flush t = false := by decide +kernel
/-- At the points of case B output 3 is idle: the case stores nothing into it. -/
theorem idleAt3_3_B : ∀ t : Fin cfg3.N, ¬cond3_0 (grid3.coords t) → ¬cond3_1 (grid3.coords t) → cfg3.idle 3 (grid3.coords t) = true := by decide +kernel
/-- At the points of case B output 3's block is not written back. -/
theorem noFlush3_3_B : ∀ t : Fin cfg3.N, ¬cond3_0 (grid3.coords t) → ¬cond3_1 (grid3.coords t) → (cfg3.win 3).flush t = false := by decide +kernel
/-- At the points of case C output 3 is live: the case stores into it. -/
theorem liveAt3_3_C : ∀ t : Fin cfg3.N, ¬cond3_0 (grid3.coords t) → cond3_1 (grid3.coords t) → cfg3.idle 3 (grid3.coords t) = false := by decide +kernel

/-! ## The staging and scratch memrefs -/

/-- One staging buffer of output window 3, through which its contents are stated (the choice does not matter). -/
abbrev VO3_3 : View sig .tc .vmem S512x64 .f32 := (Memref.whole cc3_stg3_0 : Memref sig .tc .vmem S512x64 .f32).view
/-- Each window's current staging memref at point `t`, spelled as the pipeline passes it, and its wholeness. -/
abbrev ms3_0 (t : Fin cfg3.N) : Memref sig .tc .vmem S512x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x64 .f32 := win3_3.stage (cfg3.slots t 3)
abbrev hs3_3 (t : Fin cfg3.N) : (ms3_3 t).IsWhole := hstage3_3 ((cfg3.slots t 3).cast nbuf3_3)
/-- The scratch operand: a whole scoped buffer of the kernel's own, passed beside the windows. -/
abbrev scM3_0 : Memref sig .tc .vmem S512x64 .f32 := Memref.whole cc3_scratch0
/-- The scratch the kernel carries between points, as a view: what it holds is stated through it. -/
abbrev VS3_0 : View sig .tc .vmem S512x64 .f32 := scM3_0.view

/-- Every other scoped buffer of the core (the other calls' staging buffers and scratch), unopened. -/
abbrev rest3 (c : Dev nD) : sProp 𝕄 :=
  Pipeline.scopedRestBut (Ix := Unit) (Name := ℕ) (U := UR sig nD τ) (Lvl := ℕ) (Val := Elt F) spec3 c [cc3_scratch0]

/-- The region's invariant with the scratch operand as a memref owned at some contents, beside the unopened rest and
    the generator register: what the body obligation hands the run and takes back. -/
theorem PhiA3_eq (c : Dev nD) :
    (Pipeline.ΦA spec3 c : sProp 𝕄)
      = iprop(iprop(iprop((∃ d, owns (c : Thread nD τ) scM3_0 fullShare d)) ∗ rest3 c) ∗ (∃ r, prngReg c r)) := by
  unfold Pipeline.ΦA; rw [scopedRest3_split]; simp only [scM3_0, owns_whole]; try rfl

end Cert.Kernel.Hand

end
-- ==== Proof.KbR3RunA.lean ====
import proofs.«122112_j6631429505271_1_alg».proof.Proof.KbR3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref (`L3`) and in the scratch accumulator (`LS0`), as
    pieces (last first), IN CASE A (the accumulator is reset and the product added; nothing is stored into the output), WITH the proof that on whole memrefs — the three inputs' at their
    contents, the output's at contents `xi3` handed back untouched, the scratch at anything — the body runs to the
    continuation holding the inputs' as they were and the scratch with its pieces written. -/
noncomputable def kernelRun3_A (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond3_0 i) (hc1 : ¬cond3_1 i)
    (x0 : Vec F S512x512 .f32) (x1 : Vec F S512x64 .f32) (x2 : Vec F S1x64 .f32) :
    Σ' (L3 : List (View.Piece (Elt F) S512x64 .f32)), { LS0 : List (View.Piece (Elt F) S512x64 .f32) //
      ∀ (xi3 : Vec F S512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__mm_kernel i arg3 harg3 arg4 harg4 arg5 harg5 arg6 harg6 arg7 harg7) K } := by
  refine ⟨[], ?_, fun xi3 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KbR3RunB.lean ====
import proofs.«122112_j6631429505271_1_alg».proof.Proof.KbR3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref (`L3`) and in the scratch accumulator (`LS0`), as
    pieces (last first), IN CASE B (the product is added to the accumulator; nothing is stored into the output), WITH the proof that on whole memrefs — the three inputs' at their
    contents, the output's at contents `xi3` handed back untouched, the scratch at the contents `xs0` the point before left — the body runs to the
    continuation holding the inputs' as they were and the scratch with its pieces written. -/
noncomputable def kernelRun3_B (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : ¬cond3_1 i)
    (x0 : Vec F S512x512 .f32) (x1 : Vec F S512x64 .f32) (x2 : Vec F S1x64 .f32) (xs0 : Vec F S512x64 .f32) :
    Σ' (L3 : List (View.Piece (Elt F) S512x64 .f32)), { LS0 : List (View.Piece (Elt F) S512x64 .f32) //
      ∀ (xi3 : Vec F S512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__mm_kernel i arg3 harg3 arg4 harg4 arg5 harg5 arg6 harg6 arg7 harg7) K } := by
  refine ⟨[], ?_, fun xi3 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KbR3RunC.lean ====
import proofs.«122112_j6631429505271_1_alg».proof.Proof.KbR3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref (`L3`) and in the scratch accumulator (`LS0`), as
    pieces (last first), IN CASE C (the product is added to the accumulator and the output is stored from it and the bias), WITH the proof that on whole memrefs — the three inputs' at their
    contents, the output's at anything, the scratch at the contents `xs0` the point before left — the body runs to the
    continuation holding the inputs' as they were, the output's with its pieces written and the scratch with its pieces written. -/
noncomputable def kernelRun3_C (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : cond3_1 i)
    (x0 : Vec F S512x512 .f32) (x1 : Vec F S512x64 .f32) (x2 : Vec F S1x64 .f32) (xs0 : Vec F S512x64 .f32) :
    Σ' (L3 : List (View.Piece (Elt F) S512x64 .f32)), { LS0 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__mm_kernel i arg3 harg3 arg4 harg4 arg5 harg5 arg6 harg6 arg7 harg7) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KbR3Body.lean ====
import proofs.«122112_j6631429505271_1_alg».proof.Proof.KbR3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered: the parameter the region's half is stated at
variable (V : (c : Dev nD) → (b : Ref sig .tc) → Buf (Elt F) ((c : Thread nD τ).loc b))

/-! # Region 3: the matrix-product kernel of pipeline 3, at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for ANY proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in the output's buffer and in the accumulator -/

/-- Case A stores nothing into output 3 (the window is idle at its points and not written back there): no pieces —
    a placeholder that nothing consults. -/
def out3_A_3 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond3_0 i) (hc1 : ¬cond3_1 i)
    (x0 : Vec F S512x512 .f32) (x1 : Vec F S512x64 .f32) (x2 : Vec F S1x64 .f32) : Vec F S512x64 .f32 :=
  VO3_3.read (Elt F) (VO3_3.writes (Elt F) VO3_3.junk (kernelRun3_A c i arg3 harg3 arg4 harg4 arg5 harg5 arg6 harg6 arg7 harg7 hc0 hc1 x0 x1 x2).1)

/-- Case A's pieces for the scratch accumulator cover it (whole stores). -/
theorem scover3_A_0 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond3_0 i) (hc1 : ¬cond3_1 i)
    (x0 : Vec F S512x512 .f32) (x1 : Vec F S512x64 .f32) (x2 : Vec F S1x64 .f32) (y : S512x64.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S512x64.size (by sl_kernel_rfl) y

/-- What case A leaves in the scratch accumulator: its pieces read back over junk. -/
def sout3_A_0 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond3_0 i) (hc1 : ¬cond3_1 i)
    (x0 : Vec F S512x512 .f32) (x1 : Vec F S512x64 .f32) (x2 : Vec F S1x64 .f32) : Vec F S512x64 .f32 :=
  VS3_0.read (Elt F) (VS3_0.writes (Elt F) VS3_0.junk (kernelRun3_A c i arg3 harg3 arg4 harg4 arg5 harg5 arg6 harg6 arg7 harg7 hc0 hc1 x0 x1 x2).2.1)

/-- Case B stores nothing into output 3 (the window is idle at its points and not written back there): no pieces —
    a placeholder that nothing consults. -/
def out3_B_3 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : ¬cond3_1 i)
    (x0 : Vec F S512x512 .f32) (x1 : Vec F S512x64 .f32) (x2 : Vec F S1x64 .f32) (xs0 : Vec F S512x64 .f32) : Vec F S512x64 .f32 :=
  VO3_3.read (Elt F) (VO3_3.writes (Elt F) VO3_3.junk (kernelRun3_B c i arg3 harg3 arg4 harg4 arg5 harg5 arg6 harg6 arg7 harg7 hc0 hc1 x0 x1 x2 xs0).1)

/-- Case B's pieces for the scratch accumulator cover it (whole stores). -/
theorem scover3_B_0 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : ¬cond3_1 i)
    (x0 : Vec F S512x512 .f32) (x1 : Vec F S512x64 .f32) (x2 : Vec F S1x64 .f32) (xs0 : Vec F S512x64 .f32) (y : S512x64.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S512x64.size (by sl_kernel_rfl) y

/-- What case B leaves in the scratch accumulator: its pieces read back over junk. -/
def sout3_B_0 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : ¬cond3_1 i)
    (x0 : Vec F S512x512 .f32) (x1 : Vec F S512x64 .f32) (x2 : Vec F S1x64 .f32) (xs0 : Vec F S512x64 .f32) : Vec F S512x64 .f32 :=
  VS3_0.read (Elt F) (VS3_0.writes (Elt F) VS3_0.junk (kernelRun3_B c i arg3 harg3 arg4 harg4 arg5 harg5 arg6 harg6 arg7 harg7 hc0 hc1 x0 x1 x2 xs0).2.1)

/-- Case C's pieces for output 3 tile its block (one whole store), so they cover it. -/
theorem cover3_C_3 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : cond3_1 i)
    (x0 : Vec F S512x512 .f32) (x1 : Vec F S512x64 .f32) (x2 : Vec F S1x64 .f32) (xs0 : Vec F S512x64 .f32) (y : S512x64.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S512x64.size (by sl_kernel_rfl) y

/-- What case C leaves in output 3's staging buffer: its pieces read back over junk. -/
def out3_C_3 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : cond3_1 i)
    (x0 : Vec F S512x512 .f32) (x1 : Vec F S512x64 .f32) (x2 : Vec F S1x64 .f32) (xs0 : Vec F S512x64 .f32) : Vec F S512x64 .f32 :=
  VO3_3.read (Elt F) (VO3_3.writes (Elt F) VO3_3.junk (kernelRun3_C c i arg3 harg3 arg4 harg4 arg5 harg5 arg6 harg6 arg7 harg7 hc0 hc1 x0 x1 x2 xs0).1)

/-- Case C's pieces for the scratch accumulator cover it (whole stores). -/
theorem scover3_C_0 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : cond3_1 i)
    (x0 : Vec F S512x512 .f32) (x1 : Vec F S512x64 .f32) (x2 : Vec F S1x64 .f32) (xs0 : Vec F S512x64 .f32) (y : S512x64.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S512x64.size (by sl_kernel_rfl) y

/-- What case C leaves in the scratch accumulator: its pieces read back over junk. -/
def sout3_C_0 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : cond3_1 i)
    (x0 : Vec F S512x512 .f32) (x1 : Vec F S512x64 .f32) (x2 : Vec F S1x64 .f32) (xs0 : Vec F S512x64 .f32) : Vec F S512x64 .f32 :=
  VS3_0.read (Elt F) (VS3_0.writes (Elt F) VS3_0.junk (kernelRun3_C c i arg3 harg3 arg4 harg4 arg5 harg5 arg6 harg6 arg7 harg7 hc0 hc1 x0 x1 x2 xs0).2.1)

/-! ## What the output and the accumulator hold after each point -/

/-- THE ACCUMULATION. What output 3's staging buffer and the scratch accumulator hold after the body at position `n`
    (a pair: the output, then the scratch): the case the closed forms select at `n`, run at the point's memrefs and
    input blocks, the accumulator at what this leaves at `n - 1`. The two conditions never hold together. -/
def outsAt3 (c : Dev nD) : (n : ℕ) → n < cfg3.N → Vec F S512x64 .f32 × Vec F S512x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point of case A: that case's contents. -/
theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the scratch at anything);
    afterwards the scratch accumulator at what the point before left in it, the unopened rest and the generator
    register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ rest3 c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(iprop(owns (c : Thread nD τ) scM3_0 fullShare ((outsAt3 V c n hn).2)) ∗ rest3 c) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ rest3 c) ∗ (∃ r, prngReg c r)) := by
  cases n with
  | zero => exact absurd rfl hz
  | succ n => rfl

/-! ## The pipeline's proof data -/

/-- The proof data of pipeline 3 on core `c`: the arrays as the region finds them (`V`); after the body at point
    `t` each input's buffer at its block and the output's at `outsAt3`; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; so
    that case's run applies; the invariant hands the body the accumulator at what the point before left (at anything at
    the first point) and takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 8 = 0
  · by_cases h1 : t.val % 8 = 7
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      ·
        rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      ·
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      by_cases hz : t.val = 0
      · exfalso; omega
      ·
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      by_cases hz : t.val = 0
      · exfalso; omega
      ·
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Region3

end Cert.Kernel.Hand

end
-- ==== Proof.KbR4Runs.lean ====
import proofs.«122112_j6631429505271_1_alg».proof.Proof.Gen.Kernel.Launch
import proofs.«122112_j6631429505271_1_alg».proof.Proof.Gen.Kernel.Skeleton
import proofs.«122112_j6631429505271_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: what its run is stated over -/

/-! ## The body's branch conditions -/

/-- The condition of the body's first conditional, from the grid coordinates: the reduction coordinate is zero. -/
abbrev cond4_0 (i : grid4.Coords) : Prop := (Scalar.cmpi .ne (Scalar.extui (Scalar.cmpi .eq (BitVec.ofNat 32 (i 2).val) 0#32)) 0#32) = 1#1
/-- The reduction axis has one step, so it holds at every point of the grid. -/
theorem hcond4_0 : ∀ t : Fin cfg4.N, cond4_0 (grid4.coords t) :=
  (by decide +kernel : ∀ t : Fin grid4.N, cond4_0 (grid4.coords t))

/-- The condition of the body's second conditional: the reduction coordinate is the last. -/
abbrev cond4_1 (i : grid4.Coords) : Prop := k4_cond2 i = 1#1
/-- It holds at every point of the grid as well. -/
theorem hcond4_1 : ∀ t : Fin cfg4.N, cond4_1 (grid4.coords t) :=
  (by decide +kernel : ∀ t : Fin grid4.N, cond4_1 (grid4.coords t))

/-! ## Where the windows are idle -/

/-- Window 0 is never idle (an input). -/
theorem liveAt4_0 : ∀ t : Fin cfg4.N, cfg4.idle 0 (grid4.coords t) = false := by decide +kernel
/-- Window 1 is never idle (an input). -/
theorem liveAt4_1 : ∀ t : Fin cfg4.N, cfg4.idle 1 (grid4.coords t) = false := by decide +kernel
/-- Window 2 is never idle (an input). -/
theorem liveAt4_2 : ∀ t : Fin cfg4.N, cfg4.idle 2 (grid4.coords t) = false := by decide +kernel
/-- The output window is live at every point: each point is the last step of its reduction and stores into it. -/
theorem liveAt4_3_D : ∀ t : Fin cfg4.N, cfg4.idle 3 (grid4.coords t) = false := by decide +kernel

/-! ## The memrefs the body is called with -/

/-- One staging buffer of the output window, through which its contents are stated. -/
abbrev VO4_3 : View sig .tc .vmem S512x2048 .f32 := (Memref.whole cc4_stg3_0 : Memref sig .tc .vmem S512x2048 .f32).view
/-- Each window's current staging memref at point `t`, and its wholeness. -/
abbrev ms4_0 (t : Fin cfg4.N) : Memref sig .tc .vmem S512x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x2048 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x2048 .f32 := win4_3.stage (cfg4.slots t 3)
abbrev hs4_3 (t : Fin cfg4.N) : (ms4_3 t).IsWhole := hstage4_3 ((cfg4.slots t 3).cast nbuf4_3)
/-- The scratch operand: a whole scoped buffer of the kernel's own, passed beside the windows. -/
abbrev scM4_0 : Memref sig .tc .vmem S512x2048 .f32 := Memref.whole cc4_scratch0
/-- The accumulator as a view: what it holds is stated through it. -/
abbrev VS4_0 : View sig .tc .vmem S512x2048 .f32 := scM4_0.view

/-- The region invariant with the scratch operand as a memref owned at some contents; every other scoped buffer stays
    unopened. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.KbR4RunD.lean ====
import proofs.«122112_j6631429505271_1_alg».proof.Proof.KbR4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first), at a
    point where both conditionals are taken (every point of this grid), WITH the proof that on whole memrefs — the three
    inputs' at their contents, the output's at anything, the accumulator at anything — the body runs to the
    continuation holding the inputs' as they were, and the output's buffer and the accumulator with their pieces
    written. -/
noncomputable def kernelRun4_D (c : Dev nD) (i : grid4.Coords) (arg3 : Memref sig .tc .vmem S512x64 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond4_0 i) (hc1 : cond4_1 i)
    (x0 : Vec F S512x64 .f32) (x1 : Vec F S64x2048 .f32) (x2 : Vec F S1x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc4__mm_kernel i arg3 harg3 arg4 harg4 arg5 harg5 arg6 harg6 arg7 harg7) K } := by
  refine ⟨?_, ?_, fun E K => ?run⟩
  case run =>
    simp only [cc4__mm_kernel_eq_skeleton]; unfold cc4__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KbR4Body.lean ====
import proofs.«122112_j6631429505271_1_alg».proof.Proof.KbR4RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered: the parameter this region's half is stated at
variable (V : (c : Dev nD) → (b : Ref sig .tc) → Buf (Elt F) ((c : Thread nD τ).loc b))

/-! # Region 4 at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## What the one case leaves -/

/-- The pieces written into the output's block tile it, so they cover it. -/
theorem cover4_D_3 (c : Dev nD) (i : grid4.Coords) (arg3 : Memref sig .tc .vmem S512x64 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond4_0 i) (hc1 : cond4_1 i)
    (x0 : Vec F S512x64 .f32) (x1 : Vec F S64x2048 .f32) (x2 : Vec F S1x2048 .f32) (y : S512x2048.Idx) :
    ∃ pc ∈ (kernelRun4_D c i arg3 harg3 arg4 harg4 arg5 harg5 arg6 harg6 arg7 harg7 hc0 hc1 x0 x1 x2).1, y ∈ pc.1.set :=
  View.cover_of_tiledL (kernelRun4_D c i arg3 harg3 arg4 harg4 arg5 harg5 arg6 harg6 arg7 harg7 hc0 hc1 x0 x1 x2).1 S512x2048.size (by sl_kernel_rfl) y

/-- What the case leaves in the output's staging buffer: its pieces read back over junk. -/
def out4_D_3 (c : Dev nD) (i : grid4.Coords) (arg3 : Memref sig .tc .vmem S512x64 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond4_0 i) (hc1 : cond4_1 i)
    (x0 : Vec F S512x64 .f32) (x1 : Vec F S64x2048 .f32) (x2 : Vec F S1x2048 .f32) : Vec F S512x2048 .f32 :=
  VO4_3.read (Elt F) (VO4_3.writes (Elt F) VO4_3.junk (kernelRun4_D c i arg3 harg3 arg4 harg4 arg5 harg5 arg6 harg6 arg7 harg7 hc0 hc1 x0 x1 x2).1)

/-- The pieces written into the accumulator cover it. -/
theorem scover4_D_0 (c : Dev nD) (i : grid4.Coords) (arg3 : Memref sig .tc .vmem S512x64 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond4_0 i) (hc1 : cond4_1 i)
    (x0 : Vec F S512x64 .f32) (x1 : Vec F S64x2048 .f32) (x2 : Vec F S1x2048 .f32) (y : S512x2048.Idx) :
    ∃ pc ∈ (kernelRun4_D c i arg3 harg3 arg4 harg4 arg5 harg5 arg6 harg6 arg7 harg7 hc0 hc1 x0 x1 x2).2.1, y ∈ pc.1.set :=
  View.cover_of_tiledL (kernelRun4_D c i arg3 harg3 arg4 harg4 arg5 harg5 arg6 harg6 arg7 harg7 hc0 hc1 x0 x1 x2).2.1 S512x2048.size (by sl_kernel_rfl) y

/-- What the case leaves in the accumulator: its pieces read back over junk. -/
def sout4_D_0 (c : Dev nD) (i : grid4.Coords) (arg3 : Memref sig .tc .vmem S512x64 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond4_0 i) (hc1 : cond4_1 i)
    (x0 : Vec F S512x64 .f32) (x1 : Vec F S64x2048 .f32) (x2 : Vec F S1x2048 .f32) : Vec F S512x2048 .f32 :=
  VS4_0.read (Elt F) (VS4_0.writes (Elt F) VS4_0.junk (kernelRun4_D c i arg3 harg3 arg4 harg4 arg5 harg5 arg6 harg6 arg7 harg7 hc0 hc1 x0 x1 x2).2.1)

/-! ## What the output and the accumulator hold after each point -/

/-- After the body at position `n`: the one case, run at the point's memrefs and input blocks (the accumulator is
    reset at every point, so nothing is read from the point before). The pair is the output's buffer, then the
    accumulator. -/
def outsAt4 (c : Dev nD) : (n : ℕ) → n < cfg4.N → Vec F S512x2048 .f32 × Vec F S512x2048 .f32 :=
  fun n hn => (out4_D_3 c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4_0 (Memref.isWhole_whole _) (hcond4_0 ⟨n, hn⟩) (hcond4_1 ⟨n, hn⟩) (iblk4 V c 0 ⟨n, hn⟩) (iblk4 V c 1 ⟨n, hn⟩) (iblk4 V c 2 ⟨n, hn⟩), sout4_D_0 c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4_0 (Memref.isWhole_whole _) (hcond4_0 ⟨n, hn⟩) (hcond4_1 ⟨n, hn⟩) (iblk4 V c 0 ⟨n, hn⟩) (iblk4 V c 1 ⟨n, hn⟩) (iblk4 V c 2 ⟨n, hn⟩))

/-- `outsAt4` at a point: the case's contents there. -/
theorem outsAt4_D (c : Dev nD) (t : Fin cfg4.N) :
    outsAt4 V c t.val t.isLt = (out4_D_3 c (grid4.coords t) (ms4_0 t) (hs4_0 t) (ms4_1 t) (hs4_1 t) (ms4_2 t) (hs4_2 t) (ms4_3 t) (hs4_3 t) scM4_0 (Memref.isWhole_whole _) (hcond4_0 t) (hcond4_1 t) (iblk4 V c 0 t) (iblk4 V c 1 t) (iblk4 V c 2 t), sout4_D_0 c (grid4.coords t) (ms4_0 t) (hs4_0 t) (ms4_1 t) (hs4_1 t) (ms4_2 t) (hs4_2 t) (ms4_3 t) (hs4_3 t) scM4_0 (Memref.isWhole_whole _) (hcond4_0 t) (hcond4_1 t) (iblk4 V c 0 t) (iblk4 V c 1 t) (iblk4 V c 2 t)) := rfl

/-- The region invariant before position `n`: the accumulator is never read before it is reset, so it is the
    launch's at every point (every scoped buffer at anything, the generator register at some state). -/
def PhiS4 (V : (c : Dev nD) → (b : Ref sig .tc) → Buf (Elt F) ((c : Thread nD τ).loc b)) (c : Dev nD) : (n : ℕ) → n ≤ cfg4.N → sProp 𝕄 :=
  fun _ _ => Pipeline.ΦA spec4 c

theorem PhiS4_zero (c : Dev nD) (n : ℕ) (h : n ≤ cfg4.N) (hz : n = 0) : PhiS4 V c n h = Pipeline.ΦA spec4 c := rfl
theorem PhiS4_succ (c : Dev nD) (n : ℕ) (hn : n < cfg4.N) : PhiS4 V c (n + 1) hn = Pipeline.ΦA spec4 c := rfl
theorem PhiS4_pos (c : Dev nD) (n : ℕ) (h : n ≤ cfg4.N) (hz : n ≠ 0) : PhiS4 V c n h = Pipeline.ΦA spec4 c := rfl

/-! ## The pipeline's proof data -/

/-- The proof data of pipeline 4 on core `c`: the arrays as the region finds them (`V`); after the body at point `t`
    each input's buffer at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; every point is the one case, so the run applies; the
    invariant hands the body the accumulator at anything and takes it back at anything; the other scoped buffers, the
    generator register and what the core owes pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Pipeline.ΦA spec4 c from rfl, show (dat4 V c).Φ t.castSucc = Pipeline.ΦA spec4 c from rfl, PhiA4_eq]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3_D t], after4_3]
  rw [outsAt4_D V c t]
  unfold out4_D_3; (try dsimp only)
  iintro ⟨⟨⟨HS0, HR⟩, Hg⟩, Ho, ⟨%d0, H0⟩, ⟨%d1, H1⟩, ⟨%d2, H2⟩, ⟨%d3, H3⟩⟩
  iapply ((kernelRun4_D c (grid4.coords t) _ _ _ _ _ _ _ _ _ _ (hcond4_0 t) (hcond4_1 t) (iblk4 V c 0 t) (iblk4 V c 1 t) (iblk4 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 HR Hg]
  · isplitl [HS0 HR]
    · isplitl [HS0]
      · iexists _; unfold owns; iexists _; isplitr
        swap; · iexact HS0
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_D_3 c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Pipeline.ΦA spec4 c from rfl]
  try exact Idealize.SL.BI.Entails.refl _

/-- After any point the invariant is the launch's. -/
theorem Phi_out4 (c : Dev nD) (t : Fin (cfg4.N + 1)) (ht : t.val ≠ 0) : (dat4 V c).Φ t ⊢ Pipeline.ΦA spec4 c := by
  rw [show (dat4 V c).Φ t = Pipeline.ΦA spec4 c from rfl]
  try exact Idealize.SL.BI.Entails.refl _

/-- The same after the last point. -/
theorem hout4 (c : Dev nD) : (dat4 V c).Φ (Fin.last cfg4.N) ⊢ Pipeline.ΦA spec4 c :=
  Phi_out4 V c _ (by rw [Fin.val_last]; have : cfg4.N = 16 := N_4; omega)

end

end Cert.Kernel.Hand

end
-- ==== Proof.KbRunW.lean ====
import proofs.«122112_j6631429505271_1_alg».proof.Proof.KbRunHost
import proofs.«122112_j6631429505271_1_alg».proof.Proof.KbR0Body
import proofs.«122112_j6631429505271_1_alg».proof.Proof.KbR1Body
import proofs.«122112_j6631429505271_1_alg».proof.Proof.KbR2Body
import proofs.«122112_j6631429505271_1_alg».proof.Proof.KbR3Body
import proofs.«122112_j6631429505271_1_alg».proof.Proof.KbR4Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the launch's items: a fold from the launch memory

A host stretch leaves what its operations compute (`StableHlo.after`); a kernel region leaves its windows' arrays at
what its write-backs fold to and every other buffer as entered. -/

/-- Core `c`'s buffers at launch. -/
abbrev W0 : Dev nD → Valuation τ sig (Elt F) := fun c b => (s₀ m ρ).mem ((c : Dev nD), b)

/-- After `hostOps0`. -/
abbrev W1 : Dev nD → Valuation τ sig (Elt F) := fun c => StableHlo.after hostOps0 (W0 m ρ c)
/-- A reference `hostOps0` does not write holds after it what it held before. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After `hostOps0_1`. -/
abbrev W2 : Dev nD → Valuation τ sig (Elt F) := fun c => StableHlo.after hostOps0_1 (W1 m ρ c)
/-- A reference `hostOps0_1` does not write holds after it what it held before. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- After `hostOps0_2`. -/
abbrev W3 : Dev nD → Valuation τ sig (Elt F) := fun c => StableHlo.after hostOps0_2 (W2 m ρ c)
/-- A reference `hostOps0_2` does not write holds after it what it held before. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

/-- After `hostOps0_3`. -/
abbrev W4 : Dev nD → Valuation τ sig (Elt F) := fun c => StableHlo.after hostOps0_3 (W3 m ρ c)
/-- A reference `hostOps0_3` does not write holds after it what it held before. -/
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

/-- After `hostOps0_4`. -/
abbrev W5 : Dev nD → Valuation τ sig (Elt F) := fun c => StableHlo.after hostOps0_4 (W4 m ρ c)
/-- A reference `hostOps0_4` does not write holds after it what it held before. -/
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

/-- After `hostOps0_5`. -/
abbrev W6 : Dev nD → Valuation τ sig (Elt F) := fun c => StableHlo.after hostOps0_5 (W5 m ρ c)
/-- A reference `hostOps0_5` does not write holds after it what it held before. -/
theorem W6_of (c : Dev nD) (r : Ref sig .tc) (h : r ∉ hostOps0_5_W) :
    W6 m ρ c (Proc.devRef .tc r) = W5 m ρ c (Proc.devRef .tc r) :=
  StableHlo.after_of_writes_sub hostOps0_5 _ hostOps0_5_writes h

/-- After `hostOps0_6`. -/
abbrev W7 : Dev nD → Valuation τ sig (Elt F) := fun c => StableHlo.after hostOps0_6 (W6 m ρ c)
/-- A reference `hostOps0_6` does not write holds after it what it held before. -/
theorem W7_of (c : Dev nD) (r : Ref sig .tc) (h : r ∉ hostOps0_6_W) :
    W7 m ρ c (Proc.devRef .tc r) = W6 m ρ c (Proc.devRef .tc r) :=
  StableHlo.after_of_writes_sub hostOps0_6 _ hostOps0_6_writes h

/-- After `hostOps0_7`. -/
abbrev W8 : Dev nD → Valuation τ sig (Elt F) := fun c => StableHlo.after hostOps0_7 (W7 m ρ c)
/-- A reference `hostOps0_7` does not write holds after it what it held before. -/
theorem W8_of (c : Dev nD) (r : Ref sig .tc) (h : r ∉ hostOps0_7_W) :
    W8 m ρ c (Proc.devRef .tc r) = W7 m ρ c (Proc.devRef .tc r) :=
  StableHlo.after_of_writes_sub hostOps0_7 _ hostOps0_7_writes h

/-- After `hostOps0_8`. -/
abbrev W9 : Dev nD → Valuation τ sig (Elt F) := fun c => StableHlo.after hostOps0_8 (W8 m ρ c)
/-- A reference `hostOps0_8` does not write holds after it what it held before. -/
theorem W9_of (c : Dev nD) (r : Ref sig .tc) (h : r ∉ hostOps0_8_W) :
    W9 m ρ c (Proc.devRef .tc r) = W8 m ρ c (Proc.devRef .tc r) :=
  StableHlo.after_of_writes_sub hostOps0_8 _ hostOps0_8_writes h

/-- The contents region 0 is entered at, read at the TensorCore's references (what its proof data take). -/
abbrev V9 : (c : Dev nD) → (b : Ref sig .tc) → Buf (Elt F) ((c : Thread nD τ).loc b) := fun c b => W9 m ρ c b
/-- At region 0's exit: its arrays at what the pipeline leaves (the inputs as entered, the output's write-backs
    folded), every other buffer as entered. -/
def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
/-- The same read at the TensorCore's references (region 0's exit contents). -/
abbrev V10 : (c : Dev nD) → (b : Ref sig .tc) → Buf (Elt F) ((c : Thread nD τ).loc b) := fun c b => W10 m ρ c b
/-- At region 0's exit each of its arrays holds what the pipeline leaves and every other buffer what it held at
    entry. -/
theorem hF0 (c : Dev nD) (w : Fin cfg0.W) : (dat0 (V9 m ρ) c).arrAt w cfg0.N = V10 m ρ c (Pipeline.arrRef spec0 w) :=
  (W10_arr m ρ c w).symm
theorem hrest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)
/-- Region 0 leaves every argument as entered: `main_arg24` is its input window 1's array, which no write-back
    touches; no other argument is an array of its. -/
theorem W10_keep (c : Dev nD) (r : Ref sig .tc) (h : r ∈ argRefs) :
    W10 m ρ c (Proc.devRef .tc r) = W9 m ρ c (Proc.devRef .tc r) := by
  rcases (by decide +kernel : ∀ r ∈ argRefs, r = main_arg24 ∨ ∀ w, Pipeline.arrRef spec0 w ≠ r) r h with rfl | hne
  · exact (W10_arr m ρ c 1).trans (((dat0 (V9 m ρ) c).arrAt_in 1 rfl _).trans (A_eq0 (V9 m ρ) c 1))
  · exact W10_of_ne m ρ c r hne

/-- After `hostOps1`. -/
abbrev W11 : Dev nD → Valuation τ sig (Elt F) := fun c => StableHlo.after hostOps1 (W10 m ρ c)
/-- A reference `hostOps1` does not write holds after it what it held before. -/
theorem W11_of (c : Dev nD) (r : Ref sig .tc) (h : r ∉ hostOps1_W) :
    W11 m ρ c (Proc.devRef .tc r) = W10 m ρ c (Proc.devRef .tc r) :=
  StableHlo.after_of_writes_sub hostOps1 _ hostOps1_writes h

/-- The contents region 1 is entered at, read at the TensorCore's references (what its proof data take). -/
abbrev V11 : (c : Dev nD) → (b : Ref sig .tc) → Buf (Elt F) ((c : Thread nD τ).loc b) := fun c b => W11 m ρ c b
/-- At region 1's exit: its arrays at what the pipeline leaves (the inputs as entered, the output's write-backs
    folded), every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
/-- The same read at the TensorCore's references (region 1's exit contents). -/
abbrev V12 : (c : Dev nD) → (b : Ref sig .tc) → Buf (Elt F) ((c : Thread nD τ).loc b) := fun c b => W12 m ρ c b
/-- At region 1's exit each of its arrays holds what the pipeline leaves and every other buffer what it held at
    entry. -/
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
/-- Region 1 leaves every argument as entered: `main_arg26` is its input window 1's array, which no write-back
    touches; no other argument is an array of its. -/
theorem W12_keep (c : Dev nD) (r : Ref sig .tc) (h : r ∈ argRefs) :
    W12 m ρ c (Proc.devRef .tc r) = W11 m ρ c (Proc.devRef .tc r) := by
  rcases (by decide +kernel : ∀ r ∈ argRefs, r = main_arg26 ∨ ∀ w, Pipeline.arrRef spec1 w ≠ r) r h with rfl | hne
  · exact (W12_arr m ρ c 1).trans (((dat1 (V11 m ρ) c).arrAt_in 1 rfl _).trans (A_eq1 (V11 m ρ) c 1))
  · exact W12_of_ne m ρ c r hne

/-- After `hostOps2`. -/
abbrev W13 : Dev nD → Valuation τ sig (Elt F) := fun c => StableHlo.after hostOps2 (W12 m ρ c)
/-- A reference `hostOps2` does not write holds after it what it held before. -/
theorem W13_of (c : Dev nD) (r : Ref sig .tc) (h : r ∉ hostOps2_W) :
    W13 m ρ c (Proc.devRef .tc r) = W12 m ρ c (Proc.devRef .tc r) :=
  StableHlo.after_of_writes_sub hostOps2 _ hostOps2_writes h

/-- The contents region 2 is entered at, read at the TensorCore's references (what its proof data take). -/
abbrev V13 : (c : Dev nD) → (b : Ref sig .tc) → Buf (Elt F) ((c : Thread nD τ).loc b) := fun c b => W13 m ρ c b
/-- At region 2's exit: its arrays at what the pipeline leaves (the inputs as entered, the output's write-backs
    folded), every other buffer as entered. -/
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
/-- The same read at the TensorCore's references (region 2's exit contents). -/
abbrev V14 : (c : Dev nD) → (b : Ref sig .tc) → Buf (Elt F) ((c : Thread nD τ).loc b) := fun c b => W14 m ρ c b
/-- At region 2's exit each of its arrays holds what the pipeline leaves and every other buffer what it held at
    entry. -/
theorem hF2 (c : Dev nD) (w : Fin cfg2.W) : (dat2 (V13 m ρ) c).arrAt w cfg2.N = V14 m ρ c (Pipeline.arrRef spec2 w) :=
  (W14_arr m ρ c w).symm
theorem hrest2 (c : Dev nD) : ∀ b, b ∉ Finset.univ.image (Pipeline.arrRef spec2) → V14 m ρ c b = V13 m ρ c b :=
  fun b hb => W14_of_ne m ρ c b fun w e => hb (Finset.mem_image.mpr ⟨w, Finset.mem_univ _, e⟩)
/-- Region 2 leaves every argument as entered: none is an array of its. -/
theorem W14_keep (c : Dev nD) (r : Ref sig .tc) (h : r ∈ argRefs) :
    W14 m ρ c (Proc.devRef .tc r) = W13 m ρ c (Proc.devRef .tc r) :=
  W14_of_ne m ρ c r ((by decide +kernel : ∀ r ∈ argRefs, ∀ w, Pipeline.arrRef spec2 w ≠ r) r h)

/-- After `hostOps3`. -/
abbrev W15 : Dev nD → Valuation τ sig (Elt F) := fun c => StableHlo.after hostOps3 (W14 m ρ c)
/-- A reference `hostOps3` does not write holds after it what it held before. -/
theorem W15_of (c : Dev nD) (r : Ref sig .tc) (h : r ∉ hostOps3_W) :
    W15 m ρ c (Proc.devRef .tc r) = W14 m ρ c (Proc.devRef .tc r) :=
  StableHlo.after_of_writes_sub hostOps3 _ hostOps3_writes h

/-- After `hostOps3_1`. -/
abbrev W16 : Dev nD → Valuation τ sig (Elt F) := fun c => StableHlo.after hostOps3_1 (W15 m ρ c)
/-- A reference `hostOps3_1` does not write holds after it what it held before. -/
theorem W16_of (c : Dev nD) (r : Ref sig .tc) (h : r ∉ hostOps3_1_W) :
    W16 m ρ c (Proc.devRef .tc r) = W15 m ρ c (Proc.devRef .tc r) :=
  StableHlo.after_of_writes_sub hostOps3_1 _ hostOps3_1_writes h

/-- After `hostOps3_2`. -/
abbrev W17 : Dev nD → Valuation τ sig (Elt F) := fun c => StableHlo.after hostOps3_2 (W16 m ρ c)
/-- A reference `hostOps3_2` does not write holds after it what it held before. -/
theorem W17_of (c : Dev nD) (r : Ref sig .tc) (h : r ∉ hostOps3_2_W) :
    W17 m ρ c (Proc.devRef .tc r) = W16 m ρ c (Proc.devRef .tc r) :=
  StableHlo.after_of_writes_sub hostOps3_2 _ hostOps3_2_writes h

/-- The contents region 3 is entered at, read at the TensorCore's references (what its proof data take). -/
abbrev V17 : (c : Dev nD) → (b : Ref sig .tc) → Buf (Elt F) ((c : Thread nD τ).loc b) := fun c b => W17 m ρ c b
/-- At region 3's exit: its arrays at what the pipeline leaves (the inputs as entered, the output's write-backs
    folded), every other buffer as entered. -/
def W18 (c : Dev nD) : Valuation τ sig (Elt F) :=
  Pipeline.withArrays spec3 c (W17 m ρ c) fun w => (dat3 (V17 m ρ) c).arrAt w cfg3.N
theorem W18_arr (c : Dev nD) (w : Fin cfg3.W) :
    W18 m ρ c (Proc.devRef .tc (Pipeline.arrRef spec3 w)) = (dat3 (V17 m ρ) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb
/-- The same read at the TensorCore's references (region 3's exit contents). -/
abbrev V18 : (c : Dev nD) → (b : Ref sig .tc) → Buf (Elt F) ((c : Thread nD τ).loc b) := fun c b => W18 m ρ c b
/-- At region 3's exit each of its arrays holds what the pipeline leaves and every other buffer what it held at
    entry. -/
theorem hF3 (c : Dev nD) (w : Fin cfg3.W) : (dat3 (V17 m ρ) c).arrAt w cfg3.N = V18 m ρ c (Pipeline.arrRef spec3 w) :=
  (W18_arr m ρ c w).symm
theorem hrest3 (c : Dev nD) : ∀ b, b ∉ Finset.univ.image (Pipeline.arrRef spec3) → V18 m ρ c b = V17 m ρ c b :=
  fun b hb => W18_of_ne m ρ c b fun w e => hb (Finset.mem_image.mpr ⟨w, Finset.mem_univ _, e⟩)
/-- Region 3 leaves every argument as entered: none is an array of its. -/
theorem W18_keep (c : Dev nD) (r : Ref sig .tc) (h : r ∈ argRefs) :
    W18 m ρ c (Proc.devRef .tc r) = W17 m ρ c (Proc.devRef .tc r) :=
  W18_of_ne m ρ c r ((by decide +kernel : ∀ r ∈ argRefs, ∀ w, Pipeline.arrRef spec3 w ≠ r) r h)

/-- After `hostOps4`. -/
abbrev W19 : Dev nD → Valuation τ sig (Elt F) := fun c => StableHlo.after hostOps4 (W18 m ρ c)
/-- A reference `hostOps4` does not write holds after it what it held before. -/
theorem W19_of (c : Dev nD) (r : Ref sig .tc) (h : r ∉ hostOps4_W) :
    W19 m ρ c (Proc.devRef .tc r) = W18 m ρ c (Proc.devRef .tc r) :=
  StableHlo.after_of_writes_sub hostOps4 _ hostOps4_writes h

/-- The contents region 4 is entered at, read at the TensorCore's references (what its proof data take). -/
abbrev V19 : (c : Dev nD) → (b : Ref sig .tc) → Buf (Elt F) ((c : Thread nD τ).loc b) := fun c b => W19 m ρ c b
/-- At region 4's exit: its arrays at what the pipeline leaves (the inputs as entered, the output's write-backs
    folded), every other buffer as entered. -/
def W20 (c : Dev nD) : Valuation τ sig (Elt F) :=
  Pipeline.withArrays spec4 c (W19 m ρ c) fun w => (dat4 (V19 m ρ) c).arrAt w cfg4.N
theorem W20_arr (c : Dev nD) (w : Fin cfg4.W) :
    W20 m ρ c (Proc.devRef .tc (Pipeline.arrRef spec4 w)) = (dat4 (V19 m ρ) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb
/-- The same read at the TensorCore's references (region 4's exit contents). -/
abbrev V20 : (c : Dev nD) → (b : Ref sig .tc) → Buf (Elt F) ((c : Thread nD τ).loc b) := fun c b => W20 m ρ c b
/-- At region 4's exit each of its arrays holds what the pipeline leaves and every other buffer what it held at
    entry. -/
theorem hF4 (c : Dev nD) (w : Fin cfg4.W) : (dat4 (V19 m ρ) c).arrAt w cfg4.N = V20 m ρ c (Pipeline.arrRef spec4 w) :=
  (W20_arr m ρ c w).symm
theorem hrest4 (c : Dev nD) : ∀ b, b ∉ Finset.univ.image (Pipeline.arrRef spec4) → V20 m ρ c b = V19 m ρ c b :=
  fun b hb => W20_of_ne m ρ c b fun w e => hb (Finset.mem_image.mpr ⟨w, Finset.mem_univ _, e⟩)
/-- Region 4 leaves every argument as entered: none is an array of its. -/
theorem W20_keep (c : Dev nD) (r : Ref sig .tc) (h : r ∈ argRefs) :
    W20 m ρ c (Proc.devRef .tc r) = W19 m ρ c (Proc.devRef .tc r) :=
  W20_of_ne m ρ c r ((by decide +kernel : ∀ r ∈ argRefs, ∀ w, Pipeline.arrRef spec4 w ≠ r) r h)

/-! ## The arguments hold their launch contents at every boundary: no host operation and no region writes one -/

theorem W0_args (c : Dev nD) (r : Ref sig .tc) (hr : r ∈ argRefs) :
    W0 m ρ c (Proc.devRef .tc r) = m ((c : Thread nD τ).loc r) := rfl
theorem W1_args (c : Dev nD) (r : Ref sig .tc) (hr : r ∈ argRefs) :
    W1 m ρ c (Proc.devRef .tc r) = m ((c : Thread nD τ).loc r) :=
  (W1_of m ρ c r (hostOps0_args r hr)).trans (W0_args m ρ c r hr)
theorem W2_args (c : Dev nD) (r : Ref sig .tc) (hr : r ∈ argRefs) :
    W2 m ρ c (Proc.devRef .tc r) = m ((c : Thread nD τ).loc r) :=
  (W2_of m ρ c r (hostOps0_1_args r hr)).trans (W1_args m ρ c r hr)
theorem W3_args (c : Dev nD) (r : Ref sig .tc) (hr : r ∈ argRefs) :
    W3 m ρ c (Proc.devRef .tc r) = m ((c : Thread nD τ).loc r) :=
  (W3_of m ρ c r (hostOps0_2_args r hr)).trans (W2_args m ρ c r hr)
theorem W4_args (c : Dev nD) (r : Ref sig .tc) (hr : r ∈ argRefs) :
    W4 m ρ c (Proc.devRef .tc r) = m ((c : Thread nD τ).loc r) :=
  (W4_of m ρ c r (hostOps0_3_args r hr)).trans (W3_args m ρ c r hr)
theorem W5_args (c : Dev nD) (r : Ref sig .tc) (hr : r ∈ argRefs) :
    W5 m ρ c (Proc.devRef .tc r) = m ((c : Thread nD τ).loc r) :=
  (W5_of m ρ c r (hostOps0_4_args r hr)).trans (W4_args m ρ c r hr)
theorem W6_args (c : Dev nD) (r : Ref sig .tc) (hr : r ∈ argRefs) :
    W6 m ρ c (Proc.devRef .tc r) = m ((c : Thread nD τ).loc r) :=
  (W6_of m ρ c r (hostOps0_5_args r hr)).trans (W5_args m ρ c r hr)
theorem W7_args (c : Dev nD) (r : Ref sig .tc) (hr : r ∈ argRefs) :
    W7 m ρ c (Proc.devRef .tc r) = m ((c : Thread nD τ).loc r) :=
  (W7_of m ρ c r (hostOps0_6_args r hr)).trans (W6_args m ρ c r hr)
theorem W8_args (c : Dev nD) (r : Ref sig .tc) (hr : r ∈ argRefs) :
    W8 m ρ c (Proc.devRef .tc r) = m ((c : Thread nD τ).loc r) :=
  (W8_of m ρ c r (hostOps0_7_args r hr)).trans (W7_args m ρ c r hr)
theorem W9_args (c : Dev nD) (r : Ref sig .tc) (hr : r ∈ argRefs) :
    W9 m ρ c (Proc.devRef .tc r) = m ((c : Thread nD τ).loc r) :=
  (W9_of m ρ c r (hostOps0_8_args r hr)).trans (W8_args m ρ c r hr)
theorem W10_args (c : Dev nD) (r : Ref sig .tc) (hr : r ∈ argRefs) :
    W10 m ρ c (Proc.devRef .tc r) = m ((c : Thread nD τ).loc r) :=
  (W10_keep m ρ c r hr).trans (W9_args m ρ c r hr)
theorem W11_args (c : Dev nD) (r : Ref sig .tc) (hr : r ∈ argRefs) :
    W11 m ρ c (Proc.devRef .tc r) = m ((c : Thread nD τ).loc r) :=
  (W11_of m ρ c r (hostOps1_args r hr)).trans (W10_args m ρ c r hr)
theorem W12_args (c : Dev nD) (r : Ref sig .tc) (hr : r ∈ argRefs) :
    W12 m ρ c (Proc.devRef .tc r) = m ((c : Thread nD τ).loc r) :=
  (W12_keep m ρ c r hr).trans (W11_args m ρ c r hr)
theorem W13_args (c : Dev nD) (r : Ref sig .tc) (hr : r ∈ argRefs) :
    W13 m ρ c (Proc.devRef .tc r) = m ((c : Thread nD τ).loc r) :=
  (W13_of m ρ c r (hostOps2_args r hr)).trans (W12_args m ρ c r hr)
theorem W14_args (c : Dev nD) (r : Ref sig .tc) (hr : r ∈ argRefs) :
    W14 m ρ c (Proc.devRef .tc r) = m ((c : Thread nD τ).loc r) :=
  (W14_keep m ρ c r hr).trans (W13_args m ρ c r hr)
theorem W15_args (c : Dev nD) (r : Ref sig .tc) (hr : r ∈ argRefs) :
    W15 m ρ c (Proc.devRef .tc r) = m ((c : Thread nD τ).loc r) :=
  (W15_of m ρ c r (hostOps3_args r hr)).trans (W14_args m ρ c r hr)
theorem W16_args (c : Dev nD) (r : Ref sig .tc) (hr : r ∈ argRefs) :
    W16 m ρ c (Proc.devRef .tc r) = m ((c : Thread nD τ).loc r) :=
  (W16_of m ρ c r (hostOps3_1_args r hr)).trans (W15_args m ρ c r hr)
theorem W17_args (c : Dev nD) (r : Ref sig .tc) (hr : r ∈ argRefs) :
    W17 m ρ c (Proc.devRef .tc r) = m ((c : Thread nD τ).loc r) :=
  (W17_of m ρ c r (hostOps3_2_args r hr)).trans (W16_args m ρ c r hr)
theorem W18_args (c : Dev nD) (r : Ref sig .tc) (hr : r ∈ argRefs) :
    W18 m ρ c (Proc.devRef .tc r) = m ((c : Thread nD τ).loc r) :=
  (W18_keep m ρ c r hr).trans (W17_args m ρ c r hr)
theorem W19_args (c : Dev nD) (r : Ref sig .tc) (hr : r ∈ argRefs) :
    W19 m ρ c (Proc.devRef .tc r) = m ((c : Thread nD τ).loc r) :=
  (W19_of m ρ c r (hostOps4_args r hr)).trans (W18_args m ρ c r hr)
theorem W20_args (c : Dev nD) (r : Ref sig .tc) (hr : r ∈ argRefs) :
    W20 m ρ c (Proc.devRef .tc r) = m ((c : Thread nD τ).loc r) :=
  (W20_keep m ρ c r hr).trans (W19_args m ρ c r hr)

/-- Each argument's buffer at the end holds its launch contents. -/
theorem W20_arg (c : Dev nD) (r : Ref sig .tc) (h : r ∈ argRefs) :
    W20 m ρ c (Proc.devRef .tc r) = m ((c : Thread nD τ).loc r) := W20_args m ρ c r h

end Cert.Kernel.Hand

end
-- ==== Proof.KbRunRegs.lean ====
import proofs.«122112_j6631429505271_1_alg».proof.Proof.KbRunW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch as segments

## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V11 m ρ) c
  | ⟨2, _⟩ => fun c => dat2 (V13 m ρ) c
  | ⟨3, _⟩ => fun c => dat3 (V17 m ρ) c
  | ⟨4, _⟩ => fun c => dat4 (V19 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its post is
    then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W20`, the
    generator register at some state. -/
abbrev Tₙ (c : Dev nD) : sProp 𝕄 := iprop(StableHlo.held (c : Thread nD τ) (Pipeline.ucRefs τ sig) (W20 m ρ c) ∗ ∃ r, prngReg c r)

/-! ## The regions as segments -/

set_option backward.isDefEq.respectTransparency.types false in
/-- REGION 0 over the thread state: entered from every unscoped buffer at `W9`, left at `W10`. Its arrays split
    out of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m ρ) c).loose
  hwaits := Pipeline.hwaits_of_owed_zero _ _ _ _ L lv 0 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V9 m ρ) c)
    unfold Pipeline.ΦA
    iintro ⟨Hp, -, Hr⟩
    isplitl [Hr]; · iexact Hr
    iexact Hp
  hout c := by
    rw [Pipeline.ownSems0_none]
    refine BIBase.Entails.trans (hout0 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V9 m ρ c) (V10 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W11`, left at `W12`. Its arrays split
    out of the unscoped buffers and put back at the exit contents; the generator register into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V11 m ρ) c)
    unfold Pipeline.ΦA
    iintro ⟨Hp, -, Hr⟩
    isplitl [Hr]; · iexact Hr
    iexact Hp
  hout c := by
    rw [Pipeline.ownSems0_none]
    refine BIBase.Entails.trans (hout1 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W13`, left at `W14`. Its arrays split
    out of the unscoped buffers and put back at the exit contents; the generator register into the class invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V13 m ρ) c)
    unfold Pipeline.ΦA
    iintro ⟨Hp, -, Hr⟩
    isplitl [Hr]; · iexact Hr
    iexact Hp
  hout c := by
    rw [Pipeline.ownSems0_none]
    refine BIBase.Entails.trans (hout2 (V13 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (V14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W17`, left at `W18`. Its arrays split
    out of the unscoped buffers and put back at the exit contents; the generator register into the class invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V17 m ρ) c).loose
  hwaits := Pipeline.hwaits_of_owed_zero _ _ _ _ L lv 3 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec3 c (V17 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V17 m ρ) c)
    unfold Pipeline.ΦA
    iintro ⟨Hp, -, Hr⟩
    isplitl [Hr]; · iexact Hr
    iexact Hp
  hout c := by
    rw [Pipeline.ownSems0_none]
    refine BIBase.Entails.trans (hout3 (V17 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V17 m ρ c) (V18 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W19`, left at `W20`. Its arrays split
    out of the unscoped buffers and put back at the exit contents; the generator register into the class invariant and
    out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V19 m ρ) c).loose
  hwaits := Pipeline.hwaits_of_owed_zero _ _ _ _ L lv 4 fun _ _ => rfl
  pre c := iprop(StableHlo.held (c : Thread nD τ) (Pipeline.ucRefs τ sig) (W19 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V19 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V19 m ρ) c)
    unfold Pipeline.ΦA
    iintro ⟨Hp, -, Hr⟩
    isplitl [Hr]; · iexact Hr
    iexact Hp
  hout c := by
    rw [Pipeline.ownSems0_none]
    refine BIBase.Entails.trans (hout4 (V19 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V19 m ρ c) (V20 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.KbRunSegs.lean ====
import proofs.«122112_j6631429505271_1_alg».proof.Proof.KbRunRegs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's items as segments, and the launch -/

/-- The launch's 20 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .host (hseg hostOps1 hostOps1_sub hostOps1_fresh (W10 m ρ)),
    .region (reg1 m ρ),
    .host (hseg hostOps2 hostOps2_sub hostOps2_fresh (W12 m ρ)),
    .region (reg2 m ρ),
    .host (hseg hostOps3 hostOps3_sub hostOps3_fresh (W14 m ρ)),
    .host (hseg hostOps3_1 hostOps3_1_sub hostOps3_1_fresh (W15 m ρ)),
    .host (hseg hostOps3_2 hostOps3_2_sub hostOps3_2_fresh (W16 m ρ)),
    .region (reg3 m ρ),
    .host (hseg hostOps4 hostOps4_sub hostOps4_fresh (W18 m ρ)),
    .region (reg4 m ρ) ]

/-- The launch IS the run of the segments: it is the chain of its items, and the segments' run is the chain of their
    fragments, item by item the same. -/
theorem main_run (c : Dev nD) : main (F := F) c = Pipeline.Seg.run (segs m ρ) := by
  rewrite [main_chain c, Pipeline.Seg.run_eq_chain,
    show (segs m ρ).map Pipeline.Seg.prog = [
      StableHlo.seq hostOps0,
      StableHlo.seq hostOps0_1,
      StableHlo.seq hostOps0_2,
      StableHlo.seq hostOps0_3,
      StableHlo.seq hostOps0_4,
      StableHlo.seq hostOps0_5,
      StableHlo.seq hostOps0_6,
      StableHlo.seq hostOps0_7,
      StableHlo.seq hostOps0_8,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      StableHlo.seq hostOps3_1,
      StableHlo.seq hostOps3_2,
      Prog.lift (.customCall (Pipeline.entry 3) ()),
      StableHlo.seq hostOps4,
      Prog.lift (.customCall (Pipeline.entry 4) ()) ] from rfl]
  rfl

set_option backward.isDefEq.respectTransparency.types false in
/-- THE RUN: at the compiled mesh, from any memory with zero counters, every weakly fair execution of the launch on the
    TensorCores terminates, nothing faulting, and every final state holds every unscoped buffer at the last boundary's
    contents `W20`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun _ h => h)

/-- Every argument is an unscoped TensorCore buffer (decided over the list). -/
theorem arg_uc (r : Ref sig .tc) (hr : r ∈ argRefs) : Proc.devRef .tc r ∈ Pipeline.ucRefs τ sig :=
  mem_uc r ((by decide +kernel : ∀ r ∈ argRefs, ¬ (Proc.devRef .tc r : DevRef τ sig).isScoped) r hr)

theorem arg0_mem : main_arg0 ∈ argRefs := List.mem_cons_self
theorem arg1_mem : main_arg1 ∈ argRefs := List.mem_cons_of_mem _ (List.mem_cons_self)
theorem arg2_mem : main_arg2 ∈ argRefs := List.mem_cons_of_mem _ (List.mem_cons_of_mem _ (List.mem_cons_self))
theorem arg3_mem : main_arg3 ∈ argRefs := List.mem_cons_of_mem _ (List.mem_cons_of_mem _ (List.mem_cons_of_mem _ (List.mem_cons_self)))
theorem arg4_mem : main_arg4 ∈ argRefs := List.mem_cons_of_mem _ (List.mem_cons_of_mem _ (List.mem_cons_of_mem _ (List.mem_cons_of_mem _ (List.mem_cons_self))))
theorem arg5_mem : main_arg5 ∈ argRefs := List.mem_cons_of_mem _ (List.mem_cons_of_mem _ (List.mem_cons_of_mem _ (List.mem_cons_of_mem _ (List.mem_cons_of_mem _ (List.mem_cons_self)))))
theorem arg6_mem : main_arg6 ∈ argRefs := List.mem_cons_of_mem _ (List.mem_cons_of_mem _ (List.mem_cons_of_mem _ (List.mem_cons_of_mem _ (List.mem_cons_of_mem _ (List.mem_cons_of_mem _ (List.mem_cons_self))))))
theorem arg7_mem : main_arg7 ∈ argRefs := List.mem_cons_of_mem _ (List.mem_cons_of_mem _ (List.mem_cons_of_mem _ (List.mem_cons_of_mem _ (List.mem_cons_of_mem _ (List.mem_cons_of_mem _ (List.mem_cons_of_mem _ (List.mem_cons_self)))))))
theorem arg8_mem : main_arg8 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))
theorem arg9_mem : main_arg9 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))
theorem arg10_mem : main_arg10 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))
theorem arg11_mem : main_arg11 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))
theorem arg12_mem : main_arg12 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))
theorem arg13_mem : main_arg13 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))
theorem arg14_mem : main_arg14 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))
theorem arg15_mem : main_arg15 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))
theorem arg16_mem : main_arg16 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))
theorem arg17_mem : main_arg17 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))
theorem arg18_mem : main_arg18 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))
theorem arg19_mem : main_arg19 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))
theorem arg20_mem : main_arg20 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))
theorem arg21_mem : main_arg21 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))
theorem arg22_mem : main_arg22 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))
theorem arg23_mem : main_arg23 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))
theorem arg24_mem : main_arg24 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))
theorem arg25_mem : main_arg25 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))
theorem arg26_mem : main_arg26 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))
theorem arg27_mem : main_arg27 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))
theorem arg28_mem : main_arg28 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))
theorem arg29_mem : main_arg29 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))
theorem arg30_mem : main_arg30 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))
theorem arg31_mem : main_arg31 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))))

/-- A final memory holding every unscoped buffer at the last boundary's contents holds every argument array as
    launched: each argument read off `W20`, where the fold walks back to the launch memory. -/
theorem post_args (r : PUnit × MemSt nD τ sig (Elt F))
    (h : ∀ c : Dev nD, ∀ b ∈ Pipeline.ucRefs τ sig, r.2.mem (((c : Thread nD τ)).1, b) = W20 m ρ c b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29)
    ∧ r.2.mem ((c.tc : Thread nD τ).loc main_arg30) = m ((c.tc : Thread nD τ).loc main_arg30)
    ∧ r.2.mem ((c.tc : Thread nD τ).loc main_arg31) = m ((c.tc : Thread nD τ).loc main_arg31) :=
  ⟨(h c _ (arg_uc main_arg0 arg0_mem)).trans (W20_arg m ρ c main_arg0 arg0_mem),
   (h c _ (arg_uc main_arg1 arg1_mem)).trans (W20_arg m ρ c main_arg1 arg1_mem),
   (h c _ (arg_uc main_arg2 arg2_mem)).trans (W20_arg m ρ c main_arg2 arg2_mem),
   (h c _ (arg_uc main_arg3 arg3_mem)).trans (W20_arg m ρ c main_arg3 arg3_mem),
   (h c _ (arg_uc main_arg4 arg4_mem)).trans (W20_arg m ρ c main_arg4 arg4_mem),
   (h c _ (arg_uc main_arg5 arg5_mem)).trans (W20_arg m ρ c main_arg5 arg5_mem),
   (h c _ (arg_uc main_arg6 arg6_mem)).trans (W20_arg m ρ c main_arg6 arg6_mem),
   (h c _ (arg_uc main_arg7 arg7_mem)).trans (W20_arg m ρ c main_arg7 arg7_mem),
   (h c _ (arg_uc main_arg8 arg8_mem)).trans (W20_arg m ρ c main_arg8 arg8_mem),
   (h c _ (arg_uc main_arg9 arg9_mem)).trans (W20_arg m ρ c main_arg9 arg9_mem),
   (h c _ (arg_uc main_arg10 arg10_mem)).trans (W20_arg m ρ c main_arg10 arg10_mem),
   (h c _ (arg_uc main_arg11 arg11_mem)).trans (W20_arg m ρ c main_arg11 arg11_mem),
   (h c _ (arg_uc main_arg12 arg12_mem)).trans (W20_arg m ρ c main_arg12 arg12_mem),
   (h c _ (arg_uc main_arg13 arg13_mem)).trans (W20_arg m ρ c main_arg13 arg13_mem),
   (h c _ (arg_uc main_arg14 arg14_mem)).trans (W20_arg m ρ c main_arg14 arg14_mem),
   (h c _ (arg_uc main_arg15 arg15_mem)).trans (W20_arg m ρ c main_arg15 arg15_mem),
   (h c _ (arg_uc main_arg16 arg16_mem)).trans (W20_arg m ρ c main_arg16 arg16_mem),
   (h c _ (arg_uc main_arg17 arg17_mem)).trans (W20_arg m ρ c main_arg17 arg17_mem),
   (h c _ (arg_uc main_arg18 arg18_mem)).trans (W20_arg m ρ c main_arg18 arg18_mem),
   (h c _ (arg_uc main_arg19 arg19_mem)).trans (W20_arg m ρ c main_arg19 arg19_mem),
   (h c _ (arg_uc main_arg20 arg20_mem)).trans (W20_arg m ρ c main_arg20 arg20_mem),
   (h c _ (arg_uc main_arg21 arg21_mem)).trans (W20_arg m ρ c main_arg21 arg21_mem),
   (h c _ (arg_uc main_arg22 arg22_mem)).trans (W20_arg m ρ c main_arg22 arg22_mem),
   (h c _ (arg_uc main_arg23 arg23_mem)).trans (W20_arg m ρ c main_arg23 arg23_mem),
   (h c _ (arg_uc main_arg24 arg24_mem)).trans (W20_arg m ρ c main_arg24 arg24_mem),
   (h c _ (arg_uc main_arg25 arg25_mem)).trans (W20_arg m ρ c main_arg25 arg25_mem),
   (h c _ (arg_uc main_arg26 arg26_mem)).trans (W20_arg m ρ c main_arg26 arg26_mem),
   (h c _ (arg_uc main_arg27 arg27_mem)).trans (W20_arg m ρ c main_arg27 arg27_mem),
   (h c _ (arg_uc main_arg28 arg28_mem)).trans (W20_arg m ρ c main_arg28 arg28_mem),
   (h c _ (arg_uc main_arg29 arg29_mem)).trans (W20_arg m ρ c main_arg29 arg29_mem),
   (h c _ (arg_uc main_arg30 arg30_mem)).trans (W20_arg m ρ c main_arg30 arg30_mem),
   (h c _ (arg_uc main_arg31 arg31_mem)).trans (W20_arg m ρ c main_arg31 arg31_mem)⟩

/-- The same memory holds the three result buffers at the last boundary's contents. -/
theorem post_res (r : PUnit × MemSt nD τ sig (Elt F))
    (h : ∀ c : Dev nD, ∀ b ∈ Pipeline.ucRefs τ sig, r.2.mem (((c : Thread nD τ)).1, b) = W20 m ρ c b) (c : Dev nD) :
    r.2.mem ((c.tc : Thread nD τ).loc main_v240) = W20 m ρ c (Proc.devRef .tc main_v240)
    ∧ r.2.mem ((c.tc : Thread nD τ).loc main_v285) = W20 m ρ c (Proc.devRef .tc main_v285)
    ∧ r.2.mem ((c.tc : Thread nD τ).loc main_v281) = W20 m ρ c (Proc.devRef .tc main_v281) :=
  ⟨h c _ (mem_uc main_v240 (by decide)), h c _ (mem_uc main_v285 (by decide)), h c _ (mem_uc main_v281 (by decide))⟩

/-- THE FRAME: every final state has every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs (onTc (τ := τ) (main (F := F))) ⟨m, fun _ => 0, ρ⟩).mono (fun r h c => post_args m ρ r h c) (run_all m ρ)

end Cert.Kernel.Hand

end
-- ==== Proof.KiRunHost.lean ====
import proofs.«122112_j6631429505271_1_alg».proof.Proof.Gen.KernelIdeal.Launch
import proofs.«122112_j6631429505271_1_alg».proof.Proof.Gen.KernelIdeal.Skeleton
import proofs.«122112_j6631429505271_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the host stretches write

Every operation of a stretch writes its own result buffer and allocates nothing; the references a stretch writes,
as a list, decide which buffers it leaves alone. -/

set_option maxHeartbeats 40000000 in
/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_cst, main_v0, main_cst_0, main_v1, main_v2, main_v3, main_cst_1, main_v4, main_v5, main_cst_2, main_v6, main_v7, main_v8, main_cst_3, main_v9, main_v10, main_cst_4, main_v11, main_v12, main_cst_5, main_v13, main_v14, main_v15, main_v16, main_v17, main_v18, main_c, main_v19, main_v20, main_c_6, main_v21, main_v22, main_v23, main_v24, main_v25, main_cst_7, main_v26, main_v27, main_v28, main_v29, main_v30, main_v31, main_v32, main_v33, main_v34]
set_option maxHeartbeats 40000000 in
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps0_1` allocates a buffer. -/
theorem hostOps0_1_fresh : (hostOps0_1 : List (HloOp τ sig (Elt F))).Forall fun op => op.fresh = ∅ := by
  simp only [List.Forall]; repeat' constructor
/-- The references `hostOps0_1`'s operations write. -/
abbrev hostOps0_1_W : List (Ref sig .tc) := [main_call0_cst, main_call0_v0, main_v35]
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 40000000 in
/-- No operation of `hostOps0_2` allocates a buffer. -/
theorem hostOps0_2_fresh : (hostOps0_2 : List (HloOp τ sig (Elt F))).Forall fun op => op.fresh = ∅ := by
  simp only [List.Forall]; repeat' constructor
/-- The references `hostOps0_2`'s operations write. -/
abbrev hostOps0_2_W : List (Ref sig .tc) := [main_v36, main_v37, main_v38, main_v39, main_c_8, main_v40, main_v41, main_c_9, main_v42, main_v43, main_v44, main_v45, main_v46, main_cst_10, main_v47, main_v48, main_v49, main_v50, main_v51, main_v52, main_v53, main_v54, main_v55, main_cst_11, main_v56, main_cst_12, main_v57, main_v58, main_v59, main_cst_13, main_v60, main_v61, main_cst_14, main_v62, main_v63, main_v64, main_cst_15, main_v65, main_v66, main_cst_16, main_v67, main_v68, main_cst_17, main_v69, main_v70, main_v71, main_v72, main_v73, main_v74, main_c_18, main_v75, main_v76, main_c_19, main_v77, main_v78, main_v79, main_v80, main_v81, main_cst_20, main_v82, main_v83, main_v84, main_v85, main_v86, main_v87, main_v88, main_v89, main_v90]
set_option maxHeartbeats 40000000 in
theorem hostOps0_2_writes : (hostOps0_2 : List (HloOp τ sig (Elt F))).Forall fun op => op.writes ⊆ (hostOps0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps0_3` allocates a buffer. -/
theorem hostOps0_3_fresh : (hostOps0_3 : List (HloOp τ sig (Elt F))).Forall fun op => op.fresh = ∅ := by
  simp only [List.Forall]; repeat' constructor
/-- The references `hostOps0_3`'s operations write. -/
abbrev hostOps0_3_W : List (Ref sig .tc) := [main_call1_cst, main_call1_v0, main_v91]
theorem hostOps0_3_writes : (hostOps0_3 : List (HloOp τ sig (Elt F))).Forall fun op => op.writes ⊆ (hostOps0_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 40000000 in
/-- No operation of `hostOps0_4` allocates a buffer. -/
theorem hostOps0_4_fresh : (hostOps0_4 : List (HloOp τ sig (Elt F))).Forall fun op => op.fresh = ∅ := by
  simp only [List.Forall]; repeat' constructor
/-- The references `hostOps0_4`'s operations write. -/
abbrev hostOps0_4_W : List (Ref sig .tc) := [main_v92, main_v93, main_v94, main_v95, main_c_21, main_v96, main_v97, main_c_22, main_v98, main_v99, main_v100, main_v101, main_v102, main_cst_23, main_v103, main_v104, main_v105, main_v106, main_v107, main_v108, main_v109, main_v110, main_v111, main_cst_24, main_v112, main_cst_25, main_v113, main_v114, main_v115, main_cst_26, main_v116, main_v117, main_cst_27, main_v118, main_v119, main_v120, main_cst_28, main_v121, main_v122, main_cst_29, main_v123, main_v124, main_cst_30, main_v125, main_v126, main_v127, main_v128, main_v129, main_v130, main_c_31, main_v131, main_v132, main_c_32, main_v133, main_v134, main_v135, main_v136, main_v137, main_cst_33, main_v138, main_v139, main_v140, main_v141, main_v142, main_v143, main_v144, main_v145, main_v146]
set_option maxHeartbeats 40000000 in
theorem hostOps0_4_writes : (hostOps0_4 : List (HloOp τ sig (Elt F))).Forall fun op => op.writes ⊆ (hostOps0_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps0_5` allocates a buffer. -/
theorem hostOps0_5_fresh : (hostOps0_5 : List (HloOp τ sig (Elt F))).Forall fun op => op.fresh = ∅ := by
  simp only [List.Forall]; repeat' constructor
/-- The references `hostOps0_5`'s operations write. -/
abbrev hostOps0_5_W : List (Ref sig .tc) := [main_call2_cst, main_call2_v0, main_v147]
theorem hostOps0_5_writes : (hostOps0_5 : List (HloOp τ sig (Elt F))).Forall fun op => op.writes ⊆ (hostOps0_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 40000000 in
/-- No operation of `hostOps0_6` allocates a buffer. -/
theorem hostOps0_6_fresh : (hostOps0_6 : List (HloOp τ sig (Elt F))).Forall fun op => op.fresh = ∅ := by
  simp only [List.Forall]; repeat' constructor
/-- The references `hostOps0_6`'s operations write. -/
abbrev hostOps0_6_W : List (Ref sig .tc) := [main_v148, main_v149, main_v150, main_v151, main_c_34, main_v152, main_v153, main_c_35, main_v154, main_v155, main_v156, main_v157, main_v158, main_cst_36, main_v159, main_v160, main_v161, main_v162, main_v163, main_v164, main_v165, main_v166, main_v167, main_v168, main_v169, main_v170, main_v171, main_v172, main_cst_37, main_v173, main_cst_38, main_v174, main_v175, main_v176, main_v177, main_v178, main_v179, main_cst_39, main_v180, main_v181, main_v182, main_v183]
set_option maxHeartbeats 40000000 in
theorem hostOps0_6_writes : (hostOps0_6 : List (HloOp τ sig (Elt F))).Forall fun op => op.writes ⊆ (hostOps0_6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps0_7` allocates a buffer. -/
theorem hostOps0_7_fresh : (hostOps0_7 : List (HloOp τ sig (Elt F))).Forall fun op => op.fresh = ∅ := by
  simp only [List.Forall]; repeat' constructor
/-- The references `hostOps0_7`'s operations write. -/
abbrev hostOps0_7_W : List (Ref sig .tc) := [main_call3_cst, main_call3_v0, main_v184]
theorem hostOps0_7_writes : (hostOps0_7 : List (HloOp τ sig (Elt F))).Forall fun op => op.writes ⊆ (hostOps0_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 40000000 in
/-- No operation of `hostOps0_8` allocates a buffer. -/
theorem hostOps0_8_fresh : (hostOps0_8 : List (HloOp τ sig (Elt F))).Forall fun op => op.fresh = ∅ := by
  simp only [List.Forall]; repeat' constructor
/-- The references `hostOps0_8`'s operations write. -/
abbrev hostOps0_8_W : List (Ref sig .tc) := [main_cst_40, main_v185, main_cst_41, main_v186, main_c_42, main_v187, main_v188, main_c_43, main_v189, main_v190, main_v191, main_c_44, main_v192, main_v193, main_c_45, main_v194, main_v195, main_v196, main_v197, main_v198, main_v199, main_cst_46, main_v200, main_v201, main_v202, main_cst_47, main_v203, main_c_48, main_v204, main_v205, main_c_49, main_v206, main_v207, main_v208, main_c_50, main_v209, main_v210, main_c_51, main_v211, main_v212, main_v213, main_v214, main_v215, main_v216, main_cst_52, main_v217, main_v218, main_v219, main_cst_53, main_v220, main_c_54, main_v221, main_v222, main_c_55, main_v223, main_v224, main_v225, main_c_56, main_v226, main_v227, main_c_57, main_v228, main_v229, main_v230, main_v231, main_v232, main_v233, main_cst_58, main_v234, main_v235, main_v236, main_v237]
set_option maxHeartbeats 40000000 in
theorem hostOps0_8_writes : (hostOps0_8 : List (HloOp τ sig (Elt F))).Forall fun op => op.writes ⊆ (hostOps0_8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v239]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v241, main_v242, main_cst_59, main_v243, main_v244, main_v245, main_v246, main_v247, main_c_60, main_v248, main_v249, main_v250, main_v251, main_v252, main_cst_61, main_v253, main_cst_62, main_v254, main_v255, main_cst_63, main_v256, main_v257, main_v258, main_v259, main_v260]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v262, main_v263, main_v264, main_v265, main_v266, main_v267, main_v268]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps3_1` allocates a buffer. -/
theorem hostOps3_1_fresh : (hostOps3_1 : List (HloOp τ sig (Elt F))).Forall fun op => op.fresh = ∅ := by
  simp only [List.Forall]; repeat' constructor
/-- The references `hostOps3_1`'s operations write. -/
abbrev hostOps3_1_W : List (Ref sig .tc) := [main_call4_cst, main_call4_v0, main_v269]
theorem hostOps3_1_writes : (hostOps3_1 : List (HloOp τ sig (Elt F))).Forall fun op => op.writes ⊆ (hostOps3_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps3_2` allocates a buffer. -/
theorem hostOps3_2_fresh : (hostOps3_2 : List (HloOp τ sig (Elt F))).Forall fun op => op.fresh = ∅ := by
  simp only [List.Forall]; repeat' constructor
/-- The references `hostOps3_2`'s operations write. -/
abbrev hostOps3_2_W : List (Ref sig .tc) := [main_v270, main_v271, main_v272, main_v273]
theorem hostOps3_2_writes : (hostOps3_2 : List (HloOp τ sig (Elt F))).Forall fun op => op.writes ⊆ (hostOps3_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v275, main_v276, main_v277, main_v278, main_v279, main_v280, main_v281, main_cst_64, main_v282, main_v283, main_v284]
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- The launch's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31]
/-- No operation of `hostOps0` writes an argument. -/
theorem hostOps0_args : ∀ r ∈ argRefs, r ∉ hostOps0_W := by decide
/-- No operation of `hostOps0_1` writes an argument. -/
theorem hostOps0_1_args : ∀ r ∈ argRefs, r ∉ hostOps0_1_W := by decide
/-- No operation of `hostOps0_2` writes an argument. -/
theorem hostOps0_2_args : ∀ r ∈ argRefs, r ∉ hostOps0_2_W := by decide
/-- No operation of `hostOps0_3` writes an argument. -/
theorem hostOps0_3_args : ∀ r ∈ argRefs, r ∉ hostOps0_3_W := by decide
/-- No operation of `hostOps0_4` writes an argument. -/
theorem hostOps0_4_args : ∀ r ∈ argRefs, r ∉ hostOps0_4_W := by decide
/-- No operation of `hostOps0_5` writes an argument. -/
theorem hostOps0_5_args : ∀ r ∈ argRefs, r ∉ hostOps0_5_W := by decide
/-- No operation of `hostOps0_6` writes an argument. -/
theorem hostOps0_6_args : ∀ r ∈ argRefs, r ∉ hostOps0_6_W := by decide
/-- No operation of `hostOps0_7` writes an argument. -/
theorem hostOps0_7_args : ∀ r ∈ argRefs, r ∉ hostOps0_7_W := by decide
/-- No operation of `hostOps0_8` writes an argument. -/
theorem hostOps0_8_args : ∀ r ∈ argRefs, r ∉ hostOps0_8_W := by decide
/-- No operation of `hostOps1` writes an argument. -/
theorem hostOps1_args : ∀ r ∈ argRefs, r ∉ hostOps1_W := by decide
/-- No operation of `hostOps2` writes an argument. -/
theorem hostOps2_args : ∀ r ∈ argRefs, r ∉ hostOps2_W := by decide
/-- No operation of `hostOps3` writes an argument. -/
theorem hostOps3_args : ∀ r ∈ argRefs, r ∉ hostOps3_W := by decide
/-- No operation of `hostOps3_1` writes an argument. -/
theorem hostOps3_1_args : ∀ r ∈ argRefs, r ∉ hostOps3_1_W := by decide
/-- No operation of `hostOps3_2` writes an argument. -/
theorem hostOps3_2_args : ∀ r ∈ argRefs, r ∉ hostOps3_2_W := by decide
/-- No operation of `hostOps4` writes an argument. -/
theorem hostOps4_args : ∀ r ∈ argRefs, r ∉ hostOps4_W := by decide

end Cert.KernelIdeal.Hand

end
-- ==== Proof.KiR0Runs.lean ====
import proofs.«122112_j6631429505271_1_alg».proof.Proof.Gen.KernelIdeal.Launch
import proofs.«122112_j6631429505271_1_alg».proof.Proof.Gen.KernelIdeal.Skeleton
import proofs.«122112_j6631429505271_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions (region 0) -/

/-- The condition of the body's first conditional, from the grid coordinates (the scalar chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional, from the grid coordinates. -/
abbrev cond0_1 (i : grid0.Coords) : Prop := k0_cond2 i = 1#1
/-- It holds at the points ≡ 7 (mod 8) — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Windows 0, 1, 2 are never idle (inputs). -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the points of case A output 3 is idle: the case stores nothing into it. -/
theorem idleAt0_3_A : ∀ t : Fin cfg0.N, cond0_0 (grid0.coords t) → ¬cond0_1 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → (cfg0.win 3).flush t = false := by decide +kernel
/-- At the points of case B output 3 is idle: the case stores nothing into it. -/
theorem idleAt0_3_B : ∀ t : Fin cfg0.N, ¬cond0_0 (grid0.coords t) → ¬cond0_1 (grid0.coords t) → cfg0.idle 3 (grid0.coords t) = true := by decide +kernel
/-- At the points of case B the pipeline does not write output 3's block back. -/
theorem noFlush0_3_B : ∀ t : Fin cfg0.N, ¬cond0_0 (grid0.coords t) → ¬cond0_1 (grid0.coords t) → (cfg0.win 3).flush t = false := by decide +kernel
/-- At the points of case C output 3 is live: the case stores into it. -/
theorem liveAt0_3_C : ∀ t : Fin cfg0.N, ¬cond0_0 (grid0.coords t) → cond0_1 (grid0.coords t) → cfg0.idle 3 (grid0.coords t) = false := by decide +kernel

/-! ## The kernel body on any staging memrefs -/

/-- One staging buffer of output window 3, through which its contents are stated (the choice does not matter). -/
abbrev VO0_3 : View sig .tc .vmem S512x2048 .f32 := (Memref.whole cc0_stg3_0 : Memref sig .tc .vmem S512x2048 .f32).view
/-- Each window's current staging memref at point `t`, spelled as the pipeline passes it, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
/-- The scratch operand: a whole scoped buffer of the kernel's own, passed beside the windows. -/
abbrev scM0_0 : Memref sig .tc .vmem S512x2048 .f32 := Memref.whole cc0_scratch0
/-- The scratch the kernel carries between points, as a view: what it holds is stated through it. -/
abbrev VS0_0 : View sig .tc .vmem S512x2048 .f32 := scM0_0.view

/-- The region's invariant with the scratch operand as a memref owned at some contents, the other scoped buffers
    unopened: what the body obligation hands the run and takes back. -/
theorem PhiA0_eq (c : Dev nD) :
    (Pipeline.ΦA spec0 c : sProp 𝕄)
      = iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Hand

end
-- ==== Proof.KiR0RunA.lean ====
import proofs.«122112_j6631429505271_1_alg».proof.Proof.KiR0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's memref and in the scratch, as pieces (last first), IN CASE A (first conditional taken, second not: the first step of a reduction),
    WITH the triple: on whole memrefs — the inputs' at their contents, the output's at contents handed back untouched, the scratch
    at anything — the body runs to the continuation holding the inputs' as they were, the scratch
    with its pieces written. -/
noncomputable def kernelRun0_A (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x512 .f32) (x1 : Vec F S512x2048 .f32) (x2 : Vec F S1x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨[], ?_, fun xi3 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KiR0RunB.lean ====
import proofs.«122112_j6631429505271_1_alg».proof.Proof.KiR0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's memref and in the scratch, as pieces (last first), IN CASE B (neither conditional taken: a middle step of a reduction),
    WITH the triple: on whole memrefs — the inputs' at their contents, the output's at contents handed back untouched, the scratch
    at the contents the point before left — the body runs to the continuation holding the inputs' as they were, the scratch
    with its pieces written. -/
noncomputable def kernelRun0_B (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x512 .f32) (x1 : Vec F S512x2048 .f32) (x2 : Vec F S1x2048 .f32) (xs0 : Vec F S512x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨[], ?_, fun xi3 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KiR0RunC.lean ====
import proofs.«122112_j6631429505271_1_alg».proof.Proof.KiR0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's memref and in the scratch, as pieces (last first), IN CASE C (first conditional not taken, second taken: the last step of a reduction),
    WITH the triple: on whole memrefs — the inputs' at their contents, the output's at anything, the scratch
    at the contents the point before left — the body runs to the continuation holding the inputs' as they were, the output's with its pieces written, the scratch
    with its pieces written. -/
noncomputable def kernelRun0_C (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S512x2048 .f32) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KiR0Body.lean ====
import proofs.«122112_j6631429505271_1_alg».proof.Proof.KiR0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # REGION 0: pipeline 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof
    data whose array is `V`'s and whose body leaves the block in place: the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output's buffer and in the scratch -/

/-- Case A stores nothing into output 3 (idle at its points and not written back there): no pieces, a placeholder nothing consults. -/
def out0_A_3 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x512 .f32) (x1 : Vec F S512x2048 .f32) (x2 : Vec F S1x2048 .f32) : Vec F S512x2048 .f32 :=
  VO0_3.read (Elt F) (VO0_3.writes (Elt F) VO0_3.junk (kernelRun0_A c i arg3 harg3 arg4 harg4 arg5 harg5 arg6 harg6 arg7 harg7 hc0 hc1 x0 x1 x2).1)

/-- Case A's pieces for the scratch, which the kernel carries between points, cover it. -/
theorem scover0_A_0 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x512 .f32) (x1 : Vec F S512x2048 .f32) (x2 : Vec F S1x2048 .f32) (y : S512x2048.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S512x2048.size (by sl_kernel_rfl) y

/-- What case A leaves in the scratch: its pieces read back. -/
def sout0_A_0 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x512 .f32) (x1 : Vec F S512x2048 .f32) (x2 : Vec F S1x2048 .f32) : Vec F S512x2048 .f32 :=
  VS0_0.read (Elt F) (VS0_0.writes (Elt F) VS0_0.junk (kernelRun0_A c i arg3 harg3 arg4 harg4 arg5 harg5 arg6 harg6 arg7 harg7 hc0 hc1 x0 x1 x2).2.1)

/-- Case B stores nothing into output 3 (idle at its points and not written back there): no pieces, a placeholder nothing consults. -/
def out0_B_3 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x512 .f32) (x1 : Vec F S512x2048 .f32) (x2 : Vec F S1x2048 .f32) (xs0 : Vec F S512x2048 .f32) : Vec F S512x2048 .f32 :=
  VO0_3.read (Elt F) (VO0_3.writes (Elt F) VO0_3.junk (kernelRun0_B c i arg3 harg3 arg4 harg4 arg5 harg5 arg6 harg6 arg7 harg7 hc0 hc1 x0 x1 x2 xs0).1)

/-- Case B's pieces for the scratch, which the kernel carries between points, cover it. -/
theorem scover0_B_0 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x512 .f32) (x1 : Vec F S512x2048 .f32) (x2 : Vec F S1x2048 .f32) (xs0 : Vec F S512x2048 .f32) (y : S512x2048.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S512x2048.size (by sl_kernel_rfl) y

/-- What case B leaves in the scratch: its pieces read back. -/
def sout0_B_0 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x512 .f32) (x1 : Vec F S512x2048 .f32) (x2 : Vec F S1x2048 .f32) (xs0 : Vec F S512x2048 .f32) : Vec F S512x2048 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- Case C's pieces for output 3 tile its block, so they cover it. -/
theorem cover0_C_3 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S512x2048 .f32) (x2 : Vec F S1x2048 .f32) (xs0 : Vec F S512x2048 .f32) (y : S512x2048.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S512x2048.size (by sl_kernel_rfl) y

/-- What case C leaves in output 3's staging buffer: its pieces read back. -/
def out0_C_3 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S512x2048 .f32) (x2 : Vec F S1x2048 .f32) (xs0 : Vec F S512x2048 .f32) : Vec F S512x2048 .f32 :=
  VO0_3.read (Elt F) (VO0_3.writes (Elt F) VO0_3.junk (kernelRun0_C c i arg3 harg3 arg4 harg4 arg5 harg5 arg6 harg6 arg7 harg7 hc0 hc1 x0 x1 x2 xs0).1)

/-- Case C's pieces for the scratch, which the kernel carries between points, cover it. -/
theorem scover0_C_0 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S512x2048 .f32) (x2 : Vec F S1x2048 .f32) (xs0 : Vec F S512x2048 .f32) (y : S512x2048.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S512x2048.size (by sl_kernel_rfl) y

/-- What case C leaves in the scratch: its pieces read back. -/
def sout0_C_0 (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S512x2048 .f32) (x2 : Vec F S1x2048 .f32) (xs0 : Vec F S512x2048 .f32) : Vec F S512x2048 .f32 :=
  VS0_0.read (Elt F) (VS0_0.writes (Elt F) VS0_0.junk (kernelRun0_C c i arg3 harg3 arg4 harg4 arg5 harg5 arg6 harg6 arg7 harg7 hc0 hc1 x0 x1 x2 xs0).2.1)

/-! ## What the output and the scratch hold after each point -/

/-- THE ACCUMULATION. What the output's staging buffer and the scratch hold after the body at position `n` (a pair:
    the output, then the scratch): the case the closed forms select at `n`, run at the point's memrefs and input
    blocks, over the scratch as the point before left it. -/
def outsAt0 (c : Dev nD) : (n : ℕ) → n < cfg0.N → Vec F S512x2048 .f32 × Vec F S512x2048 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the scratch at what the point before left in it, the other scoped buffers unopened, and the generator
    register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2)) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's contents. -/
theorem PhiS0_succ (c : Dev nD) (n : ℕ) (hn : n < cfg0.N) :
    PhiS0 V c (n + 1) hn = iprop(iprop(iprop(owns (c : Thread nD τ) scM0_0 fullShare ((outsAt0 V c n hn).2)) ∗ Pipeline.scopedRestBut (Ix := Unit) (Name := ℕ) (U := UR sig nD τ) (Lvl := ℕ) (Val := Elt F) spec0 c [cc0_scratch0]) ∗ (∃ r, prngReg c r)) := rfl

/-- Before a point that is not the first: the scratch at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in;
    so that case's run applies; the invariant hands the body the scratch at what the point before left (at anything
    at the first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      ·
        rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end

end Cert.KernelIdeal.Hand

end
-- ==== Proof.KiR1Runs.lean ====
import proofs.«122112_j6631429505271_1_alg».proof.Proof.Gen.KernelIdeal.Launch
import proofs.«122112_j6631429505271_1_alg».proof.Proof.Gen.KernelIdeal.Skeleton
import proofs.«122112_j6631429505271_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions (region 1) -/

/-- The condition of the body's first conditional, from the grid coordinates (the scalar chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional, from the grid coordinates. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Windows 0, 1, 2 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A output 3 is idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B output 3 is idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C output 3 is live: the case stores into it. -/
theorem liveAt1_3_C : ∀ t : Fin cfg1.N, ¬cond1_0 (grid1.coords t) → cond1_1 (grid1.coords t) → cfg1.idle 3 (grid1.coords t) = false := by decide +kernel

/-! ## The kernel body on any staging memrefs -/

/-- One staging buffer of output window 3, through which its contents are stated (the choice does not matter). -/
abbrev VO1_3 : View sig .tc .vmem S512x2048 .f32 := (Memref.whole cc1_stg3_0 : Memref sig .tc .vmem S512x2048 .f32).view
/-- Each window's current staging memref at point `t`, spelled as the pipeline passes it, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S512x2048 .f32 := Memref.whole cc1_scratch0
/-- The scratch the kernel carries between points, as a view: what it holds is stated through it. -/
abbrev VS1_0 : View sig .tc .vmem S512x2048 .f32 := scM1_0.view

/-- The region's invariant with the scratch operand as a memref owned at some contents, the other scoped buffers
    unopened: what the body obligation hands the run and takes back. -/
theorem PhiA1_eq (c : Dev nD) :
    (Pipeline.ΦA spec1 c : sProp 𝕄)
      = iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KiR1RunA.lean ====
import proofs.«122112_j6631429505271_1_alg».proof.Proof.KiR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's memref and in the scratch, as pieces (last first), IN CASE A (first conditional taken, second not: the first step of a reduction),
    WITH the triple: on whole memrefs — the inputs' at their contents, the output's at contents handed back untouched, the scratch
    at anything — the body runs to the continuation holding the inputs' as they were, the scratch
    with its pieces written. -/
noncomputable def kernelRun1_A (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .f32) (x1 : Vec F S512x2048 .f32) (x2 : Vec F S1x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KiR1RunB.lean ====
import proofs.«122112_j6631429505271_1_alg».proof.Proof.KiR1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's memref and in the scratch, as pieces (last first), IN CASE B (neither conditional taken: a middle step of a reduction),
    WITH the triple: on whole memrefs — the inputs' at their contents, the output's at contents handed back untouched, the scratch
    at the contents the point before left — the body runs to the continuation holding the inputs' as they were, the scratch
    with its pieces written. -/
noncomputable def kernelRun1_B (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .f32) (x1 : Vec F S512x2048 .f32) (x2 : Vec F S1x2048 .f32) (xs0 : Vec F S512x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KiR1RunC.lean ====
import proofs.«122112_j6631429505271_1_alg».proof.Proof.KiR1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's memref and in the scratch, as pieces (last first), IN CASE C (first conditional not taken, second taken: the last step of a reduction),
    WITH the triple: on whole memrefs — the inputs' at their contents, the output's at anything, the scratch
    at the contents the point before left — the body runs to the continuation holding the inputs' as they were, the output's with its pieces written, the scratch
    with its pieces written. -/
noncomputable def kernelRun1_C (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .f32) (x1 : Vec F S512x2048 .f32) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KiR1Body.lean ====
import proofs.«122112_j6631429505271_1_alg».proof.Proof.KiR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # REGION 1: pipeline 1, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof
    data whose array is `V`'s and whose body leaves the block in place: the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer and in the scratch -/

/-- Case A stores nothing into output 3 (idle at its points and not written back there): no pieces, a placeholder nothing consults. -/
def out1_A_3 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .f32) (x1 : Vec F S512x2048 .f32) (x2 : Vec F S1x2048 .f32) : Vec F S512x2048 .f32 :=
  VO1_3.read (Elt F) (VO1_3.writes (Elt F) VO1_3.junk (kernelRun1_A c i arg3 harg3 arg4 harg4 arg5 harg5 arg6 harg6 arg7 harg7 hc0 hc1 x0 x1 x2).1)

/-- Case A's pieces for the scratch, which the kernel carries between points, cover it. -/
theorem scover1_A_0 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .f32) (x1 : Vec F S512x2048 .f32) (x2 : Vec F S1x2048 .f32) (y : S512x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S512x2048.size (by sl_kernel_rfl) y

/-- What case A leaves in the scratch: its pieces read back. -/
def sout1_A_0 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .f32) (x1 : Vec F S512x2048 .f32) (x2 : Vec F S1x2048 .f32) : Vec F S512x2048 .f32 :=
  VS1_0.read (Elt F) (VS1_0.writes (Elt F) VS1_0.junk (kernelRun1_A c i arg3 harg3 arg4 harg4 arg5 harg5 arg6 harg6 arg7 harg7 hc0 hc1 x0 x1 x2).2.1)

/-- Case B stores nothing into output 3 (idle at its points and not written back there): no pieces, a placeholder nothing consults. -/
def out1_B_3 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .f32) (x1 : Vec F S512x2048 .f32) (x2 : Vec F S1x2048 .f32) (xs0 : Vec F S512x2048 .f32) : Vec F S512x2048 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's pieces for the scratch, which the kernel carries between points, cover it. -/
theorem scover1_B_0 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .f32) (x1 : Vec F S512x2048 .f32) (x2 : Vec F S1x2048 .f32) (xs0 : Vec F S512x2048 .f32) (y : S512x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S512x2048.size (by sl_kernel_rfl) y

/-- What case B leaves in the scratch: its pieces read back. -/
def sout1_B_0 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .f32) (x1 : Vec F S512x2048 .f32) (x2 : Vec F S1x2048 .f32) (xs0 : Vec F S512x2048 .f32) : Vec F S512x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's pieces for output 3 tile its block, so they cover it. -/
theorem cover1_C_3 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .f32) (x1 : Vec F S512x2048 .f32) (x2 : Vec F S1x2048 .f32) (xs0 : Vec F S512x2048 .f32) (y : S512x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S512x2048.size (by sl_kernel_rfl) y

/-- What case C leaves in output 3's staging buffer: its pieces read back. -/
def out1_C_3 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .f32) (x1 : Vec F S512x2048 .f32) (x2 : Vec F S1x2048 .f32) (xs0 : Vec F S512x2048 .f32) : Vec F S512x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's pieces for the scratch, which the kernel carries between points, cover it. -/
theorem scover1_C_0 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .f32) (x1 : Vec F S512x2048 .f32) (x2 : Vec F S1x2048 .f32) (xs0 : Vec F S512x2048 .f32) (y : S512x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S512x2048.size (by sl_kernel_rfl) y

/-- What case C leaves in the scratch: its pieces read back. -/
def sout1_C_0 (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .f32) (x1 : Vec F S512x2048 .f32) (x2 : Vec F S1x2048 .f32) (xs0 : Vec F S512x2048 .f32) : Vec F S512x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output and the scratch hold after each point -/

/-- THE ACCUMULATION. What the output's staging buffer and the scratch hold after the body at position `n` (a pair:
    the output, then the scratch): the case the closed forms select at `n`, run at the point's memrefs and input
    blocks, over the scratch as the point before left it. -/
def outsAt1 (c : Dev nD) : (n : ℕ) → n < cfg1.N → Vec F S512x2048 .f32 × Vec F S512x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the scratch at what the point before left in it, the other scoped buffers unopened, and the generator
    register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    so that case's run applies; the invariant hands the body the scratch at what the point before left (at anything
    at the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end

end Cert.KernelIdeal.Hand

end
-- ==== Proof.KiR2Runs.lean ====
import proofs.«122112_j6631429505271_1_alg».proof.Proof.Gen.KernelIdeal.Launch
import proofs.«122112_j6631429505271_1_alg».proof.Proof.Gen.KernelIdeal.Skeleton
import proofs.«122112_j6631429505271_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: what the three runs of its body share -/

/-! ## The body's branch conditions -/

/-- The condition of the body's first `scf.if` (reset the accumulator), from the grid coordinates: the reduction
    coordinate is zero. -/
abbrev cond2_0 (i : grid2.Coords) : Prop := (Scalar.cmpi .ne (Scalar.extui (Scalar.cmpi .eq (BitVec.ofNat 32 (i 2).val) 0#32)) 0#32) = 1#1
/-- It holds at the points ≡ 0 (mod 8) — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second `scf.if` (store the output): the reduction coordinate is the last. -/
abbrev cond2_1 (i : grid2.Coords) : Prop := k2_cond2 i = 1#1
/-- It holds at the points ≡ 7 (mod 8) — decided over the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- Windows 0, 1, 2 are never idle (inputs). -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the points of case A output 3 is idle: the case stores nothing into it. -/
theorem idleAt2_3_A : ∀ t : Fin cfg2.N, cond2_0 (grid2.coords t) → ¬cond2_1 (grid2.coords t) → cfg2.idle 3 (grid2.coords t) = true := by decide +kernel
/-- At the points of case A output 3's block is not written back. -/
theorem noFlush2_3_A : ∀ t : Fin cfg2.N, cond2_0 (grid2.coords t) → ¬cond2_1 (grid2.coords t) → (cfg2.win 3).flush t = false := by decide +kernel
/-- At the points of case B output 3 is idle: the case stores nothing into it. -/
theorem idleAt2_3_B : ∀ t : Fin cfg2.N, ¬cond2_0 (grid2.coords t) → ¬cond2_1 (grid2.coords t) → cfg2.idle 3 (grid2.coords t) = true := by decide +kernel
/-- At the points of case B output 3's block is not written back. -/
theorem noFlush2_3_B : ∀ t : Fin cfg2.N, ¬cond2_0 (grid2.coords t) → ¬cond2_1 (grid2.coords t) → (cfg2.win 3).flush t = false := by decide +kernel
/-- At the points of case C output 3 is live: the case stores into it. -/
theorem liveAt2_3_C : ∀ t : Fin cfg2.N, ¬cond2_0 (grid2.coords t) → cond2_1 (grid2.coords t) → cfg2.idle 3 (grid2.coords t) = false := by decide +kernel

/-! ## The staging and scratch memrefs -/

/-- One staging buffer of output window 3, through which its contents are stated (the choice does not matter). -/
abbrev VO2_3 : View sig .tc .vmem S512x64 .f32 := (Memref.whole cc2_stg3_0 : Memref sig .tc .vmem S512x64 .f32).view
/-- Each window's current staging memref at point `t`, spelled as the pipeline passes it, and its wholeness. -/
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x64 .f32 := win2_3.stage (cfg2.slots t 3)
abbrev hs2_3 (t : Fin cfg2.N) : (ms2_3 t).IsWhole := hstage2_3 ((cfg2.slots t 3).cast nbuf2_3)
/-- The scratch operand: a whole scoped buffer of the kernel's own, passed beside the windows. -/
abbrev scM2_0 : Memref sig .tc .vmem S512x64 .f32 := Memref.whole cc2_scratch0
/-- The scratch the kernel carries between points, as a view: what it holds is stated through it. -/
abbrev VS2_0 : View sig .tc .vmem S512x64 .f32 := scM2_0.view

/-- Every other scoped buffer of the core (the other calls' staging buffers and scratch), unopened. -/
abbrev rest2 (c : Dev nD) : sProp 𝕄 :=
  Pipeline.scopedRestBut (Ix := Unit) (Name := ℕ) (U := UR sig nD τ) (Lvl := ℕ) (Val := Elt F) spec2 c [cc2_scratch0]

/-- The region's invariant with the scratch operand as a memref owned at some contents, beside the unopened rest and
    the generator register: what the body obligation hands the run and takes back. -/
theorem PhiA2_eq (c : Dev nD) :
    (Pipeline.ΦA spec2 c : sProp 𝕄)
      = iprop(iprop(iprop((∃ d, owns (c : Thread nD τ) scM2_0 fullShare d)) ∗ rest2 c) ∗ (∃ r, prngReg c r)) := by
  unfold Pipeline.ΦA; rw [scopedRest2_split]; simp only [scM2_0, owns_whole]; try rfl

end Cert.KernelIdeal.Hand

end
-- ==== Proof.KiR2RunA.lean ====
import proofs.«122112_j6631429505271_1_alg».proof.Proof.KiR2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref (`L3`) and in the scratch accumulator (`LS0`), as
    pieces (last first), IN CASE A (the accumulator is reset and the product added; nothing is stored into the output), WITH the proof that on whole memrefs — the three inputs' at their
    contents, the output's at contents `xi3` handed back untouched, the scratch at anything — the body runs to the
    continuation holding the inputs' as they were and the scratch with its pieces written. -/
noncomputable def kernelRun2_A (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x512 .f32) (x1 : Vec F S512x64 .f32) (x2 : Vec F S1x64 .f32) :
    Σ' (L3 : List (View.Piece (Elt F) S512x64 .f32)), { LS0 : List (View.Piece (Elt F) S512x64 .f32) //
      ∀ (xi3 : Vec F S512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨[], ?_, fun xi3 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KiR2RunB.lean ====
import proofs.«122112_j6631429505271_1_alg».proof.Proof.KiR2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref (`L3`) and in the scratch accumulator (`LS0`), as
    pieces (last first), IN CASE B (the product is added to the accumulator; nothing is stored into the output), WITH the proof that on whole memrefs — the three inputs' at their
    contents, the output's at contents `xi3` handed back untouched, the scratch at the contents `xs0` the point before left — the body runs to the
    continuation holding the inputs' as they were and the scratch with its pieces written. -/
noncomputable def kernelRun2_B (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x512 .f32) (x1 : Vec F S512x64 .f32) (x2 : Vec F S1x64 .f32) (xs0 : Vec F S512x64 .f32) :
    Σ' (L3 : List (View.Piece (Elt F) S512x64 .f32)), { LS0 : List (View.Piece (Elt F) S512x64 .f32) //
      ∀ (xi3 : Vec F S512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨[], ?_, fun xi3 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KiR2RunC.lean ====
import proofs.«122112_j6631429505271_1_alg».proof.Proof.KiR2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref (`L3`) and in the scratch accumulator (`LS0`), as
    pieces (last first), IN CASE C (the product is added to the accumulator and the output is stored from it and the bias), WITH the proof that on whole memrefs — the three inputs' at their
    contents, the output's at anything, the scratch at the contents `xs0` the point before left — the body runs to the
    continuation holding the inputs' as they were, the output's with its pieces written and the scratch with its pieces written. -/
noncomputable def kernelRun2_C (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x512 .f32) (x1 : Vec F S512x64 .f32) (x2 : Vec F S1x64 .f32) (xs0 : Vec F S512x64 .f32) :
    Σ' (L3 : List (View.Piece (Elt F) S512x64 .f32)), { LS0 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KiR2Body.lean ====
import proofs.«122112_j6631429505271_1_alg».proof.Proof.KiR2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered: the parameter the region's half is stated at
variable (V : (c : Dev nD) → (b : Ref sig .tc) → Buf (Elt F) ((c : Thread nD τ).loc b))

/-! # Region 2: the matrix-product kernel of pipeline 2, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for ANY proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the output's buffer and in the accumulator -/

/-- Case A stores nothing into output 3 (the window is idle at its points and not written back there): no pieces —
    a placeholder that nothing consults. -/
def out2_A_3 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x512 .f32) (x1 : Vec F S512x64 .f32) (x2 : Vec F S1x64 .f32) : Vec F S512x64 .f32 :=
  VO2_3.read (Elt F) (VO2_3.writes (Elt F) VO2_3.junk (kernelRun2_A c i arg3 harg3 arg4 harg4 arg5 harg5 arg6 harg6 arg7 harg7 hc0 hc1 x0 x1 x2).1)

/-- Case A's pieces for the scratch accumulator cover it (whole stores). -/
theorem scover2_A_0 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x512 .f32) (x1 : Vec F S512x64 .f32) (x2 : Vec F S1x64 .f32) (y : S512x64.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S512x64.size (by sl_kernel_rfl) y

/-- What case A leaves in the scratch accumulator: its pieces read back over junk. -/
def sout2_A_0 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i)
    (x0 : Vec F S512x512 .f32) (x1 : Vec F S512x64 .f32) (x2 : Vec F S1x64 .f32) : Vec F S512x64 .f32 :=
  VS2_0.read (Elt F) (VS2_0.writes (Elt F) VS2_0.junk (kernelRun2_A c i arg3 harg3 arg4 harg4 arg5 harg5 arg6 harg6 arg7 harg7 hc0 hc1 x0 x1 x2).2.1)

/-- Case B stores nothing into output 3 (the window is idle at its points and not written back there): no pieces —
    a placeholder that nothing consults. -/
def out2_B_3 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x512 .f32) (x1 : Vec F S512x64 .f32) (x2 : Vec F S1x64 .f32) (xs0 : Vec F S512x64 .f32) : Vec F S512x64 .f32 :=
  VO2_3.read (Elt F) (VO2_3.writes (Elt F) VO2_3.junk (kernelRun2_B c i arg3 harg3 arg4 harg4 arg5 harg5 arg6 harg6 arg7 harg7 hc0 hc1 x0 x1 x2 xs0).1)

/-- Case B's pieces for the scratch accumulator cover it (whole stores). -/
theorem scover2_B_0 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x512 .f32) (x1 : Vec F S512x64 .f32) (x2 : Vec F S1x64 .f32) (xs0 : Vec F S512x64 .f32) (y : S512x64.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S512x64.size (by sl_kernel_rfl) y

/-- What case B leaves in the scratch accumulator: its pieces read back over junk. -/
def sout2_B_0 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i)
    (x0 : Vec F S512x512 .f32) (x1 : Vec F S512x64 .f32) (x2 : Vec F S1x64 .f32) (xs0 : Vec F S512x64 .f32) : Vec F S512x64 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- Case C's pieces for output 3 tile its block (one whole store), so they cover it. -/
theorem cover2_C_3 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x512 .f32) (x1 : Vec F S512x64 .f32) (x2 : Vec F S1x64 .f32) (xs0 : Vec F S512x64 .f32) (y : S512x64.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S512x64.size (by sl_kernel_rfl) y

/-- What case C leaves in output 3's staging buffer: its pieces read back over junk. -/
def out2_C_3 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x512 .f32) (x1 : Vec F S512x64 .f32) (x2 : Vec F S1x64 .f32) (xs0 : Vec F S512x64 .f32) : Vec F S512x64 .f32 :=
  VO2_3.read (Elt F) (VO2_3.writes (Elt F) VO2_3.junk (kernelRun2_C c i arg3 harg3 arg4 harg4 arg5 harg5 arg6 harg6 arg7 harg7 hc0 hc1 x0 x1 x2 xs0).1)

/-- Case C's pieces for the scratch accumulator cover it (whole stores). -/
theorem scover2_C_0 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x512 .f32) (x1 : Vec F S512x64 .f32) (x2 : Vec F S1x64 .f32) (xs0 : Vec F S512x64 .f32) (y : S512x64.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S512x64.size (by sl_kernel_rfl) y

/-- What case C leaves in the scratch accumulator: its pieces read back over junk. -/
def sout2_C_0 (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i)
    (x0 : Vec F S512x512 .f32) (x1 : Vec F S512x64 .f32) (x2 : Vec F S1x64 .f32) (xs0 : Vec F S512x64 .f32) : Vec F S512x64 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## What the output and the accumulator hold after each point -/

/-- THE ACCUMULATION. What output 3's staging buffer and the scratch accumulator hold after the body at position `n`
    (a pair: the output, then the scratch): the case the closed forms select at `n`, run at the point's memrefs and
    input blocks, the accumulator at what this leaves at `n - 1`. The two conditions never hold together. -/
def outsAt2 (c : Dev nD) : (n : ℕ) → n < cfg2.N → Vec F S512x64 .f32 × Vec F S512x64 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 8 = 0) (h1 : ¬t.val % 8 = 7) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 8 = 0) (h1 : ¬t.val % 8 = 7) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 8 = 0) (h1 : t.val % 8 = 7) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the scratch at anything);
    afterwards the scratch accumulator at what the point before left in it, the unopened rest and the generator
    register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ rest2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(iprop(owns (c : Thread nD τ) scM2_0 fullShare ((outsAt2 V c n hn).2)) ∗ rest2 c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ rest2 c) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the output's at `outsAt2`; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; so
    that case's run applies; the invariant hands the body the accumulator at what the point before left (at anything at
    the first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 8 = 0
  · by_cases h1 : t.val % 8 = 7
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      ·
        rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Region2

end Cert.KernelIdeal.Hand

end
-- ==== Proof.KiR3Runs.lean ====
import proofs.«122112_j6631429505271_1_alg».proof.Proof.Gen.KernelIdeal.Launch
import proofs.«122112_j6631429505271_1_alg».proof.Proof.Gen.KernelIdeal.Skeleton
import proofs.«122112_j6631429505271_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: what the three runs of its body share -/

/-! ## The body's branch conditions -/

/-- The condition of the body's first `scf.if` (reset the accumulator), from the grid coordinates: the reduction
    coordinate is zero. -/
abbrev cond3_0 (i : grid3.Coords) : Prop := (Scalar.cmpi .ne (Scalar.extui (Scalar.cmpi .eq (BitVec.ofNat 32 (i 2).val) 0#32)) 0#32) = 1#1
/-- It holds at the points ≡ 0 (mod 8) — decided over the grid. -/
theorem hcond3_0 : ∀ t : Fin cfg3.N, cond3_0 (grid3.coords t) ↔ t.val % 8 = 0 :=
  (by decide +kernel : ∀ t : Fin grid3.N, cond3_0 (grid3.coords t) ↔ t.val % 8 = 0)

/-- The condition of the body's second `scf.if` (store the output): the reduction coordinate is the last. -/
abbrev cond3_1 (i : grid3.Coords) : Prop := k3_cond2 i = 1#1
/-- It holds at the points ≡ 7 (mod 8) — decided over the grid. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- Windows 0, 1, 2 are never idle (inputs). -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At the points of case A output 3 is idle: the case stores nothing into it. -/
theorem idleAt3_3_A : ∀ t : Fin cfg3.N, cond3_0 (grid3.coords t) → ¬cond3_1 (grid3.coords t) → cfg3.idle 3 (grid3.coords t) = true := by decide +kernel
/-- At the points of case A output 3's block is not written back. -/
theorem noFlush3_3_A : ∀ t : Fin cfg3.N, cond3_0 (grid3.coords t) → ¬cond3_1 (grid3.coords t) → (cfg3.win 3).flush t = false := by decide +kernel
/-- At the points of case B output 3 is idle: the case stores nothing into it. -/
theorem idleAt3_3_B : ∀ t : Fin cfg3.N, ¬cond3_0 (grid3.coords t) → ¬cond3_1 (grid3.coords t) → cfg3.idle 3 (grid3.coords t) = true := by decide +kernel
/-- At the points of case B output 3's block is not written back. -/
theorem noFlush3_3_B : ∀ t : Fin cfg3.N, ¬cond3_0 (grid3.coords t) → ¬cond3_1 (grid3.coords t) → (cfg3.win 3).flush t = false := by decide +kernel
/-- At the points of case C output 3 is live: the case stores into it. -/
theorem liveAt3_3_C : ∀ t : Fin cfg3.N, ¬cond3_0 (grid3.coords t) → cond3_1 (grid3.coords t) → cfg3.idle 3 (grid3.coords t) = false := by decide +kernel

/-! ## The staging and scratch memrefs -/

/-- One staging buffer of output window 3, through which its contents are stated (the choice does not matter). -/
abbrev VO3_3 : View sig .tc .vmem S512x64 .f32 := (Memref.whole cc3_stg3_0 : Memref sig .tc .vmem S512x64 .f32).view
/-- Each window's current staging memref at point `t`, spelled as the pipeline passes it, and its wholeness. -/
abbrev ms3_0 (t : Fin cfg3.N) : Memref sig .tc .vmem S512x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x64 .f32 := win3_3.stage (cfg3.slots t 3)
abbrev hs3_3 (t : Fin cfg3.N) : (ms3_3 t).IsWhole := hstage3_3 ((cfg3.slots t 3).cast nbuf3_3)
/-- The scratch operand: a whole scoped buffer of the kernel's own, passed beside the windows. -/
abbrev scM3_0 : Memref sig .tc .vmem S512x64 .f32 := Memref.whole cc3_scratch0
/-- The scratch the kernel carries between points, as a view: what it holds is stated through it. -/
abbrev VS3_0 : View sig .tc .vmem S512x64 .f32 := scM3_0.view

/-- Every other scoped buffer of the core (the other calls' staging buffers and scratch), unopened. -/
abbrev rest3 (c : Dev nD) : sProp 𝕄 :=
  Pipeline.scopedRestBut (Ix := Unit) (Name := ℕ) (U := UR sig nD τ) (Lvl := ℕ) (Val := Elt F) spec3 c [cc3_scratch0]

/-- The region's invariant with the scratch operand as a memref owned at some contents, beside the unopened rest and
    the generator register: what the body obligation hands the run and takes back. -/
theorem PhiA3_eq (c : Dev nD) :
    (Pipeline.ΦA spec3 c : sProp 𝕄)
      = iprop(iprop(iprop((∃ d, owns (c : Thread nD τ) scM3_0 fullShare d)) ∗ rest3 c) ∗ (∃ r, prngReg c r)) := by
  unfold Pipeline.ΦA; rw [scopedRest3_split]; simp only [scM3_0, owns_whole]; try rfl

end Cert.KernelIdeal.Hand

end
-- ==== Proof.KiR3RunA.lean ====
import proofs.«122112_j6631429505271_1_alg».proof.Proof.KiR3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref (`L3`) and in the scratch accumulator (`LS0`), as
    pieces (last first), IN CASE A (the accumulator is reset and the product added; nothing is stored into the output), WITH the proof that on whole memrefs — the three inputs' at their
    contents, the output's at contents `xi3` handed back untouched, the scratch at anything — the body runs to the
    continuation holding the inputs' as they were and the scratch with its pieces written. -/
noncomputable def kernelRun3_A (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond3_0 i) (hc1 : ¬cond3_1 i)
    (x0 : Vec F S512x512 .f32) (x1 : Vec F S512x64 .f32) (x2 : Vec F S1x64 .f32) :
    Σ' (L3 : List (View.Piece (Elt F) S512x64 .f32)), { LS0 : List (View.Piece (Elt F) S512x64 .f32) //
      ∀ (xi3 : Vec F S512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__mm_kernel i arg3 harg3 arg4 harg4 arg5 harg5 arg6 harg6 arg7 harg7) K } := by
  refine ⟨[], ?_, fun xi3 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KiR3RunB.lean ====
import proofs.«122112_j6631429505271_1_alg».proof.Proof.KiR3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref (`L3`) and in the scratch accumulator (`LS0`), as
    pieces (last first), IN CASE B (the product is added to the accumulator; nothing is stored into the output), WITH the proof that on whole memrefs — the three inputs' at their
    contents, the output's at contents `xi3` handed back untouched, the scratch at the contents `xs0` the point before left — the body runs to the
    continuation holding the inputs' as they were and the scratch with its pieces written. -/
noncomputable def kernelRun3_B (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : ¬cond3_1 i)
    (x0 : Vec F S512x512 .f32) (x1 : Vec F S512x64 .f32) (x2 : Vec F S1x64 .f32) (xs0 : Vec F S512x64 .f32) :
    Σ' (L3 : List (View.Piece (Elt F) S512x64 .f32)), { LS0 : List (View.Piece (Elt F) S512x64 .f32) //
      ∀ (xi3 : Vec F S512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__mm_kernel i arg3 harg3 arg4 harg4 arg5 harg5 arg6 harg6 arg7 harg7) K } := by
  refine ⟨[], ?_, fun xi3 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KiR3RunC.lean ====
import proofs.«122112_j6631429505271_1_alg».proof.Proof.KiR3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref (`L3`) and in the scratch accumulator (`LS0`), as
    pieces (last first), IN CASE C (the product is added to the accumulator and the output is stored from it and the bias), WITH the proof that on whole memrefs — the three inputs' at their
    contents, the output's at anything, the scratch at the contents `xs0` the point before left — the body runs to the
    continuation holding the inputs' as they were, the output's with its pieces written and the scratch with its pieces written. -/
noncomputable def kernelRun3_C (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : cond3_1 i)
    (x0 : Vec F S512x512 .f32) (x1 : Vec F S512x64 .f32) (x2 : Vec F S1x64 .f32) (xs0 : Vec F S512x64 .f32) :
    Σ' (L3 : List (View.Piece (Elt F) S512x64 .f32)), { LS0 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__mm_kernel i arg3 harg3 arg4 harg4 arg5 harg5 arg6 harg6 arg7 harg7) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KiR3Body.lean ====
import proofs.«122112_j6631429505271_1_alg».proof.Proof.KiR3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered: the parameter the region's half is stated at
variable (V : (c : Dev nD) → (b : Ref sig .tc) → Buf (Elt F) ((c : Thread nD τ).loc b))

/-! # Region 3: the matrix-product kernel of pipeline 3, at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for ANY proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in the output's buffer and in the accumulator -/

/-- Case A stores nothing into output 3 (the window is idle at its points and not written back there): no pieces —
    a placeholder that nothing consults. -/
def out3_A_3 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond3_0 i) (hc1 : ¬cond3_1 i)
    (x0 : Vec F S512x512 .f32) (x1 : Vec F S512x64 .f32) (x2 : Vec F S1x64 .f32) : Vec F S512x64 .f32 :=
  VO3_3.read (Elt F) (VO3_3.writes (Elt F) VO3_3.junk (kernelRun3_A c i arg3 harg3 arg4 harg4 arg5 harg5 arg6 harg6 arg7 harg7 hc0 hc1 x0 x1 x2).1)

/-- Case A's pieces for the scratch accumulator cover it (whole stores). -/
theorem scover3_A_0 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond3_0 i) (hc1 : ¬cond3_1 i)
    (x0 : Vec F S512x512 .f32) (x1 : Vec F S512x64 .f32) (x2 : Vec F S1x64 .f32) (y : S512x64.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S512x64.size (by sl_kernel_rfl) y

/-- What case A leaves in the scratch accumulator: its pieces read back over junk. -/
def sout3_A_0 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond3_0 i) (hc1 : ¬cond3_1 i)
    (x0 : Vec F S512x512 .f32) (x1 : Vec F S512x64 .f32) (x2 : Vec F S1x64 .f32) : Vec F S512x64 .f32 :=
  VS3_0.read (Elt F) (VS3_0.writes (Elt F) VS3_0.junk (kernelRun3_A c i arg3 harg3 arg4 harg4 arg5 harg5 arg6 harg6 arg7 harg7 hc0 hc1 x0 x1 x2).2.1)

/-- Case B stores nothing into output 3 (the window is idle at its points and not written back there): no pieces —
    a placeholder that nothing consults. -/
def out3_B_3 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : ¬cond3_1 i)
    (x0 : Vec F S512x512 .f32) (x1 : Vec F S512x64 .f32) (x2 : Vec F S1x64 .f32) (xs0 : Vec F S512x64 .f32) : Vec F S512x64 .f32 :=
  VO3_3.read (Elt F) (VO3_3.writes (Elt F) VO3_3.junk (kernelRun3_B c i arg3 harg3 arg4 harg4 arg5 harg5 arg6 harg6 arg7 harg7 hc0 hc1 x0 x1 x2 xs0).1)

/-- Case B's pieces for the scratch accumulator cover it (whole stores). -/
theorem scover3_B_0 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : ¬cond3_1 i)
    (x0 : Vec F S512x512 .f32) (x1 : Vec F S512x64 .f32) (x2 : Vec F S1x64 .f32) (xs0 : Vec F S512x64 .f32) (y : S512x64.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S512x64.size (by sl_kernel_rfl) y

/-- What case B leaves in the scratch accumulator: its pieces read back over junk. -/
def sout3_B_0 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : ¬cond3_1 i)
    (x0 : Vec F S512x512 .f32) (x1 : Vec F S512x64 .f32) (x2 : Vec F S1x64 .f32) (xs0 : Vec F S512x64 .f32) : Vec F S512x64 .f32 :=
  VS3_0.read (Elt F) (VS3_0.writes (Elt F) VS3_0.junk (kernelRun3_B c i arg3 harg3 arg4 harg4 arg5 harg5 arg6 harg6 arg7 harg7 hc0 hc1 x0 x1 x2 xs0).2.1)

/-- Case C's pieces for output 3 tile its block (one whole store), so they cover it. -/
theorem cover3_C_3 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : cond3_1 i)
    (x0 : Vec F S512x512 .f32) (x1 : Vec F S512x64 .f32) (x2 : Vec F S1x64 .f32) (xs0 : Vec F S512x64 .f32) (y : S512x64.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S512x64.size (by sl_kernel_rfl) y

/-- What case C leaves in output 3's staging buffer: its pieces read back over junk. -/
def out3_C_3 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : cond3_1 i)
    (x0 : Vec F S512x512 .f32) (x1 : Vec F S512x64 .f32) (x2 : Vec F S1x64 .f32) (xs0 : Vec F S512x64 .f32) : Vec F S512x64 .f32 :=
  VO3_3.read (Elt F) (VO3_3.writes (Elt F) VO3_3.junk (kernelRun3_C c i arg3 harg3 arg4 harg4 arg5 harg5 arg6 harg6 arg7 harg7 hc0 hc1 x0 x1 x2 xs0).1)

/-- Case C's pieces for the scratch accumulator cover it (whole stores). -/
theorem scover3_C_0 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : cond3_1 i)
    (x0 : Vec F S512x512 .f32) (x1 : Vec F S512x64 .f32) (x2 : Vec F S1x64 .f32) (xs0 : Vec F S512x64 .f32) (y : S512x64.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S512x64.size (by sl_kernel_rfl) y

/-- What case C leaves in the scratch accumulator: its pieces read back over junk. -/
def sout3_C_0 (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : cond3_1 i)
    (x0 : Vec F S512x512 .f32) (x1 : Vec F S512x64 .f32) (x2 : Vec F S1x64 .f32) (xs0 : Vec F S512x64 .f32) : Vec F S512x64 .f32 :=
  VS3_0.read (Elt F) (VS3_0.writes (Elt F) VS3_0.junk (kernelRun3_C c i arg3 harg3 arg4 harg4 arg5 harg5 arg6 harg6 arg7 harg7 hc0 hc1 x0 x1 x2 xs0).2.1)

/-! ## What the output and the accumulator hold after each point -/

/-- THE ACCUMULATION. What output 3's staging buffer and the scratch accumulator hold after the body at position `n`
    (a pair: the output, then the scratch): the case the closed forms select at `n`, run at the point's memrefs and
    input blocks, the accumulator at what this leaves at `n - 1`. The two conditions never hold together. -/
def outsAt3 (c : Dev nD) : (n : ℕ) → n < cfg3.N → Vec F S512x64 .f32 × Vec F S512x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point of case A: that case's contents. -/
theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the scratch at anything);
    afterwards the scratch accumulator at what the point before left in it, the unopened rest and the generator
    register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ rest3 c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(iprop(owns (c : Thread nD τ) scM3_0 fullShare ((outsAt3 V c n hn).2)) ∗ rest3 c) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ rest3 c) ∗ (∃ r, prngReg c r)) := by
  cases n with
  | zero => exact absurd rfl hz
  | succ n => rfl

/-! ## The pipeline's proof data -/

/-- The proof data of pipeline 3 on core `c`: the arrays as the region finds them (`V`); after the body at point
    `t` each input's buffer at its block and the output's at `outsAt3`; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; so
    that case's run applies; the invariant hands the body the accumulator at what the point before left (at anything at
    the first point) and takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 8 = 0
  · by_cases h1 : t.val % 8 = 7
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      ·
        rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      ·
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      by_cases hz : t.val = 0
      · exfalso; omega
      ·
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      by_cases hz : t.val = 0
      · exfalso; omega
      ·
        rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Region3

end Cert.KernelIdeal.Hand

end
-- ==== Proof.KiR4Runs.lean ====
import proofs.«122112_j6631429505271_1_alg».proof.Proof.Gen.KernelIdeal.Launch
import proofs.«122112_j6631429505271_1_alg».proof.Proof.Gen.KernelIdeal.Skeleton
import proofs.«122112_j6631429505271_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: what its run is stated over -/

/-! ## The body's branch conditions -/

/-- The condition of the body's first conditional, from the grid coordinates: the reduction coordinate is zero. -/
abbrev cond4_0 (i : grid4.Coords) : Prop := (Scalar.cmpi .ne (Scalar.extui (Scalar.cmpi .eq (BitVec.ofNat 32 (i 2).val) 0#32)) 0#32) = 1#1
/-- The reduction axis has one step, so it holds at every point of the grid. -/
theorem hcond4_0 : ∀ t : Fin cfg4.N, cond4_0 (grid4.coords t) :=
  (by decide +kernel : ∀ t : Fin grid4.N, cond4_0 (grid4.coords t))

/-- The condition of the body's second conditional: the reduction coordinate is the last. -/
abbrev cond4_1 (i : grid4.Coords) : Prop := k4_cond2 i = 1#1
/-- It holds at every point of the grid as well. -/
theorem hcond4_1 : ∀ t : Fin cfg4.N, cond4_1 (grid4.coords t) :=
  (by decide +kernel : ∀ t : Fin grid4.N, cond4_1 (grid4.coords t))

/-! ## Where the windows are idle -/

/-- Window 0 is never idle (an input). -/
theorem liveAt4_0 : ∀ t : Fin cfg4.N, cfg4.idle 0 (grid4.coords t) = false := by decide +kernel
/-- Window 1 is never idle (an input). -/
theorem liveAt4_1 : ∀ t : Fin cfg4.N, cfg4.idle 1 (grid4.coords t) = false := by decide +kernel
/-- Window 2 is never idle (an input). -/
theorem liveAt4_2 : ∀ t : Fin cfg4.N, cfg4.idle 2 (grid4.coords t) = false := by decide +kernel
/-- The output window is live at every point: each point is the last step of its reduction and stores into it. -/
theorem liveAt4_3_D : ∀ t : Fin cfg4.N, cfg4.idle 3 (grid4.coords t) = false := by decide +kernel

/-! ## The memrefs the body is called with -/

/-- One staging buffer of the output window, through which its contents are stated. -/
abbrev VO4_3 : View sig .tc .vmem S512x2048 .f32 := (Memref.whole cc4_stg3_0 : Memref sig .tc .vmem S512x2048 .f32).view
/-- Each window's current staging memref at point `t`, and its wholeness. -/
abbrev ms4_0 (t : Fin cfg4.N) : Memref sig .tc .vmem S512x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x2048 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x2048 .f32 := win4_3.stage (cfg4.slots t 3)
abbrev hs4_3 (t : Fin cfg4.N) : (ms4_3 t).IsWhole := hstage4_3 ((cfg4.slots t 3).cast nbuf4_3)
/-- The scratch operand: a whole scoped buffer of the kernel's own, passed beside the windows. -/
abbrev scM4_0 : Memref sig .tc .vmem S512x2048 .f32 := Memref.whole cc4_scratch0
/-- The accumulator as a view: what it holds is stated through it. -/
abbrev VS4_0 : View sig .tc .vmem S512x2048 .f32 := scM4_0.view

/-- The region invariant with the scratch operand as a memref owned at some contents; every other scoped buffer stays
    unopened. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KiR4RunD.lean ====
import proofs.«122112_j6631429505271_1_alg».proof.Proof.KiR4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first), at a
    point where both conditionals are taken (every point of this grid), WITH the proof that on whole memrefs — the three
    inputs' at their contents, the output's at anything, the accumulator at anything — the body runs to the
    continuation holding the inputs' as they were, and the output's buffer and the accumulator with their pieces
    written. -/
noncomputable def kernelRun4_D (c : Dev nD) (i : grid4.Coords) (arg3 : Memref sig .tc .vmem S512x64 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond4_0 i) (hc1 : cond4_1 i)
    (x0 : Vec F S512x64 .f32) (x1 : Vec F S64x2048 .f32) (x2 : Vec F S1x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc4__mm_kernel i arg3 harg3 arg4 harg4 arg5 harg5 arg6 harg6 arg7 harg7) K } := by
  refine ⟨?_, ?_, fun E K => ?run⟩
  case run =>
    simp only [cc4__mm_kernel_eq_skeleton]; unfold cc4__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KiR4Body.lean ====
import proofs.«122112_j6631429505271_1_alg».proof.Proof.KiR4RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered: the parameter this region's half is stated at
variable (V : (c : Dev nD) → (b : Ref sig .tc) → Buf (Elt F) ((c : Thread nD τ).loc b))

/-! # Region 4 at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## What the one case leaves -/

/-- The pieces written into the output's block tile it, so they cover it. -/
theorem cover4_D_3 (c : Dev nD) (i : grid4.Coords) (arg3 : Memref sig .tc .vmem S512x64 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond4_0 i) (hc1 : cond4_1 i)
    (x0 : Vec F S512x64 .f32) (x1 : Vec F S64x2048 .f32) (x2 : Vec F S1x2048 .f32) (y : S512x2048.Idx) :
    ∃ pc ∈ (kernelRun4_D c i arg3 harg3 arg4 harg4 arg5 harg5 arg6 harg6 arg7 harg7 hc0 hc1 x0 x1 x2).1, y ∈ pc.1.set :=
  View.cover_of_tiledL (kernelRun4_D c i arg3 harg3 arg4 harg4 arg5 harg5 arg6 harg6 arg7 harg7 hc0 hc1 x0 x1 x2).1 S512x2048.size (by sl_kernel_rfl) y

/-- What the case leaves in the output's staging buffer: its pieces read back over junk. -/
def out4_D_3 (c : Dev nD) (i : grid4.Coords) (arg3 : Memref sig .tc .vmem S512x64 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond4_0 i) (hc1 : cond4_1 i)
    (x0 : Vec F S512x64 .f32) (x1 : Vec F S64x2048 .f32) (x2 : Vec F S1x2048 .f32) : Vec F S512x2048 .f32 :=
  VO4_3.read (Elt F) (VO4_3.writes (Elt F) VO4_3.junk (kernelRun4_D c i arg3 harg3 arg4 harg4 arg5 harg5 arg6 harg6 arg7 harg7 hc0 hc1 x0 x1 x2).1)

/-- The pieces written into the accumulator cover it. -/
theorem scover4_D_0 (c : Dev nD) (i : grid4.Coords) (arg3 : Memref sig .tc .vmem S512x64 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond4_0 i) (hc1 : cond4_1 i)
    (x0 : Vec F S512x64 .f32) (x1 : Vec F S64x2048 .f32) (x2 : Vec F S1x2048 .f32) (y : S512x2048.Idx) :
    ∃ pc ∈ (kernelRun4_D c i arg3 harg3 arg4 harg4 arg5 harg5 arg6 harg6 arg7 harg7 hc0 hc1 x0 x1 x2).2.1, y ∈ pc.1.set :=
  View.cover_of_tiledL (kernelRun4_D c i arg3 harg3 arg4 harg4 arg5 harg5 arg6 harg6 arg7 harg7 hc0 hc1 x0 x1 x2).2.1 S512x2048.size (by sl_kernel_rfl) y

/-- What the case leaves in the accumulator: its pieces read back over junk. -/
def sout4_D_0 (c : Dev nD) (i : grid4.Coords) (arg3 : Memref sig .tc .vmem S512x64 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond4_0 i) (hc1 : cond4_1 i)
    (x0 : Vec F S512x64 .f32) (x1 : Vec F S64x2048 .f32) (x2 : Vec F S1x2048 .f32) : Vec F S512x2048 .f32 :=
  VS4_0.read (Elt F) (VS4_0.writes (Elt F) VS4_0.junk (kernelRun4_D c i arg3 harg3 arg4 harg4 arg5 harg5 arg6 harg6 arg7 harg7 hc0 hc1 x0 x1 x2).2.1)

/-! ## What the output and the accumulator hold after each point -/

/-- After the body at position `n`: the one case, run at the point's memrefs and input blocks (the accumulator is
    reset at every point, so nothing is read from the point before). The pair is the output's buffer, then the
    accumulator. -/
def outsAt4 (c : Dev nD) : (n : ℕ) → n < cfg4.N → Vec F S512x2048 .f32 × Vec F S512x2048 .f32 :=
  fun n hn => (out4_D_3 c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4_0 (Memref.isWhole_whole _) (hcond4_0 ⟨n, hn⟩) (hcond4_1 ⟨n, hn⟩) (iblk4 V c 0 ⟨n, hn⟩) (iblk4 V c 1 ⟨n, hn⟩) (iblk4 V c 2 ⟨n, hn⟩), sout4_D_0 c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4_0 (Memref.isWhole_whole _) (hcond4_0 ⟨n, hn⟩) (hcond4_1 ⟨n, hn⟩) (iblk4 V c 0 ⟨n, hn⟩) (iblk4 V c 1 ⟨n, hn⟩) (iblk4 V c 2 ⟨n, hn⟩))

/-- `outsAt4` at a point: the case's contents there. -/
theorem outsAt4_D (c : Dev nD) (t : Fin cfg4.N) :
    outsAt4 V c t.val t.isLt = (out4_D_3 c (grid4.coords t) (ms4_0 t) (hs4_0 t) (ms4_1 t) (hs4_1 t) (ms4_2 t) (hs4_2 t) (ms4_3 t) (hs4_3 t) scM4_0 (Memref.isWhole_whole _) (hcond4_0 t) (hcond4_1 t) (iblk4 V c 0 t) (iblk4 V c 1 t) (iblk4 V c 2 t), sout4_D_0 c (grid4.coords t) (ms4_0 t) (hs4_0 t) (ms4_1 t) (hs4_1 t) (ms4_2 t) (hs4_2 t) (ms4_3 t) (hs4_3 t) scM4_0 (Memref.isWhole_whole _) (hcond4_0 t) (hcond4_1 t) (iblk4 V c 0 t) (iblk4 V c 1 t) (iblk4 V c 2 t)) := rfl

/-- The region invariant before position `n`: the accumulator is never read before it is reset, so it is the
    launch's at every point (every scoped buffer at anything, the generator register at some state). -/
def PhiS4 (V : (c : Dev nD) → (b : Ref sig .tc) → Buf (Elt F) ((c : Thread nD τ).loc b)) (c : Dev nD) : (n : ℕ) → n ≤ cfg4.N → sProp 𝕄 :=
  fun _ _ => Pipeline.ΦA spec4 c

theorem PhiS4_zero (c : Dev nD) (n : ℕ) (h : n ≤ cfg4.N) (hz : n = 0) : PhiS4 V c n h = Pipeline.ΦA spec4 c := rfl
theorem PhiS4_succ (c : Dev nD) (n : ℕ) (hn : n < cfg4.N) : PhiS4 V c (n + 1) hn = Pipeline.ΦA spec4 c := rfl
theorem PhiS4_pos (c : Dev nD) (n : ℕ) (h : n ≤ cfg4.N) (hz : n ≠ 0) : PhiS4 V c n h = Pipeline.ΦA spec4 c := rfl

/-! ## The pipeline's proof data -/

/-- The proof data of pipeline 4 on core `c`: the arrays as the region finds them (`V`); after the body at point `t`
    each input's buffer at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; every point is the one case, so the run applies; the
    invariant hands the body the accumulator at anything and takes it back at anything; the other scoped buffers, the
    generator register and what the core owes pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Pipeline.ΦA spec4 c from rfl, show (dat4 V c).Φ t.castSucc = Pipeline.ΦA spec4 c from rfl, PhiA4_eq]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3_D t], after4_3]
  rw [outsAt4_D V c t]
  unfold out4_D_3; (try dsimp only)
  iintro ⟨⟨⟨HS0, HR⟩, Hg⟩, Ho, ⟨%d0, H0⟩, ⟨%d1, H1⟩, ⟨%d2, H2⟩, ⟨%d3, H3⟩⟩
  iapply ((kernelRun4_D c (grid4.coords t) _ _ _ _ _ _ _ _ _ _ (hcond4_0 t) (hcond4_1 t) (iblk4 V c 0 t) (iblk4 V c 1 t) (iblk4 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 HR Hg]
  · isplitl [HS0 HR]
    · isplitl [HS0]
      · iexists _; unfold owns; iexists _; isplitr
        swap; · iexact HS0
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_D_3 c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Pipeline.ΦA spec4 c from rfl]
  try exact Idealize.SL.BI.Entails.refl _

/-- After any point the invariant is the launch's. -/
theorem Phi_out4 (c : Dev nD) (t : Fin (cfg4.N + 1)) (ht : t.val ≠ 0) : (dat4 V c).Φ t ⊢ Pipeline.ΦA spec4 c := by
  rw [show (dat4 V c).Φ t = Pipeline.ΦA spec4 c from rfl]
  try exact Idealize.SL.BI.Entails.refl _

/-- The same after the last point. -/
theorem hout4 (c : Dev nD) : (dat4 V c).Φ (Fin.last cfg4.N) ⊢ Pipeline.ΦA spec4 c :=
  Phi_out4 V c _ (by rw [Fin.val_last]; have : cfg4.N = 16 := N_4; omega)

end

end Cert.KernelIdeal.Hand

end
-- ==== Proof.KiRunW.lean ====
import proofs.«122112_j6631429505271_1_alg».proof.Proof.KiRunHost
import proofs.«122112_j6631429505271_1_alg».proof.Proof.KiR0Body
import proofs.«122112_j6631429505271_1_alg».proof.Proof.KiR1Body
import proofs.«122112_j6631429505271_1_alg».proof.Proof.KiR2Body
import proofs.«122112_j6631429505271_1_alg».proof.Proof.KiR3Body
import proofs.«122112_j6631429505271_1_alg».proof.Proof.KiR4Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the launch's items: a fold from the launch memory

A host stretch leaves what its operations compute (`StableHlo.after`); a kernel region leaves its windows' arrays at
what its write-backs fold to and every other buffer as entered. -/

/-- Core `c`'s buffers at launch. -/
abbrev W0 : Dev nD → Valuation τ sig (Elt F) := fun c b => (s₀ m ρ).mem ((c : Dev nD), b)

/-- After `hostOps0`. -/
abbrev W1 : Dev nD → Valuation τ sig (Elt F) := fun c => StableHlo.after hostOps0 (W0 m ρ c)
/-- A reference `hostOps0` does not write holds after it what it held before. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After `hostOps0_1`. -/
abbrev W2 : Dev nD → Valuation τ sig (Elt F) := fun c => StableHlo.after hostOps0_1 (W1 m ρ c)
/-- A reference `hostOps0_1` does not write holds after it what it held before. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- After `hostOps0_2`. -/
abbrev W3 : Dev nD → Valuation τ sig (Elt F) := fun c => StableHlo.after hostOps0_2 (W2 m ρ c)
/-- A reference `hostOps0_2` does not write holds after it what it held before. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

/-- After `hostOps0_3`. -/
abbrev W4 : Dev nD → Valuation τ sig (Elt F) := fun c => StableHlo.after hostOps0_3 (W3 m ρ c)
/-- A reference `hostOps0_3` does not write holds after it what it held before. -/
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

/-- After `hostOps0_4`. -/
abbrev W5 : Dev nD → Valuation τ sig (Elt F) := fun c => StableHlo.after hostOps0_4 (W4 m ρ c)
/-- A reference `hostOps0_4` does not write holds after it what it held before. -/
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

/-- After `hostOps0_5`. -/
abbrev W6 : Dev nD → Valuation τ sig (Elt F) := fun c => StableHlo.after hostOps0_5 (W5 m ρ c)
/-- A reference `hostOps0_5` does not write holds after it what it held before. -/
theorem W6_of (c : Dev nD) (r : Ref sig .tc) (h : r ∉ hostOps0_5_W) :
    W6 m ρ c (Proc.devRef .tc r) = W5 m ρ c (Proc.devRef .tc r) :=
  StableHlo.after_of_writes_sub hostOps0_5 _ hostOps0_5_writes h

/-- After `hostOps0_6`. -/
abbrev W7 : Dev nD → Valuation τ sig (Elt F) := fun c => StableHlo.after hostOps0_6 (W6 m ρ c)
/-- A reference `hostOps0_6` does not write holds after it what it held before. -/
theorem W7_of (c : Dev nD) (r : Ref sig .tc) (h : r ∉ hostOps0_6_W) :
    W7 m ρ c (Proc.devRef .tc r) = W6 m ρ c (Proc.devRef .tc r) :=
  StableHlo.after_of_writes_sub hostOps0_6 _ hostOps0_6_writes h

/-- After `hostOps0_7`. -/
abbrev W8 : Dev nD → Valuation τ sig (Elt F) := fun c => StableHlo.after hostOps0_7 (W7 m ρ c)
/-- A reference `hostOps0_7` does not write holds after it what it held before. -/
theorem W8_of (c : Dev nD) (r : Ref sig .tc) (h : r ∉ hostOps0_7_W) :
    W8 m ρ c (Proc.devRef .tc r) = W7 m ρ c (Proc.devRef .tc r) :=
  StableHlo.after_of_writes_sub hostOps0_7 _ hostOps0_7_writes h

/-- After `hostOps0_8`. -/
abbrev W9 : Dev nD → Valuation τ sig (Elt F) := fun c => StableHlo.after hostOps0_8 (W8 m ρ c)
/-- A reference `hostOps0_8` does not write holds after it what it held before. -/
theorem W9_of (c : Dev nD) (r : Ref sig .tc) (h : r ∉ hostOps0_8_W) :
    W9 m ρ c (Proc.devRef .tc r) = W8 m ρ c (Proc.devRef .tc r) :=
  StableHlo.after_of_writes_sub hostOps0_8 _ hostOps0_8_writes h

/-- The contents region 0 is entered at, read at the TensorCore's references (what its proof data take). -/
abbrev V9 : (c : Dev nD) → (b : Ref sig .tc) → Buf (Elt F) ((c : Thread nD τ).loc b) := fun c b => W9 m ρ c b
/-- At region 0's exit: its arrays at what the pipeline leaves (the inputs as entered, the output's write-backs
    folded), every other buffer as entered. -/
def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
/-- The same read at the TensorCore's references (region 0's exit contents). -/
abbrev V10 : (c : Dev nD) → (b : Ref sig .tc) → Buf (Elt F) ((c : Thread nD τ).loc b) := fun c b => W10 m ρ c b
/-- At region 0's exit each of its arrays holds what the pipeline leaves and every other buffer what it held at
    entry. -/
theorem hF0 (c : Dev nD) (w : Fin cfg0.W) : (dat0 (V9 m ρ) c).arrAt w cfg0.N = V10 m ρ c (Pipeline.arrRef spec0 w) :=
  (W10_arr m ρ c w).symm
theorem hrest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)
/-- Region 0 leaves every argument as entered: `main_arg24` is its input window 1's array, which no write-back
    touches; no other argument is an array of its. -/
theorem W10_keep (c : Dev nD) (r : Ref sig .tc) (h : r ∈ argRefs) :
    W10 m ρ c (Proc.devRef .tc r) = W9 m ρ c (Proc.devRef .tc r) := by
  rcases (by decide +kernel : ∀ r ∈ argRefs, r = main_arg24 ∨ ∀ w, Pipeline.arrRef spec0 w ≠ r) r h with rfl | hne
  · exact (W10_arr m ρ c 1).trans (((dat0 (V9 m ρ) c).arrAt_in 1 rfl _).trans (A_eq0 (V9 m ρ) c 1))
  · exact W10_of_ne m ρ c r hne

/-- After `hostOps1`. -/
abbrev W11 : Dev nD → Valuation τ sig (Elt F) := fun c => StableHlo.after hostOps1 (W10 m ρ c)
/-- A reference `hostOps1` does not write holds after it what it held before. -/
theorem W11_of (c : Dev nD) (r : Ref sig .tc) (h : r ∉ hostOps1_W) :
    W11 m ρ c (Proc.devRef .tc r) = W10 m ρ c (Proc.devRef .tc r) :=
  StableHlo.after_of_writes_sub hostOps1 _ hostOps1_writes h

/-- The contents region 1 is entered at, read at the TensorCore's references (what its proof data take). -/
abbrev V11 : (c : Dev nD) → (b : Ref sig .tc) → Buf (Elt F) ((c : Thread nD τ).loc b) := fun c b => W11 m ρ c b
/-- At region 1's exit: its arrays at what the pipeline leaves (the inputs as entered, the output's write-backs
    folded), every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
/-- The same read at the TensorCore's references (region 1's exit contents). -/
abbrev V12 : (c : Dev nD) → (b : Ref sig .tc) → Buf (Elt F) ((c : Thread nD τ).loc b) := fun c b => W12 m ρ c b
/-- At region 1's exit each of its arrays holds what the pipeline leaves and every other buffer what it held at
    entry. -/
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
/-- Region 1 leaves every argument as entered: `main_arg26` is its input window 1's array, which no write-back
    touches; no other argument is an array of its. -/
theorem W12_keep (c : Dev nD) (r : Ref sig .tc) (h : r ∈ argRefs) :
    W12 m ρ c (Proc.devRef .tc r) = W11 m ρ c (Proc.devRef .tc r) := by
  rcases (by decide +kernel : ∀ r ∈ argRefs, r = main_arg26 ∨ ∀ w, Pipeline.arrRef spec1 w ≠ r) r h with rfl | hne
  · exact (W12_arr m ρ c 1).trans (((dat1 (V11 m ρ) c).arrAt_in 1 rfl _).trans (A_eq1 (V11 m ρ) c 1))
  · exact W12_of_ne m ρ c r hne

/-- After `hostOps2`. -/
abbrev W13 : Dev nD → Valuation τ sig (Elt F) := fun c => StableHlo.after hostOps2 (W12 m ρ c)
/-- A reference `hostOps2` does not write holds after it what it held before. -/
theorem W13_of (c : Dev nD) (r : Ref sig .tc) (h : r ∉ hostOps2_W) :
    W13 m ρ c (Proc.devRef .tc r) = W12 m ρ c (Proc.devRef .tc r) :=
  StableHlo.after_of_writes_sub hostOps2 _ hostOps2_writes h

/-- The contents region 2 is entered at, read at the TensorCore's references (what its proof data take). -/
abbrev V13 : (c : Dev nD) → (b : Ref sig .tc) → Buf (Elt F) ((c : Thread nD τ).loc b) := fun c b => W13 m ρ c b
/-- At region 2's exit: its arrays at what the pipeline leaves (the inputs as entered, the output's write-backs
    folded), every other buffer as entered. -/
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
/-- The same read at the TensorCore's references (region 2's exit contents). -/
abbrev V14 : (c : Dev nD) → (b : Ref sig .tc) → Buf (Elt F) ((c : Thread nD τ).loc b) := fun c b => W14 m ρ c b
/-- At region 2's exit each of its arrays holds what the pipeline leaves and every other buffer what it held at
    entry. -/
theorem hF2 (c : Dev nD) (w : Fin cfg2.W) : (dat2 (V13 m ρ) c).arrAt w cfg2.N = V14 m ρ c (Pipeline.arrRef spec2 w) :=
  (W14_arr m ρ c w).symm
theorem hrest2 (c : Dev nD) : ∀ b, b ∉ Finset.univ.image (Pipeline.arrRef spec2) → V14 m ρ c b = V13 m ρ c b :=
  fun b hb => W14_of_ne m ρ c b fun w e => hb (Finset.mem_image.mpr ⟨w, Finset.mem_univ _, e⟩)
/-- Region 2 leaves every argument as entered: none is an array of its. -/
theorem W14_keep (c : Dev nD) (r : Ref sig .tc) (h : r ∈ argRefs) :
    W14 m ρ c (Proc.devRef .tc r) = W13 m ρ c (Proc.devRef .tc r) :=
  W14_of_ne m ρ c r ((by decide +kernel : ∀ r ∈ argRefs, ∀ w, Pipeline.arrRef spec2 w ≠ r) r h)

/-- After `hostOps3`. -/
abbrev W15 : Dev nD → Valuation τ sig (Elt F) := fun c => StableHlo.after hostOps3 (W14 m ρ c)
/-- A reference `hostOps3` does not write holds after it what it held before. -/
theorem W15_of (c : Dev nD) (r : Ref sig .tc) (h : r ∉ hostOps3_W) :
    W15 m ρ c (Proc.devRef .tc r) = W14 m ρ c (Proc.devRef .tc r) :=
  StableHlo.after_of_writes_sub hostOps3 _ hostOps3_writes h

/-- After `hostOps3_1`. -/
abbrev W16 : Dev nD → Valuation τ sig (Elt F) := fun c => StableHlo.after hostOps3_1 (W15 m ρ c)
/-- A reference `hostOps3_1` does not write holds after it what it held before. -/
theorem W16_of (c : Dev nD) (r : Ref sig .tc) (h : r ∉ hostOps3_1_W) :
    W16 m ρ c (Proc.devRef .tc r) = W15 m ρ c (Proc.devRef .tc r) :=
  StableHlo.after_of_writes_sub hostOps3_1 _ hostOps3_1_writes h

/-- After `hostOps3_2`. -/
abbrev W17 : Dev nD → Valuation τ sig (Elt F) := fun c => StableHlo.after hostOps3_2 (W16 m ρ c)
/-- A reference `hostOps3_2` does not write holds after it what it held before. -/
theorem W17_of (c : Dev nD) (r : Ref sig .tc) (h : r ∉ hostOps3_2_W) :
    W17 m ρ c (Proc.devRef .tc r) = W16 m ρ c (Proc.devRef .tc r) :=
  StableHlo.after_of_writes_sub hostOps3_2 _ hostOps3_2_writes h

/-- The contents region 3 is entered at, read at the TensorCore's references (what its proof data take). -/
abbrev V17 : (c : Dev nD) → (b : Ref sig .tc) → Buf (Elt F) ((c : Thread nD τ).loc b) := fun c b => W17 m ρ c b
/-- At region 3's exit: its arrays at what the pipeline leaves (the inputs as entered, the output's write-backs
    folded), every other buffer as entered. -/
def W18 (c : Dev nD) : Valuation τ sig (Elt F) :=
  Pipeline.withArrays spec3 c (W17 m ρ c) fun w => (dat3 (V17 m ρ) c).arrAt w cfg3.N
theorem W18_arr (c : Dev nD) (w : Fin cfg3.W) :
    W18 m ρ c (Proc.devRef .tc (Pipeline.arrRef spec3 w)) = (dat3 (V17 m ρ) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb
/-- The same read at the TensorCore's references (region 3's exit contents). -/
abbrev V18 : (c : Dev nD) → (b : Ref sig .tc) → Buf (Elt F) ((c : Thread nD τ).loc b) := fun c b => W18 m ρ c b
/-- At region 3's exit each of its arrays holds what the pipeline leaves and every other buffer what it held at
    entry. -/
theorem hF3 (c : Dev nD) (w : Fin cfg3.W) : (dat3 (V17 m ρ) c).arrAt w cfg3.N = V18 m ρ c (Pipeline.arrRef spec3 w) :=
  (W18_arr m ρ c w).symm
theorem hrest3 (c : Dev nD) : ∀ b, b ∉ Finset.univ.image (Pipeline.arrRef spec3) → V18 m ρ c b = V17 m ρ c b :=
  fun b hb => W18_of_ne m ρ c b fun w e => hb (Finset.mem_image.mpr ⟨w, Finset.mem_univ _, e⟩)
/-- Region 3 leaves every argument as entered: none is an array of its. -/
theorem W18_keep (c : Dev nD) (r : Ref sig .tc) (h : r ∈ argRefs) :
    W18 m ρ c (Proc.devRef .tc r) = W17 m ρ c (Proc.devRef .tc r) :=
  W18_of_ne m ρ c r ((by decide +kernel : ∀ r ∈ argRefs, ∀ w, Pipeline.arrRef spec3 w ≠ r) r h)

/-- After `hostOps4`. -/
abbrev W19 : Dev nD → Valuation τ sig (Elt F) := fun c => StableHlo.after hostOps4 (W18 m ρ c)
/-- A reference `hostOps4` does not write holds after it what it held before. -/
theorem W19_of (c : Dev nD) (r : Ref sig .tc) (h : r ∉ hostOps4_W) :
    W19 m ρ c (Proc.devRef .tc r) = W18 m ρ c (Proc.devRef .tc r) :=
  StableHlo.after_of_writes_sub hostOps4 _ hostOps4_writes h

/-- The contents region 4 is entered at, read at the TensorCore's references (what its proof data take). -/
abbrev V19 : (c : Dev nD) → (b : Ref sig .tc) → Buf (Elt F) ((c : Thread nD τ).loc b) := fun c b => W19 m ρ c b
/-- At region 4's exit: its arrays at what the pipeline leaves (the inputs as entered, the output's write-backs
    folded), every other buffer as entered. -/
def W20 (c : Dev nD) : Valuation τ sig (Elt F) :=
  Pipeline.withArrays spec4 c (W19 m ρ c) fun w => (dat4 (V19 m ρ) c).arrAt w cfg4.N
theorem W20_arr (c : Dev nD) (w : Fin cfg4.W) :
    W20 m ρ c (Proc.devRef .tc (Pipeline.arrRef spec4 w)) = (dat4 (V19 m ρ) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb
/-- The same read at the TensorCore's references (region 4's exit contents). -/
abbrev V20 : (c : Dev nD) → (b : Ref sig .tc) → Buf (Elt F) ((c : Thread nD τ).loc b) := fun c b => W20 m ρ c b
/-- At region 4's exit each of its arrays holds what the pipeline leaves and every other buffer what it held at
    entry. -/
theorem hF4 (c : Dev nD) (w : Fin cfg4.W) : (dat4 (V19 m ρ) c).arrAt w cfg4.N = V20 m ρ c (Pipeline.arrRef spec4 w) :=
  (W20_arr m ρ c w).symm
theorem hrest4 (c : Dev nD) : ∀ b, b ∉ Finset.univ.image (Pipeline.arrRef spec4) → V20 m ρ c b = V19 m ρ c b :=
  fun b hb => W20_of_ne m ρ c b fun w e => hb (Finset.mem_image.mpr ⟨w, Finset.mem_univ _, e⟩)
/-- Region 4 leaves every argument as entered: none is an array of its. -/
theorem W20_keep (c : Dev nD) (r : Ref sig .tc) (h : r ∈ argRefs) :
    W20 m ρ c (Proc.devRef .tc r) = W19 m ρ c (Proc.devRef .tc r) :=
  W20_of_ne m ρ c r ((by decide +kernel : ∀ r ∈ argRefs, ∀ w, Pipeline.arrRef spec4 w ≠ r) r h)

/-! ## The arguments hold their launch contents at every boundary: no host operation and no region writes one -/

theorem W0_args (c : Dev nD) (r : Ref sig .tc) (hr : r ∈ argRefs) :
    W0 m ρ c (Proc.devRef .tc r) = m ((c : Thread nD τ).loc r) := rfl
theorem W1_args (c : Dev nD) (r : Ref sig .tc) (hr : r ∈ argRefs) :
    W1 m ρ c (Proc.devRef .tc r) = m ((c : Thread nD τ).loc r) :=
  (W1_of m ρ c r (hostOps0_args r hr)).trans (W0_args m ρ c r hr)
theorem W2_args (c : Dev nD) (r : Ref sig .tc) (hr : r ∈ argRefs) :
    W2 m ρ c (Proc.devRef .tc r) = m ((c : Thread nD τ).loc r) :=
  (W2_of m ρ c r (hostOps0_1_args r hr)).trans (W1_args m ρ c r hr)
theorem W3_args (c : Dev nD) (r : Ref sig .tc) (hr : r ∈ argRefs) :
    W3 m ρ c (Proc.devRef .tc r) = m ((c : Thread nD τ).loc r) :=
  (W3_of m ρ c r (hostOps0_2_args r hr)).trans (W2_args m ρ c r hr)
theorem W4_args (c : Dev nD) (r : Ref sig .tc) (hr : r ∈ argRefs) :
    W4 m ρ c (Proc.devRef .tc r) = m ((c : Thread nD τ).loc r) :=
  (W4_of m ρ c r (hostOps0_3_args r hr)).trans (W3_args m ρ c r hr)
theorem W5_args (c : Dev nD) (r : Ref sig .tc) (hr : r ∈ argRefs) :
    W5 m ρ c (Proc.devRef .tc r) = m ((c : Thread nD τ).loc r) :=
  (W5_of m ρ c r (hostOps0_4_args r hr)).trans (W4_args m ρ c r hr)
theorem W6_args (c : Dev nD) (r : Ref sig .tc) (hr : r ∈ argRefs) :
    W6 m ρ c (Proc.devRef .tc r) = m ((c : Thread nD τ).loc r) :=
  (W6_of m ρ c r (hostOps0_5_args r hr)).trans (W5_args m ρ c r hr)
theorem W7_args (c : Dev nD) (r : Ref sig .tc) (hr : r ∈ argRefs) :
    W7 m ρ c (Proc.devRef .tc r) = m ((c : Thread nD τ).loc r) :=
  (W7_of m ρ c r (hostOps0_6_args r hr)).trans (W6_args m ρ c r hr)
theorem W8_args (c : Dev nD) (r : Ref sig .tc) (hr : r ∈ argRefs) :
    W8 m ρ c (Proc.devRef .tc r) = m ((c : Thread nD τ).loc r) :=
  (W8_of m ρ c r (hostOps0_7_args r hr)).trans (W7_args m ρ c r hr)
theorem W9_args (c : Dev nD) (r : Ref sig .tc) (hr : r ∈ argRefs) :
    W9 m ρ c (Proc.devRef .tc r) = m ((c : Thread nD τ).loc r) :=
  (W9_of m ρ c r (hostOps0_8_args r hr)).trans (W8_args m ρ c r hr)
theorem W10_args (c : Dev nD) (r : Ref sig .tc) (hr : r ∈ argRefs) :
    W10 m ρ c (Proc.devRef .tc r) = m ((c : Thread nD τ).loc r) :=
  (W10_keep m ρ c r hr).trans (W9_args m ρ c r hr)
theorem W11_args (c : Dev nD) (r : Ref sig .tc) (hr : r ∈ argRefs) :
    W11 m ρ c (Proc.devRef .tc r) = m ((c : Thread nD τ).loc r) :=
  (W11_of m ρ c r (hostOps1_args r hr)).trans (W10_args m ρ c r hr)
theorem W12_args (c : Dev nD) (r : Ref sig .tc) (hr : r ∈ argRefs) :
    W12 m ρ c (Proc.devRef .tc r) = m ((c : Thread nD τ).loc r) :=
  (W12_keep m ρ c r hr).trans (W11_args m ρ c r hr)
theorem W13_args (c : Dev nD) (r : Ref sig .tc) (hr : r ∈ argRefs) :
    W13 m ρ c (Proc.devRef .tc r) = m ((c : Thread nD τ).loc r) :=
  (W13_of m ρ c r (hostOps2_args r hr)).trans (W12_args m ρ c r hr)
theorem W14_args (c : Dev nD) (r : Ref sig .tc) (hr : r ∈ argRefs) :
    W14 m ρ c (Proc.devRef .tc r) = m ((c : Thread nD τ).loc r) :=
  (W14_keep m ρ c r hr).trans (W13_args m ρ c r hr)
theorem W15_args (c : Dev nD) (r : Ref sig .tc) (hr : r ∈ argRefs) :
    W15 m ρ c (Proc.devRef .tc r) = m ((c : Thread nD τ).loc r) :=
  (W15_of m ρ c r (hostOps3_args r hr)).trans (W14_args m ρ c r hr)
theorem W16_args (c : Dev nD) (r : Ref sig .tc) (hr : r ∈ argRefs) :
    W16 m ρ c (Proc.devRef .tc r) = m ((c : Thread nD τ).loc r) :=
  (W16_of m ρ c r (hostOps3_1_args r hr)).trans (W15_args m ρ c r hr)
theorem W17_args (c : Dev nD) (r : Ref sig .tc) (hr : r ∈ argRefs) :
    W17 m ρ c (Proc.devRef .tc r) = m ((c : Thread nD τ).loc r) :=
  (W17_of m ρ c r (hostOps3_2_args r hr)).trans (W16_args m ρ c r hr)
theorem W18_args (c : Dev nD) (r : Ref sig .tc) (hr : r ∈ argRefs) :
    W18 m ρ c (Proc.devRef .tc r) = m ((c : Thread nD τ).loc r) :=
  (W18_keep m ρ c r hr).trans (W17_args m ρ c r hr)
theorem W19_args (c : Dev nD) (r : Ref sig .tc) (hr : r ∈ argRefs) :
    W19 m ρ c (Proc.devRef .tc r) = m ((c : Thread nD τ).loc r) :=
  (W19_of m ρ c r (hostOps4_args r hr)).trans (W18_args m ρ c r hr)
theorem W20_args (c : Dev nD) (r : Ref sig .tc) (hr : r ∈ argRefs) :
    W20 m ρ c (Proc.devRef .tc r) = m ((c : Thread nD τ).loc r) :=
  (W20_keep m ρ c r hr).trans (W19_args m ρ c r hr)

/-- Each argument's buffer at the end holds its launch contents. -/
theorem W20_arg (c : Dev nD) (r : Ref sig .tc) (h : r ∈ argRefs) :
    W20 m ρ c (Proc.devRef .tc r) = m ((c : Thread nD τ).loc r) := W20_args m ρ c r h

end Cert.KernelIdeal.Hand

end
-- ==== Proof.KiRunRegs.lean ====
import proofs.«122112_j6631429505271_1_alg».proof.Proof.KiRunW

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch as segments

## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V11 m ρ) c
  | ⟨2, _⟩ => fun c => dat2 (V13 m ρ) c
  | ⟨3, _⟩ => fun c => dat3 (V17 m ρ) c
  | ⟨4, _⟩ => fun c => dat4 (V19 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its post is
    then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W20`, the
    generator register at some state. -/
abbrev Tₙ (c : Dev nD) : sProp 𝕄 := iprop(StableHlo.held (c : Thread nD τ) (Pipeline.ucRefs τ sig) (W20 m ρ c) ∗ ∃ r, prngReg c r)

/-! ## The regions as segments -/

set_option backward.isDefEq.respectTransparency.types false in
/-- REGION 0 over the thread state: entered from every unscoped buffer at `W9`, left at `W10`. Its arrays split
    out of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m ρ) c).loose
  hwaits := Pipeline.hwaits_of_owed_zero _ _ _ _ L lv 0 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V9 m ρ) c)
    unfold Pipeline.ΦA
    iintro ⟨Hp, -, Hr⟩
    isplitl [Hr]; · iexact Hr
    iexact Hp
  hout c := by
    rw [Pipeline.ownSems0_none]
    refine BIBase.Entails.trans (hout0 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V9 m ρ c) (V10 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W11`, left at `W12`. Its arrays split
    out of the unscoped buffers and put back at the exit contents; the generator register into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V11 m ρ) c)
    unfold Pipeline.ΦA
    iintro ⟨Hp, -, Hr⟩
    isplitl [Hr]; · iexact Hr
    iexact Hp
  hout c := by
    rw [Pipeline.ownSems0_none]
    refine BIBase.Entails.trans (hout1 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W13`, left at `W14`. Its arrays split
    out of the unscoped buffers and put back at the exit contents; the generator register into the class invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V13 m ρ) c)
    unfold Pipeline.ΦA
    iintro ⟨Hp, -, Hr⟩
    isplitl [Hr]; · iexact Hr
    iexact Hp
  hout c := by
    rw [Pipeline.ownSems0_none]
    refine BIBase.Entails.trans (hout2 (V13 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (V14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W17`, left at `W18`. Its arrays split
    out of the unscoped buffers and put back at the exit contents; the generator register into the class invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V17 m ρ) c).loose
  hwaits := Pipeline.hwaits_of_owed_zero _ _ _ _ L lv 3 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec3 c (V17 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V17 m ρ) c)
    unfold Pipeline.ΦA
    iintro ⟨Hp, -, Hr⟩
    isplitl [Hr]; · iexact Hr
    iexact Hp
  hout c := by
    rw [Pipeline.ownSems0_none]
    refine BIBase.Entails.trans (hout3 (V17 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V17 m ρ c) (V18 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W19`, left at `W20`. Its arrays split
    out of the unscoped buffers and put back at the exit contents; the generator register into the class invariant and
    out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V19 m ρ) c).loose
  hwaits := Pipeline.hwaits_of_owed_zero _ _ _ _ L lv 4 fun _ _ => rfl
  pre c := iprop(StableHlo.held (c : Thread nD τ) (Pipeline.ucRefs τ sig) (W19 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V19 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V19 m ρ) c)
    unfold Pipeline.ΦA
    iintro ⟨Hp, -, Hr⟩
    isplitl [Hr]; · iexact Hr
    iexact Hp
  hout c := by
    rw [Pipeline.ownSems0_none]
    refine BIBase.Entails.trans (hout4 (V19 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V19 m ρ c) (V20 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KiRunSegs.lean ====
import proofs.«122112_j6631429505271_1_alg».proof.Proof.KiRunRegs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's items as segments, and the launch -/

/-- The launch's 20 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .host (hseg hostOps1 hostOps1_sub hostOps1_fresh (W10 m ρ)),
    .region (reg1 m ρ),
    .host (hseg hostOps2 hostOps2_sub hostOps2_fresh (W12 m ρ)),
    .region (reg2 m ρ),
    .host (hseg hostOps3 hostOps3_sub hostOps3_fresh (W14 m ρ)),
    .host (hseg hostOps3_1 hostOps3_1_sub hostOps3_1_fresh (W15 m ρ)),
    .host (hseg hostOps3_2 hostOps3_2_sub hostOps3_2_fresh (W16 m ρ)),
    .region (reg3 m ρ),
    .host (hseg hostOps4 hostOps4_sub hostOps4_fresh (W18 m ρ)),
    .region (reg4 m ρ) ]

/-- The launch IS the run of the segments: it is the chain of its items, and the segments' run is the chain of their
    fragments, item by item the same. -/
theorem main_run (c : Dev nD) : main (F := F) c = Pipeline.Seg.run (segs m ρ) := by
  rewrite [main_chain c, Pipeline.Seg.run_eq_chain,
    show (segs m ρ).map Pipeline.Seg.prog = [
      StableHlo.seq hostOps0,
      StableHlo.seq hostOps0_1,
      StableHlo.seq hostOps0_2,
      StableHlo.seq hostOps0_3,
      StableHlo.seq hostOps0_4,
      StableHlo.seq hostOps0_5,
      StableHlo.seq hostOps0_6,
      StableHlo.seq hostOps0_7,
      StableHlo.seq hostOps0_8,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      StableHlo.seq hostOps3_1,
      StableHlo.seq hostOps3_2,
      Prog.lift (.customCall (Pipeline.entry 3) ()),
      StableHlo.seq hostOps4,
      Prog.lift (.customCall (Pipeline.entry 4) ()) ] from rfl]
  rfl

set_option backward.isDefEq.respectTransparency.types false in
/-- THE RUN: at the compiled mesh, from any memory with zero counters, every weakly fair execution of the launch on the
    TensorCores terminates, nothing faulting, and every final state holds every unscoped buffer at the last boundary's
    contents `W20`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun _ h => h)

/-- Every argument is an unscoped TensorCore buffer (decided over the list). -/
theorem arg_uc (r : Ref sig .tc) (hr : r ∈ argRefs) : Proc.devRef .tc r ∈ Pipeline.ucRefs τ sig :=
  mem_uc r ((by decide +kernel : ∀ r ∈ argRefs, ¬ (Proc.devRef .tc r : DevRef τ sig).isScoped) r hr)

theorem arg0_mem : main_arg0 ∈ argRefs := List.mem_cons_self
theorem arg1_mem : main_arg1 ∈ argRefs := List.mem_cons_of_mem _ (List.mem_cons_self)
theorem arg2_mem : main_arg2 ∈ argRefs := List.mem_cons_of_mem _ (List.mem_cons_of_mem _ (List.mem_cons_self))
theorem arg3_mem : main_arg3 ∈ argRefs := List.mem_cons_of_mem _ (List.mem_cons_of_mem _ (List.mem_cons_of_mem _ (List.mem_cons_self)))
theorem arg4_mem : main_arg4 ∈ argRefs := List.mem_cons_of_mem _ (List.mem_cons_of_mem _ (List.mem_cons_of_mem _ (List.mem_cons_of_mem _ (List.mem_cons_self))))
theorem arg5_mem : main_arg5 ∈ argRefs := List.mem_cons_of_mem _ (List.mem_cons_of_mem _ (List.mem_cons_of_mem _ (List.mem_cons_of_mem _ (List.mem_cons_of_mem _ (List.mem_cons_self)))))
theorem arg6_mem : main_arg6 ∈ argRefs := List.mem_cons_of_mem _ (List.mem_cons_of_mem _ (List.mem_cons_of_mem _ (List.mem_cons_of_mem _ (List.mem_cons_of_mem _ (List.mem_cons_of_mem _ (List.mem_cons_self))))))
theorem arg7_mem : main_arg7 ∈ argRefs := List.mem_cons_of_mem _ (List.mem_cons_of_mem _ (List.mem_cons_of_mem _ (List.mem_cons_of_mem _ (List.mem_cons_of_mem _ (List.mem_cons_of_mem _ (List.mem_cons_of_mem _ (List.mem_cons_self)))))))
theorem arg8_mem : main_arg8 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))
theorem arg9_mem : main_arg9 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))
theorem arg10_mem : main_arg10 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))
theorem arg11_mem : main_arg11 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))
theorem arg12_mem : main_arg12 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))
theorem arg13_mem : main_arg13 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))
theorem arg14_mem : main_arg14 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))
theorem arg15_mem : main_arg15 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))
theorem arg16_mem : main_arg16 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))
theorem arg17_mem : main_arg17 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))
theorem arg18_mem : main_arg18 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))
theorem arg19_mem : main_arg19 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))
theorem arg20_mem : main_arg20 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))
theorem arg21_mem : main_arg21 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))
theorem arg22_mem : main_arg22 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))
theorem arg23_mem : main_arg23 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))
theorem arg24_mem : main_arg24 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))
theorem arg25_mem : main_arg25 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))
theorem arg26_mem : main_arg26 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))
theorem arg27_mem : main_arg27 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))
theorem arg28_mem : main_arg28 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))
theorem arg29_mem : main_arg29 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))
theorem arg30_mem : main_arg30 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))
theorem arg31_mem : main_arg31 ∈ argRefs := List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))))

/-- A final memory holding every unscoped buffer at the last boundary's contents holds every argument array as
    launched: each argument read off `W20`, where the fold walks back to the launch memory. -/
theorem post_args (r : PUnit × MemSt nD τ sig (Elt F))
    (h : ∀ c : Dev nD, ∀ b ∈ Pipeline.ucRefs τ sig, r.2.mem (((c : Thread nD τ)).1, b) = W20 m ρ c b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29)
    ∧ r.2.mem ((c.tc : Thread nD τ).loc main_arg30) = m ((c.tc : Thread nD τ).loc main_arg30)
    ∧ r.2.mem ((c.tc : Thread nD τ).loc main_arg31) = m ((c.tc : Thread nD τ).loc main_arg31) :=
  ⟨(h c _ (arg_uc main_arg0 arg0_mem)).trans (W20_arg m ρ c main_arg0 arg0_mem),
   (h c _ (arg_uc main_arg1 arg1_mem)).trans (W20_arg m ρ c main_arg1 arg1_mem),
   (h c _ (arg_uc main_arg2 arg2_mem)).trans (W20_arg m ρ c main_arg2 arg2_mem),
   (h c _ (arg_uc main_arg3 arg3_mem)).trans (W20_arg m ρ c main_arg3 arg3_mem),
   (h c _ (arg_uc main_arg4 arg4_mem)).trans (W20_arg m ρ c main_arg4 arg4_mem),
   (h c _ (arg_uc main_arg5 arg5_mem)).trans (W20_arg m ρ c main_arg5 arg5_mem),
   (h c _ (arg_uc main_arg6 arg6_mem)).trans (W20_arg m ρ c main_arg6 arg6_mem),
   (h c _ (arg_uc main_arg7 arg7_mem)).trans (W20_arg m ρ c main_arg7 arg7_mem),
   (h c _ (arg_uc main_arg8 arg8_mem)).trans (W20_arg m ρ c main_arg8 arg8_mem),
   (h c _ (arg_uc main_arg9 arg9_mem)).trans (W20_arg m ρ c main_arg9 arg9_mem),
   (h c _ (arg_uc main_arg10 arg10_mem)).trans (W20_arg m ρ c main_arg10 arg10_mem),
   (h c _ (arg_uc main_arg11 arg11_mem)).trans (W20_arg m ρ c main_arg11 arg11_mem),
   (h c _ (arg_uc main_arg12 arg12_mem)).trans (W20_arg m ρ c main_arg12 arg12_mem),
   (h c _ (arg_uc main_arg13 arg13_mem)).trans (W20_arg m ρ c main_arg13 arg13_mem),
   (h c _ (arg_uc main_arg14 arg14_mem)).trans (W20_arg m ρ c main_arg14 arg14_mem),
   (h c _ (arg_uc main_arg15 arg15_mem)).trans (W20_arg m ρ c main_arg15 arg15_mem),
   (h c _ (arg_uc main_arg16 arg16_mem)).trans (W20_arg m ρ c main_arg16 arg16_mem),
   (h c _ (arg_uc main_arg17 arg17_mem)).trans (W20_arg m ρ c main_arg17 arg17_mem),
   (h c _ (arg_uc main_arg18 arg18_mem)).trans (W20_arg m ρ c main_arg18 arg18_mem),
   (h c _ (arg_uc main_arg19 arg19_mem)).trans (W20_arg m ρ c main_arg19 arg19_mem),
   (h c _ (arg_uc main_arg20 arg20_mem)).trans (W20_arg m ρ c main_arg20 arg20_mem),
   (h c _ (arg_uc main_arg21 arg21_mem)).trans (W20_arg m ρ c main_arg21 arg21_mem),
   (h c _ (arg_uc main_arg22 arg22_mem)).trans (W20_arg m ρ c main_arg22 arg22_mem),
   (h c _ (arg_uc main_arg23 arg23_mem)).trans (W20_arg m ρ c main_arg23 arg23_mem),
   (h c _ (arg_uc main_arg24 arg24_mem)).trans (W20_arg m ρ c main_arg24 arg24_mem),
   (h c _ (arg_uc main_arg25 arg25_mem)).trans (W20_arg m ρ c main_arg25 arg25_mem),
   (h c _ (arg_uc main_arg26 arg26_mem)).trans (W20_arg m ρ c main_arg26 arg26_mem),
   (h c _ (arg_uc main_arg27 arg27_mem)).trans (W20_arg m ρ c main_arg27 arg27_mem),
   (h c _ (arg_uc main_arg28 arg28_mem)).trans (W20_arg m ρ c main_arg28 arg28_mem),
   (h c _ (arg_uc main_arg29 arg29_mem)).trans (W20_arg m ρ c main_arg29 arg29_mem),
   (h c _ (arg_uc main_arg30 arg30_mem)).trans (W20_arg m ρ c main_arg30 arg30_mem),
   (h c _ (arg_uc main_arg31 arg31_mem)).trans (W20_arg m ρ c main_arg31 arg31_mem)⟩

/-- The same memory holds the three result buffers at the last boundary's contents. -/
theorem post_res (r : PUnit × MemSt nD τ sig (Elt F))
    (h : ∀ c : Dev nD, ∀ b ∈ Pipeline.ucRefs τ sig, r.2.mem (((c : Thread nD τ)).1, b) = W20 m ρ c b) (c : Dev nD) :
    r.2.mem ((c.tc : Thread nD τ).loc main_v240) = W20 m ρ c (Proc.devRef .tc main_v240)
    ∧ r.2.mem ((c.tc : Thread nD τ).loc main_v285) = W20 m ρ c (Proc.devRef .tc main_v285)
    ∧ r.2.mem ((c.tc : Thread nD τ).loc main_v281) = W20 m ρ c (Proc.devRef .tc main_v281) :=
  ⟨h c _ (mem_uc main_v240 (by decide)), h c _ (mem_uc main_v285 (by decide)), h c _ (mem_uc main_v281 (by decide))⟩

/-- THE FRAME: every final state has every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs (onTc (τ := τ) (main (F := F))) ⟨m, fun _ => 0, ρ⟩).mono (fun r h c => post_args m ρ r h c) (run_all m ρ)

end Cert.KernelIdeal.Hand

end
-- ==== Proof.RefLists.lean ====
import proofs.«122112_j6631429505271_1_alg».proof.Proof.Gen.ReferenceIdeal
import Idealize.ShloMosaic.Lib.StableHlo.Run

/-! The reference's 375 host operations, in order, as nineteen consecutive stretches. Each stretch touches
    TensorCore references only and determines its results. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 0 to 44 of the 375 (45), in order. -/
abbrev P0 : List (HloOp τ sig (Elt F)) :=
  ( nullary main_cst (constant S_ .f32 0x3F800000#32)
  :: unary main_cst main_v0 (broadcastInDim S65536 ![] bcast_S_S65536 : (⟨S_, .f32⟩ : BufTy).Contents (Elt F) → (⟨S65536, .f32⟩ : BufTy).Contents (Elt F))
  :: nullary main_cst_0 (constant S_ .f32 0x00000000#32)
  :: unary main_cst_0 main_v1 (broadcastInDim S4096 ![] bcast_S_S4096 : (⟨S_, .f32⟩ : BufTy).Contents (Elt F) → (⟨S4096, .f32⟩ : BufTy).Contents (Elt F))
  :: unary main_arg3 main_v2 (broadcastInDim S65536x1 ![0] bcast_S65536_S65536x1_0 : (⟨S65536, .i32⟩ : BufTy).Contents (Elt F) → (⟨S65536x1, .i32⟩ : BufTy).Contents (Elt F))
  :: ternary main_v1 main_v2 main_v0 main_v3 ((fun x i u => Host.scatterAdd scatter_S4096_S65536x1_S65536_n_0_0_1 x i u) : (⟨S4096, .f32⟩ : BufTy).Contents (Elt F) → (⟨S65536x1, .i32⟩ : BufTy).Contents (Elt F) → (⟨S65536, .f32⟩ : BufTy).Contents (Elt F) → (⟨S4096, .f32⟩ : BufTy).Contents (Elt F))
  :: nullary main_cst_1 (constant S_ .f32 0x3F800000#32)
  :: unary main_cst_1 main_v4 (broadcastInDim S4096 ![] bcast_S_S4096 : (⟨S_, .f32⟩ : BufTy).Contents (Elt F) → (⟨S4096, .f32⟩ : BufTy).Contents (Elt F))
  :: binary main_v3 main_v4 main_v5 (maximumf : (⟨S4096, .f32⟩ : BufTy).Contents (Elt F) → (⟨S4096, .f32⟩ : BufTy).Contents (Elt F) → (⟨S4096, .f32⟩ : BufTy).Contents (Elt F))
  :: nullary main_cst_2 (constant S_ .f32 0x00000000#32)
  :: unary main_cst_2 main_v6 (broadcastInDim S4096 ![] bcast_S_S4096 : (⟨S_, .f32⟩ : BufTy).Contents (Elt F) → (⟨S4096, .f32⟩ : BufTy).Contents (Elt F))
  :: unary main_arg4 main_v7 (broadcastInDim S65536x1 ![0] bcast_S65536_S65536x1_0 : (⟨S65536, .i32⟩ : BufTy).Contents (Elt F) → (⟨S65536x1, .i32⟩ : BufTy).Contents (Elt F))
  :: ternary main_v6 main_v7 main_v0 main_v8 ((fun x i u => Host.scatterAdd scatter_S4096_S65536x1_S65536_n_0_0_1 x i u) : (⟨S4096, .f32⟩ : BufTy).Contents (Elt F) → (⟨S65536x1, .i32⟩ : BufTy).Contents (Elt F) → (⟨S65536, .f32⟩ : BufTy).Contents (Elt F) → (⟨S4096, .f32⟩ : BufTy).Contents (Elt F))
  :: nullary main_cst_3 (constant S_ .f32 0x3F800000#32)
  :: unary main_cst_3 main_v9 (broadcastInDim S4096 ![] bcast_S_S4096 : (⟨S_, .f32⟩ : BufTy).Contents (Elt F) → (⟨S4096, .f32⟩ : BufTy).Contents (Elt F))
  :: binary main_v8 main_v9 main_v10 (maximumf : (⟨S4096, .f32⟩ : BufTy).Contents (Elt F) → (⟨S4096, .f32⟩ : BufTy).Contents (Elt F) → (⟨S4096, .f32⟩ : BufTy).Contents (Elt F))
  :: nullary main_cst_4 (constant S_ .f32 0xBF000000#32)
  :: unary main_cst_4 main_v11 (broadcastInDim S4096 ![] bcast_S_S4096 : (⟨S_, .f32⟩ : BufTy).Contents (Elt F) → (⟨S4096, .f32⟩ : BufTy).Contents (Elt F))
  :: binary main_v5 main_v11 main_v12 (Host.powf : (⟨S4096, .f32⟩ : BufTy).Contents (Elt F) → (⟨S4096, .f32⟩ : BufTy).Contents (Elt F) → (⟨S4096, .f32⟩ : BufTy).Contents (Elt F))
  :: nullary main_cst_5 (constant S_ .f32 0xBF000000#32)
  :: unary main_cst_5 main_v13 (broadcastInDim S4096 ![] bcast_S_S4096 : (⟨S_, .f32⟩ : BufTy).Contents (Elt F) → (⟨S4096, .f32⟩ : BufTy).Contents (Elt F))
  :: binary main_v10 main_v13 main_v14 (Host.powf : (⟨S4096, .f32⟩ : BufTy).Contents (Elt F) → (⟨S4096, .f32⟩ : BufTy).Contents (Elt F) → (⟨S4096, .f32⟩ : BufTy).Contents (Elt F))
  :: unary main_v12 main_v15 (broadcastInDim S4096x1 ![0] bcast_S4096_S4096x1_0 : (⟨S4096, .f32⟩ : BufTy).Contents (Elt F) → (⟨S4096x1, .f32⟩ : BufTy).Contents (Elt F))
  :: unary main_v15 main_v16 (broadcastInDim S4096x512 ![0, 1] bcast_S4096x1_S4096x512_0_1 : (⟨S4096x1, .f32⟩ : BufTy).Contents (Elt F) → (⟨S4096x512, .f32⟩ : BufTy).Contents (Elt F))
  :: binary main_arg0 main_v16 main_v17 (mulf : (⟨S4096x512, .f32⟩ : BufTy).Contents (Elt F) → (⟨S4096x512, .f32⟩ : BufTy).Contents (Elt F) → (⟨S4096x512, .f32⟩ : BufTy).Contents (Elt F))
  :: binary main_v17 main_arg9 main_v18 ((fun l r => Host.dotGeneral dot_S4096x512_S512x128_S4096x128_1_0_0_1_n_n none l r) : (⟨S4096x512, .f32⟩ : BufTy).Contents (Elt F) → (⟨S512x128, .f32⟩ : BufTy).Contents (Elt F) → (⟨S4096x128, .f32⟩ : BufTy).Contents (Elt F))
  :: nullary main_c (constantI S_ 32 0#32)
  :: unary main_c main_v19 (broadcastInDim S65536 ![] bcast_S_S65536 : (⟨S_, .i32⟩ : BufTy).Contents (Elt F) → (⟨S65536, .i32⟩ : BufTy).Contents (Elt F))
  :: binary main_arg3 main_v19 main_v20 (cmpi .slt : (⟨S65536, .i32⟩ : BufTy).Contents (Elt F) → (⟨S65536, .i32⟩ : BufTy).Contents (Elt F) → (⟨S65536, .i1⟩ : BufTy).Contents (Elt F))
  :: nullary main_c_6 (constantI S_ 32 4096#32)
  :: unary main_c_6 main_v21 (broadcastInDim S65536 ![] bcast_S_S65536 : (⟨S_, .i32⟩ : BufTy).Contents (Elt F) → (⟨S65536, .i32⟩ : BufTy).Contents (Elt F))
  :: binary main_arg3 main_v21 main_v22 (addi : (⟨S65536, .i32⟩ : BufTy).Contents (Elt F) → (⟨S65536, .i32⟩ : BufTy).Contents (Elt F) → (⟨S65536, .i32⟩ : BufTy).Contents (Elt F))
  :: ternary main_v20 main_v22 main_arg3 main_v23 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: unary main_v23 main_v24 (broadcastInDim S65536x1 ![0] bcast_S65536_S65536x1_0 : (⟨S65536, .i32⟩ : BufTy).Contents (Elt F) → (⟨S65536x1, .i32⟩ : BufTy).Contents (Elt F))
  :: binary main_v18 main_v24 main_v25 ((fun x i => Host.gather gather_S4096x128_S65536x1_S65536x128_1_0_n_n_0_1_1128 x i) : (⟨S4096x128, .f32⟩ : BufTy).Contents (Elt F) → (⟨S65536x1, .i32⟩ : BufTy).Contents (Elt F) → (⟨S65536x128, .f32⟩ : BufTy).Contents (Elt F))
  :: nullary main_cst_7 (constant S_ .f32 0x00000000#32)
  :: unary main_cst_7 main_v26 (broadcastInDim S4096x128 ![] bcast_S_S4096x128 : (⟨S_, .f32⟩ : BufTy).Contents (Elt F) → (⟨S4096x128, .f32⟩ : BufTy).Contents (Elt F))
  :: unary main_arg4 main_v27 (broadcastInDim S65536x1 ![0] bcast_S65536_S65536x1_0 : (⟨S65536, .i32⟩ : BufTy).Contents (Elt F) → (⟨S65536x1, .i32⟩ : BufTy).Contents (Elt F))
  :: ternary main_v26 main_v27 main_v25 main_v28 ((fun x i u => Host.scatterAdd scatter_S4096x128_S65536x1_S65536x128_1_0_0_1 x i u) : (⟨S4096x128, .f32⟩ : BufTy).Contents (Elt F) → (⟨S65536x1, .i32⟩ : BufTy).Contents (Elt F) → (⟨S65536x128, .f32⟩ : BufTy).Contents (Elt F) → (⟨S4096x128, .f32⟩ : BufTy).Contents (Elt F))
  :: unary main_v14 main_v29 (broadcastInDim S4096x1 ![0] bcast_S4096_S4096x1_0 : (⟨S4096, .f32⟩ : BufTy).Contents (Elt F) → (⟨S4096x1, .f32⟩ : BufTy).Contents (Elt F))
  :: unary main_v29 main_v30 (broadcastInDim S4096x128 ![0, 1] bcast_S4096x1_S4096x128_0_1 : (⟨S4096x1, .f32⟩ : BufTy).Contents (Elt F) → (⟨S4096x128, .f32⟩ : BufTy).Contents (Elt F))
  :: binary main_v28 main_v30 main_v31 (mulf : (⟨S4096x128, .f32⟩ : BufTy).Contents (Elt F) → (⟨S4096x128, .f32⟩ : BufTy).Contents (Elt F) → (⟨S4096x128, .f32⟩ : BufTy).Contents (Elt F))
  :: unary main_arg10 main_v32 (broadcastInDim S1x128 ![1] bcast_S128_S1x128_1 : (⟨S128, .f32⟩ : BufTy).Contents (Elt F) → (⟨S1x128, .f32⟩ : BufTy).Contents (Elt F))
  :: unary main_v32 main_v33 (broadcastInDim S4096x128 ![0, 1] bcast_S1x128_S4096x128_0_1 : (⟨S1x128, .f32⟩ : BufTy).Contents (Elt F) → (⟨S4096x128, .f32⟩ : BufTy).Contents (Elt F))
  :: binary main_v31 main_v33 main_v34 (addf : (⟨S4096x128, .f32⟩ : BufTy).Contents (Elt F) → (⟨S4096x128, .f32⟩ : BufTy).Contents (Elt F) → (⟨S4096x128, .f32⟩ : BufTy).Contents (Elt F))
  :: [] )
set_option maxRecDepth 8192 in
/-- Each touches TensorCore references only. -/
theorem P0_sub : (P0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩
set_option maxRecDepth 8192 in
/-- Each determines its results. -/
theorem P0_fresh : ∀ op ∈ (P0 : List (HloOp τ sig (Elt F))), op.fresh = ∅ :=
  List.forall_iff_forall_mem.1 (show (P0 : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

set_option maxHeartbeats 40000000 in
/-- Operations 45 to 47 of the 375 (3), in order. -/
abbrev P1 : List (HloOp τ sig (Elt F)) :=
  ( TRef.nullary (TRef.of (T := ⟨S_, .f32⟩) main_call0_cst) (constant S_ .f32 0x00000000#32)
  :: TRef.unary (TRef.of (T := ⟨S_, .f32⟩) main_call0_cst) (TRef.of (T := ⟨S4096x128, .f32⟩) main_call0_v0) (broadcastInDim S4096x128 ![] bcast_S_S4096x128)
  :: TRef.binary (TRef.of (T := ⟨S4096x128, .f32⟩) main_v34) (TRef.of (T := ⟨S4096x128, .f32⟩) main_call0_v0) (TRef.of (T := ⟨S4096x128, .f32⟩) main_v35) maximumf
  :: [] )
set_option maxRecDepth 8192 in
/-- Each touches TensorCore references only. -/
theorem P1_sub : (P1 : List (HloOp τ sig (Elt F))).Forall fun op => op.bufs ⊆ tcRefs τ sig :=
  ⟨nullary_bufs_sub .., unary_bufs_sub .., binary_bufs_sub ..⟩
set_option maxRecDepth 8192 in
/-- Each determines its results. -/
theorem P1_fresh : ∀ op ∈ (P1 : List (HloOp τ sig (Elt F))), op.fresh = ∅ :=
  List.forall_iff_forall_mem.1 (show (P1 : List (HloOp τ sig (Elt F))).Forall fun op => op.fresh = ∅ from ⟨rfl, rfl, rfl⟩)

set_option maxHeartbeats 40000000 in
/-- Operations 48 to 115 of the 375 (68), in order. -/
abbrev P2 : List (HloOp τ sig (Elt F)) :=
  ( unary main_v12 main_v36 (broadcastInDim S4096x1 ![0] bcast_S4096_S4096x1_0 : (⟨S4096, .f32⟩ : BufTy).Contents (Elt F) → (⟨S4096x1, .f32⟩ : BufTy).Contents (Elt F))
  :: unary main_v36 main_v37 (broadcastInDim S4096x128 ![0, 1] bcast_S4096x1_S4096x128_0_1 : (⟨S4096x1, .f32⟩ : BufTy).Contents (Elt F) → (⟨S4096x128, .f32⟩ : BufTy).Contents (Elt F))
  :: binary main_v35 main_v37 main_v38 (mulf : (⟨S4096x128, .f32⟩ : BufTy).Contents (Elt F) → (⟨S4096x128, .f32⟩ : BufTy).Contents (Elt F) → (⟨S4096x128, .f32⟩ : BufTy).Contents (Elt F))
  :: binary main_v38 main_arg11 main_v39 ((fun l r => Host.dotGeneral dot_S4096x128_S128x64_S4096x64_1_0_0_1_n_n none l r) : (⟨S4096x128, .f32⟩ : BufTy).Contents (Elt F) → (⟨S128x64, .f32⟩ : BufTy).Contents (Elt F) → (⟨S4096x64, .f32⟩ : BufTy).Contents (Elt F))
  :: nullary main_c_8 (constantI S_ 32 0#32)
  :: unary main_c_8 main_v40 (broadcastInDim S65536 ![] bcast_S_S65536 : (⟨S_, .i32⟩ : BufTy).Contents (Elt F) → (⟨S65536, .i32⟩ : BufTy).Contents (Elt F))
  :: binary main_arg3 main_v40 main_v41 (cmpi .slt : (⟨S65536, .i32⟩ : BufTy).Contents (Elt F) → (⟨S65536, .i32⟩ : BufTy).Contents (Elt F) → (⟨S65536, .i1⟩ : BufTy).Contents (Elt F))
  :: nullary main_c_9 (constantI S_ 32 4096#32)
  :: unary main_c_9 main_v42 (broadcastInDim S65536 ![] bcast_S_S65536 : (⟨S_, .i32⟩ : BufTy).Contents (Elt F) → (⟨S65536, .i32⟩ : BufTy).Contents (Elt F))
  :: binary main_arg3 main_v42 main_v43 (addi : (⟨S65536, .i32⟩ : BufTy).Contents (Elt F) → (⟨S65536, .i32⟩ : BufTy).Contents (Elt F) → (⟨S65536, .i32⟩ : BufTy).Contents (Elt F))
  :: ternary main_v41 main_v43 main_arg3 main_v44 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: unary main_v44 main_v45 (broadcastInDim S65536x1 ![0] bcast_S65536_S65536x1_0 : (⟨S65536, .i32⟩ : BufTy).Contents (Elt F) → (⟨S65536x1, .i32⟩ : BufTy).Contents (Elt F))
  :: binary main_v39 main_v45 main_v46 ((fun x i => Host.gather gather_S4096x64_S65536x1_S65536x64_1_0_n_n_0_1_164 x i) : (⟨S4096x64, .f32⟩ : BufTy).Contents (Elt F) → (⟨S65536x1, .i32⟩ : BufTy).Contents (Elt F) → (⟨S65536x64, .f32⟩ : BufTy).Contents (Elt F))
  :: nullary main_cst_10 (constant S_ .f32 0x00000000#32)
  :: unary main_cst_10 main_v47 (broadcastInDim S4096x64 ![] bcast_S_S4096x64 : (⟨S_, .f32⟩ : BufTy).Contents (Elt F) → (⟨S4096x64, .f32⟩ : BufTy).Contents (Elt F))
  :: unary main_arg4 main_v48 (broadcastInDim S65536x1 ![0] bcast_S65536_S65536x1_0 : (⟨S65536, .i32⟩ : BufTy).Contents (Elt F) → (⟨S65536x1, .i32⟩ : BufTy).Contents (Elt F))
  :: ternary main_v47 main_v48 main_v46 main_v49 ((fun x i u => Host.scatterAdd scatter_S4096x64_S65536x1_S65536x64_1_0_0_1 x i u) : (⟨S4096x64, .f32⟩ : BufTy).Contents (Elt F) → (⟨S65536x1, .i32⟩ : BufTy).Contents (Elt F) → (⟨S65536x64, .f32⟩ : BufTy).Contents (Elt F) → (⟨S4096x64, .f32⟩ : BufTy).Contents (Elt F))
  :: unary main_v14 main_v50 (broadcastInDim S4096x1 ![0] bcast_S4096_S4096x1_0 : (⟨S4096, .f32⟩ : BufTy).Contents (Elt F) → (⟨S4096x1, .f32⟩ : BufTy).Contents (Elt F))
  :: unary main_v50 main_v51 (broadcastInDim S4096x64 ![0, 1] bcast_S4096x1_S4096x64_0_1 : (⟨S4096x1, .f32⟩ : BufTy).Contents (Elt F) → (⟨S4096x64, .f32⟩ : BufTy).Contents (Elt F))
  :: binary main_v49 main_v51 main_v52 (mulf : (⟨S4096x64, .f32⟩ : BufTy).Contents (Elt F) → (⟨S4096x64, .f32⟩ : BufTy).Contents (Elt F) → (⟨S4096x64, .f32⟩ : BufTy).Contents (Elt F))
  :: unary main_arg12 main_v53 (broadcastInDim S1x64 ![1] bcast_S64_S1x64_1 : (⟨S64, .f32⟩ : BufTy).Contents (Elt F) → (⟨S1x64, .f32⟩ : BufTy).Contents (Elt F))
  :: unary main_v53 main_v54 (broadcastInDim S4096x64 ![0, 1] bcast_S1x64_S4096x64_0_1 : (⟨S1x64, .f32⟩ : BufTy).Contents (Elt F) → (⟨S4096x64, .f32⟩ : BufTy).Contents (Elt F))
  :: binary main_v52 main_v54 main_v55 (addf : (⟨S4096x64, .f32⟩ : BufTy).Contents (Elt F) → (⟨S4096x64, .f32⟩ : BufTy).Contents (Elt F) → (⟨S4096x64, .f32⟩ : BufTy).Contents (Elt F))
  :: nullary main_cst_11 (constant S_ .f32 0x3F800000#32)
  :: unary main_cst_11 main_v56 (broadcastInDim S65536 ![] bcast_S_S65536 : (⟨S_, .f32⟩ : BufTy).Contents (Elt F) → (⟨S65536, .f32⟩ : BufTy).Contents (Elt F))
  :: nullary main_cst_12 (constant S_ .f32 0x00000000#32)
  :: unary main_cst_12 main_v57 (broadcastInDim S4096 ![] bcast_S_S4096 : (⟨S_, .f32⟩ : BufTy).Contents (Elt F) → (⟨S4096, .f32⟩ : BufTy).Contents (Elt F))
  :: unary main_arg5 main_v58 (broadcastInDim S65536x1 ![0] bcast_S65536_S65536x1_0 : (⟨S65536, .i32⟩ : BufTy).Contents (Elt F) → (⟨S65536x1, .i32⟩ : BufTy).Contents (Elt F))
  :: ternary main_v57 main_v58 main_v56 main_v59 ((fun x i u => Host.scatterAdd scatter_S4096_S65536x1_S65536_n_0_0_1 x i u) : (⟨S4096, .f32⟩ : BufTy).Contents (Elt F) → (⟨S65536x1, .i32⟩ : BufTy).Contents (Elt F) → (⟨S65536, .f32⟩ : BufTy).Contents (Elt F) → (⟨S4096, .f32⟩ : BufTy).Contents (Elt F))
  :: nullary main_cst_13 (constant S_ .f32 0x3F800000#32)
  :: unary main_cst_13 main_v60 (broadcastInDim S4096 ![] bcast_S_S4096 : (⟨S_, .f32⟩ : BufTy).Contents (Elt F) → (⟨S4096, .f32⟩ : BufTy).Contents (Elt F))
  :: binary main_v59 main_v60 main_v61 (maximumf : (⟨S4096, .f32⟩ : BufTy).Contents (Elt F) → (⟨S4096, .f32⟩ : BufTy).Contents (Elt F) → (⟨S4096, .f32⟩ : BufTy).Contents (Elt F))
  :: nullary main_cst_14 (constant S_ .f32 0x00000000#32)
  :: unary main_cst_14 main_v62 (broadcastInDim S4096 ![] bcast_S_S4096 : (⟨S_, .f32⟩ : BufTy).Contents (Elt F) → (⟨S4096, .f32⟩ : BufTy).Contents (Elt F))
  :: unary main_arg6 main_v63 (broadcastInDim S65536x1 ![0] bcast_S65536_S65536x1_0 : (⟨S65536, .i32⟩ : BufTy).Contents (Elt F) → (⟨S65536x1, .i32⟩ : BufTy).Contents (Elt F))
  :: ternary main_v62 main_v63 main_v56 main_v64 ((fun x i u => Host.scatterAdd scatter_S4096_S65536x1_S65536_n_0_0_1 x i u) : (⟨S4096, .f32⟩ : BufTy).Contents (Elt F) → (⟨S65536x1, .i32⟩ : BufTy).Contents (Elt F) → (⟨S65536, .f32⟩ : BufTy).Contents (Elt F) → (⟨S4096, .f32⟩ : BufTy).Contents (Elt F))
  :: nullary main_cst_15 (constant S_ .f32 0x3F800000#32)
  :: unary main_cst_15 main_v65 (broadcastInDim S4096 ![] bcast_S_S4096 : (⟨S_, .f32⟩ : BufTy).Contents (Elt F) → (⟨S4096, .f32⟩ : BufTy).Contents (Elt F))
  :: binary main_v64 main_v65 main_v66 (maximumf : (⟨S4096, .f32⟩ : BufTy).Contents (Elt F) → (⟨S4096, .f32⟩ : BufTy).Contents (Elt F) → (⟨S4096, .f32⟩ : BufTy).Contents (Elt F))
  :: nullary main_cst_16 (constant S_ .f32 0xBF000000#32)
  :: unary main_cst_16 main_v67 (broadcastInDim S4096 ![] bcast_S_S4096 : (⟨S_, .f32⟩ : BufTy).Contents (Elt F) → (⟨S4096, .f32⟩ : BufTy).Contents (Elt F))
  :: binary main_v61 main_v67 main_v68 (Host.powf : (⟨S4096, .f32⟩ : BufTy).Contents (Elt F) → (⟨S4096, .f32⟩ : BufTy).Contents (Elt F) → (⟨S4096, .f32⟩ : BufTy).Contents (Elt F))
  :: nullary main_cst_17 (constant S_ .f32 0xBF000000#32)
  :: unary main_cst_17 main_v69 (broadcastInDim S4096 ![] bcast_S_S4096 : (⟨S_, .f32⟩ : BufTy).Contents (Elt F) → (⟨S4096, .f32⟩ : BufTy).Contents (Elt F))
  :: binary main_v66 main_v69 main_v70 (Host.powf : (⟨S4096, .f32⟩ : BufTy).Contents (Elt F) → (⟨S4096, .f32⟩ : BufTy).Contents (Elt F) → (⟨S4096, .f32⟩ : BufTy).Contents (Elt F))
  :: unary main_v68 main_v71 (broadcastInDim S4096x1 ![0] bcast_S4096_S4096x1_0 : (⟨S4096, .f32⟩ : BufTy).Contents (Elt F) → (⟨S4096x1, .f32⟩ : BufTy).Contents (Elt F))
  :: unary main_v71 main_v72 (broadcastInDim S4096x512 ![0, 1] bcast_S4096x1_S4096x512_0_1 : (⟨S4096x1, .f32⟩ : BufTy).Contents (Elt F) → (⟨S4096x512, .f32⟩ : BufTy).Contents (Elt F))
  :: binary main_arg1 main_v72 main_v73 (mulf : (⟨S4096x512, .f32⟩ : BufTy).Contents (Elt F) → (⟨S4096x512, .f32⟩ : BufTy).Contents (Elt F) → (⟨S4096x512, .f32⟩ : BufTy).Contents (Elt F))
  :: binary main_v73 main_arg13 main_v74 ((fun l r => Host.dotGeneral dot_S4096x512_S512x128_S4096x128_1_0_0_1_n_n none l r) : (⟨S4096x512, .f32⟩ : BufTy).Contents (Elt F) → (⟨S512x128, .f32⟩ : BufTy).Contents (Elt F) → (⟨S4096x128, .f32⟩ : BufTy).Contents (Elt F))
  :: nullary main_c_18 (constantI S_ 32 0#32)
  :: unary main_c_18 main_v75 (broadcastInDim S65536 ![] bcast_S_S65536 : (⟨S_, .i32⟩ : BufTy).Contents (Elt F) → (⟨S65536, .i32⟩ : BufTy).Contents (Elt F))
  :: binary main_arg5 main_v75 main_v76 (cmpi .slt : (⟨S65536, .i32⟩ : BufTy).Contents (Elt F) → (⟨S65536, .i32⟩ : BufTy).Contents (Elt F) → (⟨S65536, .i1⟩ : BufTy).Contents (Elt F))
  :: nullary main_c_19 (constantI S_ 32 4096#32)
  :: unary main_c_19 main_v77 (broadcastInDim S65536 ![] bcast_S_S65536 : (⟨S_, .i32⟩ : BufTy).Contents (Elt F) → (⟨S65536, .i32⟩ : BufTy).Contents (Elt F))
  :: binary main_arg5 main_v77 main_v78 (addi : (⟨S65536, .i32⟩ : BufTy).Contents (Elt F) → (⟨S65536, .i32⟩ : BufTy).Contents (Elt F) → (⟨S65536, .i32⟩ : BufTy).Contents (Elt F))
  :: ternary main_v76 main_v78 main_arg5 main_v79 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: unary main_v79 main_v80 (broadcastInDim S65536x1 ![0] bcast_S65536_S65536x1_0 : (⟨S65536, .i32⟩ : BufTy).Contents (Elt F) → (⟨S65536x1, .i32⟩ : BufTy).Contents (Elt F))
  :: binary main_v74 main_v80 main_v81 ((fun x i => Host.gather gather_S4096x128_S65536x1_S65536x128_1_0_n_n_0_1_1128 x i) : (⟨S4096x128, .f32⟩ : BufTy).Contents (Elt F) → (⟨S65536x1, .i32⟩ : BufTy).Contents (Elt F) → (⟨S65536x128, .f32⟩ : BufTy).Contents (Elt F))
  :: nullary main_cst_20 (constant S_ .f32 0x00000000#32)
  :: unary main_cst_20 main_v82 (broadcastInDim S4096x128 ![] bcast_S_S4096x128 : (⟨S_, .f32⟩ : BufTy).Contents (Elt F) → (⟨S4096x128, .f32⟩ : BufTy).Contents (Elt F))
  :: unary main_arg6 main_v83 (broadcastInDim S65536x1 ![0] bcast_S65536_S65536x1_0 : (⟨S65536, .i32⟩ : BufTy).Contents (Elt F) → (⟨S65536x1, .i32⟩ : BufTy).Contents (Elt F))
  :: ternary main_v82 main_v83 main_v81 main_v84 ((fun x i u => Host.scatterAdd scatter_S4096x128_S65536x1_S65536x128_1_0_0_1 x i u) : (⟨S4096x128, .f32⟩ : BufTy).Contents (Elt F) → (⟨S65536x1, .i32⟩ : BufTy).Contents (Elt F) → (⟨S65536x128, .f32⟩ : BufTy).Contents (Elt F) → (⟨S4096x128, .f32⟩ : BufTy).Contents (Elt F))
  :: unary main_v70 main_v85 (broadcastInDim S4096x1 ![0] bcast_S4096_S4096x1_0 : (⟨S4096, .f32⟩ : BufTy).Contents (Elt F) → (⟨S4096x1, .f32⟩ : BufTy).Contents (Elt F))
  :: unary main_v85 main_v86 (broadcastInDim S4096x128 ![0, 1] bcast_S4096x1_S4096x128_0_1 : (⟨S4096x1, .f32⟩ : BufTy).Contents (Elt F) → (⟨S4096x128, .f32⟩ : BufTy).Contents (Elt F))
  :: binary main_v84 main_v86 main_v87 (mulf : (⟨S4096x128, .f32⟩ : BufTy).Contents (Elt F) → (⟨S4096x128, .f32⟩ : BufTy).Contents (Elt F) → (⟨S4096x128, .f32⟩ : BufTy).Contents (Elt F))
  :: unary main_arg14 main_v88 (broadcastInDim S1x128 ![1] bcast_S128_S1x128_1 : (⟨S128, .f32⟩ : BufTy).Contents (Elt F) → (⟨S1x128, .f32⟩ : BufTy).Contents (Elt F))
  :: unary main_v88 main_v89 (broadcastInDim S4096x128 ![0, 1] bcast_S1x128_S4096x128_0_1 : (⟨S1x128, .f32⟩ : BufTy).Contents (Elt F) → (⟨S4096x128, .f32⟩ : BufTy).Contents (Elt F))
  :: binary main_v87 main_v89 main_v90 (addf : (⟨S4096x128, .f32⟩ : BufTy).Contents (Elt F) → (⟨S4096x128, .f32⟩ : BufTy).Contents (Elt F) → (⟨S4096x128, .f32⟩ : BufTy).Contents (Elt F))
  :: [] )
set_option maxRecDepth 8192 in
/-- Each touches TensorCore references only. -/
theorem P2_sub : (P2 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩
set_option maxRecDepth 8192 in
/-- Each determines its results. -/
theorem P2_fresh : ∀ op ∈ (P2 : List (HloOp τ sig (Elt F))), op.fresh = ∅ :=
  List.forall_iff_forall_mem.1 (show (P2 : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

set_option maxHeartbeats 40000000 in
/-- Operations 116 to 118 of the 375 (3), in order. -/
abbrev P3 : List (HloOp τ sig (Elt F)) :=
  ( TRef.nullary (TRef.of (T := ⟨S_, .f32⟩) main_call1_cst) (constant S_ .f32 0x00000000#32)
  :: TRef.unary (TRef.of (T := ⟨S_, .f32⟩) main_call1_cst) (TRef.of (T := ⟨S4096x128, .f32⟩) main_call1_v0) (broadcastInDim S4096x128 ![] bcast_S_S4096x128)
  :: TRef.binary (TRef.of (T := ⟨S4096x128, .f32⟩) main_v90) (TRef.of (T := ⟨S4096x128, .f32⟩) main_call1_v0) (TRef.of (T := ⟨S4096x128, .f32⟩) main_v91) maximumf
  :: [] )
set_option maxRecDepth 8192 in
/-- Each touches TensorCore references only. -/
theorem P3_sub : (P3 : List (HloOp τ sig (Elt F))).Forall fun op => op.bufs ⊆ tcRefs τ sig :=
  ⟨nullary_bufs_sub .., unary_bufs_sub .., binary_bufs_sub ..⟩
set_option maxRecDepth 8192 in
/-- Each determines its results. -/
theorem P3_fresh : ∀ op ∈ (P3 : List (HloOp τ sig (Elt F))), op.fresh = ∅ :=
  List.forall_iff_forall_mem.1 (show (P3 : List (HloOp τ sig (Elt F))).Forall fun op => op.fresh = ∅ from ⟨rfl, rfl, rfl⟩)

set_option maxHeartbeats 40000000 in
/-- Operations 119 to 186 of the 375 (68), in order. -/
abbrev P4 : List (HloOp τ sig (Elt F)) :=
  ( unary main_v68 main_v92 (broadcastInDim S4096x1 ![0] bcast_S4096_S4096x1_0 : (⟨S4096, .f32⟩ : BufTy).Contents (Elt F) → (⟨S4096x1, .f32⟩ : BufTy).Contents (Elt F))
  :: unary main_v92 main_v93 (broadcastInDim S4096x128 ![0, 1] bcast_S4096x1_S4096x128_0_1 : (⟨S4096x1, .f32⟩ : BufTy).Contents (Elt F) → (⟨S4096x128, .f32⟩ : BufTy).Contents (Elt F))
  :: binary main_v91 main_v93 main_v94 (mulf : (⟨S4096x128, .f32⟩ : BufTy).Contents (Elt F) → (⟨S4096x128, .f32⟩ : BufTy).Contents (Elt F) → (⟨S4096x128, .f32⟩ : BufTy).Contents (Elt F))
  :: binary main_v94 main_arg15 main_v95 ((fun l r => Host.dotGeneral dot_S4096x128_S128x64_S4096x64_1_0_0_1_n_n none l r) : (⟨S4096x128, .f32⟩ : BufTy).Contents (Elt F) → (⟨S128x64, .f32⟩ : BufTy).Contents (Elt F) → (⟨S4096x64, .f32⟩ : BufTy).Contents (Elt F))
  :: nullary main_c_21 (constantI S_ 32 0#32)
  :: unary main_c_21 main_v96 (broadcastInDim S65536 ![] bcast_S_S65536 : (⟨S_, .i32⟩ : BufTy).Contents (Elt F) → (⟨S65536, .i32⟩ : BufTy).Contents (Elt F))
  :: binary main_arg5 main_v96 main_v97 (cmpi .slt : (⟨S65536, .i32⟩ : BufTy).Contents (Elt F) → (⟨S65536, .i32⟩ : BufTy).Contents (Elt F) → (⟨S65536, .i1⟩ : BufTy).Contents (Elt F))
  :: nullary main_c_22 (constantI S_ 32 4096#32)
  :: unary main_c_22 main_v98 (broadcastInDim S65536 ![] bcast_S_S65536 : (⟨S_, .i32⟩ : BufTy).Contents (Elt F) → (⟨S65536, .i32⟩ : BufTy).Contents (Elt F))
  :: binary main_arg5 main_v98 main_v99 (addi : (⟨S65536, .i32⟩ : BufTy).Contents (Elt F) → (⟨S65536, .i32⟩ : BufTy).Contents (Elt F) → (⟨S65536, .i32⟩ : BufTy).Contents (Elt F))
  :: ternary main_v97 main_v99 main_arg5 main_v100 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: unary main_v100 main_v101 (broadcastInDim S65536x1 ![0] bcast_S65536_S65536x1_0 : (⟨S65536, .i32⟩ : BufTy).Contents (Elt F) → (⟨S65536x1, .i32⟩ : BufTy).Contents (Elt F))
  :: binary main_v95 main_v101 main_v102 ((fun x i => Host.gather gather_S4096x64_S65536x1_S65536x64_1_0_n_n_0_1_164 x i) : (⟨S4096x64, .f32⟩ : BufTy).Contents (Elt F) → (⟨S65536x1, .i32⟩ : BufTy).Contents (Elt F) → (⟨S65536x64, .f32⟩ : BufTy).Contents (Elt F))
  :: nullary main_cst_23 (constant S_ .f32 0x00000000#32)
  :: unary main_cst_23 main_v103 (broadcastInDim S4096x64 ![] bcast_S_S4096x64 : (⟨S_, .f32⟩ : BufTy).Contents (Elt F) → (⟨S4096x64, .f32⟩ : BufTy).Contents (Elt F))
  :: unary main_arg6 main_v104 (broadcastInDim S65536x1 ![0] bcast_S65536_S65536x1_0 : (⟨S65536, .i32⟩ : BufTy).Contents (Elt F) → (⟨S65536x1, .i32⟩ : BufTy).Contents (Elt F))
  :: ternary main_v103 main_v104 main_v102 main_v105 ((fun x i u => Host.scatterAdd scatter_S4096x64_S65536x1_S65536x64_1_0_0_1 x i u) : (⟨S4096x64, .f32⟩ : BufTy).Contents (Elt F) → (⟨S65536x1, .i32⟩ : BufTy).Contents (Elt F) → (⟨S65536x64, .f32⟩ : BufTy).Contents (Elt F) → (⟨S4096x64, .f32⟩ : BufTy).Contents (Elt F))
  :: unary main_v70 main_v106 (broadcastInDim S4096x1 ![0] bcast_S4096_S4096x1_0 : (⟨S4096, .f32⟩ : BufTy).Contents (Elt F) → (⟨S4096x1, .f32⟩ : BufTy).Contents (Elt F))
  :: unary main_v106 main_v107 (broadcastInDim S4096x64 ![0, 1] bcast_S4096x1_S4096x64_0_1 : (⟨S4096x1, .f32⟩ : BufTy).Contents (Elt F) → (⟨S4096x64, .f32⟩ : BufTy).Contents (Elt F))
  :: binary main_v105 main_v107 main_v108 (mulf : (⟨S4096x64, .f32⟩ : BufTy).Contents (Elt F) → (⟨S4096x64, .f32⟩ : BufTy).Contents (Elt F) → (⟨S4096x64, .f32⟩ : BufTy).Contents (Elt F))
  :: unary main_arg16 main_v109 (broadcastInDim S1x64 ![1] bcast_S64_S1x64_1 : (⟨S64, .f32⟩ : BufTy).Contents (Elt F) → (⟨S1x64, .f32⟩ : BufTy).Contents (Elt F))
  :: unary main_v109 main_v110 (broadcastInDim S4096x64 ![0, 1] bcast_S1x64_S4096x64_0_1 : (⟨S1x64, .f32⟩ : BufTy).Contents (Elt F) → (⟨S4096x64, .f32⟩ : BufTy).Contents (Elt F))
  :: binary main_v108 main_v110 main_v111 (addf : (⟨S4096x64, .f32⟩ : BufTy).Contents (Elt F) → (⟨S4096x64, .f32⟩ : BufTy).Contents (Elt F) → (⟨S4096x64, .f32⟩ : BufTy).Contents (Elt F))
  :: nullary main_cst_24 (constant S_ .f32 0x3F800000#32)
  :: unary main_cst_24 main_v112 (broadcastInDim S65536 ![] bcast_S_S65536 : (⟨S_, .f32⟩ : BufTy).Contents (Elt F) → (⟨S65536, .f32⟩ : BufTy).Contents (Elt F))
  :: nullary main_cst_25 (constant S_ .f32 0x00000000#32)
  :: unary main_cst_25 main_v113 (broadcastInDim S4096 ![] bcast_S_S4096 : (⟨S_, .f32⟩ : BufTy).Contents (Elt F) → (⟨S4096, .f32⟩ : BufTy).Contents (Elt F))
  :: unary main_arg7 main_v114 (broadcastInDim S65536x1 ![0] bcast_S65536_S65536x1_0 : (⟨S65536, .i32⟩ : BufTy).Contents (Elt F) → (⟨S65536x1, .i32⟩ : BufTy).Contents (Elt F))
  :: ternary main_v113 main_v114 main_v112 main_v115 ((fun x i u => Host.scatterAdd scatter_S4096_S65536x1_S65536_n_0_0_1 x i u) : (⟨S4096, .f32⟩ : BufTy).Contents (Elt F) → (⟨S65536x1, .i32⟩ : BufTy).Contents (Elt F) → (⟨S65536, .f32⟩ : BufTy).Contents (Elt F) → (⟨S4096, .f32⟩ : BufTy).Contents (Elt F))
  :: nullary main_cst_26 (constant S_ .f32 0x3F800000#32)
  :: unary main_cst_26 main_v116 (broadcastInDim S4096 ![] bcast_S_S4096 : (⟨S_, .f32⟩ : BufTy).Contents (Elt F) → (⟨S4096, .f32⟩ : BufTy).Contents (Elt F))
  :: binary main_v115 main_v116 main_v117 (maximumf : (⟨S4096, .f32⟩ : BufTy).Contents (Elt F) → (⟨S4096, .f32⟩ : BufTy).Contents (Elt F) → (⟨S4096, .f32⟩ : BufTy).Contents (Elt F))
  :: nullary main_cst_27 (constant S_ .f32 0x00000000#32)
  :: unary main_cst_27 main_v118 (broadcastInDim S4096 ![] bcast_S_S4096 : (⟨S_, .f32⟩ : BufTy).Contents (Elt F) → (⟨S4096, .f32⟩ : BufTy).Contents (Elt F))
  :: unary main_arg8 main_v119 (broadcastInDim S65536x1 ![0] bcast_S65536_S65536x1_0 : (⟨S65536, .i32⟩ : BufTy).Contents (Elt F) → (⟨S65536x1, .i32⟩ : BufTy).Contents (Elt F))
  :: ternary main_v118 main_v119 main_v112 main_v120 ((fun x i u => Host.scatterAdd scatter_S4096_S65536x1_S65536_n_0_0_1 x i u) : (⟨S4096, .f32⟩ : BufTy).Contents (Elt F) → (⟨S65536x1, .i32⟩ : BufTy).Contents (Elt F) → (⟨S65536, .f32⟩ : BufTy).Contents (Elt F) → (⟨S4096, .f32⟩ : BufTy).Contents (Elt F))
  :: nullary main_cst_28 (constant S_ .f32 0x3F800000#32)
  :: unary main_cst_28 main_v121 (broadcastInDim S4096 ![] bcast_S_S4096 : (⟨S_, .f32⟩ : BufTy).Contents (Elt F) → (⟨S4096, .f32⟩ : BufTy).Contents (Elt F))
  :: binary main_v120 main_v121 main_v122 (maximumf : (⟨S4096, .f32⟩ : BufTy).Contents (Elt F) → (⟨S4096, .f32⟩ : BufTy).Contents (Elt F) → (⟨S4096, .f32⟩ : BufTy).Contents (Elt F))
  :: nullary main_cst_29 (constant S_ .f32 0xBF000000#32)
  :: unary main_cst_29 main_v123 (broadcastInDim S4096 ![] bcast_S_S4096 : (⟨S_, .f32⟩ : BufTy).Contents (Elt F) → (⟨S4096, .f32⟩ : BufTy).Contents (Elt F))
  :: binary main_v117 main_v123 main_v124 (Host.powf : (⟨S4096, .f32⟩ : BufTy).Contents (Elt F) → (⟨S4096, .f32⟩ : BufTy).Contents (Elt F) → (⟨S4096, .f32⟩ : BufTy).Contents (Elt F))
  :: nullary main_cst_30 (constant S_ .f32 0xBF000000#32)
  :: unary main_cst_30 main_v125 (broadcastInDim S4096 ![] bcast_S_S4096 : (⟨S_, .f32⟩ : BufTy).Contents (Elt F) → (⟨S4096, .f32⟩ : BufTy).Contents (Elt F))
  :: binary main_v122 main_v125 main_v126 (Host.powf : (⟨S4096, .f32⟩ : BufTy).Contents (Elt F) → (⟨S4096, .f32⟩ : BufTy).Contents (Elt F) → (⟨S4096, .f32⟩ : BufTy).Contents (Elt F))
  :: unary main_v124 main_v127 (broadcastInDim S4096x1 ![0] bcast_S4096_S4096x1_0 : (⟨S4096, .f32⟩ : BufTy).Contents (Elt F) → (⟨S4096x1, .f32⟩ : BufTy).Contents (Elt F))
  :: unary main_v127 main_v128 (broadcastInDim S4096x512 ![0, 1] bcast_S4096x1_S4096x512_0_1 : (⟨S4096x1, .f32⟩ : BufTy).Contents (Elt F) → (⟨S4096x512, .f32⟩ : BufTy).Contents (Elt F))
  :: binary main_arg2 main_v128 main_v129 (mulf : (⟨S4096x512, .f32⟩ : BufTy).Contents (Elt F) → (⟨S4096x512, .f32⟩ : BufTy).Contents (Elt F) → (⟨S4096x512, .f32⟩ : BufTy).Contents (Elt F))
  :: binary main_v129 main_arg17 main_v130 ((fun l r => Host.dotGeneral dot_S4096x512_S512x128_S4096x128_1_0_0_1_n_n none l r) : (⟨S4096x512, .f32⟩ : BufTy).Contents (Elt F) → (⟨S512x128, .f32⟩ : BufTy).Contents (Elt F) → (⟨S4096x128, .f32⟩ : BufTy).Contents (Elt F))
  :: nullary main_c_31 (constantI S_ 32 0#32)
  :: unary main_c_31 main_v131 (broadcastInDim S65536 ![] bcast_S_S65536 : (⟨S_, .i32⟩ : BufTy).Contents (Elt F) → (⟨S65536, .i32⟩ : BufTy).Contents (Elt F))
  :: binary main_arg7 main_v131 main_v132 (cmpi .slt : (⟨S65536, .i32⟩ : BufTy).Contents (Elt F) → (⟨S65536, .i32⟩ : BufTy).Contents (Elt F) → (⟨S65536, .i1⟩ : BufTy).Contents (Elt F))
  :: nullary main_c_32 (constantI S_ 32 4096#32)
  :: unary main_c_32 main_v133 (broadcastInDim S65536 ![] bcast_S_S65536 : (⟨S_, .i32⟩ : BufTy).Contents (Elt F) → (⟨S65536, .i32⟩ : BufTy).Contents (Elt F))
  :: binary main_arg7 main_v133 main_v134 (addi : (⟨S65536, .i32⟩ : BufTy).Contents (Elt F) → (⟨S65536, .i32⟩ : BufTy).Contents (Elt F) → (⟨S65536, .i32⟩ : BufTy).Contents (Elt F))
  :: ternary main_v132 main_v134 main_arg7 main_v135 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: unary main_v135 main_v136 (broadcastInDim S65536x1 ![0] bcast_S65536_S65536x1_0 : (⟨S65536, .i32⟩ : BufTy).Contents (Elt F) → (⟨S65536x1, .i32⟩ : BufTy).Contents (Elt F))
  :: binary main_v130 main_v136 main_v137 ((fun x i => Host.gather gather_S4096x128_S65536x1_S65536x128_1_0_n_n_0_1_1128 x i) : (⟨S4096x128, .f32⟩ : BufTy).Contents (Elt F) → (⟨S65536x1, .i32⟩ : BufTy).Contents (Elt F) → (⟨S65536x128, .f32⟩ : BufTy).Contents (Elt F))
  :: nullary main_cst_33 (constant S_ .f32 0x00000000#32)
  :: unary main_cst_33 main_v138 (broadcastInDim S4096x128 ![] bcast_S_S4096x128 : (⟨S_, .f32⟩ : BufTy).Contents (Elt F) → (⟨S4096x128, .f32⟩ : BufTy).Contents (Elt F))
  :: unary main_arg8 main_v139 (broadcastInDim S65536x1 ![0] bcast_S65536_S65536x1_0 : (⟨S65536, .i32⟩ : BufTy).Contents (Elt F) → (⟨S65536x1, .i32⟩ : BufTy).Contents (Elt F))
  :: ternary main_v138 main_v139 main_v137 main_v140 ((fun x i u => Host.scatterAdd scatter_S4096x128_S65536x1_S65536x128_1_0_0_1 x i u) : (⟨S4096x128, .f32⟩ : BufTy).Contents (Elt F) → (⟨S65536x1, .i32⟩ : BufTy).Contents (Elt F) → (⟨S65536x128, .f32⟩ : BufTy).Contents (Elt F) → (⟨S4096x128, .f32⟩ : BufTy).Contents (Elt F))
  :: unary main_v126 main_v141 (broadcastInDim S4096x1 ![0] bcast_S4096_S4096x1_0 : (⟨S4096, .f32⟩ : BufTy).Contents (Elt F) → (⟨S4096x1, .f32⟩ : BufTy).Contents (Elt F))
  :: unary main_v141 main_v142 (broadcastInDim S4096x128 ![0, 1] bcast_S4096x1_S4096x128_0_1 : (⟨S4096x1, .f32⟩ : BufTy).Contents (Elt F) → (⟨S4096x128, .f32⟩ : BufTy).Contents (Elt F))
  :: binary main_v140 main_v142 main_v143 (mulf : (⟨S4096x128, .f32⟩ : BufTy).Contents (Elt F) → (⟨S4096x128, .f32⟩ : BufTy).Contents (Elt F) → (⟨S4096x128, .f32⟩ : BufTy).Contents (Elt F))
  :: unary main_arg18 main_v144 (broadcastInDim S1x128 ![1] bcast_S128_S1x128_1 : (⟨S128, .f32⟩ : BufTy).Contents (Elt F) → (⟨S1x128, .f32⟩ : BufTy).Contents (Elt F))
  :: unary main_v144 main_v145 (broadcastInDim S4096x128 ![0, 1] bcast_S1x128_S4096x128_0_1 : (⟨S1x128, .f32⟩ : BufTy).Contents (Elt F) → (⟨S4096x128, .f32⟩ : BufTy).Contents (Elt F))
  :: binary main_v143 main_v145 main_v146 (addf : (⟨S4096x128, .f32⟩ : BufTy).Contents (Elt F) → (⟨S4096x128, .f32⟩ : BufTy).Contents (Elt F) → (⟨S4096x128, .f32⟩ : BufTy).Contents (Elt F))
  :: [] )
set_option maxRecDepth 8192 in
/-- Each touches TensorCore references only. -/
theorem P4_sub : (P4 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩
set_option maxRecDepth 8192 in
/-- Each determines its results. -/
theorem P4_fresh : ∀ op ∈ (P4 : List (HloOp τ sig (Elt F))), op.fresh = ∅ :=
  List.forall_iff_forall_mem.1 (show (P4 : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

set_option maxHeartbeats 40000000 in
/-- Operations 187 to 189 of the 375 (3), in order. -/
abbrev P5 : List (HloOp τ sig (Elt F)) :=
  ( TRef.nullary (TRef.of (T := ⟨S_, .f32⟩) main_call2_cst) (constant S_ .f32 0x00000000#32)
  :: TRef.unary (TRef.of (T := ⟨S_, .f32⟩) main_call2_cst) (TRef.of (T := ⟨S4096x128, .f32⟩) main_call2_v0) (broadcastInDim S4096x128 ![] bcast_S_S4096x128)
  :: TRef.binary (TRef.of (T := ⟨S4096x128, .f32⟩) main_v146) (TRef.of (T := ⟨S4096x128, .f32⟩) main_call2_v0) (TRef.of (T := ⟨S4096x128, .f32⟩) main_v147) maximumf
  :: [] )
set_option maxRecDepth 8192 in
/-- Each touches TensorCore references only. -/
theorem P5_sub : (P5 : List (HloOp τ sig (Elt F))).Forall fun op => op.bufs ⊆ tcRefs τ sig :=
  ⟨nullary_bufs_sub .., unary_bufs_sub .., binary_bufs_sub ..⟩
set_option maxRecDepth 8192 in
/-- Each determines its results. -/
theorem P5_fresh : ∀ op ∈ (P5 : List (HloOp τ sig (Elt F))), op.fresh = ∅ :=
  List.forall_iff_forall_mem.1 (show (P5 : List (HloOp τ sig (Elt F))).Forall fun op => op.fresh = ∅ from ⟨rfl, rfl, rfl⟩)

set_option maxHeartbeats 40000000 in
/-- Operations 190 to 231 of the 375 (42), in order. -/
abbrev P6 : List (HloOp τ sig (Elt F)) :=
  ( unary main_v124 main_v148 (broadcastInDim S4096x1 ![0] bcast_S4096_S4096x1_0 : (⟨S4096, .f32⟩ : BufTy).Contents (Elt F) → (⟨S4096x1, .f32⟩ : BufTy).Contents (Elt F))
  :: unary main_v148 main_v149 (broadcastInDim S4096x128 ![0, 1] bcast_S4096x1_S4096x128_0_1 : (⟨S4096x1, .f32⟩ : BufTy).Contents (Elt F) → (⟨S4096x128, .f32⟩ : BufTy).Contents (Elt F))
  :: binary main_v147 main_v149 main_v150 (mulf : (⟨S4096x128, .f32⟩ : BufTy).Contents (Elt F) → (⟨S4096x128, .f32⟩ : BufTy).Contents (Elt F) → (⟨S4096x128, .f32⟩ : BufTy).Contents (Elt F))
  :: binary main_v150 main_arg19 main_v151 ((fun l r => Host.dotGeneral dot_S4096x128_S128x64_S4096x64_1_0_0_1_n_n none l r) : (⟨S4096x128, .f32⟩ : BufTy).Contents (Elt F) → (⟨S128x64, .f32⟩ : BufTy).Contents (Elt F) → (⟨S4096x64, .f32⟩ : BufTy).Contents (Elt F))
  :: nullary main_c_34 (constantI S_ 32 0#32)
  :: unary main_c_34 main_v152 (broadcastInDim S65536 ![] bcast_S_S65536 : (⟨S_, .i32⟩ : BufTy).Contents (Elt F) → (⟨S65536, .i32⟩ : BufTy).Contents (Elt F))
  :: binary main_arg7 main_v152 main_v153 (cmpi .slt : (⟨S65536, .i32⟩ : BufTy).Contents (Elt F) → (⟨S65536, .i32⟩ : BufTy).Contents (Elt F) → (⟨S65536, .i1⟩ : BufTy).Contents (Elt F))
  :: nullary main_c_35 (constantI S_ 32 4096#32)
  :: unary main_c_35 main_v154 (broadcastInDim S65536 ![] bcast_S_S65536 : (⟨S_, .i32⟩ : BufTy).Contents (Elt F) → (⟨S65536, .i32⟩ : BufTy).Contents (Elt F))
  :: binary main_arg7 main_v154 main_v155 (addi : (⟨S65536, .i32⟩ : BufTy).Contents (Elt F) → (⟨S65536, .i32⟩ : BufTy).Contents (Elt F) → (⟨S65536, .i32⟩ : BufTy).Contents (Elt F))
  :: ternary main_v153 main_v155 main_arg7 main_v156 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: unary main_v156 main_v157 (broadcastInDim S65536x1 ![0] bcast_S65536_S65536x1_0 : (⟨S65536, .i32⟩ : BufTy).Contents (Elt F) → (⟨S65536x1, .i32⟩ : BufTy).Contents (Elt F))
  :: binary main_v151 main_v157 main_v158 ((fun x i => Host.gather gather_S4096x64_S65536x1_S65536x64_1_0_n_n_0_1_164 x i) : (⟨S4096x64, .f32⟩ : BufTy).Contents (Elt F) → (⟨S65536x1, .i32⟩ : BufTy).Contents (Elt F) → (⟨S65536x64, .f32⟩ : BufTy).Contents (Elt F))
  :: nullary main_cst_36 (constant S_ .f32 0x00000000#32)
  :: unary main_cst_36 main_v159 (broadcastInDim S4096x64 ![] bcast_S_S4096x64 : (⟨S_, .f32⟩ : BufTy).Contents (Elt F) → (⟨S4096x64, .f32⟩ : BufTy).Contents (Elt F))
  :: unary main_arg8 main_v160 (broadcastInDim S65536x1 ![0] bcast_S65536_S65536x1_0 : (⟨S65536, .i32⟩ : BufTy).Contents (Elt F) → (⟨S65536x1, .i32⟩ : BufTy).Contents (Elt F))
  :: ternary main_v159 main_v160 main_v158 main_v161 ((fun x i u => Host.scatterAdd scatter_S4096x64_S65536x1_S65536x64_1_0_0_1 x i u) : (⟨S4096x64, .f32⟩ : BufTy).Contents (Elt F) → (⟨S65536x1, .i32⟩ : BufTy).Contents (Elt F) → (⟨S65536x64, .f32⟩ : BufTy).Contents (Elt F) → (⟨S4096x64, .f32⟩ : BufTy).Contents (Elt F))
  :: unary main_v126 main_v162 (broadcastInDim S4096x1 ![0] bcast_S4096_S4096x1_0 : (⟨S4096, .f32⟩ : BufTy).Contents (Elt F) → (⟨S4096x1, .f32⟩ : BufTy).Contents (Elt F))
  :: unary main_v162 main_v163 (broadcastInDim S4096x64 ![0, 1] bcast_S4096x1_S4096x64_0_1 : (⟨S4096x1, .f32⟩ : BufTy).Contents (Elt F) → (⟨S4096x64, .f32⟩ : BufTy).Contents (Elt F))
  :: binary main_v161 main_v163 main_v164 (mulf : (⟨S4096x64, .f32⟩ : BufTy).Contents (Elt F) → (⟨S4096x64, .f32⟩ : BufTy).Contents (Elt F) → (⟨S4096x64, .f32⟩ : BufTy).Contents (Elt F))
  :: unary main_arg20 main_v165 (broadcastInDim S1x64 ![1] bcast_S64_S1x64_1 : (⟨S64, .f32⟩ : BufTy).Contents (Elt F) → (⟨S1x64, .f32⟩ : BufTy).Contents (Elt F))
  :: unary main_v165 main_v166 (broadcastInDim S4096x64 ![0, 1] bcast_S1x64_S4096x64_0_1 : (⟨S1x64, .f32⟩ : BufTy).Contents (Elt F) → (⟨S4096x64, .f32⟩ : BufTy).Contents (Elt F))
  :: binary main_v164 main_v166 main_v167 (addf : (⟨S4096x64, .f32⟩ : BufTy).Contents (Elt F) → (⟨S4096x64, .f32⟩ : BufTy).Contents (Elt F) → (⟨S4096x64, .f32⟩ : BufTy).Contents (Elt F))
  :: binary main_v55 main_arg21 main_v168 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F))
  :: binary main_v111 main_arg22 main_v169 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F))
  :: binary main_v168 main_v169 main_v170 (addf : (⟨S4096x64, .f32⟩ : BufTy).Contents (Elt F) → (⟨S4096x64, .f32⟩ : BufTy).Contents (Elt F) → (⟨S4096x64, .f32⟩ : BufTy).Contents (Elt F))
  :: binary main_v167 main_arg23 main_v171 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F))
  :: binary main_v170 main_v171 main_v172 (addf : (⟨S4096x64, .f32⟩ : BufTy).Contents (Elt F) → (⟨S4096x64, .f32⟩ : BufTy).Contents (Elt F) → (⟨S4096x64, .f32⟩ : BufTy).Contents (Elt F))
  :: nullary main_cst_37 (constant S_ .f32 0xFF800000#32)
  :: binary main_v172 main_cst_37 main_v173 ((fun x v => Host.reduce FloatOps.maximumf x v reducesTo_S4096x64_S4096_d1 h_S_) : (⟨S4096x64, .f32⟩ : BufTy).Contents (Elt F) → (⟨S_, .f32⟩ : BufTy).Contents (Elt F) → (⟨S4096, .f32⟩ : BufTy).Contents (Elt F))
  :: nullary main_cst_38 (constant S_ .f32 0xFF800000#32)
  :: unary main_cst_38 main_v174 (broadcastInDim S4096 ![] bcast_S_S4096 : (⟨S_, .f32⟩ : BufTy).Contents (Elt F) → (⟨S4096, .f32⟩ : BufTy).Contents (Elt F))
  :: binary main_v174 main_v173 main_v175 (maximumf : (⟨S4096, .f32⟩ : BufTy).Contents (Elt F) → (⟨S4096, .f32⟩ : BufTy).Contents (Elt F) → (⟨S4096, .f32⟩ : BufTy).Contents (Elt F))
  :: unary main_v175 main_v176 (broadcastInDim S4096x1 ![0] bcast_S4096_S4096x1_0 : (⟨S4096, .f32⟩ : BufTy).Contents (Elt F) → (⟨S4096x1, .f32⟩ : BufTy).Contents (Elt F))
  :: unary main_v176 main_v177 (broadcastInDim S4096x64 ![0, 1] bcast_S4096x1_S4096x64_0_1 : (⟨S4096x1, .f32⟩ : BufTy).Contents (Elt F) → (⟨S4096x64, .f32⟩ : BufTy).Contents (Elt F))
  :: binary main_v172 main_v177 main_v178 (subf : (⟨S4096x64, .f32⟩ : BufTy).Contents (Elt F) → (⟨S4096x64, .f32⟩ : BufTy).Contents (Elt F) → (⟨S4096x64, .f32⟩ : BufTy).Contents (Elt F))
  :: unary main_v178 main_v179 (Host.exp : (⟨S4096x64, .f32⟩ : BufTy).Contents (Elt F) → (⟨S4096x64, .f32⟩ : BufTy).Contents (Elt F))
  :: nullary main_cst_39 (constant S_ .f32 0x00000000#32)
  :: binary main_v179 main_cst_39 main_v180 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F))
  :: unary main_v180 main_v181 (broadcastInDim S4096x1 ![0] bcast_S4096_S4096x1_0 : (⟨S4096, .f32⟩ : BufTy).Contents (Elt F) → (⟨S4096x1, .f32⟩ : BufTy).Contents (Elt F))
  :: unary main_v181 main_v182 (broadcastInDim S4096x64 ![0, 1] bcast_S4096x1_S4096x64_0_1 : (⟨S4096x1, .f32⟩ : BufTy).Contents (Elt F) → (⟨S4096x64, .f32⟩ : BufTy).Contents (Elt F))
  :: binary main_v179 main_v182 main_v183 (Host.divf : (⟨S4096x64, .f32⟩ : BufTy).Contents (Elt F) → (⟨S4096x64, .f32⟩ : BufTy).Contents (Elt F) → (⟨S4096x64, .f32⟩ : BufTy).Contents (Elt F))
  :: [] )
set_option maxRecDepth 8192 in
/-- Each touches TensorCore references only. -/
theorem P6_sub : (P6 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., binary_bufs_sub .., binary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
set_option maxRecDepth 8192 in
/-- Each determines its results. -/
theorem P6_fresh : ∀ op ∈ (P6 : List (HloOp τ sig (Elt F))), op.fresh = ∅ :=
  List.forall_iff_forall_mem.1 (show (P6 : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

set_option maxHeartbeats 40000000 in
/-- Operations 232 to 234 of the 375 (3), in order. -/
abbrev P7 : List (HloOp τ sig (Elt F)) :=
  ( TRef.nullary (TRef.of (T := ⟨S_, .f32⟩) main_call3_cst) (constant S_ .f32 0x00000000#32)
  :: TRef.unary (TRef.of (T := ⟨S_, .f32⟩) main_call3_cst) (TRef.of (T := ⟨S4096x64, .f32⟩) main_call3_v0) (broadcastInDim S4096x64 ![] bcast_S_S4096x64)
  :: TRef.binary (TRef.of (T := ⟨S4096x64, .f32⟩) main_v183) (TRef.of (T := ⟨S4096x64, .f32⟩) main_call3_v0) (TRef.of (T := ⟨S4096x64, .f32⟩) main_v184) maximumf
  :: [] )
set_option maxRecDepth 8192 in
/-- Each touches TensorCore references only. -/
theorem P7_sub : (P7 : List (HloOp τ sig (Elt F))).Forall fun op => op.bufs ⊆ tcRefs τ sig :=
  ⟨nullary_bufs_sub .., unary_bufs_sub .., binary_bufs_sub ..⟩
set_option maxRecDepth 8192 in
/-- Each determines its results. -/
theorem P7_fresh : ∀ op ∈ (P7 : List (HloOp τ sig (Elt F))), op.fresh = ∅ :=
  List.forall_iff_forall_mem.1 (show (P7 : List (HloOp τ sig (Elt F))).Forall fun op => op.fresh = ∅ from ⟨rfl, rfl, rfl⟩)

set_option maxHeartbeats 40000000 in
/-- Operations 235 to 305 of the 375 (71), in order. -/
abbrev P8 : List (HloOp τ sig (Elt F)) :=
  ( nullary main_cst_40 (constant S_ .f32 0x00000000#32)
  :: unary main_cst_40 main_v185 (broadcastInDim S4096x4096 ![] bcast_S_S4096x4096 : (⟨S_, .f32⟩ : BufTy).Contents (Elt F) → (⟨S4096x4096, .f32⟩ : BufTy).Contents (Elt F))
  :: nullary main_cst_41 (constant S_ .f32 0x00000000#32)
  :: unary main_cst_41 main_v186 (broadcastInDim S4096x4096 ![] bcast_S_S4096x4096 : (⟨S_, .f32⟩ : BufTy).Contents (Elt F) → (⟨S4096x4096, .f32⟩ : BufTy).Contents (Elt F))
  :: nullary main_c_42 (constantI S_ 32 0#32)
  :: unary main_c_42 main_v187 (broadcastInDim S65536 ![] bcast_S_S65536 : (⟨S_, .i32⟩ : BufTy).Contents (Elt F) → (⟨S65536, .i32⟩ : BufTy).Contents (Elt F))
  :: binary main_arg3 main_v187 main_v188 (cmpi .slt : (⟨S65536, .i32⟩ : BufTy).Contents (Elt F) → (⟨S65536, .i32⟩ : BufTy).Contents (Elt F) → (⟨S65536, .i1⟩ : BufTy).Contents (Elt F))
  :: nullary main_c_43 (constantI S_ 32 4096#32)
  :: unary main_c_43 main_v189 (broadcastInDim S65536 ![] bcast_S_S65536 : (⟨S_, .i32⟩ : BufTy).Contents (Elt F) → (⟨S65536, .i32⟩ : BufTy).Contents (Elt F))
  :: binary main_arg3 main_v189 main_v190 (addi : (⟨S65536, .i32⟩ : BufTy).Contents (Elt F) → (⟨S65536, .i32⟩ : BufTy).Contents (Elt F) → (⟨S65536, .i32⟩ : BufTy).Contents (Elt F))
  :: ternary main_v188 main_v190 main_arg3 main_v191 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: nullary main_c_44 (constantI S_ 32 0#32)
  :: unary main_c_44 main_v192 (broadcastInDim S65536 ![] bcast_S_S65536 : (⟨S_, .i32⟩ : BufTy).Contents (Elt F) → (⟨S65536, .i32⟩ : BufTy).Contents (Elt F))
  :: binary main_arg4 main_v192 main_v193 (cmpi .slt : (⟨S65536, .i32⟩ : BufTy).Contents (Elt F) → (⟨S65536, .i32⟩ : BufTy).Contents (Elt F) → (⟨S65536, .i1⟩ : BufTy).Contents (Elt F))
  :: nullary main_c_45 (constantI S_ 32 4096#32)
  :: unary main_c_45 main_v194 (broadcastInDim S65536 ![] bcast_S_S65536 : (⟨S_, .i32⟩ : BufTy).Contents (Elt F) → (⟨S65536, .i32⟩ : BufTy).Contents (Elt F))
  :: binary main_arg4 main_v194 main_v195 (addi : (⟨S65536, .i32⟩ : BufTy).Contents (Elt F) → (⟨S65536, .i32⟩ : BufTy).Contents (Elt F) → (⟨S65536, .i32⟩ : BufTy).Contents (Elt F))
  :: ternary main_v193 main_v195 main_arg4 main_v196 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: unary main_v191 main_v197 (broadcastInDim S65536x1 ![0] bcast_S65536_S65536x1_0 : (⟨S65536, .i32⟩ : BufTy).Contents (Elt F) → (⟨S65536x1, .i32⟩ : BufTy).Contents (Elt F))
  :: unary main_v196 main_v198 (broadcastInDim S65536x1 ![0] bcast_S65536_S65536x1_0 : (⟨S65536, .i32⟩ : BufTy).Contents (Elt F) → (⟨S65536x1, .i32⟩ : BufTy).Contents (Elt F))
  :: binary main_v197 main_v198 main_v199 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F))
  :: nullary main_cst_46 (constant S_ .f32 0x3F800000#32)
  :: unary main_cst_46 main_v200 (broadcastInDim S65536 ![] bcast_S_S65536 : (⟨S_, .f32⟩ : BufTy).Contents (Elt F) → (⟨S65536, .f32⟩ : BufTy).Contents (Elt F))
  :: ternary main_v186 main_v199 main_v200 main_v201 ((fun x i u => Host.scatter scatter_S4096x4096_S65536x2_S65536_n_01_01_1 (fun _ b => b) x i u) : (⟨S4096x4096, .f32⟩ : BufTy).Contents (Elt F) → (⟨S65536x2, .i32⟩ : BufTy).Contents (Elt F) → (⟨S65536, .f32⟩ : BufTy).Contents (Elt F) → (⟨S4096x4096, .f32⟩ : BufTy).Contents (Elt F))
  :: binary main_v185 main_v201 main_v202 (addf : (⟨S4096x4096, .f32⟩ : BufTy).Contents (Elt F) → (⟨S4096x4096, .f32⟩ : BufTy).Contents (Elt F) → (⟨S4096x4096, .f32⟩ : BufTy).Contents (Elt F))
  :: nullary main_cst_47 (constant S_ .f32 0x00000000#32)
  :: unary main_cst_47 main_v203 (broadcastInDim S4096x4096 ![] bcast_S_S4096x4096 : (⟨S_, .f32⟩ : BufTy).Contents (Elt F) → (⟨S4096x4096, .f32⟩ : BufTy).Contents (Elt F))
  :: nullary main_c_48 (constantI S_ 32 0#32)
  :: unary main_c_48 main_v204 (broadcastInDim S65536 ![] bcast_S_S65536 : (⟨S_, .i32⟩ : BufTy).Contents (Elt F) → (⟨S65536, .i32⟩ : BufTy).Contents (Elt F))
  :: binary main_arg5 main_v204 main_v205 (cmpi .slt : (⟨S65536, .i32⟩ : BufTy).Contents (Elt F) → (⟨S65536, .i32⟩ : BufTy).Contents (Elt F) → (⟨S65536, .i1⟩ : BufTy).Contents (Elt F))
  :: nullary main_c_49 (constantI S_ 32 4096#32)
  :: unary main_c_49 main_v206 (broadcastInDim S65536 ![] bcast_S_S65536 : (⟨S_, .i32⟩ : BufTy).Contents (Elt F) → (⟨S65536, .i32⟩ : BufTy).Contents (Elt F))
  :: binary main_arg5 main_v206 main_v207 (addi : (⟨S65536, .i32⟩ : BufTy).Contents (Elt F) → (⟨S65536, .i32⟩ : BufTy).Contents (Elt F) → (⟨S65536, .i32⟩ : BufTy).Contents (Elt F))
  :: ternary main_v205 main_v207 main_arg5 main_v208 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: nullary main_c_50 (constantI S_ 32 0#32)
  :: unary main_c_50 main_v209 (broadcastInDim S65536 ![] bcast_S_S65536 : (⟨S_, .i32⟩ : BufTy).Contents (Elt F) → (⟨S65536, .i32⟩ : BufTy).Contents (Elt F))
  :: binary main_arg6 main_v209 main_v210 (cmpi .slt : (⟨S65536, .i32⟩ : BufTy).Contents (Elt F) → (⟨S65536, .i32⟩ : BufTy).Contents (Elt F) → (⟨S65536, .i1⟩ : BufTy).Contents (Elt F))
  :: nullary main_c_51 (constantI S_ 32 4096#32)
  :: unary main_c_51 main_v211 (broadcastInDim S65536 ![] bcast_S_S65536 : (⟨S_, .i32⟩ : BufTy).Contents (Elt F) → (⟨S65536, .i32⟩ : BufTy).Contents (Elt F))
  :: binary main_arg6 main_v211 main_v212 (addi : (⟨S65536, .i32⟩ : BufTy).Contents (Elt F) → (⟨S65536, .i32⟩ : BufTy).Contents (Elt F) → (⟨S65536, .i32⟩ : BufTy).Contents (Elt F))
  :: ternary main_v210 main_v212 main_arg6 main_v213 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: unary main_v208 main_v214 (broadcastInDim S65536x1 ![0] bcast_S65536_S65536x1_0 : (⟨S65536, .i32⟩ : BufTy).Contents (Elt F) → (⟨S65536x1, .i32⟩ : BufTy).Contents (Elt F))
  :: unary main_v213 main_v215 (broadcastInDim S65536x1 ![0] bcast_S65536_S65536x1_0 : (⟨S65536, .i32⟩ : BufTy).Contents (Elt F) → (⟨S65536x1, .i32⟩ : BufTy).Contents (Elt F))
  :: binary main_v214 main_v215 main_v216 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F))
  :: nullary main_cst_52 (constant S_ .f32 0x3F800000#32)
  :: unary main_cst_52 main_v217 (broadcastInDim S65536 ![] bcast_S_S65536 : (⟨S_, .f32⟩ : BufTy).Contents (Elt F) → (⟨S65536, .f32⟩ : BufTy).Contents (Elt F))
  :: ternary main_v203 main_v216 main_v217 main_v218 ((fun x i u => Host.scatter scatter_S4096x4096_S65536x2_S65536_n_01_01_1 (fun _ b => b) x i u) : (⟨S4096x4096, .f32⟩ : BufTy).Contents (Elt F) → (⟨S65536x2, .i32⟩ : BufTy).Contents (Elt F) → (⟨S65536, .f32⟩ : BufTy).Contents (Elt F) → (⟨S4096x4096, .f32⟩ : BufTy).Contents (Elt F))
  :: binary main_v202 main_v218 main_v219 (addf : (⟨S4096x4096, .f32⟩ : BufTy).Contents (Elt F) → (⟨S4096x4096, .f32⟩ : BufTy).Contents (Elt F) → (⟨S4096x4096, .f32⟩ : BufTy).Contents (Elt F))
  :: nullary main_cst_53 (constant S_ .f32 0x00000000#32)
  :: unary main_cst_53 main_v220 (broadcastInDim S4096x4096 ![] bcast_S_S4096x4096 : (⟨S_, .f32⟩ : BufTy).Contents (Elt F) → (⟨S4096x4096, .f32⟩ : BufTy).Contents (Elt F))
  :: nullary main_c_54 (constantI S_ 32 0#32)
  :: unary main_c_54 main_v221 (broadcastInDim S65536 ![] bcast_S_S65536 : (⟨S_, .i32⟩ : BufTy).Contents (Elt F) → (⟨S65536, .i32⟩ : BufTy).Contents (Elt F))
  :: binary main_arg7 main_v221 main_v222 (cmpi .slt : (⟨S65536, .i32⟩ : BufTy).Contents (Elt F) → (⟨S65536, .i32⟩ : BufTy).Contents (Elt F) → (⟨S65536, .i1⟩ : BufTy).Contents (Elt F))
  :: nullary main_c_55 (constantI S_ 32 4096#32)
  :: unary main_c_55 main_v223 (broadcastInDim S65536 ![] bcast_S_S65536 : (⟨S_, .i32⟩ : BufTy).Contents (Elt F) → (⟨S65536, .i32⟩ : BufTy).Contents (Elt F))
  :: binary main_arg7 main_v223 main_v224 (addi : (⟨S65536, .i32⟩ : BufTy).Contents (Elt F) → (⟨S65536, .i32⟩ : BufTy).Contents (Elt F) → (⟨S65536, .i32⟩ : BufTy).Contents (Elt F))
  :: ternary main_v222 main_v224 main_arg7 main_v225 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: nullary main_c_56 (constantI S_ 32 0#32)
  :: unary main_c_56 main_v226 (broadcastInDim S65536 ![] bcast_S_S65536 : (⟨S_, .i32⟩ : BufTy).Contents (Elt F) → (⟨S65536, .i32⟩ : BufTy).Contents (Elt F))
  :: binary main_arg8 main_v226 main_v227 (cmpi .slt : (⟨S65536, .i32⟩ : BufTy).Contents (Elt F) → (⟨S65536, .i32⟩ : BufTy).Contents (Elt F) → (⟨S65536, .i1⟩ : BufTy).Contents (Elt F))
  :: nullary main_c_57 (constantI S_ 32 4096#32)
  :: unary main_c_57 main_v228 (broadcastInDim S65536 ![] bcast_S_S65536 : (⟨S_, .i32⟩ : BufTy).Contents (Elt F) → (⟨S65536, .i32⟩ : BufTy).Contents (Elt F))
  :: binary main_arg8 main_v228 main_v229 (addi : (⟨S65536, .i32⟩ : BufTy).Contents (Elt F) → (⟨S65536, .i32⟩ : BufTy).Contents (Elt F) → (⟨S65536, .i32⟩ : BufTy).Contents (Elt F))
  :: ternary main_v227 main_v229 main_arg8 main_v230 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: unary main_v225 main_v231 (broadcastInDim S65536x1 ![0] bcast_S65536_S65536x1_0 : (⟨S65536, .i32⟩ : BufTy).Contents (Elt F) → (⟨S65536x1, .i32⟩ : BufTy).Contents (Elt F))
  :: unary main_v230 main_v232 (broadcastInDim S65536x1 ![0] bcast_S65536_S65536x1_0 : (⟨S65536, .i32⟩ : BufTy).Contents (Elt F) → (⟨S65536x1, .i32⟩ : BufTy).Contents (Elt F))
  :: binary main_v231 main_v232 main_v233 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F))
  :: nullary main_cst_58 (constant S_ .f32 0x3F800000#32)
  :: unary main_cst_58 main_v234 (broadcastInDim S65536 ![] bcast_S_S65536 : (⟨S_, .f32⟩ : BufTy).Contents (Elt F) → (⟨S65536, .f32⟩ : BufTy).Contents (Elt F))
  :: ternary main_v220 main_v233 main_v234 main_v235 ((fun x i u => Host.scatter scatter_S4096x4096_S65536x2_S65536_n_01_01_1 (fun _ b => b) x i u) : (⟨S4096x4096, .f32⟩ : BufTy).Contents (Elt F) → (⟨S65536x2, .i32⟩ : BufTy).Contents (Elt F) → (⟨S65536, .f32⟩ : BufTy).Contents (Elt F) → (⟨S4096x4096, .f32⟩ : BufTy).Contents (Elt F))
  :: binary main_v219 main_v235 main_v236 (addf : (⟨S4096x4096, .f32⟩ : BufTy).Contents (Elt F) → (⟨S4096x4096, .f32⟩ : BufTy).Contents (Elt F) → (⟨S4096x4096, .f32⟩ : BufTy).Contents (Elt F))
  :: [] )
set_option maxRecDepth 8192 in
/-- Each touches TensorCore references only. -/
theorem P8_sub : (P8 : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub ..⟩
set_option maxRecDepth 8192 in
/-- Each determines its results. -/
theorem P8_fresh : ∀ op ∈ (P8 : List (HloOp τ sig (Elt F))), op.fresh = ∅ :=
  List.forall_iff_forall_mem.1 (show (P8 : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

set_option maxHeartbeats 40000000 in
/-- Operations 306 to 312 of the 375 (7), in order. -/
abbrev Q0 : List (HloOp τ sig (Elt F)) :=
  ( binary main_v236 main_arg24 main_v237 ((fun l r => Host.dotGeneral dot_S4096x4096_S4096x2048_S4096x2048_1_0_0_1_n_n none l r) : (⟨S4096x4096, .f32⟩ : BufTy).Contents (Elt F) → (⟨S4096x2048, .f32⟩ : BufTy).Contents (Elt F) → (⟨S4096x2048, .f32⟩ : BufTy).Contents (Elt F))
  :: unary main_arg25 main_v238 (broadcastInDim S1x2048 ![1] bcast_S2048_S1x2048_1 : (⟨S2048, .f32⟩ : BufTy).Contents (Elt F) → (⟨S1x2048, .f32⟩ : BufTy).Contents (Elt F))
  :: unary main_v238 main_v239 (broadcastInDim S4096x2048 ![0, 1] bcast_S1x2048_S4096x2048_0_1 : (⟨S1x2048, .f32⟩ : BufTy).Contents (Elt F) → (⟨S4096x2048, .f32⟩ : BufTy).Contents (Elt F))
  :: binary main_v237 main_v239 main_v240 (addf : (⟨S4096x2048, .f32⟩ : BufTy).Contents (Elt F) → (⟨S4096x2048, .f32⟩ : BufTy).Contents (Elt F) → (⟨S4096x2048, .f32⟩ : BufTy).Contents (Elt F))
  :: TRef.nullary (TRef.of (T := ⟨S_, .f32⟩) main_call4_cst) (constant S_ .f32 0x00000000#32)
  :: TRef.unary (TRef.of (T := ⟨S_, .f32⟩) main_call4_cst) (TRef.of (T := ⟨S4096x2048, .f32⟩) main_call4_v0) (broadcastInDim S4096x2048 ![] bcast_S_S4096x2048)
  :: TRef.binary (TRef.of (T := ⟨S4096x2048, .f32⟩) main_v240) (TRef.of (T := ⟨S4096x2048, .f32⟩) main_call4_v0) (TRef.of (T := ⟨S4096x2048, .f32⟩) main_v241) maximumf
  :: [] )
set_option maxRecDepth 8192 in
/-- Each touches TensorCore references only. -/
theorem Q0_sub : (Q0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
set_option maxRecDepth 8192 in
/-- Each determines its results. -/
theorem Q0_fresh : ∀ op ∈ (Q0 : List (HloOp τ sig (Elt F))), op.fresh = ∅ :=
  List.forall_iff_forall_mem.1 (show (Q0 : List (HloOp τ sig (Elt F))).Forall fun op => op.fresh = ∅ from ⟨rfl, rfl, rfl, rfl, rfl, rfl, rfl⟩)

set_option maxHeartbeats 40000000 in
/-- Operations 313 to 328 of the 375 (16), in order. -/
abbrev Q1 : List (HloOp τ sig (Elt F)) :=
  ( binary main_v241 main_arg26 main_v242 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F))
  :: unary main_arg27 main_v243 (broadcastInDim S1x4096 ![1] bcast_S4096_S1x4096_1 : (⟨S4096, .f32⟩ : BufTy).Contents (Elt F) → (⟨S1x4096, .f32⟩ : BufTy).Contents (Elt F))
  :: unary main_v243 main_v244 (broadcastInDim S4096x4096 ![0, 1] bcast_S1x4096_S4096x4096_0_1 : (⟨S1x4096, .f32⟩ : BufTy).Contents (Elt F) → (⟨S4096x4096, .f32⟩ : BufTy).Contents (Elt F))
  :: binary main_v242 main_v244 main_v245 (addf : (⟨S4096x4096, .f32⟩ : BufTy).Contents (Elt F) → (⟨S4096x4096, .f32⟩ : BufTy).Contents (Elt F) → (⟨S4096x4096, .f32⟩ : BufTy).Contents (Elt F))
  :: nullary main_cst_59 (constant S_ .f32 0x00000000#32)
  :: nullary main_cst_60 (constant S_ .f32 0x3F800000#32)
  :: TRef.unary (TRef.of (T := ⟨S_, .f32⟩) main_cst_59) (TRef.of (T := ⟨S_, .f32⟩) main_call5_v0) id
  :: TRef.unary (TRef.of (T := ⟨S_, .f32⟩) main_call5_v0) (TRef.of (T := ⟨S4096x4096, .f32⟩) main_call5_v1) (broadcastInDim S4096x4096 ![] bcast_S_S4096x4096)
  :: TRef.binary (TRef.of (T := ⟨S4096x4096, .f32⟩) main_call5_v1) (TRef.of (T := ⟨S4096x4096, .f32⟩) main_v245) (TRef.of (T := ⟨S4096x4096, .f32⟩) main_call5_v2) maximumf
  :: TRef.unary (TRef.of (T := ⟨S_, .f32⟩) main_cst_60) (TRef.of (T := ⟨S_, .f32⟩) main_call5_v3) id
  :: TRef.unary (TRef.of (T := ⟨S_, .f32⟩) main_call5_v3) (TRef.of (T := ⟨S4096x4096, .f32⟩) main_call5_v4) (broadcastInDim S4096x4096 ![] bcast_S_S4096x4096)
  :: TRef.binary (TRef.of (T := ⟨S4096x4096, .f32⟩) main_call5_v4) (TRef.of (T := ⟨S4096x4096, .f32⟩) main_call5_v2) (TRef.of (T := ⟨S4096x4096, .f32⟩) main_v246) minimumf
  :: nullary main_cst_61 (constant S_ .f32 0x3DCCCCCD#32)
  :: unary main_cst_61 main_v247 (broadcastInDim S4096x4096 ![] bcast_S_S4096x4096 : (⟨S_, .f32⟩ : BufTy).Contents (Elt F) → (⟨S4096x4096, .f32⟩ : BufTy).Contents (Elt F))
  :: binary main_v246 main_v247 main_v248 (addf : (⟨S4096x4096, .f32⟩ : BufTy).Contents (Elt F) → (⟨S4096x4096, .f32⟩ : BufTy).Contents (Elt F) → (⟨S4096x4096, .f32⟩ : BufTy).Contents (Elt F))
  :: TRef.unary (TRef.of (T := ⟨S4096x4096, .f32⟩) main_v248) (TRef.of (T := ⟨S4096x4096, .f32⟩) main_v249) Host.roundeven
  :: [] )
set_option maxRecDepth 8192 in
/-- Each touches TensorCore references only. -/
theorem Q1_sub : (Q1 : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub ..⟩
set_option maxRecDepth 8192 in
/-- Each determines its results. -/
theorem Q1_fresh : ∀ op ∈ (Q1 : List (HloOp τ sig (Elt F))), op.fresh = ∅ :=
  List.forall_iff_forall_mem.1 (show (Q1 : List (HloOp τ sig (Elt F))).Forall fun op => op.fresh = ∅ from ⟨rfl, rfl, rfl, rfl, rfl, rfl, rfl, rfl, rfl, rfl, rfl, rfl, rfl, rfl, rfl, rfl⟩)

set_option maxHeartbeats 40000000 in
/-- Operations 329 to 350 of the 375 (22), in order. -/
abbrev Q2 : List (HloOp τ sig (Elt F)) :=
  ( unary main_v249 main_v250 ((transpose S4096x4096 [1, 0] · transposes_S4096x4096_S4096x4096_1_0) : (⟨S4096x4096, .f32⟩ : BufTy).Contents (Elt F) → (⟨S4096x4096, .f32⟩ : BufTy).Contents (Elt F))
  :: binary main_v249 main_v250 main_v251 (addf : (⟨S4096x4096, .f32⟩ : BufTy).Contents (Elt F) → (⟨S4096x4096, .f32⟩ : BufTy).Contents (Elt F) → (⟨S4096x4096, .f32⟩ : BufTy).Contents (Elt F))
  :: nullary main_cst_62 (constant S_ .f32 0x00000000#32)
  :: unary main_cst_62 main_v252 (broadcastInDim S4096x4096 ![] bcast_S_S4096x4096 : (⟨S_, .f32⟩ : BufTy).Contents (Elt F) → (⟨S4096x4096, .f32⟩ : BufTy).Contents (Elt F))
  :: binary main_v251 main_v252 main_v253 (cmpf .ogt : (⟨S4096x4096, .f32⟩ : BufTy).Contents (Elt F) → (⟨S4096x4096, .f32⟩ : BufTy).Contents (Elt F) → (⟨S4096x4096, .i1⟩ : BufTy).Contents (Elt F))
  :: unary main_v253 main_v254 (uitofp .f32 : (⟨S4096x4096, .i1⟩ : BufTy).Contents (Elt F) → (⟨S4096x4096, .f32⟩ : BufTy).Contents (Elt F))
  :: nullary main_v255 (iotaInDim S4096x4096 32 0)
  :: nullary main_v256 (iotaInDim S4096x4096 32 1)
  :: nullary main_c_63 (constantI S_ 32 0#32)
  :: unary main_c_63 main_v257 (broadcastInDim S4096x4096 ![] bcast_S_S4096x4096 : (⟨S_, .i32⟩ : BufTy).Contents (Elt F) → (⟨S4096x4096, .i32⟩ : BufTy).Contents (Elt F))
  :: binary main_v255 main_v257 main_v258 (addi : (⟨S4096x4096, .i32⟩ : BufTy).Contents (Elt F) → (⟨S4096x4096, .i32⟩ : BufTy).Contents (Elt F) → (⟨S4096x4096, .i32⟩ : BufTy).Contents (Elt F))
  :: binary main_v258 main_v256 main_v259 (cmpi .eq : (⟨S4096x4096, .i32⟩ : BufTy).Contents (Elt F) → (⟨S4096x4096, .i32⟩ : BufTy).Contents (Elt F) → (⟨S4096x4096, .i1⟩ : BufTy).Contents (Elt F))
  :: unary main_v259 main_v260 (uitofp .f32 : (⟨S4096x4096, .i1⟩ : BufTy).Contents (Elt F) → (⟨S4096x4096, .f32⟩ : BufTy).Contents (Elt F))
  :: binary main_v254 main_v260 main_v261 (maximumf : (⟨S4096x4096, .f32⟩ : BufTy).Contents (Elt F) → (⟨S4096x4096, .f32⟩ : BufTy).Contents (Elt F) → (⟨S4096x4096, .f32⟩ : BufTy).Contents (Elt F))
  :: nullary main_cst_64 (constant S_ .f32 0x00000000#32)
  :: binary main_v261 main_cst_64 main_v262 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F))
  :: nullary main_cst_65 (constant S_ .f32 0xBF000000#32)
  :: unary main_cst_65 main_v263 (broadcastInDim S4096 ![] bcast_S_S4096 : (⟨S_, .f32⟩ : BufTy).Contents (Elt F) → (⟨S4096, .f32⟩ : BufTy).Contents (Elt F))
  :: binary main_v262 main_v263 main_v264 (Host.powf : (⟨S4096, .f32⟩ : BufTy).Contents (Elt F) → (⟨S4096, .f32⟩ : BufTy).Contents (Elt F) → (⟨S4096, .f32⟩ : BufTy).Contents (Elt F))
  :: unary main_v264 main_v265 (broadcastInDim S4096x1 ![0] bcast_S4096_S4096x1_0 : (⟨S4096, .f32⟩ : BufTy).Contents (Elt F) → (⟨S4096x1, .f32⟩ : BufTy).Contents (Elt F))
  :: unary main_v265 main_v266 (broadcastInDim S4096x64 ![0, 1] bcast_S4096x1_S4096x64_0_1 : (⟨S4096x1, .f32⟩ : BufTy).Contents (Elt F) → (⟨S4096x64, .f32⟩ : BufTy).Contents (Elt F))
  :: binary main_v184 main_v266 main_v267 (mulf : (⟨S4096x64, .f32⟩ : BufTy).Contents (Elt F) → (⟨S4096x64, .f32⟩ : BufTy).Contents (Elt F) → (⟨S4096x64, .f32⟩ : BufTy).Contents (Elt F))
  :: [] )
set_option maxRecDepth 8192 in
/-- Each touches TensorCore references only. -/
theorem Q2_sub : (Q2 : List (HloOp τ sig (Elt F))).Forall fun op => op.bufs ⊆ tcRefs τ sig :=
  ⟨unary_bufs_sub .., binary_bufs_sub .., nullary_bufs_sub .., unary_bufs_sub .., binary_bufs_sub .., unary_bufs_sub .., nullary_bufs_sub .., nullary_bufs_sub .., nullary_bufs_sub .., unary_bufs_sub .., binary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub ..⟩
set_option maxRecDepth 8192 in
/-- Each determines its results. -/
theorem Q2_fresh : ∀ op ∈ (Q2 : List (HloOp τ sig (Elt F))), op.fresh = ∅ :=
  List.forall_iff_forall_mem.1 (show (Q2 : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl⟩)

set_option maxHeartbeats 40000000 in
/-- Operations 351 to 351 of the 375 (1), in order. -/
abbrev Q3 : List (HloOp τ sig (Elt F)) :=
  ( binary main_v261 main_v267 main_v268 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F))
  :: [] )
set_option maxRecDepth 8192 in
/-- Each touches TensorCore references only. -/
theorem Q3_sub : (Q3 : List (HloOp τ sig (Elt F))).Forall fun op => op.bufs ⊆ tcRefs τ sig :=
  by exact binary_bufs_sub ..
set_option maxRecDepth 8192 in
/-- Each determines its results. -/
theorem Q3_fresh : ∀ op ∈ (Q3 : List (HloOp τ sig (Elt F))), op.fresh = ∅ :=
  List.forall_iff_forall_mem.1 (show (Q3 : List (HloOp τ sig (Elt F))).Forall fun op => op.fresh = ∅ from rfl)

set_option maxHeartbeats 40000000 in
/-- Operations 352 to 358 of the 375 (7), in order. -/
abbrev Q4 : List (HloOp τ sig (Elt F)) :=
  ( unary main_v264 main_v269 (broadcastInDim S4096x1 ![0] bcast_S4096_S4096x1_0 : (⟨S4096, .f32⟩ : BufTy).Contents (Elt F) → (⟨S4096x1, .f32⟩ : BufTy).Contents (Elt F))
  :: unary main_v269 main_v270 (broadcastInDim S4096x64 ![0, 1] bcast_S4096x1_S4096x64_0_1 : (⟨S4096x1, .f32⟩ : BufTy).Contents (Elt F) → (⟨S4096x64, .f32⟩ : BufTy).Contents (Elt F))
  :: binary main_v268 main_v270 main_v271 (mulf : (⟨S4096x64, .f32⟩ : BufTy).Contents (Elt F) → (⟨S4096x64, .f32⟩ : BufTy).Contents (Elt F) → (⟨S4096x64, .f32⟩ : BufTy).Contents (Elt F))
  :: binary main_v271 main_arg28 main_v272 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F))
  :: unary main_arg29 main_v273 (broadcastInDim S1x64 ![1] bcast_S64_S1x64_1 : (⟨S64, .f32⟩ : BufTy).Contents (Elt F) → (⟨S1x64, .f32⟩ : BufTy).Contents (Elt F))
  :: unary main_v273 main_v274 (broadcastInDim S4096x64 ![0, 1] bcast_S1x64_S4096x64_0_1 : (⟨S1x64, .f32⟩ : BufTy).Contents (Elt F) → (⟨S4096x64, .f32⟩ : BufTy).Contents (Elt F))
  :: binary main_v272 main_v274 main_v275 (addf : (⟨S4096x64, .f32⟩ : BufTy).Contents (Elt F) → (⟨S4096x64, .f32⟩ : BufTy).Contents (Elt F) → (⟨S4096x64, .f32⟩ : BufTy).Contents (Elt F))
  :: [] )
set_option maxRecDepth 8192 in
/-- Each touches TensorCore references only. -/
theorem Q4_sub : (Q4 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub ..⟩
set_option maxRecDepth 8192 in
/-- Each determines its results. -/
theorem Q4_fresh : ∀ op ∈ (Q4 : List (HloOp τ sig (Elt F))), op.fresh = ∅ :=
  List.forall_iff_forall_mem.1 (show (Q4 : List (HloOp τ sig (Elt F))).Forall fun op => op.fresh = ∅ from ⟨rfl, rfl, rfl, rfl, rfl, rfl, rfl⟩)

set_option maxHeartbeats 40000000 in
/-- Operations 359 to 361 of the 375 (3), in order. -/
abbrev Q5 : List (HloOp τ sig (Elt F)) :=
  ( TRef.nullary (TRef.of (T := ⟨S_, .f32⟩) main_call7_cst) (constant S_ .f32 0x00000000#32)
  :: TRef.unary (TRef.of (T := ⟨S_, .f32⟩) main_call7_cst) (TRef.of (T := ⟨S4096x64, .f32⟩) main_call7_v0) (broadcastInDim S4096x64 ![] bcast_S_S4096x64)
  :: TRef.binary (TRef.of (T := ⟨S4096x64, .f32⟩) main_v275) (TRef.of (T := ⟨S4096x64, .f32⟩) main_call7_v0) (TRef.of (T := ⟨S4096x64, .f32⟩) main_v276) maximumf
  :: [] )
set_option maxRecDepth 8192 in
/-- Each touches TensorCore references only. -/
theorem Q5_sub : (Q5 : List (HloOp τ sig (Elt F))).Forall fun op => op.bufs ⊆ tcRefs τ sig :=
  ⟨nullary_bufs_sub .., unary_bufs_sub .., binary_bufs_sub ..⟩
set_option maxRecDepth 8192 in
/-- Each determines its results. -/
theorem Q5_fresh : ∀ op ∈ (Q5 : List (HloOp τ sig (Elt F))), op.fresh = ∅ :=
  List.forall_iff_forall_mem.1 (show (Q5 : List (HloOp τ sig (Elt F))).Forall fun op => op.fresh = ∅ from ⟨rfl, rfl, rfl⟩)

set_option maxHeartbeats 40000000 in
/-- Operations 362 to 364 of the 375 (3), in order. -/
abbrev Q6 : List (HloOp τ sig (Elt F)) :=
  ( unary main_v264 main_v277 (broadcastInDim S4096x1 ![0] bcast_S4096_S4096x1_0 : (⟨S4096, .f32⟩ : BufTy).Contents (Elt F) → (⟨S4096x1, .f32⟩ : BufTy).Contents (Elt F))
  :: unary main_v277 main_v278 (broadcastInDim S4096x64 ![0, 1] bcast_S4096x1_S4096x64_0_1 : (⟨S4096x1, .f32⟩ : BufTy).Contents (Elt F) → (⟨S4096x64, .f32⟩ : BufTy).Contents (Elt F))
  :: binary main_v276 main_v278 main_v279 (mulf : (⟨S4096x64, .f32⟩ : BufTy).Contents (Elt F) → (⟨S4096x64, .f32⟩ : BufTy).Contents (Elt F) → (⟨S4096x64, .f32⟩ : BufTy).Contents (Elt F))
  :: [] )
set_option maxRecDepth 8192 in
/-- Each touches TensorCore references only. -/
theorem Q6_sub : (Q6 : List (HloOp τ sig (Elt F))).Forall fun op => op.bufs ⊆ tcRefs τ sig :=
  ⟨unary_bufs_sub .., unary_bufs_sub .., binary_bufs_sub ..⟩
set_option maxRecDepth 8192 in
/-- Each determines its results. -/
theorem Q6_fresh : ∀ op ∈ (Q6 : List (HloOp τ sig (Elt F))), op.fresh = ∅ :=
  List.forall_iff_forall_mem.1 (show (Q6 : List (HloOp τ sig (Elt F))).Forall fun op => op.fresh = ∅ from ⟨rfl, rfl, rfl⟩)

set_option maxHeartbeats 40000000 in
/-- Operations 365 to 365 of the 375 (1), in order. -/
abbrev Q7 : List (HloOp τ sig (Elt F)) :=
  ( binary main_v261 main_v279 main_v280 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F))
  :: [] )
set_option maxRecDepth 8192 in
/-- Each touches TensorCore references only. -/
theorem Q7_sub : (Q7 : List (HloOp τ sig (Elt F))).Forall fun op => op.bufs ⊆ tcRefs τ sig :=
  by exact binary_bufs_sub ..
set_option maxRecDepth 8192 in
/-- Each determines its results. -/
theorem Q7_fresh : ∀ op ∈ (Q7 : List (HloOp τ sig (Elt F))), op.fresh = ∅ :=
  List.forall_iff_forall_mem.1 (show (Q7 : List (HloOp τ sig (Elt F))).Forall fun op => op.fresh = ∅ from rfl)

set_option maxHeartbeats 40000000 in
/-- Operations 366 to 373 of the 375 (8), in order. -/
abbrev Q8 : List (HloOp τ sig (Elt F)) :=
  ( unary main_v264 main_v281 (broadcastInDim S4096x1 ![0] bcast_S4096_S4096x1_0 : (⟨S4096, .f32⟩ : BufTy).Contents (Elt F) → (⟨S4096x1, .f32⟩ : BufTy).Contents (Elt F))
  :: unary main_v281 main_v282 (broadcastInDim S4096x64 ![0, 1] bcast_S4096x1_S4096x64_0_1 : (⟨S4096x1, .f32⟩ : BufTy).Contents (Elt F) → (⟨S4096x64, .f32⟩ : BufTy).Contents (Elt F))
  :: binary main_v280 main_v282 main_v283 (mulf : (⟨S4096x64, .f32⟩ : BufTy).Contents (Elt F) → (⟨S4096x64, .f32⟩ : BufTy).Contents (Elt F) → (⟨S4096x64, .f32⟩ : BufTy).Contents (Elt F))
  :: binary main_v283 main_arg30 main_v284 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F))
  :: unary main_arg31 main_v285 (broadcastInDim S1x64 ![1] bcast_S64_S1x64_1 : (⟨S64, .f32⟩ : BufTy).Contents (Elt F) → (⟨S1x64, .f32⟩ : BufTy).Contents (Elt F))
  :: unary main_v285 main_v286 (broadcastInDim S4096x64 ![0, 1] bcast_S1x64_S4096x64_0_1 : (⟨S1x64, .f32⟩ : BufTy).Contents (Elt F) → (⟨S4096x64, .f32⟩ : BufTy).Contents (Elt F))
  :: binary main_v284 main_v286 main_v287 (addf : (⟨S4096x64, .f32⟩ : BufTy).Contents (Elt F) → (⟨S4096x64, .f32⟩ : BufTy).Contents (Elt F) → (⟨S4096x64, .f32⟩ : BufTy).Contents (Elt F))
  :: unary main_v287 main_v288 ((transpose S64x4096 [1, 0] · transposes_S4096x64_S64x4096_1_0) : (⟨S4096x64, .f32⟩ : BufTy).Contents (Elt F) → (⟨S64x4096, .f32⟩ : BufTy).Contents (Elt F))
  :: [] )
set_option maxRecDepth 8192 in
/-- Each touches TensorCore references only. -/
theorem Q8_sub : (Q8 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., unary_bufs_sub ..⟩
set_option maxRecDepth 8192 in
/-- Each determines its results. -/
theorem Q8_fresh : ∀ op ∈ (Q8 : List (HloOp τ sig (Elt F))), op.fresh = ∅ :=
  List.forall_iff_forall_mem.1 (show (Q8 : List (HloOp τ sig (Elt F))).Forall fun op => op.fresh = ∅ from ⟨rfl, rfl, rfl, rfl, rfl, rfl, rfl, rfl⟩)

set_option maxHeartbeats 40000000 in
/-- Operations 374 to 374 of the 375 (1), in order. -/
abbrev Q9 : List (HloOp τ sig (Elt F)) :=
  ( binary main_v287 main_v288 main_v289 ((fun l r => Host.dotGeneral dot_S4096x64_S64x4096_S4096x4096_1_0_0_1_n_n none l r) : (⟨S4096x64, .f32⟩ : BufTy).Contents (Elt F) → (⟨S64x4096, .f32⟩ : BufTy).Contents (Elt F) → (⟨S4096x4096, .f32⟩ : BufTy).Contents (Elt F))
  :: [] )
set_option maxRecDepth 8192 in
/-- Each touches TensorCore references only. -/
theorem Q9_sub : (Q9 : List (HloOp τ sig (Elt F))).Forall fun op => op.bufs ⊆ tcRefs τ sig :=
  by exact binary_bufs_sub ..
set_option maxRecDepth 8192 in
/-- Each determines its results. -/
theorem Q9_fresh : ∀ op ∈ (Q9 : List (HloOp τ sig (Elt F))), op.fresh = ∅ :=
  List.forall_iff_forall_mem.1 (show (Q9 : List (HloOp τ sig (Elt F))).Forall fun op => op.fresh = ∅ from rfl)

/-- The nineteen stretches, in order. -/
abbrev opsL : List (List (HloOp τ sig (Elt F))) :=
  [P0, P1, P2, P3, P4, P5, P6, P7, P8, Q0, Q1, Q2, Q3, Q4, Q5, Q6, Q7, Q8, Q9]

end Cert.ReferenceIdeal.Hand

end
-- ==== Proof.RefRun.lean ====
import proofs.«122112_j6631429505271_1_alg».proof.Proof.RefLists
import Idealize.ShloMosaic.Lib.Pipeline.Regions

/-! The reference's run over its nineteen stretches: @main is the straight line of their concatenation; every
    weakly fair execution terminates with each buffer at the fold of the operations' results over its launch
    contents; the fold cut at the stretches. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The fold over a concatenation -/

/-- The contents after two lines run one after the other: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The contents after a concatenation of lines: the lines' folds composed in order. -/
theorem after_flatten (L : List (List (HloOp τ sig (Elt F)))) (V : Valuation τ sig (Elt F)) :
    after L.flatten V = L.foldl (fun W l => after l W) V := by
  induction L generalizing V with
  | nil => rfl
  | cons l L ih => simp only [List.flatten_cons, after_append, List.foldl_cons, ih]

/-! ## The side conditions of the run, from the stretches' -/

theorem scopedRefs_eq : (Finset.univ.filter fun b : Ref sig .tc => b.isScoped) = ∅ := by decide
theorem scopedSems_eq : (Finset.univ.filter fun sm : SemLoc sig => sm.isScoped .tc) = ∅ := by decide

/-- Every operation of every stretch touches TensorCore references only. -/
theorem opsL_sub : ∀ ops ∈ (opsL : List (List (HloOp τ sig (Elt F)))), ∀ op ∈ ops, op.bufs ⊆ tcRefs τ sig :=
  List.forall_mem_cons.2 ⟨List.forall_iff_forall_mem.1 P0_sub,
  List.forall_mem_cons.2 ⟨List.forall_iff_forall_mem.1 P1_sub,
  List.forall_mem_cons.2 ⟨List.forall_iff_forall_mem.1 P2_sub,
  List.forall_mem_cons.2 ⟨List.forall_iff_forall_mem.1 P3_sub,
  List.forall_mem_cons.2 ⟨List.forall_iff_forall_mem.1 P4_sub,
  List.forall_mem_cons.2 ⟨List.forall_iff_forall_mem.1 P5_sub,
  List.forall_mem_cons.2 ⟨List.forall_iff_forall_mem.1 P6_sub,
  List.forall_mem_cons.2 ⟨List.forall_iff_forall_mem.1 P7_sub,
  List.forall_mem_cons.2 ⟨List.forall_iff_forall_mem.1 P8_sub,
  List.forall_mem_cons.2 ⟨List.forall_iff_forall_mem.1 Q0_sub,
  List.forall_mem_cons.2 ⟨List.forall_iff_forall_mem.1 Q1_sub,
  List.forall_mem_cons.2 ⟨List.forall_iff_forall_mem.1 Q2_sub,
  List.forall_mem_cons.2 ⟨List.forall_iff_forall_mem.1 Q3_sub,
  List.forall_mem_cons.2 ⟨List.forall_iff_forall_mem.1 Q4_sub,
  List.forall_mem_cons.2 ⟨List.forall_iff_forall_mem.1 Q5_sub,
  List.forall_mem_cons.2 ⟨List.forall_iff_forall_mem.1 Q6_sub,
  List.forall_mem_cons.2 ⟨List.forall_iff_forall_mem.1 Q7_sub,
  List.forall_mem_cons.2 ⟨List.forall_iff_forall_mem.1 Q8_sub,
  List.forall_mem_cons.2 ⟨List.forall_iff_forall_mem.1 Q9_sub,
  (fun _ h => nomatch h)⟩⟩⟩⟩⟩⟩⟩⟩⟩⟩⟩⟩⟩⟩⟩⟩⟩⟩⟩

/-- Every operation of every stretch determines its results. -/
theorem opsL_fresh : ∀ ops ∈ (opsL : List (List (HloOp τ sig (Elt F)))), ∀ op ∈ ops, op.fresh = ∅ :=
  List.forall_mem_cons.2 ⟨P0_fresh,
  List.forall_mem_cons.2 ⟨P1_fresh,
  List.forall_mem_cons.2 ⟨P2_fresh,
  List.forall_mem_cons.2 ⟨P3_fresh,
  List.forall_mem_cons.2 ⟨P4_fresh,
  List.forall_mem_cons.2 ⟨P5_fresh,
  List.forall_mem_cons.2 ⟨P6_fresh,
  List.forall_mem_cons.2 ⟨P7_fresh,
  List.forall_mem_cons.2 ⟨P8_fresh,
  List.forall_mem_cons.2 ⟨Q0_fresh,
  List.forall_mem_cons.2 ⟨Q1_fresh,
  List.forall_mem_cons.2 ⟨Q2_fresh,
  List.forall_mem_cons.2 ⟨Q3_fresh,
  List.forall_mem_cons.2 ⟨Q4_fresh,
  List.forall_mem_cons.2 ⟨Q5_fresh,
  List.forall_mem_cons.2 ⟨Q6_fresh,
  List.forall_mem_cons.2 ⟨Q7_fresh,
  List.forall_mem_cons.2 ⟨Q8_fresh,
  List.forall_mem_cons.2 ⟨Q9_fresh,
  (fun _ h => nomatch h)⟩⟩⟩⟩⟩⟩⟩⟩⟩⟩⟩⟩⟩⟩⟩⟩⟩⟩⟩

theorem flat_sub : (opsL.flatten : List (HloOp τ sig (Elt F))).Forall fun op => op.bufs ⊆ tcRefs τ sig :=
  List.forall_iff_forall_mem.2 fun op h => by
    obtain ⟨l, hl, ho⟩ := List.mem_flatten.1 h
    exact opsL_sub l hl op ho

theorem flat_fresh : ∀ op ∈ (opsL.flatten : List (HloOp τ sig (Elt F))), op.fresh = ∅ := fun op h => by
  obtain ⟨l, hl, ho⟩ := List.mem_flatten.1 h
  exact opsL_fresh l hl op ho

/-! ## @main is the straight line of the stretches -/

/-- @main is the straight line of the nineteen stretches' operations, in order. -/
theorem main_eq (c : Dev nD) : main (F := F) c = seq (opsL.flatten) := by chain_rfl

/-! ## The run -/

/-- On every device, for any float values, from any memory with zero counters: every weakly fair execution of
    @main terminates with each buffer at the fold of the operations' results over its launch contents. -/
theorem run_ref (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (opsL.flatten) (launchContents m c) (Proc.devRef .tc b) :=
  run_seq scopedRefs_eq scopedSems_eq defs main (fun _ => opsL.flatten) main_eq (fun _ => flat_sub) m ρ (fun _ => flat_fresh)

/-! ## The fold cut at the stretches -/

section Cut

variable (m : (ℓ : Loc nD τ sig) → Buf (Elt F) ℓ)

/-- Device `c`'s buffer contents at launch. -/
abbrev R0 (c : Dev nD) : Valuation τ sig (Elt F) := launchContents m c
/-- Device `c`'s buffer contents after the first 1 stretch. -/
abbrev R1 (c : Dev nD) : Valuation τ sig (Elt F) := after P0 (R0 m c)
/-- Device `c`'s buffer contents after the first 2 stretches. -/
abbrev R2 (c : Dev nD) : Valuation τ sig (Elt F) := after P1 (R1 m c)
/-- Device `c`'s buffer contents after the first 3 stretches. -/
abbrev R3 (c : Dev nD) : Valuation τ sig (Elt F) := after P2 (R2 m c)
/-- Device `c`'s buffer contents after the first 4 stretches. -/
abbrev R4 (c : Dev nD) : Valuation τ sig (Elt F) := after P3 (R3 m c)
/-- Device `c`'s buffer contents after the first 5 stretches. -/
abbrev R5 (c : Dev nD) : Valuation τ sig (Elt F) := after P4 (R4 m c)
/-- Device `c`'s buffer contents after the first 6 stretches. -/
abbrev R6 (c : Dev nD) : Valuation τ sig (Elt F) := after P5 (R5 m c)
/-- Device `c`'s buffer contents after the first 7 stretches. -/
abbrev R7 (c : Dev nD) : Valuation τ sig (Elt F) := after P6 (R6 m c)
/-- Device `c`'s buffer contents after the first 8 stretches. -/
abbrev R8 (c : Dev nD) : Valuation τ sig (Elt F) := after P7 (R7 m c)
/-- Device `c`'s buffer contents after the first 9 stretches. -/
abbrev R9 (c : Dev nD) : Valuation τ sig (Elt F) := after P8 (R8 m c)
/-- Device `c`'s buffer contents after the first 10 stretches. -/
abbrev R10 (c : Dev nD) : Valuation τ sig (Elt F) := after Q0 (R9 m c)
/-- Device `c`'s buffer contents after the first 11 stretches. -/
abbrev R11 (c : Dev nD) : Valuation τ sig (Elt F) := after Q1 (R10 m c)
/-- Device `c`'s buffer contents after the first 12 stretches. -/
abbrev R12 (c : Dev nD) : Valuation τ sig (Elt F) := after Q2 (R11 m c)
/-- Device `c`'s buffer contents after the first 13 stretches. -/
abbrev R13 (c : Dev nD) : Valuation τ sig (Elt F) := after Q3 (R12 m c)
/-- Device `c`'s buffer contents after the first 14 stretches. -/
abbrev R14 (c : Dev nD) : Valuation τ sig (Elt F) := after Q4 (R13 m c)
/-- Device `c`'s buffer contents after the first 15 stretches. -/
abbrev R15 (c : Dev nD) : Valuation τ sig (Elt F) := after Q5 (R14 m c)
/-- Device `c`'s buffer contents after the first 16 stretches. -/
abbrev R16 (c : Dev nD) : Valuation τ sig (Elt F) := after Q6 (R15 m c)
/-- Device `c`'s buffer contents after the first 17 stretches. -/
abbrev R17 (c : Dev nD) : Valuation τ sig (Elt F) := after Q7 (R16 m c)
/-- Device `c`'s buffer contents after the first 18 stretches. -/
abbrev R18 (c : Dev nD) : Valuation τ sig (Elt F) := after Q8 (R17 m c)
/-- Device `c`'s buffer contents after the first 19 stretches. -/
abbrev R19 (c : Dev nD) : Valuation τ sig (Elt F) := after Q9 (R18 m c)

/-- The fold over the whole line is the last of the stretches' folds. -/
theorem after_flat (c : Dev nD) : after (opsL.flatten) (launchContents m c) = R19 m c :=
  (after_flatten _ _).trans rfl

end Cut

end Cert.ReferenceIdeal.Hand

end
-- ==== Proof.RefRunArgs.lean ====
import proofs.«122112_j6631429505271_1_alg».proof.Proof.RefRun

/-! What the reference's stretches write, and that no stretch writes an argument: the arguments end the run as
    launched. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is among a list's writes within the list. -/
theorem writes_sub_of {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]; exact List.mem_map_of_mem hy

section Cut

variable (m : (ℓ : Loc nD τ sig) → Buf (Elt F) ℓ)

/-! ## What the stretches write -/

/-- The references stretch `P0`'s operations write. -/
abbrev P0_W : List (Ref sig .tc) := [main_cst, main_v0, main_cst_0, main_v1, main_v2, main_v3, main_cst_1, main_v4, main_v5, main_cst_2, main_v6, main_v7, main_v8, main_cst_3, main_v9, main_v10, main_cst_4, main_v11, main_v12, main_cst_5, main_v13, main_v14, main_v15, main_v16, main_v17, main_v18, main_c, main_v19, main_v20, main_c_6, main_v21, main_v22, main_v23, main_v24, main_v25, main_cst_7, main_v26, main_v27, main_v28, main_v29, main_v30, main_v31, main_v32, main_v33, main_v34]
set_option maxRecDepth 8192 in
theorem P0_writes : (P0 : List (HloOp τ sig (Elt F))).Forall fun op => op.writes ⊆ (P0_W.map (Proc.devRef (τ := τ) .tc)).toFinset :=
  ⟨writes_sub_of (y := main_cst) rfl (by decide),
    writes_sub_of (y := main_v0) rfl (by decide),
    writes_sub_of (y := main_cst_0) rfl (by decide),
    writes_sub_of (y := main_v1) rfl (by decide),
    writes_sub_of (y := main_v2) rfl (by decide),
    writes_sub_of (y := main_v3) rfl (by decide),
    writes_sub_of (y := main_cst_1) rfl (by decide),
    writes_sub_of (y := main_v4) rfl (by decide),
    writes_sub_of (y := main_v5) rfl (by decide),
    writes_sub_of (y := main_cst_2) rfl (by decide),
    writes_sub_of (y := main_v6) rfl (by decide),
    writes_sub_of (y := main_v7) rfl (by decide),
    writes_sub_of (y := main_v8) rfl (by decide),
    writes_sub_of (y := main_cst_3) rfl (by decide),
    writes_sub_of (y := main_v9) rfl (by decide),
    writes_sub_of (y := main_v10) rfl (by decide),
    writes_sub_of (y := main_cst_4) rfl (by decide),
    writes_sub_of (y := main_v11) rfl (by decide),
    writes_sub_of (y := main_v12) rfl (by decide),
    writes_sub_of (y := main_cst_5) rfl (by decide),
    writes_sub_of (y := main_v13) rfl (by decide),
    writes_sub_of (y := main_v14) rfl (by decide),
    writes_sub_of (y := main_v15) rfl (by decide),
    writes_sub_of (y := main_v16) rfl (by decide),
    writes_sub_of (y := main_v17) rfl (by decide),
    writes_sub_of (y := main_v18) rfl (by decide),
    writes_sub_of (y := main_c) rfl (by decide),
    writes_sub_of (y := main_v19) rfl (by decide),
    writes_sub_of (y := main_v20) rfl (by decide),
    writes_sub_of (y := main_c_6) rfl (by decide),
    writes_sub_of (y := main_v21) rfl (by decide),
    writes_sub_of (y := main_v22) rfl (by decide),
    writes_sub_of (y := main_v23) rfl (by decide),
    writes_sub_of (y := main_v24) rfl (by decide),
    writes_sub_of (y := main_v25) rfl (by decide),
    writes_sub_of (y := main_cst_7) rfl (by decide),
    writes_sub_of (y := main_v26) rfl (by decide),
    writes_sub_of (y := main_v27) rfl (by decide),
    writes_sub_of (y := main_v28) rfl (by decide),
    writes_sub_of (y := main_v29) rfl (by decide),
    writes_sub_of (y := main_v30) rfl (by decide),
    writes_sub_of (y := main_v31) rfl (by decide),
    writes_sub_of (y := main_v32) rfl (by decide),
    writes_sub_of (y := main_v33) rfl (by decide),
    writes_sub_of (y := main_v34) rfl (by decide)⟩
/-- A reference stretch `P0` does not write keeps its contents through it. -/
theorem R1_of (c : Dev nD) (r : Ref sig .tc) (h : r ∉ P0_W) : R1 m c (Proc.devRef .tc r) = R0 m c (Proc.devRef .tc r) :=
  after_of_writes_sub P0 _ P0_writes h

/-- The references stretch `P1`'s operations write. -/
abbrev P1_W : List (Ref sig .tc) := [main_call0_cst, main_call0_v0, main_v35]
set_option maxRecDepth 8192 in
theorem P1_writes : (P1 : List (HloOp τ sig (Elt F))).Forall fun op => op.writes ⊆ (P1_W.map (Proc.devRef (τ := τ) .tc)).toFinset :=
  ⟨writes_sub_of (y := main_call0_cst) rfl (by decide),
    writes_sub_of (y := main_call0_v0) rfl (by decide),
    writes_sub_of (y := main_v35) rfl (by decide)⟩
/-- A reference stretch `P1` does not write keeps its contents through it. -/
theorem R2_of (c : Dev nD) (r : Ref sig .tc) (h : r ∉ P1_W) : R2 m c (Proc.devRef .tc r) = R1 m c (Proc.devRef .tc r) :=
  after_of_writes_sub P1 _ P1_writes h

/-- The references stretch `P2`'s operations write. -/
abbrev P2_W : List (Ref sig .tc) := [main_v36, main_v37, main_v38, main_v39, main_c_8, main_v40, main_v41, main_c_9, main_v42, main_v43, main_v44, main_v45, main_v46, main_cst_10, main_v47, main_v48, main_v49, main_v50, main_v51, main_v52, main_v53, main_v54, main_v55, main_cst_11, main_v56, main_cst_12, main_v57, main_v58, main_v59, main_cst_13, main_v60, main_v61, main_cst_14, main_v62, main_v63, main_v64, main_cst_15, main_v65, main_v66, main_cst_16, main_v67, main_v68, main_cst_17, main_v69, main_v70, main_v71, main_v72, main_v73, main_v74, main_c_18, main_v75, main_v76, main_c_19, main_v77, main_v78, main_v79, main_v80, main_v81, main_cst_20, main_v82, main_v83, main_v84, main_v85, main_v86, main_v87, main_v88, main_v89, main_v90]
set_option maxRecDepth 8192 in
theorem P2_writes : (P2 : List (HloOp τ sig (Elt F))).Forall fun op => op.writes ⊆ (P2_W.map (Proc.devRef (τ := τ) .tc)).toFinset :=
  ⟨writes_sub_of (y := main_v36) rfl (by decide),
    writes_sub_of (y := main_v37) rfl (by decide),
    writes_sub_of (y := main_v38) rfl (by decide),
    writes_sub_of (y := main_v39) rfl (by decide),
    writes_sub_of (y := main_c_8) rfl (by decide),
    writes_sub_of (y := main_v40) rfl (by decide),
    writes_sub_of (y := main_v41) rfl (by decide),
    writes_sub_of (y := main_c_9) rfl (by decide),
    writes_sub_of (y := main_v42) rfl (by decide),
    writes_sub_of (y := main_v43) rfl (by decide),
    writes_sub_of (y := main_v44) rfl (by decide),
    writes_sub_of (y := main_v45) rfl (by decide),
    writes_sub_of (y := main_v46) rfl (by decide),
    writes_sub_of (y := main_cst_10) rfl (by decide),
    writes_sub_of (y := main_v47) rfl (by decide),
    writes_sub_of (y := main_v48) rfl (by decide),
    writes_sub_of (y := main_v49) rfl (by decide),
    writes_sub_of (y := main_v50) rfl (by decide),
    writes_sub_of (y := main_v51) rfl (by decide),
    writes_sub_of (y := main_v52) rfl (by decide),
    writes_sub_of (y := main_v53) rfl (by decide),
    writes_sub_of (y := main_v54) rfl (by decide),
    writes_sub_of (y := main_v55) rfl (by decide),
    writes_sub_of (y := main_cst_11) rfl (by decide),
    writes_sub_of (y := main_v56) rfl (by decide),
    writes_sub_of (y := main_cst_12) rfl (by decide),
    writes_sub_of (y := main_v57) rfl (by decide),
    writes_sub_of (y := main_v58) rfl (by decide),
    writes_sub_of (y := main_v59) rfl (by decide),
    writes_sub_of (y := main_cst_13) rfl (by decide),
    writes_sub_of (y := main_v60) rfl (by decide),
    writes_sub_of (y := main_v61) rfl (by decide),
    writes_sub_of (y := main_cst_14) rfl (by decide),
    writes_sub_of (y := main_v62) rfl (by decide),
    writes_sub_of (y := main_v63) rfl (by decide),
    writes_sub_of (y := main_v64) rfl (by decide),
    writes_sub_of (y := main_cst_15) rfl (by decide),
    writes_sub_of (y := main_v65) rfl (by decide),
    writes_sub_of (y := main_v66) rfl (by decide),
    writes_sub_of (y := main_cst_16) rfl (by decide),
    writes_sub_of (y := main_v67) rfl (by decide),
    writes_sub_of (y := main_v68) rfl (by decide),
    writes_sub_of (y := main_cst_17) rfl (by decide),
    writes_sub_of (y := main_v69) rfl (by decide),
    writes_sub_of (y := main_v70) rfl (by decide),
    writes_sub_of (y := main_v71) rfl (by decide),
    writes_sub_of (y := main_v72) rfl (by decide),
    writes_sub_of (y := main_v73) rfl (by decide),
    writes_sub_of (y := main_v74) rfl (by decide),
    writes_sub_of (y := main_c_18) rfl (by decide),
    writes_sub_of (y := main_v75) rfl (by decide),
    writes_sub_of (y := main_v76) rfl (by decide),
    writes_sub_of (y := main_c_19) rfl (by decide),
    writes_sub_of (y := main_v77) rfl (by decide),
    writes_sub_of (y := main_v78) rfl (by decide),
    writes_sub_of (y := main_v79) rfl (by decide),
    writes_sub_of (y := main_v80) rfl (by decide),
    writes_sub_of (y := main_v81) rfl (by decide),
    writes_sub_of (y := main_cst_20) rfl (by decide),
    writes_sub_of (y := main_v82) rfl (by decide),
    writes_sub_of (y := main_v83) rfl (by decide),
    writes_sub_of (y := main_v84) rfl (by decide),
    writes_sub_of (y := main_v85) rfl (by decide),
    writes_sub_of (y := main_v86) rfl (by decide),
    writes_sub_of (y := main_v87) rfl (by decide),
    writes_sub_of (y := main_v88) rfl (by decide),
    writes_sub_of (y := main_v89) rfl (by decide),
    writes_sub_of (y := main_v90) rfl (by decide)⟩
/-- A reference stretch `P2` does not write keeps its contents through it. -/
theorem R3_of (c : Dev nD) (r : Ref sig .tc) (h : r ∉ P2_W) : R3 m c (Proc.devRef .tc r) = R2 m c (Proc.devRef .tc r) :=
  after_of_writes_sub P2 _ P2_writes h

/-- The references stretch `P3`'s operations write. -/
abbrev P3_W : List (Ref sig .tc) := [main_call1_cst, main_call1_v0, main_v91]
set_option maxRecDepth 8192 in
theorem P3_writes : (P3 : List (HloOp τ sig (Elt F))).Forall fun op => op.writes ⊆ (P3_W.map (Proc.devRef (τ := τ) .tc)).toFinset :=
  ⟨writes_sub_of (y := main_call1_cst) rfl (by decide),
    writes_sub_of (y := main_call1_v0) rfl (by decide),
    writes_sub_of (y := main_v91) rfl (by decide)⟩
/-- A reference stretch `P3` does not write keeps its contents through it. -/
theorem R4_of (c : Dev nD) (r : Ref sig .tc) (h : r ∉ P3_W) : R4 m c (Proc.devRef .tc r) = R3 m c (Proc.devRef .tc r) :=
  after_of_writes_sub P3 _ P3_writes h

/-- The references stretch `P4`'s operations write. -/
abbrev P4_W : List (Ref sig .tc) := [main_v92, main_v93, main_v94, main_v95, main_c_21, main_v96, main_v97, main_c_22, main_v98, main_v99, main_v100, main_v101, main_v102, main_cst_23, main_v103, main_v104, main_v105, main_v106, main_v107, main_v108, main_v109, main_v110, main_v111, main_cst_24, main_v112, main_cst_25, main_v113, main_v114, main_v115, main_cst_26, main_v116, main_v117, main_cst_27, main_v118, main_v119, main_v120, main_cst_28, main_v121, main_v122, main_cst_29, main_v123, main_v124, main_cst_30, main_v125, main_v126, main_v127, main_v128, main_v129, main_v130, main_c_31, main_v131, main_v132, main_c_32, main_v133, main_v134, main_v135, main_v136, main_v137, main_cst_33, main_v138, main_v139, main_v140, main_v141, main_v142, main_v143, main_v144, main_v145, main_v146]
set_option maxRecDepth 8192 in
theorem P4_writes : (P4 : List (HloOp τ sig (Elt F))).Forall fun op => op.writes ⊆ (P4_W.map (Proc.devRef (τ := τ) .tc)).toFinset :=
  ⟨writes_sub_of (y := main_v92) rfl (by decide),
    writes_sub_of (y := main_v93) rfl (by decide),
    writes_sub_of (y := main_v94) rfl (by decide),
    writes_sub_of (y := main_v95) rfl (by decide),
    writes_sub_of (y := main_c_21) rfl (by decide),
    writes_sub_of (y := main_v96) rfl (by decide),
    writes_sub_of (y := main_v97) rfl (by decide),
    writes_sub_of (y := main_c_22) rfl (by decide),
    writes_sub_of (y := main_v98) rfl (by decide),
    writes_sub_of (y := main_v99) rfl (by decide),
    writes_sub_of (y := main_v100) rfl (by decide),
    writes_sub_of (y := main_v101) rfl (by decide),
    writes_sub_of (y := main_v102) rfl (by decide),
    writes_sub_of (y := main_cst_23) rfl (by decide),
    writes_sub_of (y := main_v103) rfl (by decide),
    writes_sub_of (y := main_v104) rfl (by decide),
    writes_sub_of (y := main_v105) rfl (by decide),
    writes_sub_of (y := main_v106) rfl (by decide),
    writes_sub_of (y := main_v107) rfl (by decide),
    writes_sub_of (y := main_v108) rfl (by decide),
    writes_sub_of (y := main_v109) rfl (by decide),
    writes_sub_of (y := main_v110) rfl (by decide),
    writes_sub_of (y := main_v111) rfl (by decide),
    writes_sub_of (y := main_cst_24) rfl (by decide),
    writes_sub_of (y := main_v112) rfl (by decide),
    writes_sub_of (y := main_cst_25) rfl (by decide),
    writes_sub_of (y := main_v113) rfl (by decide),
    writes_sub_of (y := main_v114) rfl (by decide),
    writes_sub_of (y := main_v115) rfl (by decide),
    writes_sub_of (y := main_cst_26) rfl (by decide),
    writes_sub_of (y := main_v116) rfl (by decide),
    writes_sub_of (y := main_v117) rfl (by decide),
    writes_sub_of (y := main_cst_27) rfl (by decide),
    writes_sub_of (y := main_v118) rfl (by decide),
    writes_sub_of (y := main_v119) rfl (by decide),
    writes_sub_of (y := main_v120) rfl (by decide),
    writes_sub_of (y := main_cst_28) rfl (by decide),
    writes_sub_of (y := main_v121) rfl (by decide),
    writes_sub_of (y := main_v122) rfl (by decide),
    writes_sub_of (y := main_cst_29) rfl (by decide),
    writes_sub_of (y := main_v123) rfl (by decide),
    writes_sub_of (y := main_v124) rfl (by decide),
    writes_sub_of (y := main_cst_30) rfl (by decide),
    writes_sub_of (y := main_v125) rfl (by decide),
    writes_sub_of (y := main_v126) rfl (by decide),
    writes_sub_of (y := main_v127) rfl (by decide),
    writes_sub_of (y := main_v128) rfl (by decide),
    writes_sub_of (y := main_v129) rfl (by decide),
    writes_sub_of (y := main_v130) rfl (by decide),
    writes_sub_of (y := main_c_31) rfl (by decide),
    writes_sub_of (y := main_v131) rfl (by decide),
    writes_sub_of (y := main_v132) rfl (by decide),
    writes_sub_of (y := main_c_32) rfl (by decide),
    writes_sub_of (y := main_v133) rfl (by decide),
    writes_sub_of (y := main_v134) rfl (by decide),
    writes_sub_of (y := main_v135) rfl (by decide),
    writes_sub_of (y := main_v136) rfl (by decide),
    writes_sub_of (y := main_v137) rfl (by decide),
    writes_sub_of (y := main_cst_33) rfl (by decide),
    writes_sub_of (y := main_v138) rfl (by decide),
    writes_sub_of (y := main_v139) rfl (by decide),
    writes_sub_of (y := main_v140) rfl (by decide),
    writes_sub_of (y := main_v141) rfl (by decide),
    writes_sub_of (y := main_v142) rfl (by decide),
    writes_sub_of (y := main_v143) rfl (by decide),
    writes_sub_of (y := main_v144) rfl (by decide),
    writes_sub_of (y := main_v145) rfl (by decide),
    writes_sub_of (y := main_v146) rfl (by decide)⟩
/-- A reference stretch `P4` does not write keeps its contents through it. -/
theorem R5_of (c : Dev nD) (r : Ref sig .tc) (h : r ∉ P4_W) : R5 m c (Proc.devRef .tc r) = R4 m c (Proc.devRef .tc r) :=
  after_of_writes_sub P4 _ P4_writes h

/-- The references stretch `P5`'s operations write. -/
abbrev P5_W : List (Ref sig .tc) := [main_call2_cst, main_call2_v0, main_v147]
set_option maxRecDepth 8192 in
theorem P5_writes : (P5 : List (HloOp τ sig (Elt F))).Forall fun op => op.writes ⊆ (P5_W.map (Proc.devRef (τ := τ) .tc)).toFinset :=
  ⟨writes_sub_of (y := main_call2_cst) rfl (by decide),
    writes_sub_of (y := main_call2_v0) rfl (by decide),
    writes_sub_of (y := main_v147) rfl (by decide)⟩
/-- A reference stretch `P5` does not write keeps its contents through it. -/
theorem R6_of (c : Dev nD) (r : Ref sig .tc) (h : r ∉ P5_W) : R6 m c (Proc.devRef .tc r) = R5 m c (Proc.devRef .tc r) :=
  after_of_writes_sub P5 _ P5_writes h

/-- The references stretch `P6`'s operations write. -/
abbrev P6_W : List (Ref sig .tc) := [main_v148, main_v149, main_v150, main_v151, main_c_34, main_v152, main_v153, main_c_35, main_v154, main_v155, main_v156, main_v157, main_v158, main_cst_36, main_v159, main_v160, main_v161, main_v162, main_v163, main_v164, main_v165, main_v166, main_v167, main_v168, main_v169, main_v170, main_v171, main_v172, main_cst_37, main_v173, main_cst_38, main_v174, main_v175, main_v176, main_v177, main_v178, main_v179, main_cst_39, main_v180, main_v181, main_v182, main_v183]
set_option maxRecDepth 8192 in
theorem P6_writes : (P6 : List (HloOp τ sig (Elt F))).Forall fun op => op.writes ⊆ (P6_W.map (Proc.devRef (τ := τ) .tc)).toFinset :=
  ⟨writes_sub_of (y := main_v148) rfl (by decide),
    writes_sub_of (y := main_v149) rfl (by decide),
    writes_sub_of (y := main_v150) rfl (by decide),
    writes_sub_of (y := main_v151) rfl (by decide),
    writes_sub_of (y := main_c_34) rfl (by decide),
    writes_sub_of (y := main_v152) rfl (by decide),
    writes_sub_of (y := main_v153) rfl (by decide),
    writes_sub_of (y := main_c_35) rfl (by decide),
    writes_sub_of (y := main_v154) rfl (by decide),
    writes_sub_of (y := main_v155) rfl (by decide),
    writes_sub_of (y := main_v156) rfl (by decide),
    writes_sub_of (y := main_v157) rfl (by decide),
    writes_sub_of (y := main_v158) rfl (by decide),
    writes_sub_of (y := main_cst_36) rfl (by decide),
    writes_sub_of (y := main_v159) rfl (by decide),
    writes_sub_of (y := main_v160) rfl (by decide),
    writes_sub_of (y := main_v161) rfl (by decide),
    writes_sub_of (y := main_v162) rfl (by decide),
    writes_sub_of (y := main_v163) rfl (by decide),
    writes_sub_of (y := main_v164) rfl (by decide),
    writes_sub_of (y := main_v165) rfl (by decide),
    writes_sub_of (y := main_v166) rfl (by decide),
    writes_sub_of (y := main_v167) rfl (by decide),
    writes_sub_of (y := main_v168) rfl (by decide),
    writes_sub_of (y := main_v169) rfl (by decide),
    writes_sub_of (y := main_v170) rfl (by decide),
    writes_sub_of (y := main_v171) rfl (by decide),
    writes_sub_of (y := main_v172) rfl (by decide),
    writes_sub_of (y := main_cst_37) rfl (by decide),
    writes_sub_of (y := main_v173) rfl (by decide),
    writes_sub_of (y := main_cst_38) rfl (by decide),
    writes_sub_of (y := main_v174) rfl (by decide),
    writes_sub_of (y := main_v175) rfl (by decide),
    writes_sub_of (y := main_v176) rfl (by decide),
    writes_sub_of (y := main_v177) rfl (by decide),
    writes_sub_of (y := main_v178) rfl (by decide),
    writes_sub_of (y := main_v179) rfl (by decide),
    writes_sub_of (y := main_cst_39) rfl (by decide),
    writes_sub_of (y := main_v180) rfl (by decide),
    writes_sub_of (y := main_v181) rfl (by decide),
    writes_sub_of (y := main_v182) rfl (by decide),
    writes_sub_of (y := main_v183) rfl (by decide)⟩
/-- A reference stretch `P6` does not write keeps its contents through it. -/
theorem R7_of (c : Dev nD) (r : Ref sig .tc) (h : r ∉ P6_W) : R7 m c (Proc.devRef .tc r) = R6 m c (Proc.devRef .tc r) :=
  after_of_writes_sub P6 _ P6_writes h

/-- The references stretch `P7`'s operations write. -/
abbrev P7_W : List (Ref sig .tc) := [main_call3_cst, main_call3_v0, main_v184]
set_option maxRecDepth 8192 in
theorem P7_writes : (P7 : List (HloOp τ sig (Elt F))).Forall fun op => op.writes ⊆ (P7_W.map (Proc.devRef (τ := τ) .tc)).toFinset :=
  ⟨writes_sub_of (y := main_call3_cst) rfl (by decide),
    writes_sub_of (y := main_call3_v0) rfl (by decide),
    writes_sub_of (y := main_v184) rfl (by decide)⟩
/-- A reference stretch `P7` does not write keeps its contents through it. -/
theorem R8_of (c : Dev nD) (r : Ref sig .tc) (h : r ∉ P7_W) : R8 m c (Proc.devRef .tc r) = R7 m c (Proc.devRef .tc r) :=
  after_of_writes_sub P7 _ P7_writes h

/-- The references stretch `P8`'s operations write. -/
abbrev P8_W : List (Ref sig .tc) := [main_cst_40, main_v185, main_cst_41, main_v186, main_c_42, main_v187, main_v188, main_c_43, main_v189, main_v190, main_v191, main_c_44, main_v192, main_v193, main_c_45, main_v194, main_v195, main_v196, main_v197, main_v198, main_v199, main_cst_46, main_v200, main_v201, main_v202, main_cst_47, main_v203, main_c_48, main_v204, main_v205, main_c_49, main_v206, main_v207, main_v208, main_c_50, main_v209, main_v210, main_c_51, main_v211, main_v212, main_v213, main_v214, main_v215, main_v216, main_cst_52, main_v217, main_v218, main_v219, main_cst_53, main_v220, main_c_54, main_v221, main_v222, main_c_55, main_v223, main_v224, main_v225, main_c_56, main_v226, main_v227, main_c_57, main_v228, main_v229, main_v230, main_v231, main_v232, main_v233, main_cst_58, main_v234, main_v235, main_v236]
set_option maxRecDepth 8192 in
theorem P8_writes : (P8 : List (HloOp τ sig (Elt F))).Forall fun op => op.writes ⊆ (P8_W.map (Proc.devRef (τ := τ) .tc)).toFinset :=
  ⟨writes_sub_of (y := main_cst_40) rfl (by decide),
    writes_sub_of (y := main_v185) rfl (by decide),
    writes_sub_of (y := main_cst_41) rfl (by decide),
    writes_sub_of (y := main_v186) rfl (by decide),
    writes_sub_of (y := main_c_42) rfl (by decide),
    writes_sub_of (y := main_v187) rfl (by decide),
    writes_sub_of (y := main_v188) rfl (by decide),
    writes_sub_of (y := main_c_43) rfl (by decide),
    writes_sub_of (y := main_v189) rfl (by decide),
    writes_sub_of (y := main_v190) rfl (by decide),
    writes_sub_of (y := main_v191) rfl (by decide),
    writes_sub_of (y := main_c_44) rfl (by decide),
    writes_sub_of (y := main_v192) rfl (by decide),
    writes_sub_of (y := main_v193) rfl (by decide),
    writes_sub_of (y := main_c_45) rfl (by decide),
    writes_sub_of (y := main_v194) rfl (by decide),
    writes_sub_of (y := main_v195) rfl (by decide),
    writes_sub_of (y := main_v196) rfl (by decide),
    writes_sub_of (y := main_v197) rfl (by decide),
    writes_sub_of (y := main_v198) rfl (by decide),
    writes_sub_of (y := main_v199) rfl (by decide),
    writes_sub_of (y := main_cst_46) rfl (by decide),
    writes_sub_of (y := main_v200) rfl (by decide),
    writes_sub_of (y := main_v201) rfl (by decide),
    writes_sub_of (y := main_v202) rfl (by decide),
    writes_sub_of (y := main_cst_47) rfl (by decide),
    writes_sub_of (y := main_v203) rfl (by decide),
    writes_sub_of (y := main_c_48) rfl (by decide),
    writes_sub_of (y := main_v204) rfl (by decide),
    writes_sub_of (y := main_v205) rfl (by decide),
    writes_sub_of (y := main_c_49) rfl (by decide),
    writes_sub_of (y := main_v206) rfl (by decide),
    writes_sub_of (y := main_v207) rfl (by decide),
    writes_sub_of (y := main_v208) rfl (by decide),
    writes_sub_of (y := main_c_50) rfl (by decide),
    writes_sub_of (y := main_v209) rfl (by decide),
    writes_sub_of (y := main_v210) rfl (by decide),
    writes_sub_of (y := main_c_51) rfl (by decide),
    writes_sub_of (y := main_v211) rfl (by decide),
    writes_sub_of (y := main_v212) rfl (by decide),
    writes_sub_of (y := main_v213) rfl (by decide),
    writes_sub_of (y := main_v214) rfl (by decide),
    writes_sub_of (y := main_v215) rfl (by decide),
    writes_sub_of (y := main_v216) rfl (by decide),
    writes_sub_of (y := main_cst_52) rfl (by decide),
    writes_sub_of (y := main_v217) rfl (by decide),
    writes_sub_of (y := main_v218) rfl (by decide),
    writes_sub_of (y := main_v219) rfl (by decide),
    writes_sub_of (y := main_cst_53) rfl (by decide),
    writes_sub_of (y := main_v220) rfl (by decide),
    writes_sub_of (y := main_c_54) rfl (by decide),
    writes_sub_of (y := main_v221) rfl (by decide),
    writes_sub_of (y := main_v222) rfl (by decide),
    writes_sub_of (y := main_c_55) rfl (by decide),
    writes_sub_of (y := main_v223) rfl (by decide),
    writes_sub_of (y := main_v224) rfl (by decide),
    writes_sub_of (y := main_v225) rfl (by decide),
    writes_sub_of (y := main_c_56) rfl (by decide),
    writes_sub_of (y := main_v226) rfl (by decide),
    writes_sub_of (y := main_v227) rfl (by decide),
    writes_sub_of (y := main_c_57) rfl (by decide),
    writes_sub_of (y := main_v228) rfl (by decide),
    writes_sub_of (y := main_v229) rfl (by decide),
    writes_sub_of (y := main_v230) rfl (by decide),
    writes_sub_of (y := main_v231) rfl (by decide),
    writes_sub_of (y := main_v232) rfl (by decide),
    writes_sub_of (y := main_v233) rfl (by decide),
    writes_sub_of (y := main_cst_58) rfl (by decide),
    writes_sub_of (y := main_v234) rfl (by decide),
    writes_sub_of (y := main_v235) rfl (by decide),
    writes_sub_of (y := main_v236) rfl (by decide)⟩
/-- A reference stretch `P8` does not write keeps its contents through it. -/
theorem R9_of (c : Dev nD) (r : Ref sig .tc) (h : r ∉ P8_W) : R9 m c (Proc.devRef .tc r) = R8 m c (Proc.devRef .tc r) :=
  after_of_writes_sub P8 _ P8_writes h

/-- The references stretch `Q0`'s operations write. -/
abbrev Q0_W : List (Ref sig .tc) := [main_v237, main_v238, main_v239, main_v240, main_call4_cst, main_call4_v0, main_v241]
set_option maxRecDepth 8192 in
theorem Q0_writes : (Q0 : List (HloOp τ sig (Elt F))).Forall fun op => op.writes ⊆ (Q0_W.map (Proc.devRef (τ := τ) .tc)).toFinset :=
  ⟨writes_sub_of (y := main_v237) rfl (by decide),
    writes_sub_of (y := main_v238) rfl (by decide),
    writes_sub_of (y := main_v239) rfl (by decide),
    writes_sub_of (y := main_v240) rfl (by decide),
    writes_sub_of (y := main_call4_cst) rfl (by decide),
    writes_sub_of (y := main_call4_v0) rfl (by decide),
    writes_sub_of (y := main_v241) rfl (by decide)⟩
/-- A reference stretch `Q0` does not write keeps its contents through it. -/
theorem R10_of (c : Dev nD) (r : Ref sig .tc) (h : r ∉ Q0_W) : R10 m c (Proc.devRef .tc r) = R9 m c (Proc.devRef .tc r) :=
  after_of_writes_sub Q0 _ Q0_writes h

/-- The references stretch `Q1`'s operations write. -/
abbrev Q1_W : List (Ref sig .tc) := [main_v242, main_v243, main_v244, main_v245, main_cst_59, main_cst_60, main_call5_v0, main_call5_v1, main_call5_v2, main_call5_v3, main_call5_v4, main_v246, main_cst_61, main_v247, main_v248, main_v249]
set_option maxRecDepth 8192 in
theorem Q1_writes : (Q1 : List (HloOp τ sig (Elt F))).Forall fun op => op.writes ⊆ (Q1_W.map (Proc.devRef (τ := τ) .tc)).toFinset :=
  ⟨writes_sub_of (y := main_v242) rfl (by decide),
    writes_sub_of (y := main_v243) rfl (by decide),
    writes_sub_of (y := main_v244) rfl (by decide),
    writes_sub_of (y := main_v245) rfl (by decide),
    writes_sub_of (y := main_cst_59) rfl (by decide),
    writes_sub_of (y := main_cst_60) rfl (by decide),
    writes_sub_of (y := main_call5_v0) rfl (by decide),
    writes_sub_of (y := main_call5_v1) rfl (by decide),
    writes_sub_of (y := main_call5_v2) rfl (by decide),
    writes_sub_of (y := main_call5_v3) rfl (by decide),
    writes_sub_of (y := main_call5_v4) rfl (by decide),
    writes_sub_of (y := main_v246) rfl (by decide),
    writes_sub_of (y := main_cst_61) rfl (by decide),
    writes_sub_of (y := main_v247) rfl (by decide),
    writes_sub_of (y := main_v248) rfl (by decide),
    writes_sub_of (y := main_v249) rfl (by decide)⟩
/-- A reference stretch `Q1` does not write keeps its contents through it. -/
theorem R11_of (c : Dev nD) (r : Ref sig .tc) (h : r ∉ Q1_W) : R11 m c (Proc.devRef .tc r) = R10 m c (Proc.devRef .tc r) :=
  after_of_writes_sub Q1 _ Q1_writes h

/-- The references stretch `Q2`'s operations write. -/
abbrev Q2_W : List (Ref sig .tc) := [main_v250, main_v251, main_cst_62, main_v252, main_v253, main_v254, main_v255, main_v256, main_c_63, main_v257, main_v258, main_v259, main_v260, main_v261, main_cst_64, main_v262, main_cst_65, main_v263, main_v264, main_v265, main_v266, main_v267]
set_option maxRecDepth 8192 in
theorem Q2_writes : (Q2 : List (HloOp τ sig (Elt F))).Forall fun op => op.writes ⊆ (Q2_W.map (Proc.devRef (τ := τ) .tc)).toFinset :=
  ⟨writes_sub_of (y := main_v250) rfl (by decide),
    writes_sub_of (y := main_v251) rfl (by decide),
    writes_sub_of (y := main_cst_62) rfl (by decide),
    writes_sub_of (y := main_v252) rfl (by decide),
    writes_sub_of (y := main_v253) rfl (by decide),
    writes_sub_of (y := main_v254) rfl (by decide),
    writes_sub_of (y := main_v255) rfl (by decide),
    writes_sub_of (y := main_v256) rfl (by decide),
    writes_sub_of (y := main_c_63) rfl (by decide),
    writes_sub_of (y := main_v257) rfl (by decide),
    writes_sub_of (y := main_v258) rfl (by decide),
    writes_sub_of (y := main_v259) rfl (by decide),
    writes_sub_of (y := main_v260) rfl (by decide),
    writes_sub_of (y := main_v261) rfl (by decide),
    writes_sub_of (y := main_cst_64) rfl (by decide),
    writes_sub_of (y := main_v262) rfl (by decide),
    writes_sub_of (y := main_cst_65) rfl (by decide),
    writes_sub_of (y := main_v263) rfl (by decide),
    writes_sub_of (y := main_v264) rfl (by decide),
    writes_sub_of (y := main_v265) rfl (by decide),
    writes_sub_of (y := main_v266) rfl (by decide),
    writes_sub_of (y := main_v267) rfl (by decide)⟩
/-- A reference stretch `Q2` does not write keeps its contents through it. -/
theorem R12_of (c : Dev nD) (r : Ref sig .tc) (h : r ∉ Q2_W) : R12 m c (Proc.devRef .tc r) = R11 m c (Proc.devRef .tc r) :=
  after_of_writes_sub Q2 _ Q2_writes h

/-- The references stretch `Q3`'s operations write. -/
abbrev Q3_W : List (Ref sig .tc) := [main_v268]
set_option maxRecDepth 8192 in
theorem Q3_writes : (Q3 : List (HloOp τ sig (Elt F))).Forall fun op => op.writes ⊆ (Q3_W.map (Proc.devRef (τ := τ) .tc)).toFinset :=
  writes_sub_of (y := main_v268) rfl (by decide)
/-- A reference stretch `Q3` does not write keeps its contents through it. -/
theorem R13_of (c : Dev nD) (r : Ref sig .tc) (h : r ∉ Q3_W) : R13 m c (Proc.devRef .tc r) = R12 m c (Proc.devRef .tc r) :=
  after_of_writes_sub Q3 _ Q3_writes h

/-- The references stretch `Q4`'s operations write. -/
abbrev Q4_W : List (Ref sig .tc) := [main_v269, main_v270, main_v271, main_v272, main_v273, main_v274, main_v275]
set_option maxRecDepth 8192 in
theorem Q4_writes : (Q4 : List (HloOp τ sig (Elt F))).Forall fun op => op.writes ⊆ (Q4_W.map (Proc.devRef (τ := τ) .tc)).toFinset :=
  ⟨writes_sub_of (y := main_v269) rfl (by decide),
    writes_sub_of (y := main_v270) rfl (by decide),
    writes_sub_of (y := main_v271) rfl (by decide),
    writes_sub_of (y := main_v272) rfl (by decide),
    writes_sub_of (y := main_v273) rfl (by decide),
    writes_sub_of (y := main_v274) rfl (by decide),
    writes_sub_of (y := main_v275) rfl (by decide)⟩
/-- A reference stretch `Q4` does not write keeps its contents through it. -/
theorem R14_of (c : Dev nD) (r : Ref sig .tc) (h : r ∉ Q4_W) : R14 m c (Proc.devRef .tc r) = R13 m c (Proc.devRef .tc r) :=
  after_of_writes_sub Q4 _ Q4_writes h

/-- The references stretch `Q5`'s operations write. -/
abbrev Q5_W : List (Ref sig .tc) := [main_call7_cst, main_call7_v0, main_v276]
set_option maxRecDepth 8192 in
theorem Q5_writes : (Q5 : List (HloOp τ sig (Elt F))).Forall fun op => op.writes ⊆ (Q5_W.map (Proc.devRef (τ := τ) .tc)).toFinset :=
  ⟨writes_sub_of (y := main_call7_cst) rfl (by decide),
    writes_sub_of (y := main_call7_v0) rfl (by decide),
    writes_sub_of (y := main_v276) rfl (by decide)⟩
/-- A reference stretch `Q5` does not write keeps its contents through it. -/
theorem R15_of (c : Dev nD) (r : Ref sig .tc) (h : r ∉ Q5_W) : R15 m c (Proc.devRef .tc r) = R14 m c (Proc.devRef .tc r) :=
  after_of_writes_sub Q5 _ Q5_writes h

/-- The references stretch `Q6`'s operations write. -/
abbrev Q6_W : List (Ref sig .tc) := [main_v277, main_v278, main_v279]
set_option maxRecDepth 8192 in
theorem Q6_writes : (Q6 : List (HloOp τ sig (Elt F))).Forall fun op => op.writes ⊆ (Q6_W.map (Proc.devRef (τ := τ) .tc)).toFinset :=
  ⟨writes_sub_of (y := main_v277) rfl (by decide),
    writes_sub_of (y := main_v278) rfl (by decide),
    writes_sub_of (y := main_v279) rfl (by decide)⟩
/-- A reference stretch `Q6` does not write keeps its contents through it. -/
theorem R16_of (c : Dev nD) (r : Ref sig .tc) (h : r ∉ Q6_W) : R16 m c (Proc.devRef .tc r) = R15 m c (Proc.devRef .tc r) :=
  after_of_writes_sub Q6 _ Q6_writes h

/-- The references stretch `Q7`'s operations write. -/
abbrev Q7_W : List (Ref sig .tc) := [main_v280]
set_option maxRecDepth 8192 in
theorem Q7_writes : (Q7 : List (HloOp τ sig (Elt F))).Forall fun op => op.writes ⊆ (Q7_W.map (Proc.devRef (τ := τ) .tc)).toFinset :=
  writes_sub_of (y := main_v280) rfl (by decide)
/-- A reference stretch `Q7` does not write keeps its contents through it. -/
theorem R17_of (c : Dev nD) (r : Ref sig .tc) (h : r ∉ Q7_W) : R17 m c (Proc.devRef .tc r) = R16 m c (Proc.devRef .tc r) :=
  after_of_writes_sub Q7 _ Q7_writes h

/-- The references stretch `Q8`'s operations write. -/
abbrev Q8_W : List (Ref sig .tc) := [main_v281, main_v282, main_v283, main_v284, main_v285, main_v286, main_v287, main_v288]
set_option maxRecDepth 8192 in
theorem Q8_writes : (Q8 : List (HloOp τ sig (Elt F))).Forall fun op => op.writes ⊆ (Q8_W.map (Proc.devRef (τ := τ) .tc)).toFinset :=
  ⟨writes_sub_of (y := main_v281) rfl (by decide),
    writes_sub_of (y := main_v282) rfl (by decide),
    writes_sub_of (y := main_v283) rfl (by decide),
    writes_sub_of (y := main_v284) rfl (by decide),
    writes_sub_of (y := main_v285) rfl (by decide),
    writes_sub_of (y := main_v286) rfl (by decide),
    writes_sub_of (y := main_v287) rfl (by decide),
    writes_sub_of (y := main_v288) rfl (by decide)⟩
/-- A reference stretch `Q8` does not write keeps its contents through it. -/
theorem R18_of (c : Dev nD) (r : Ref sig .tc) (h : r ∉ Q8_W) : R18 m c (Proc.devRef .tc r) = R17 m c (Proc.devRef .tc r) :=
  after_of_writes_sub Q8 _ Q8_writes h

/-- The references stretch `Q9`'s operations write. -/
abbrev Q9_W : List (Ref sig .tc) := [main_v289]
set_option maxRecDepth 8192 in
theorem Q9_writes : (Q9 : List (HloOp τ sig (Elt F))).Forall fun op => op.writes ⊆ (Q9_W.map (Proc.devRef (τ := τ) .tc)).toFinset :=
  writes_sub_of (y := main_v289) rfl (by decide)
/-- A reference stretch `Q9` does not write keeps its contents through it. -/
theorem R19_of (c : Dev nD) (r : Ref sig .tc) (h : r ∉ Q9_W) : R19 m c (Proc.devRef .tc r) = R18 m c (Proc.devRef .tc r) :=
  after_of_writes_sub Q9 _ Q9_writes h

/-! ## No stretch writes an argument -/

/-- @main's arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31]

/-- An argument is at its launch contents before the first stretch. -/
theorem R0_args (c : Dev nD) (r : Ref sig .tc) (_hr : r ∈ argRefs) : R0 m c (Proc.devRef .tc r) = m ((c.tc : Thread nD τ).loc r) := rfl
set_option maxRecDepth 8192 in
theorem P0_W_args : ∀ r ∈ argRefs, r ∉ P0_W := by decide +kernel
/-- An argument is at its launch contents after the first 1 stretch. -/
theorem R1_args (c : Dev nD) (r : Ref sig .tc) (hr : r ∈ argRefs) : R1 m c (Proc.devRef .tc r) = m ((c.tc : Thread nD τ).loc r) :=
  (R1_of m c r (P0_W_args r hr)).trans (R0_args m c r hr)
set_option maxRecDepth 8192 in
theorem P1_W_args : ∀ r ∈ argRefs, r ∉ P1_W := by decide +kernel
/-- An argument is at its launch contents after the first 2 stretches. -/
theorem R2_args (c : Dev nD) (r : Ref sig .tc) (hr : r ∈ argRefs) : R2 m c (Proc.devRef .tc r) = m ((c.tc : Thread nD τ).loc r) :=
  (R2_of m c r (P1_W_args r hr)).trans (R1_args m c r hr)
set_option maxRecDepth 8192 in
theorem P2_W_args : ∀ r ∈ argRefs, r ∉ P2_W := by decide +kernel
/-- An argument is at its launch contents after the first 3 stretches. -/
theorem R3_args (c : Dev nD) (r : Ref sig .tc) (hr : r ∈ argRefs) : R3 m c (Proc.devRef .tc r) = m ((c.tc : Thread nD τ).loc r) :=
  (R3_of m c r (P2_W_args r hr)).trans (R2_args m c r hr)
set_option maxRecDepth 8192 in
theorem P3_W_args : ∀ r ∈ argRefs, r ∉ P3_W := by decide +kernel
/-- An argument is at its launch contents after the first 4 stretches. -/
theorem R4_args (c : Dev nD) (r : Ref sig .tc) (hr : r ∈ argRefs) : R4 m c (Proc.devRef .tc r) = m ((c.tc : Thread nD τ).loc r) :=
  (R4_of m c r (P3_W_args r hr)).trans (R3_args m c r hr)
set_option maxRecDepth 8192 in
theorem P4_W_args : ∀ r ∈ argRefs, r ∉ P4_W := by decide +kernel
/-- An argument is at its launch contents after the first 5 stretches. -/
theorem R5_args (c : Dev nD) (r : Ref sig .tc) (hr : r ∈ argRefs) : R5 m c (Proc.devRef .tc r) = m ((c.tc : Thread nD τ).loc r) :=
  (R5_of m c r (P4_W_args r hr)).trans (R4_args m c r hr)
set_option maxRecDepth 8192 in
theorem P5_W_args : ∀ r ∈ argRefs, r ∉ P5_W := by decide +kernel
/-- An argument is at its launch contents after the first 6 stretches. -/
theorem R6_args (c : Dev nD) (r : Ref sig .tc) (hr : r ∈ argRefs) : R6 m c (Proc.devRef .tc r) = m ((c.tc : Thread nD τ).loc r) :=
  (R6_of m c r (P5_W_args r hr)).trans (R5_args m c r hr)
set_option maxRecDepth 8192 in
theorem P6_W_args : ∀ r ∈ argRefs, r ∉ P6_W := by decide +kernel
/-- An argument is at its launch contents after the first 7 stretches. -/
theorem R7_args (c : Dev nD) (r : Ref sig .tc) (hr : r ∈ argRefs) : R7 m c (Proc.devRef .tc r) = m ((c.tc : Thread nD τ).loc r) :=
  (R7_of m c r (P6_W_args r hr)).trans (R6_args m c r hr)
set_option maxRecDepth 8192 in
theorem P7_W_args : ∀ r ∈ argRefs, r ∉ P7_W := by decide +kernel
/-- An argument is at its launch contents after the first 8 stretches. -/
theorem R8_args (c : Dev nD) (r : Ref sig .tc) (hr : r ∈ argRefs) : R8 m c (Proc.devRef .tc r) = m ((c.tc : Thread nD τ).loc r) :=
  (R8_of m c r (P7_W_args r hr)).trans (R7_args m c r hr)
set_option maxRecDepth 8192 in
theorem P8_W_args : ∀ r ∈ argRefs, r ∉ P8_W := by decide +kernel
/-- An argument is at its launch contents after the first 9 stretches. -/
theorem R9_args (c : Dev nD) (r : Ref sig .tc) (hr : r ∈ argRefs) : R9 m c (Proc.devRef .tc r) = m ((c.tc : Thread nD τ).loc r) :=
  (R9_of m c r (P8_W_args r hr)).trans (R8_args m c r hr)
set_option maxRecDepth 8192 in
theorem Q0_W_args : ∀ r ∈ argRefs, r ∉ Q0_W := by decide +kernel
/-- An argument is at its launch contents after the first 10 stretches. -/
theorem R10_args (c : Dev nD) (r : Ref sig .tc) (hr : r ∈ argRefs) : R10 m c (Proc.devRef .tc r) = m ((c.tc : Thread nD τ).loc r) :=
  (R10_of m c r (Q0_W_args r hr)).trans (R9_args m c r hr)
set_option maxRecDepth 8192 in
theorem Q1_W_args : ∀ r ∈ argRefs, r ∉ Q1_W := by decide +kernel
/-- An argument is at its launch contents after the first 11 stretches. -/
theorem R11_args (c : Dev nD) (r : Ref sig .tc) (hr : r ∈ argRefs) : R11 m c (Proc.devRef .tc r) = m ((c.tc : Thread nD τ).loc r) :=
  (R11_of m c r (Q1_W_args r hr)).trans (R10_args m c r hr)
set_option maxRecDepth 8192 in
theorem Q2_W_args : ∀ r ∈ argRefs, r ∉ Q2_W := by decide +kernel
/-- An argument is at its launch contents after the first 12 stretches. -/
theorem R12_args (c : Dev nD) (r : Ref sig .tc) (hr : r ∈ argRefs) : R12 m c (Proc.devRef .tc r) = m ((c.tc : Thread nD τ).loc r) :=
  (R12_of m c r (Q2_W_args r hr)).trans (R11_args m c r hr)
set_option maxRecDepth 8192 in
theorem Q3_W_args : ∀ r ∈ argRefs, r ∉ Q3_W := by decide +kernel
/-- An argument is at its launch contents after the first 13 stretches. -/
theorem R13_args (c : Dev nD) (r : Ref sig .tc) (hr : r ∈ argRefs) : R13 m c (Proc.devRef .tc r) = m ((c.tc : Thread nD τ).loc r) :=
  (R13_of m c r (Q3_W_args r hr)).trans (R12_args m c r hr)
set_option maxRecDepth 8192 in
theorem Q4_W_args : ∀ r ∈ argRefs, r ∉ Q4_W := by decide +kernel
/-- An argument is at its launch contents after the first 14 stretches. -/
theorem R14_args (c : Dev nD) (r : Ref sig .tc) (hr : r ∈ argRefs) : R14 m c (Proc.devRef .tc r) = m ((c.tc : Thread nD τ).loc r) :=
  (R14_of m c r (Q4_W_args r hr)).trans (R13_args m c r hr)
set_option maxRecDepth 8192 in
theorem Q5_W_args : ∀ r ∈ argRefs, r ∉ Q5_W := by decide +kernel
/-- An argument is at its launch contents after the first 15 stretches. -/
theorem R15_args (c : Dev nD) (r : Ref sig .tc) (hr : r ∈ argRefs) : R15 m c (Proc.devRef .tc r) = m ((c.tc : Thread nD τ).loc r) :=
  (R15_of m c r (Q5_W_args r hr)).trans (R14_args m c r hr)
set_option maxRecDepth 8192 in
theorem Q6_W_args : ∀ r ∈ argRefs, r ∉ Q6_W := by decide +kernel
/-- An argument is at its launch contents after the first 16 stretches. -/
theorem R16_args (c : Dev nD) (r : Ref sig .tc) (hr : r ∈ argRefs) : R16 m c (Proc.devRef .tc r) = m ((c.tc : Thread nD τ).loc r) :=
  (R16_of m c r (Q6_W_args r hr)).trans (R15_args m c r hr)
set_option maxRecDepth 8192 in
theorem Q7_W_args : ∀ r ∈ argRefs, r ∉ Q7_W := by decide +kernel
/-- An argument is at its launch contents after the first 17 stretches. -/
theorem R17_args (c : Dev nD) (r : Ref sig .tc) (hr : r ∈ argRefs) : R17 m c (Proc.devRef .tc r) = m ((c.tc : Thread nD τ).loc r) :=
  (R17_of m c r (Q7_W_args r hr)).trans (R16_args m c r hr)
set_option maxRecDepth 8192 in
theorem Q8_W_args : ∀ r ∈ argRefs, r ∉ Q8_W := by decide +kernel
/-- An argument is at its launch contents after the first 18 stretches. -/
theorem R18_args (c : Dev nD) (r : Ref sig .tc) (hr : r ∈ argRefs) : R18 m c (Proc.devRef .tc r) = m ((c.tc : Thread nD τ).loc r) :=
  (R18_of m c r (Q8_W_args r hr)).trans (R17_args m c r hr)
set_option maxRecDepth 8192 in
theorem Q9_W_args : ∀ r ∈ argRefs, r ∉ Q9_W := by decide +kernel
/-- An argument is at its launch contents after the first 19 stretches. -/
theorem R19_args (c : Dev nD) (r : Ref sig .tc) (hr : r ∈ argRefs) : R19 m c (Proc.devRef .tc r) = m ((c.tc : Thread nD τ).loc r) :=
  (R19_of m c r (Q9_W_args r hr)).trans (R18_args m c r hr)

end Cut

/-! ## The frame -/

/-- A final state with every buffer at the fold of the operations' results over its launch contents has the
    arguments as launched. -/
theorem post_args_ref (m : (ℓ : Loc nD τ sig) → Buf (Elt F) ℓ) (r : PUnit × MemSt nD τ sig (Elt F))
    (h : ∀ (c : Dev nD) (b : Ref sig .tc), r.2.mem ((c.tc : Thread nD τ).loc b) = after (opsL.flatten) (launchContents m c) (Proc.devRef .tc b))
    (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31) :=
  ⟨(h c main_arg0).trans ((congrFun (after_flat m c) _).trans (R19_args m c main_arg0 (by decide))),
    (h c main_arg1).trans ((congrFun (after_flat m c) _).trans (R19_args m c main_arg1 (by decide))),
    (h c main_arg2).trans ((congrFun (after_flat m c) _).trans (R19_args m c main_arg2 (by decide))),
    (h c main_arg3).trans ((congrFun (after_flat m c) _).trans (R19_args m c main_arg3 (by decide))),
    (h c main_arg4).trans ((congrFun (after_flat m c) _).trans (R19_args m c main_arg4 (by decide))),
    (h c main_arg5).trans ((congrFun (after_flat m c) _).trans (R19_args m c main_arg5 (by decide))),
    (h c main_arg6).trans ((congrFun (after_flat m c) _).trans (R19_args m c main_arg6 (by decide))),
    (h c main_arg7).trans ((congrFun (after_flat m c) _).trans (R19_args m c main_arg7 (by decide))),
    (h c main_arg8).trans ((congrFun (after_flat m c) _).trans (R19_args m c main_arg8 (by decide))),
    (h c main_arg9).trans ((congrFun (after_flat m c) _).trans (R19_args m c main_arg9 (by decide))),
    (h c main_arg10).trans ((congrFun (after_flat m c) _).trans (R19_args m c main_arg10 (by decide))),
    (h c main_arg11).trans ((congrFun (after_flat m c) _).trans (R19_args m c main_arg11 (by decide))),
    (h c main_arg12).trans ((congrFun (after_flat m c) _).trans (R19_args m c main_arg12 (by decide))),
    (h c main_arg13).trans ((congrFun (after_flat m c) _).trans (R19_args m c main_arg13 (by decide))),
    (h c main_arg14).trans ((congrFun (after_flat m c) _).trans (R19_args m c main_arg14 (by decide))),
    (h c main_arg15).trans ((congrFun (after_flat m c) _).trans (R19_args m c main_arg15 (by decide))),
    (h c main_arg16).trans ((congrFun (after_flat m c) _).trans (R19_args m c main_arg16 (by decide))),
    (h c main_arg17).trans ((congrFun (after_flat m c) _).trans (R19_args m c main_arg17 (by decide))),
    (h c main_arg18).trans ((congrFun (after_flat m c) _).trans (R19_args m c main_arg18 (by decide))),
    (h c main_arg19).trans ((congrFun (after_flat m c) _).trans (R19_args m c main_arg19 (by decide))),
    (h c main_arg20).trans ((congrFun (after_flat m c) _).trans (R19_args m c main_arg20 (by decide))),
    (h c main_arg21).trans ((congrFun (after_flat m c) _).trans (R19_args m c main_arg21 (by decide))),
    (h c main_arg22).trans ((congrFun (after_flat m c) _).trans (R19_args m c main_arg22 (by decide))),
    (h c main_arg23).trans ((congrFun (after_flat m c) _).trans (R19_args m c main_arg23 (by decide))),
    (h c main_arg24).trans ((congrFun (after_flat m c) _).trans (R19_args m c main_arg24 (by decide))),
    (h c main_arg25).trans ((congrFun (after_flat m c) _).trans (R19_args m c main_arg25 (by decide))),
    (h c main_arg26).trans ((congrFun (after_flat m c) _).trans (R19_args m c main_arg26 (by decide))),
    (h c main_arg27).trans ((congrFun (after_flat m c) _).trans (R19_args m c main_arg27 (by decide))),
    (h c main_arg28).trans ((congrFun (after_flat m c) _).trans (R19_args m c main_arg28 (by decide))),
    (h c main_arg29).trans ((congrFun (after_flat m c) _).trans (R19_args m c main_arg29 (by decide))),
    (h c main_arg30).trans ((congrFun (after_flat m c) _).trans (R19_args m c main_arg30 (by decide))),
    (h c main_arg31).trans ((congrFun (after_flat m c) _).trans (R19_args m c main_arg31 (by decide)))⟩

/-- @main runs (terminates, no fault) and its argument arrays end unchanged. -/
theorem frame_ref (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c => post_args_ref m r h c) (run_ref m ρ)

end Cert.ReferenceIdeal.Hand

end
-- ==== Proof.BridgeHostA.lean ====
/-
  Between the dense products the kernel program and the reference program run the same straight-line host operations.
  For each such stretch and each buffer that is read later: when the two valuations agree on the buffers the stretch
  reads for it, they agree on that buffer after the stretch. Each hypothesis list is exactly the set of buffers the
  result depends on.
-/
import proofs.«122112_j6631429505271_1_alg».proof.Proof.Gen.KernelIdeal.Launch
import proofs.«122112_j6631429505271_1_alg».proof.Proof.RefLists
import Idealize.ShloMosaic.Lib.StableHlo.Run
import Idealize.ShloMosaic.PureOps.Ideal

set_option maxRecDepth 8192
set_option maxHeartbeats 4000000

noncomputable section

namespace Cert.Bridge

open Idealize.ShloMosaic Idealize.ShloMosaic.TcCoe Idealize.SL.Sem Idealize.ShloMosaic.StableHlo

theorem stage0_v12 (VK : Valuation Cert.KernelIdeal.τ Cert.KernelIdeal.sig (Elt Ideal)) (VR : Valuation Cert.ReferenceIdeal.τ Cert.ReferenceIdeal.sig (Elt Ideal))
    (h_arg3 : VK (Proc.devRef .tc Cert.KernelIdeal.main_arg3) = VR (Proc.devRef .tc Cert.ReferenceIdeal.main_arg3)) :
    StableHlo.after Cert.KernelIdeal.Gen.hostOps0 VK (Proc.devRef .tc Cert.KernelIdeal.main_v12)
      = StableHlo.after Cert.ReferenceIdeal.Hand.P0 VR (Proc.devRef .tc Cert.ReferenceIdeal.main_v12) := by
  after_results_simp
  rw [h_arg3]
  try rfl

theorem stage0_v14 (VK : Valuation Cert.KernelIdeal.τ Cert.KernelIdeal.sig (Elt Ideal)) (VR : Valuation Cert.ReferenceIdeal.τ Cert.ReferenceIdeal.sig (Elt Ideal))
    (h_arg4 : VK (Proc.devRef .tc Cert.KernelIdeal.main_arg4) = VR (Proc.devRef .tc Cert.ReferenceIdeal.main_arg4)) :
    StableHlo.after Cert.KernelIdeal.Gen.hostOps0 VK (Proc.devRef .tc Cert.KernelIdeal.main_v14)
      = StableHlo.after Cert.ReferenceIdeal.Hand.P0 VR (Proc.devRef .tc Cert.ReferenceIdeal.main_v14) := by
  after_results_simp
  rw [h_arg4]
  try rfl

theorem stage0_v34 (VK : Valuation Cert.KernelIdeal.τ Cert.KernelIdeal.sig (Elt Ideal)) (VR : Valuation Cert.ReferenceIdeal.τ Cert.ReferenceIdeal.sig (Elt Ideal))
    (h_arg0 : VK (Proc.devRef .tc Cert.KernelIdeal.main_arg0) = VR (Proc.devRef .tc Cert.ReferenceIdeal.main_arg0))
    (h_arg3 : VK (Proc.devRef .tc Cert.KernelIdeal.main_arg3) = VR (Proc.devRef .tc Cert.ReferenceIdeal.main_arg3))
    (h_arg4 : VK (Proc.devRef .tc Cert.KernelIdeal.main_arg4) = VR (Proc.devRef .tc Cert.ReferenceIdeal.main_arg4))
    (h_arg9 : VK (Proc.devRef .tc Cert.KernelIdeal.main_arg9) = VR (Proc.devRef .tc Cert.ReferenceIdeal.main_arg9))
    (h_arg10 : VK (Proc.devRef .tc Cert.KernelIdeal.main_arg10) = VR (Proc.devRef .tc Cert.ReferenceIdeal.main_arg10)) :
    StableHlo.after Cert.KernelIdeal.Gen.hostOps0 VK (Proc.devRef .tc Cert.KernelIdeal.main_v34)
      = StableHlo.after Cert.ReferenceIdeal.Hand.P0 VR (Proc.devRef .tc Cert.ReferenceIdeal.main_v34) := by
  after_results_simp
  rw [h_arg0, h_arg3, h_arg4, h_arg9, h_arg10]
  try rfl

theorem stage1_v35 (VK : Valuation Cert.KernelIdeal.τ Cert.KernelIdeal.sig (Elt Ideal)) (VR : Valuation Cert.ReferenceIdeal.τ Cert.ReferenceIdeal.sig (Elt Ideal))
    (h_v34 : VK (Proc.devRef .tc Cert.KernelIdeal.main_v34) = VR (Proc.devRef .tc Cert.ReferenceIdeal.main_v34)) :
    StableHlo.after Cert.KernelIdeal.Gen.hostOps0_1 VK (Proc.devRef .tc Cert.KernelIdeal.main_v35)
      = StableHlo.after Cert.ReferenceIdeal.Hand.P1 VR (Proc.devRef .tc Cert.ReferenceIdeal.main_v35) := by
  after_results_simp
  rw [h_v34]
  try rfl

theorem stage2_v55 (VK : Valuation Cert.KernelIdeal.τ Cert.KernelIdeal.sig (Elt Ideal)) (VR : Valuation Cert.ReferenceIdeal.τ Cert.ReferenceIdeal.sig (Elt Ideal))
    (h_v12 : VK (Proc.devRef .tc Cert.KernelIdeal.main_v12) = VR (Proc.devRef .tc Cert.ReferenceIdeal.main_v12))
    (h_v14 : VK (Proc.devRef .tc Cert.KernelIdeal.main_v14) = VR (Proc.devRef .tc Cert.ReferenceIdeal.main_v14))
    (h_v35 : VK (Proc.devRef .tc Cert.KernelIdeal.main_v35) = VR (Proc.devRef .tc Cert.ReferenceIdeal.main_v35))
    (h_arg3 : VK (Proc.devRef .tc Cert.KernelIdeal.main_arg3) = VR (Proc.devRef .tc Cert.ReferenceIdeal.main_arg3))
    (h_arg4 : VK (Proc.devRef .tc Cert.KernelIdeal.main_arg4) = VR (Proc.devRef .tc Cert.ReferenceIdeal.main_arg4))
    (h_arg11 : VK (Proc.devRef .tc Cert.KernelIdeal.main_arg11) = VR (Proc.devRef .tc Cert.ReferenceIdeal.main_arg11))
    (h_arg12 : VK (Proc.devRef .tc Cert.KernelIdeal.main_arg12) = VR (Proc.devRef .tc Cert.ReferenceIdeal.main_arg12)) :
    StableHlo.after Cert.KernelIdeal.Gen.hostOps0_2 VK (Proc.devRef .tc Cert.KernelIdeal.main_v55)
      = StableHlo.after Cert.ReferenceIdeal.Hand.P2 VR (Proc.devRef .tc Cert.ReferenceIdeal.main_v55) := by
  after_results_simp
  rw [h_v12, h_v14, h_v35, h_arg3, h_arg4, h_arg11, h_arg12]
  try rfl

theorem stage2_v68 (VK : Valuation Cert.KernelIdeal.τ Cert.KernelIdeal.sig (Elt Ideal)) (VR : Valuation Cert.ReferenceIdeal.τ Cert.ReferenceIdeal.sig (Elt Ideal))
    (h_arg5 : VK (Proc.devRef .tc Cert.KernelIdeal.main_arg5) = VR (Proc.devRef .tc Cert.ReferenceIdeal.main_arg5)) :
    StableHlo.after Cert.KernelIdeal.Gen.hostOps0_2 VK (Proc.devRef .tc Cert.KernelIdeal.main_v68)
      = StableHlo.after Cert.ReferenceIdeal.Hand.P2 VR (Proc.devRef .tc Cert.ReferenceIdeal.main_v68) := by
  after_results_simp
  rw [h_arg5]
  try rfl

theorem stage2_v70 (VK : Valuation Cert.KernelIdeal.τ Cert.KernelIdeal.sig (Elt Ideal)) (VR : Valuation Cert.ReferenceIdeal.τ Cert.ReferenceIdeal.sig (Elt Ideal))
    (h_arg6 : VK (Proc.devRef .tc Cert.KernelIdeal.main_arg6) = VR (Proc.devRef .tc Cert.ReferenceIdeal.main_arg6)) :
    StableHlo.after Cert.KernelIdeal.Gen.hostOps0_2 VK (Proc.devRef .tc Cert.KernelIdeal.main_v70)
      = StableHlo.after Cert.ReferenceIdeal.Hand.P2 VR (Proc.devRef .tc Cert.ReferenceIdeal.main_v70) := by
  after_results_simp
  rw [h_arg6]
  try rfl

theorem stage2_v90 (VK : Valuation Cert.KernelIdeal.τ Cert.KernelIdeal.sig (Elt Ideal)) (VR : Valuation Cert.ReferenceIdeal.τ Cert.ReferenceIdeal.sig (Elt Ideal))
    (h_arg1 : VK (Proc.devRef .tc Cert.KernelIdeal.main_arg1) = VR (Proc.devRef .tc Cert.ReferenceIdeal.main_arg1))
    (h_arg5 : VK (Proc.devRef .tc Cert.KernelIdeal.main_arg5) = VR (Proc.devRef .tc Cert.ReferenceIdeal.main_arg5))
    (h_arg6 : VK (Proc.devRef .tc Cert.KernelIdeal.main_arg6) = VR (Proc.devRef .tc Cert.ReferenceIdeal.main_arg6))
    (h_arg13 : VK (Proc.devRef .tc Cert.KernelIdeal.main_arg13) = VR (Proc.devRef .tc Cert.ReferenceIdeal.main_arg13))
    (h_arg14 : VK (Proc.devRef .tc Cert.KernelIdeal.main_arg14) = VR (Proc.devRef .tc Cert.ReferenceIdeal.main_arg14)) :
    StableHlo.after Cert.KernelIdeal.Gen.hostOps0_2 VK (Proc.devRef .tc Cert.KernelIdeal.main_v90)
      = StableHlo.after Cert.ReferenceIdeal.Hand.P2 VR (Proc.devRef .tc Cert.ReferenceIdeal.main_v90) := by
  after_results_simp
  rw [h_arg1, h_arg5, h_arg6, h_arg13, h_arg14]
  try rfl

theorem stage3_v91 (VK : Valuation Cert.KernelIdeal.τ Cert.KernelIdeal.sig (Elt Ideal)) (VR : Valuation Cert.ReferenceIdeal.τ Cert.ReferenceIdeal.sig (Elt Ideal))
    (h_v90 : VK (Proc.devRef .tc Cert.KernelIdeal.main_v90) = VR (Proc.devRef .tc Cert.ReferenceIdeal.main_v90)) :
    StableHlo.after Cert.KernelIdeal.Gen.hostOps0_3 VK (Proc.devRef .tc Cert.KernelIdeal.main_v91)
      = StableHlo.after Cert.ReferenceIdeal.Hand.P3 VR (Proc.devRef .tc Cert.ReferenceIdeal.main_v91) := by
  after_results_simp
  rw [h_v90]
  try rfl

end Cert.Bridge

end
-- ==== Proof.BridgeHostB.lean ====
/-
  Between the dense products the kernel program and the reference program run the same straight-line host operations.
  For each such stretch and each buffer that is read later: when the two valuations agree on the buffers the stretch
  reads for it, they agree on that buffer after the stretch. Each hypothesis list is exactly the set of buffers the
  result depends on.
-/
import proofs.«122112_j6631429505271_1_alg».proof.Proof.Gen.KernelIdeal.Launch
import proofs.«122112_j6631429505271_1_alg».proof.Proof.RefLists
import Idealize.ShloMosaic.Lib.StableHlo.Run
import Idealize.ShloMosaic.PureOps.Ideal

set_option maxRecDepth 8192
set_option maxHeartbeats 4000000

noncomputable section

namespace Cert.Bridge

open Idealize.ShloMosaic Idealize.ShloMosaic.TcCoe Idealize.SL.Sem Idealize.ShloMosaic.StableHlo

theorem stage4_v111 (VK : Valuation Cert.KernelIdeal.τ Cert.KernelIdeal.sig (Elt Ideal)) (VR : Valuation Cert.ReferenceIdeal.τ Cert.ReferenceIdeal.sig (Elt Ideal))
    (h_v68 : VK (Proc.devRef .tc Cert.KernelIdeal.main_v68) = VR (Proc.devRef .tc Cert.ReferenceIdeal.main_v68))
    (h_v70 : VK (Proc.devRef .tc Cert.KernelIdeal.main_v70) = VR (Proc.devRef .tc Cert.ReferenceIdeal.main_v70))
    (h_v91 : VK (Proc.devRef .tc Cert.KernelIdeal.main_v91) = VR (Proc.devRef .tc Cert.ReferenceIdeal.main_v91))
    (h_arg5 : VK (Proc.devRef .tc Cert.KernelIdeal.main_arg5) = VR (Proc.devRef .tc Cert.ReferenceIdeal.main_arg5))
    (h_arg6 : VK (Proc.devRef .tc Cert.KernelIdeal.main_arg6) = VR (Proc.devRef .tc Cert.ReferenceIdeal.main_arg6))
    (h_arg15 : VK (Proc.devRef .tc Cert.KernelIdeal.main_arg15) = VR (Proc.devRef .tc Cert.ReferenceIdeal.main_arg15))
    (h_arg16 : VK (Proc.devRef .tc Cert.KernelIdeal.main_arg16) = VR (Proc.devRef .tc Cert.ReferenceIdeal.main_arg16)) :
    StableHlo.after Cert.KernelIdeal.Gen.hostOps0_4 VK (Proc.devRef .tc Cert.KernelIdeal.main_v111)
      = StableHlo.after Cert.ReferenceIdeal.Hand.P4 VR (Proc.devRef .tc Cert.ReferenceIdeal.main_v111) := by
  after_results_simp
  rw [h_v68, h_v70, h_v91, h_arg5, h_arg6, h_arg15, h_arg16]
  try rfl

theorem stage4_v124 (VK : Valuation Cert.KernelIdeal.τ Cert.KernelIdeal.sig (Elt Ideal)) (VR : Valuation Cert.ReferenceIdeal.τ Cert.ReferenceIdeal.sig (Elt Ideal))
    (h_arg7 : VK (Proc.devRef .tc Cert.KernelIdeal.main_arg7) = VR (Proc.devRef .tc Cert.ReferenceIdeal.main_arg7)) :
    StableHlo.after Cert.KernelIdeal.Gen.hostOps0_4 VK (Proc.devRef .tc Cert.KernelIdeal.main_v124)
      = StableHlo.after Cert.ReferenceIdeal.Hand.P4 VR (Proc.devRef .tc Cert.ReferenceIdeal.main_v124) := by
  after_results_simp
  rw [h_arg7]
  try rfl

theorem stage4_v126 (VK : Valuation Cert.KernelIdeal.τ Cert.KernelIdeal.sig (Elt Ideal)) (VR : Valuation Cert.ReferenceIdeal.τ Cert.ReferenceIdeal.sig (Elt Ideal))
    (h_arg8 : VK (Proc.devRef .tc Cert.KernelIdeal.main_arg8) = VR (Proc.devRef .tc Cert.ReferenceIdeal.main_arg8)) :
    StableHlo.after Cert.KernelIdeal.Gen.hostOps0_4 VK (Proc.devRef .tc Cert.KernelIdeal.main_v126)
      = StableHlo.after Cert.ReferenceIdeal.Hand.P4 VR (Proc.devRef .tc Cert.ReferenceIdeal.main_v126) := by
  after_results_simp
  rw [h_arg8]
  try rfl

theorem stage4_v146 (VK : Valuation Cert.KernelIdeal.τ Cert.KernelIdeal.sig (Elt Ideal)) (VR : Valuation Cert.ReferenceIdeal.τ Cert.ReferenceIdeal.sig (Elt Ideal))
    (h_arg2 : VK (Proc.devRef .tc Cert.KernelIdeal.main_arg2) = VR (Proc.devRef .tc Cert.ReferenceIdeal.main_arg2))
    (h_arg7 : VK (Proc.devRef .tc Cert.KernelIdeal.main_arg7) = VR (Proc.devRef .tc Cert.ReferenceIdeal.main_arg7))
    (h_arg8 : VK (Proc.devRef .tc Cert.KernelIdeal.main_arg8) = VR (Proc.devRef .tc Cert.ReferenceIdeal.main_arg8))
    (h_arg17 : VK (Proc.devRef .tc Cert.KernelIdeal.main_arg17) = VR (Proc.devRef .tc Cert.ReferenceIdeal.main_arg17))
    (h_arg18 : VK (Proc.devRef .tc Cert.KernelIdeal.main_arg18) = VR (Proc.devRef .tc Cert.ReferenceIdeal.main_arg18)) :
    StableHlo.after Cert.KernelIdeal.Gen.hostOps0_4 VK (Proc.devRef .tc Cert.KernelIdeal.main_v146)
      = StableHlo.after Cert.ReferenceIdeal.Hand.P4 VR (Proc.devRef .tc Cert.ReferenceIdeal.main_v146) := by
  after_results_simp
  rw [h_arg2, h_arg7, h_arg8, h_arg17, h_arg18]
  try rfl

theorem stage5_v147 (VK : Valuation Cert.KernelIdeal.τ Cert.KernelIdeal.sig (Elt Ideal)) (VR : Valuation Cert.ReferenceIdeal.τ Cert.ReferenceIdeal.sig (Elt Ideal))
    (h_v146 : VK (Proc.devRef .tc Cert.KernelIdeal.main_v146) = VR (Proc.devRef .tc Cert.ReferenceIdeal.main_v146)) :
    StableHlo.after Cert.KernelIdeal.Gen.hostOps0_5 VK (Proc.devRef .tc Cert.KernelIdeal.main_v147)
      = StableHlo.after Cert.ReferenceIdeal.Hand.P5 VR (Proc.devRef .tc Cert.ReferenceIdeal.main_v147) := by
  after_results_simp
  rw [h_v146]
  try rfl

theorem stage6_v183 (VK : Valuation Cert.KernelIdeal.τ Cert.KernelIdeal.sig (Elt Ideal)) (VR : Valuation Cert.ReferenceIdeal.τ Cert.ReferenceIdeal.sig (Elt Ideal))
    (h_v55 : VK (Proc.devRef .tc Cert.KernelIdeal.main_v55) = VR (Proc.devRef .tc Cert.ReferenceIdeal.main_v55))
    (h_v111 : VK (Proc.devRef .tc Cert.KernelIdeal.main_v111) = VR (Proc.devRef .tc Cert.ReferenceIdeal.main_v111))
    (h_v124 : VK (Proc.devRef .tc Cert.KernelIdeal.main_v124) = VR (Proc.devRef .tc Cert.ReferenceIdeal.main_v124))
    (h_v126 : VK (Proc.devRef .tc Cert.KernelIdeal.main_v126) = VR (Proc.devRef .tc Cert.ReferenceIdeal.main_v126))
    (h_v147 : VK (Proc.devRef .tc Cert.KernelIdeal.main_v147) = VR (Proc.devRef .tc Cert.ReferenceIdeal.main_v147))
    (h_arg7 : VK (Proc.devRef .tc Cert.KernelIdeal.main_arg7) = VR (Proc.devRef .tc Cert.ReferenceIdeal.main_arg7))
    (h_arg8 : VK (Proc.devRef .tc Cert.KernelIdeal.main_arg8) = VR (Proc.devRef .tc Cert.ReferenceIdeal.main_arg8))
    (h_arg19 : VK (Proc.devRef .tc Cert.KernelIdeal.main_arg19) = VR (Proc.devRef .tc Cert.ReferenceIdeal.main_arg19))
    (h_arg20 : VK (Proc.devRef .tc Cert.KernelIdeal.main_arg20) = VR (Proc.devRef .tc Cert.ReferenceIdeal.main_arg20))
    (h_arg21 : VK (Proc.devRef .tc Cert.KernelIdeal.main_arg21) = VR (Proc.devRef .tc Cert.ReferenceIdeal.main_arg21))
    (h_arg22 : VK (Proc.devRef .tc Cert.KernelIdeal.main_arg22) = VR (Proc.devRef .tc Cert.ReferenceIdeal.main_arg22))
    (h_arg23 : VK (Proc.devRef .tc Cert.KernelIdeal.main_arg23) = VR (Proc.devRef .tc Cert.ReferenceIdeal.main_arg23)) :
    StableHlo.after Cert.KernelIdeal.Gen.hostOps0_6 VK (Proc.devRef .tc Cert.KernelIdeal.main_v183)
      = StableHlo.after Cert.ReferenceIdeal.Hand.P6 VR (Proc.devRef .tc Cert.ReferenceIdeal.main_v183) := by
  after_results_simp
  rw [h_v55, h_v111, h_v124, h_v126, h_v147, h_arg7, h_arg8, h_arg19, h_arg20, h_arg21, h_arg22, h_arg23]
  try rfl

theorem stage7_v184 (VK : Valuation Cert.KernelIdeal.τ Cert.KernelIdeal.sig (Elt Ideal)) (VR : Valuation Cert.ReferenceIdeal.τ Cert.ReferenceIdeal.sig (Elt Ideal))
    (h_v183 : VK (Proc.devRef .tc Cert.KernelIdeal.main_v183) = VR (Proc.devRef .tc Cert.ReferenceIdeal.main_v183)) :
    StableHlo.after Cert.KernelIdeal.Gen.hostOps0_7 VK (Proc.devRef .tc Cert.KernelIdeal.main_v184)
      = StableHlo.after Cert.ReferenceIdeal.Hand.P7 VR (Proc.devRef .tc Cert.ReferenceIdeal.main_v184) := by
  after_results_simp
  rw [h_v183]
  try rfl

end Cert.Bridge

end
-- ==== Proof.BridgeHostC.lean ====
/-
  Between the dense products the kernel program and the reference program run the same straight-line host operations.
  For each such stretch and each buffer that is read later: when the two valuations agree on the buffers the stretch
  reads for it, they agree on that buffer after the stretch. Each hypothesis list is exactly the set of buffers the
  result depends on.
-/
import proofs.«122112_j6631429505271_1_alg».proof.Proof.Gen.KernelIdeal.Launch
import proofs.«122112_j6631429505271_1_alg».proof.Proof.RefLists
import Idealize.ShloMosaic.Lib.StableHlo.Run
import Idealize.ShloMosaic.PureOps.Ideal

set_option maxRecDepth 8192
set_option maxHeartbeats 4000000

noncomputable section

namespace Cert.Bridge

open Idealize.ShloMosaic Idealize.ShloMosaic.TcCoe Idealize.SL.Sem Idealize.ShloMosaic.StableHlo

theorem stage12_v252 (VK : Valuation Cert.KernelIdeal.τ Cert.KernelIdeal.sig (Elt Ideal)) (VR : Valuation Cert.ReferenceIdeal.τ Cert.ReferenceIdeal.sig (Elt Ideal))
    (h_v240 : VK (Proc.devRef .tc Cert.KernelIdeal.main_v240) = VR (Proc.devRef .tc Cert.ReferenceIdeal.main_v249)) :
    StableHlo.after Cert.KernelIdeal.Gen.hostOps2 VK (Proc.devRef .tc Cert.KernelIdeal.main_v252)
      = StableHlo.after Cert.ReferenceIdeal.Hand.Q2 VR (Proc.devRef .tc Cert.ReferenceIdeal.main_v261) := by
  after_results_simp
  rw [h_v240]
  try rfl

theorem stage12_v255 (VK : Valuation Cert.KernelIdeal.τ Cert.KernelIdeal.sig (Elt Ideal)) (VR : Valuation Cert.ReferenceIdeal.τ Cert.ReferenceIdeal.sig (Elt Ideal))
    (h_v240 : VK (Proc.devRef .tc Cert.KernelIdeal.main_v240) = VR (Proc.devRef .tc Cert.ReferenceIdeal.main_v249)) :
    StableHlo.after Cert.KernelIdeal.Gen.hostOps2 VK (Proc.devRef .tc Cert.KernelIdeal.main_v255)
      = StableHlo.after Cert.ReferenceIdeal.Hand.Q2 VR (Proc.devRef .tc Cert.ReferenceIdeal.main_v264) := by
  after_results_simp
  rw [h_v240]
  try rfl

theorem stage12_v259 (VK : Valuation Cert.KernelIdeal.τ Cert.KernelIdeal.sig (Elt Ideal)) (VR : Valuation Cert.ReferenceIdeal.τ Cert.ReferenceIdeal.sig (Elt Ideal))
    (h_v184 : VK (Proc.devRef .tc Cert.KernelIdeal.main_v184) = VR (Proc.devRef .tc Cert.ReferenceIdeal.main_v184))
    (h_v240 : VK (Proc.devRef .tc Cert.KernelIdeal.main_v240) = VR (Proc.devRef .tc Cert.ReferenceIdeal.main_v249)) :
    StableHlo.after Cert.KernelIdeal.Gen.hostOps2 VK (Proc.devRef .tc Cert.KernelIdeal.main_v259)
      = StableHlo.after Cert.ReferenceIdeal.Hand.Q2 VR (Proc.devRef .tc Cert.ReferenceIdeal.main_v267) := by
  after_results_simp
  rw [h_v184, h_v240]
  try rfl

theorem stage14_v268 (VK : Valuation Cert.KernelIdeal.τ Cert.KernelIdeal.sig (Elt Ideal)) (VR : Valuation Cert.ReferenceIdeal.τ Cert.ReferenceIdeal.sig (Elt Ideal))
    (h_v255 : VK (Proc.devRef .tc Cert.KernelIdeal.main_v255) = VR (Proc.devRef .tc Cert.ReferenceIdeal.main_v264))
    (h_v261 : VK (Proc.devRef .tc Cert.KernelIdeal.main_v261) = VR (Proc.devRef .tc Cert.ReferenceIdeal.main_v268))
    (h_arg28 : VK (Proc.devRef .tc Cert.KernelIdeal.main_arg28) = VR (Proc.devRef .tc Cert.ReferenceIdeal.main_arg28))
    (h_arg29 : VK (Proc.devRef .tc Cert.KernelIdeal.main_arg29) = VR (Proc.devRef .tc Cert.ReferenceIdeal.main_arg29)) :
    StableHlo.after Cert.KernelIdeal.Gen.hostOps3 VK (Proc.devRef .tc Cert.KernelIdeal.main_v268)
      = StableHlo.after Cert.ReferenceIdeal.Hand.Q4 VR (Proc.devRef .tc Cert.ReferenceIdeal.main_v275) := by
  after_results_simp
  rw [h_v255, h_v261, h_arg28, h_arg29]
  try rfl

theorem stage15_v269 (VK : Valuation Cert.KernelIdeal.τ Cert.KernelIdeal.sig (Elt Ideal)) (VR : Valuation Cert.ReferenceIdeal.τ Cert.ReferenceIdeal.sig (Elt Ideal))
    (h_v268 : VK (Proc.devRef .tc Cert.KernelIdeal.main_v268) = VR (Proc.devRef .tc Cert.ReferenceIdeal.main_v275)) :
    StableHlo.after Cert.KernelIdeal.Gen.hostOps3_1 VK (Proc.devRef .tc Cert.KernelIdeal.main_v269)
      = StableHlo.after Cert.ReferenceIdeal.Hand.Q5 VR (Proc.devRef .tc Cert.ReferenceIdeal.main_v276) := by
  after_results_simp
  rw [h_v268]
  try rfl

theorem stage16_v272 (VK : Valuation Cert.KernelIdeal.τ Cert.KernelIdeal.sig (Elt Ideal)) (VR : Valuation Cert.ReferenceIdeal.τ Cert.ReferenceIdeal.sig (Elt Ideal))
    (h_v255 : VK (Proc.devRef .tc Cert.KernelIdeal.main_v255) = VR (Proc.devRef .tc Cert.ReferenceIdeal.main_v264))
    (h_v269 : VK (Proc.devRef .tc Cert.KernelIdeal.main_v269) = VR (Proc.devRef .tc Cert.ReferenceIdeal.main_v276)) :
    StableHlo.after Cert.KernelIdeal.Gen.hostOps3_2 VK (Proc.devRef .tc Cert.KernelIdeal.main_v272)
      = StableHlo.after Cert.ReferenceIdeal.Hand.Q6 VR (Proc.devRef .tc Cert.ReferenceIdeal.main_v279) := by
  after_results_simp
  rw [h_v255, h_v269]
  try rfl

theorem stage18_v281 (VK : Valuation Cert.KernelIdeal.τ Cert.KernelIdeal.sig (Elt Ideal)) (VR : Valuation Cert.ReferenceIdeal.τ Cert.ReferenceIdeal.sig (Elt Ideal))
    (h_v255 : VK (Proc.devRef .tc Cert.KernelIdeal.main_v255) = VR (Proc.devRef .tc Cert.ReferenceIdeal.main_v264))
    (h_v274 : VK (Proc.devRef .tc Cert.KernelIdeal.main_v274) = VR (Proc.devRef .tc Cert.ReferenceIdeal.main_v280))
    (h_arg30 : VK (Proc.devRef .tc Cert.KernelIdeal.main_arg30) = VR (Proc.devRef .tc Cert.ReferenceIdeal.main_arg30))
    (h_arg31 : VK (Proc.devRef .tc Cert.KernelIdeal.main_arg31) = VR (Proc.devRef .tc Cert.ReferenceIdeal.main_arg31)) :
    StableHlo.after Cert.KernelIdeal.Gen.hostOps4 VK (Proc.devRef .tc Cert.KernelIdeal.main_v281)
      = StableHlo.after Cert.ReferenceIdeal.Hand.Q8 VR (Proc.devRef .tc Cert.ReferenceIdeal.main_v287) := by
  after_results_simp
  rw [h_v255, h_v274, h_arg30, h_arg31]
  try rfl

theorem stage18_v283 (VK : Valuation Cert.KernelIdeal.τ Cert.KernelIdeal.sig (Elt Ideal)) (VR : Valuation Cert.ReferenceIdeal.τ Cert.ReferenceIdeal.sig (Elt Ideal))
    (h_v255 : VK (Proc.devRef .tc Cert.KernelIdeal.main_v255) = VR (Proc.devRef .tc Cert.ReferenceIdeal.main_v264))
    (h_v274 : VK (Proc.devRef .tc Cert.KernelIdeal.main_v274) = VR (Proc.devRef .tc Cert.ReferenceIdeal.main_v280))
    (h_arg30 : VK (Proc.devRef .tc Cert.KernelIdeal.main_arg30) = VR (Proc.devRef .tc Cert.ReferenceIdeal.main_arg30))
    (h_arg31 : VK (Proc.devRef .tc Cert.KernelIdeal.main_arg31) = VR (Proc.devRef .tc Cert.ReferenceIdeal.main_arg31)) :
    StableHlo.after Cert.KernelIdeal.Gen.hostOps4 VK (Proc.devRef .tc Cert.KernelIdeal.main_v283)
      = StableHlo.after Cert.ReferenceIdeal.Hand.Q8 VR (Proc.devRef .tc Cert.ReferenceIdeal.main_v288) := by
  after_results_simp
  rw [h_v255, h_v274, h_arg30, h_arg31]
  try rfl

/-- The reshaped bias row the third product reads: the argument's entries under the index bijection. -/
theorem stage8_v237 (VK : Valuation Cert.KernelIdeal.τ Cert.KernelIdeal.sig (Elt Ideal)) :
    StableHlo.after Cert.KernelIdeal.Gen.hostOps0_8 VK (Proc.devRef .tc Cert.KernelIdeal.main_v237)
      = (shapeCast Cert.KernelIdeal.S1x2048 (VK (Proc.devRef .tc Cert.KernelIdeal.main_arg25) : ((⟨Cert.KernelIdeal.S2048, .f32⟩ : BufTy).Contents (Elt Ideal))) Cert.KernelIdeal.Gen.shapeCasts_S2048_S1x2048 : ((⟨Cert.KernelIdeal.S1x2048, .f32⟩ : BufTy).Contents (Elt Ideal))) := by
  after_results_simp
  try rfl

theorem stage10_v239 (VK : Valuation Cert.KernelIdeal.τ Cert.KernelIdeal.sig (Elt Ideal)) :
    StableHlo.after Cert.KernelIdeal.Gen.hostOps1 VK (Proc.devRef .tc Cert.KernelIdeal.main_v239)
      = (shapeCast Cert.KernelIdeal.S1x4096 (VK (Proc.devRef .tc Cert.KernelIdeal.main_arg27) : ((⟨Cert.KernelIdeal.S4096, .f32⟩ : BufTy).Contents (Elt Ideal))) Cert.KernelIdeal.Gen.shapeCasts_S4096_S1x4096 : ((⟨Cert.KernelIdeal.S1x4096, .f32⟩ : BufTy).Contents (Elt Ideal))) := by
  after_results_simp
  try rfl

/-- The all-zero bias vector of the fourth and fifth products. -/
theorem stage12_v256 (VK : Valuation Cert.KernelIdeal.τ Cert.KernelIdeal.sig (Elt Ideal)) :
    StableHlo.after Cert.KernelIdeal.Gen.hostOps2 VK (Proc.devRef .tc Cert.KernelIdeal.main_v256)
      = (broadcastInDim Cert.KernelIdeal.S64 ![] Cert.KernelIdeal.Gen.bcast_S_S64 (constant (F := Ideal) Cert.KernelIdeal.S_ .f32 0x00000000#32) : ((⟨Cert.KernelIdeal.S64, .f32⟩ : BufTy).Contents (Elt Ideal))) := by
  after_results_simp
  try rfl

theorem stage12_v260 (VK : Valuation Cert.KernelIdeal.τ Cert.KernelIdeal.sig (Elt Ideal)) :
    StableHlo.after Cert.KernelIdeal.Gen.hostOps2 VK (Proc.devRef .tc Cert.KernelIdeal.main_v260)
      = (shapeCast Cert.KernelIdeal.S1x64 (broadcastInDim Cert.KernelIdeal.S64 ![] Cert.KernelIdeal.Gen.bcast_S_S64 (constant (F := Ideal) Cert.KernelIdeal.S_ .f32 0x00000000#32) : ((⟨Cert.KernelIdeal.S64, .f32⟩ : BufTy).Contents (Elt Ideal))) Cert.KernelIdeal.Gen.shapeCasts_S64_S1x64 : ((⟨Cert.KernelIdeal.S1x64, .f32⟩ : BufTy).Contents (Elt Ideal))) := by
  after_results_simp
  try rfl

theorem stage16_v273 (VK : Valuation Cert.KernelIdeal.τ Cert.KernelIdeal.sig (Elt Ideal)) :
    StableHlo.after Cert.KernelIdeal.Gen.hostOps3_2 VK (Proc.devRef .tc Cert.KernelIdeal.main_v273)
      = (shapeCast Cert.KernelIdeal.S1x64 (VK (Proc.devRef .tc Cert.KernelIdeal.main_v256) : ((⟨Cert.KernelIdeal.S64, .f32⟩ : BufTy).Contents (Elt Ideal))) Cert.KernelIdeal.Gen.shapeCasts_S64_S1x64 : ((⟨Cert.KernelIdeal.S1x64, .f32⟩ : BufTy).Contents (Elt Ideal))) := by
  after_results_simp
  try rfl

theorem stage18_v284 (VK : Valuation Cert.KernelIdeal.τ Cert.KernelIdeal.sig (Elt Ideal)) :
    StableHlo.after Cert.KernelIdeal.Gen.hostOps4 VK (Proc.devRef .tc Cert.KernelIdeal.main_v284)
      = (shapeCast Cert.KernelIdeal.S1x4096 (broadcastInDim Cert.KernelIdeal.S4096 ![] Cert.KernelIdeal.Gen.bcast_S_S4096 (constant (F := Ideal) Cert.KernelIdeal.S_ .f32 0x00000000#32) : ((⟨Cert.KernelIdeal.S4096, .f32⟩ : BufTy).Contents (Elt Ideal))) Cert.KernelIdeal.Gen.shapeCasts_S4096_S1x4096 : ((⟨Cert.KernelIdeal.S1x4096, .f32⟩ : BufTy).Contents (Elt Ideal))) := by
  after_results_simp
  try rfl

end Cert.Bridge

end
-- ==== Proof.BridgeHostD.lean ====
/-
  The longest host stretch, which builds the dense adjacency matrix from the edge lists: the kernel program and the
  reference program agree on its result when they agree on the six edge-index arguments. The index pairs are
  concatenated from two columns; the operands of each binary operation are rewritten before its body is entered.
-/
import proofs.«122112_j6631429505271_1_alg».proof.Proof.Gen.KernelIdeal.Launch
import proofs.«122112_j6631429505271_1_alg».proof.Proof.RefLists
import Idealize.ShloMosaic.Lib.StableHlo.Run
import Idealize.ShloMosaic.PureOps.Ideal

set_option maxRecDepth 8192
set_option maxHeartbeats 4000000

noncomputable section

namespace Cert.Bridge

open Idealize.ShloMosaic Idealize.ShloMosaic.TcCoe Idealize.SL.Sem Idealize.ShloMosaic.StableHlo

/-- A binary function applied to its two arguments, kept folded so that the arguments are rewritten before the function's body is entered. -/
def app2 {α β γ : Type} (f : α → β → γ) (x : α) (y : β) : γ := f x y

section App2
variable {τ : Topo} {sig : RefSig} {Val : EltTy → Type} {a b y : Ref sig .tc}
/-- A binary operation's result at its own result buffer, as `app2`. -/
theorem binary_result_app2 (f : a.ty.Contents Val → b.ty.Contents Val → y.ty.Contents Val) (ha hb hy) (F : Valuation τ sig Val) :
    (binary (τ := τ) a b y f ha hb hy).result F (no_index (Proc.devRef .tc y)) = app2 f (F (Proc.devRef .tc a)) (F (Proc.devRef .tc b)) :=
  binary_result a b y f ha hb hy F
end App2

theorem stage8_v236 (VK : Valuation Cert.KernelIdeal.τ Cert.KernelIdeal.sig (Elt Ideal)) (VR : Valuation Cert.ReferenceIdeal.τ Cert.ReferenceIdeal.sig (Elt Ideal))
    (h_arg3 : VK (Proc.devRef .tc Cert.KernelIdeal.main_arg3) = VR (Proc.devRef .tc Cert.ReferenceIdeal.main_arg3))
    (h_arg4 : VK (Proc.devRef .tc Cert.KernelIdeal.main_arg4) = VR (Proc.devRef .tc Cert.ReferenceIdeal.main_arg4))
    (h_arg5 : VK (Proc.devRef .tc Cert.KernelIdeal.main_arg5) = VR (Proc.devRef .tc Cert.ReferenceIdeal.main_arg5))
    (h_arg6 : VK (Proc.devRef .tc Cert.KernelIdeal.main_arg6) = VR (Proc.devRef .tc Cert.ReferenceIdeal.main_arg6))
    (h_arg7 : VK (Proc.devRef .tc Cert.KernelIdeal.main_arg7) = VR (Proc.devRef .tc Cert.ReferenceIdeal.main_arg7))
    (h_arg8 : VK (Proc.devRef .tc Cert.KernelIdeal.main_arg8) = VR (Proc.devRef .tc Cert.ReferenceIdeal.main_arg8)) :
    StableHlo.after Cert.KernelIdeal.Gen.hostOps0_8 VK (Proc.devRef .tc Cert.KernelIdeal.main_v236)
      = StableHlo.after Cert.ReferenceIdeal.Hand.P8 VR (Proc.devRef .tc Cert.ReferenceIdeal.main_v236) := by
  simp (disch := decide) only [after_cons, after_nil, nullary_result', unary_result', binary_result_app2, ternary_result', reshape_result',
    nullary_result_ne', unary_result_ne', binary_result_ne', ternary_result_ne', reshape_result_ne']
  rw [h_arg3, h_arg4, h_arg5, h_arg6, h_arg7, h_arg8]
  try rfl

end Cert.Bridge

end
-- ==== Proof.BridgeHost.lean ====
/-
  The host stretches of the kernel program and of the reference program agree buffer by buffer: the four parts gathered.
-/
import proofs.«122112_j6631429505271_1_alg».proof.Proof.BridgeHostA
import proofs.«122112_j6631429505271_1_alg».proof.Proof.BridgeHostB
import proofs.«122112_j6631429505271_1_alg».proof.Proof.BridgeHostC
import proofs.«122112_j6631429505271_1_alg».proof.Proof.BridgeHostD
-- ==== Proof.Spec.lean ====
/-
  The three pointwise epilogues of the tiled products, as functions on the extended reals, and the entry of a
  product-plus-bias that they are applied to. The first product is followed by `max · 0`, the second by a clamp to
  [0, 1], the addition of the single-precision word nearest one tenth and rounding to the nearest integer, ties to
  even; the other three by nothing.
-/
import Idealize.ShloMosaic.PureOps.Ideal

noncomputable section

namespace Cert.Spec

open Idealize.ShloMosaic

/-- `max x 0`: the first product's epilogue. -/
def relu0 (x : EReal) : EReal := max x (Ideal.ofBits .f32 0x00000000#32)

/-- Clamp to [0, 1], add the word 0x3DCCCCCD, round half to even: the second product's epilogue. -/
def clipRound (x : EReal) : EReal :=
  Ideal.liftRound Ideal.roundHalfEven
    (min (Ideal.ofBits .f32 0x3F800000#32) (max (Ideal.ofBits .f32 0x00000000#32) x) + Ideal.ofBits .f32 0x3DCCCCCD#32)

/-- Entry of a product plus a bias row: the sum over the contracted axis of the factors' products, plus the bias. -/
def mmEntry {K : Nat} (a : Fin K → EReal) (b : Fin K → EReal) (bias : EReal) : EReal := (∑ k : Fin K, a k * b k) + bias

end Cert.Spec

end
-- ==== Proof.BridgeRefMM.lean ====
import proofs.«122112_j6631429505271_1_alg».proof.Proof.RefLists
import proofs.«122112_j6631429505271_1_alg».proof.Proof.Spec
import Idealize.ShloMosaic.PureOps.Ideal.Laws
import Idealize.ShloMosaic.Lib.ValueIdx
import Idealize.ShloMosaic.Lib.Pipeline.Value
import Idealize.ShloMosaic.Lib.StableHlo.Run

/-! The reference's five dense products, entry by entry, at the extended reals: each result entry is the sum over the
    contracted axis of the factors' products, plus the bias row's entry where there is one, under the product's
    pointwise epilogue. Stated for an arbitrary valuation of the reference's arrays at the entry of each stretch. -/

noncomputable section

namespace Cert.Bridge

open Cert.ReferenceIdeal Cert.ReferenceIdeal.Gen Idealize.ShloMosaic Idealize.ShloMosaic.TcCoe Idealize.SL.Sem Idealize.ShloMosaic.StableHlo Idealize.ShloMosaic.ValueIdx
open scoped BigOperators

/-! The product dot_S4096x4096_S4096x64_S4096x64_1_0_0_1_n_n, read at an index. -/

theorem lhsA_0 (i : S4096x64.Idx) (q : dot_S4096x4096_S4096x64_S4096x64_1_0_0_1_n_n.contr.Idx) : (dot_S4096x4096_S4096x64_S4096x64_1_0_0_1_n_n.lhsIdx i q 0).val = (i 0).val := by
  unfold DotDims.lhsIdx
  rw [dif_neg (show ¬(0 : Fin S4096x4096.rank) ∈ dot_S4096x4096_S4096x64_S4096x64_1_0_0_1_n_n.lhsBatch by decide), dif_pos (show (0 : Fin S4096x4096.rank) ∈ dot_S4096x4096_S4096x64_S4096x64_1_0_0_1_n_n.lhsNonContracting by decide)]
  rfl
theorem lhsA_1 (i : S4096x64.Idx) (q : dot_S4096x4096_S4096x64_S4096x64_1_0_0_1_n_n.contr.Idx) : (dot_S4096x4096_S4096x64_S4096x64_1_0_0_1_n_n.lhsIdx i q 1).val = (q ⟨0, by decide⟩).val :=
  dot_S4096x4096_S4096x64_S4096x64_1_0_0_1_n_n.lhsIdx_val_of_single rfl i q
theorem rhsA_0 (i : S4096x64.Idx) (q : dot_S4096x4096_S4096x64_S4096x64_1_0_0_1_n_n.contr.Idx) : (dot_S4096x4096_S4096x64_S4096x64_1_0_0_1_n_n.rhsIdx i q 0).val = (q ⟨0, by decide⟩).val :=
  dot_S4096x4096_S4096x64_S4096x64_1_0_0_1_n_n.rhsIdx_val_of_single rfl i q
theorem rhsA_1 (i : S4096x64.Idx) (q : dot_S4096x4096_S4096x64_S4096x64_1_0_0_1_n_n.contr.Idx) : (dot_S4096x4096_S4096x64_S4096x64_1_0_0_1_n_n.rhsIdx i q 1).val = (i 1).val := by
  unfold DotDims.rhsIdx
  rw [dif_neg (show ¬(1 : Fin S4096x64.rank) ∈ dot_S4096x4096_S4096x64_S4096x64_1_0_0_1_n_n.rhsBatch by decide), dif_pos (show (1 : Fin S4096x64.rank) ∈ dot_S4096x4096_S4096x64_S4096x64_1_0_0_1_n_n.rhsNonContracting by decide)]
  rfl

/-- The product's entry is the sum over the contracted axis of the factors' products. -/
theorem dotA_apply (x : FVec Ideal S4096x4096 .f32) (y : FVec Ideal S4096x64 .f32) (i : S4096x64.Idx) :
    Host.dotGeneral (F := Ideal) (φ₁ := .f32) (φ₂ := .f32) dot_S4096x4096_S4096x64_S4096x64_1_0_0_1_n_n none x y i = ∑ k : Fin 4096, (x (ix2 (i 0) k) : EReal) * (y (ix2 k (i 1)) : EReal) := by
  simp only [Host.dotGeneral]
  rw [Ideal.dotGeneral_apply, ← Equiv.sum_comp (ValueIdx.contrEquiv1 dot_S4096x4096_S4096x64_S4096x64_1_0_0_1_n_n 4096 rfl rfl).symm]
  refine Finset.sum_congr rfl fun k _ => ?_
  have hk := ValueIdx.contrEquiv1_symm_val dot_S4096x4096_S4096x64_S4096x64_1_0_0_1_n_n 4096 rfl rfl k
  have el : dot_S4096x4096_S4096x64_S4096x64_1_0_0_1_n_n.lhsIdx i ((ValueIdx.contrEquiv1 dot_S4096x4096_S4096x64_S4096x64_1_0_0_1_n_n 4096 rfl rfl).symm k) = ix2 (i 0) k := funext fun a => Fin.ext (by
    match a with
    | ⟨0, _⟩ => exact lhsA_0 _ _
    | ⟨1, _⟩ => exact (lhsA_1 _ _).trans hk)
  have er : dot_S4096x4096_S4096x64_S4096x64_1_0_0_1_n_n.rhsIdx i ((ValueIdx.contrEquiv1 dot_S4096x4096_S4096x64_S4096x64_1_0_0_1_n_n 4096 rfl rfl).symm k) = ix2 k (i 1) := funext fun a => Fin.ext (by
    match a with
    | ⟨0, _⟩ => exact (rhsA_0 _ _).trans hk
    | ⟨1, _⟩ => exact rhsA_1 _ _)
  rw [el, er]
  rfl

/-! The product dot_S4096x4096_S4096x2048_S4096x2048_1_0_0_1_n_n, read at an index. -/

theorem lhsB_0 (i : S4096x2048.Idx) (q : dot_S4096x4096_S4096x2048_S4096x2048_1_0_0_1_n_n.contr.Idx) : (dot_S4096x4096_S4096x2048_S4096x2048_1_0_0_1_n_n.lhsIdx i q 0).val = (i 0).val := by
  unfold DotDims.lhsIdx
  rw [dif_neg (show ¬(0 : Fin S4096x4096.rank) ∈ dot_S4096x4096_S4096x2048_S4096x2048_1_0_0_1_n_n.lhsBatch by decide), dif_pos (show (0 : Fin S4096x4096.rank) ∈ dot_S4096x4096_S4096x2048_S4096x2048_1_0_0_1_n_n.lhsNonContracting by decide)]
  rfl
theorem lhsB_1 (i : S4096x2048.Idx) (q : dot_S4096x4096_S4096x2048_S4096x2048_1_0_0_1_n_n.contr.Idx) : (dot_S4096x4096_S4096x2048_S4096x2048_1_0_0_1_n_n.lhsIdx i q 1).val = (q ⟨0, by decide⟩).val :=
  dot_S4096x4096_S4096x2048_S4096x2048_1_0_0_1_n_n.lhsIdx_val_of_single rfl i q
theorem rhsB_0 (i : S4096x2048.Idx) (q : dot_S4096x4096_S4096x2048_S4096x2048_1_0_0_1_n_n.contr.Idx) : (dot_S4096x4096_S4096x2048_S4096x2048_1_0_0_1_n_n.rhsIdx i q 0).val = (q ⟨0, by decide⟩).val :=
  dot_S4096x4096_S4096x2048_S4096x2048_1_0_0_1_n_n.rhsIdx_val_of_single rfl i q
theorem rhsB_1 (i : S4096x2048.Idx) (q : dot_S4096x4096_S4096x2048_S4096x2048_1_0_0_1_n_n.contr.Idx) : (dot_S4096x4096_S4096x2048_S4096x2048_1_0_0_1_n_n.rhsIdx i q 1).val = (i 1).val := by
  unfold DotDims.rhsIdx
  rw [dif_neg (show ¬(1 : Fin S4096x2048.rank) ∈ dot_S4096x4096_S4096x2048_S4096x2048_1_0_0_1_n_n.rhsBatch by decide), dif_pos (show (1 : Fin S4096x2048.rank) ∈ dot_S4096x4096_S4096x2048_S4096x2048_1_0_0_1_n_n.rhsNonContracting by decide)]
  rfl

/-- The product's entry is the sum over the contracted axis of the factors' products. -/
theorem dotB_apply (x : FVec Ideal S4096x4096 .f32) (y : FVec Ideal S4096x2048 .f32) (i : S4096x2048.Idx) :
    Host.dotGeneral (F := Ideal) (φ₁ := .f32) (φ₂ := .f32) dot_S4096x4096_S4096x2048_S4096x2048_1_0_0_1_n_n none x y i = ∑ k : Fin 4096, (x (ix2 (i 0) k) : EReal) * (y (ix2 k (i 1)) : EReal) := by
  simp only [Host.dotGeneral]
  rw [Ideal.dotGeneral_apply, ← Equiv.sum_comp (ValueIdx.contrEquiv1 dot_S4096x4096_S4096x2048_S4096x2048_1_0_0_1_n_n 4096 rfl rfl).symm]
  refine Finset.sum_congr rfl fun k _ => ?_
  have hk := ValueIdx.contrEquiv1_symm_val dot_S4096x4096_S4096x2048_S4096x2048_1_0_0_1_n_n 4096 rfl rfl k
  have el : dot_S4096x4096_S4096x2048_S4096x2048_1_0_0_1_n_n.lhsIdx i ((ValueIdx.contrEquiv1 dot_S4096x4096_S4096x2048_S4096x2048_1_0_0_1_n_n 4096 rfl rfl).symm k) = ix2 (i 0) k := funext fun a => Fin.ext (by
    match a with
    | ⟨0, _⟩ => exact lhsB_0 _ _
    | ⟨1, _⟩ => exact (lhsB_1 _ _).trans hk)
  have er : dot_S4096x4096_S4096x2048_S4096x2048_1_0_0_1_n_n.rhsIdx i ((ValueIdx.contrEquiv1 dot_S4096x4096_S4096x2048_S4096x2048_1_0_0_1_n_n 4096 rfl rfl).symm k) = ix2 k (i 1) := funext fun a => Fin.ext (by
    match a with
    | ⟨0, _⟩ => exact (rhsB_0 _ _).trans hk
    | ⟨1, _⟩ => exact rhsB_1 _ _)
  rw [el, er]
  rfl

/-! The product dot_S4096x2048_S2048x4096_S4096x4096_1_0_0_1_n_n, read at an index. -/

theorem lhsC_0 (i : S4096x4096.Idx) (q : dot_S4096x2048_S2048x4096_S4096x4096_1_0_0_1_n_n.contr.Idx) : (dot_S4096x2048_S2048x4096_S4096x4096_1_0_0_1_n_n.lhsIdx i q 0).val = (i 0).val := by
  unfold DotDims.lhsIdx
  rw [dif_neg (show ¬(0 : Fin S4096x2048.rank) ∈ dot_S4096x2048_S2048x4096_S4096x4096_1_0_0_1_n_n.lhsBatch by decide), dif_pos (show (0 : Fin S4096x2048.rank) ∈ dot_S4096x2048_S2048x4096_S4096x4096_1_0_0_1_n_n.lhsNonContracting by decide)]
  rfl
theorem lhsC_1 (i : S4096x4096.Idx) (q : dot_S4096x2048_S2048x4096_S4096x4096_1_0_0_1_n_n.contr.Idx) : (dot_S4096x2048_S2048x4096_S4096x4096_1_0_0_1_n_n.lhsIdx i q 1).val = (q ⟨0, by decide⟩).val :=
  dot_S4096x2048_S2048x4096_S4096x4096_1_0_0_1_n_n.lhsIdx_val_of_single rfl i q
theorem rhsC_0 (i : S4096x4096.Idx) (q : dot_S4096x2048_S2048x4096_S4096x4096_1_0_0_1_n_n.contr.Idx) : (dot_S4096x2048_S2048x4096_S4096x4096_1_0_0_1_n_n.rhsIdx i q 0).val = (q ⟨0, by decide⟩).val :=
  dot_S4096x2048_S2048x4096_S4096x4096_1_0_0_1_n_n.rhsIdx_val_of_single rfl i q
theorem rhsC_1 (i : S4096x4096.Idx) (q : dot_S4096x2048_S2048x4096_S4096x4096_1_0_0_1_n_n.contr.Idx) : (dot_S4096x2048_S2048x4096_S4096x4096_1_0_0_1_n_n.rhsIdx i q 1).val = (i 1).val := by
  unfold DotDims.rhsIdx
  rw [dif_neg (show ¬(1 : Fin S2048x4096.rank) ∈ dot_S4096x2048_S2048x4096_S4096x4096_1_0_0_1_n_n.rhsBatch by decide), dif_pos (show (1 : Fin S2048x4096.rank) ∈ dot_S4096x2048_S2048x4096_S4096x4096_1_0_0_1_n_n.rhsNonContracting by decide)]
  rfl

/-- The product's entry is the sum over the contracted axis of the factors' products. -/
theorem dotC_apply (x : FVec Ideal S4096x2048 .f32) (y : FVec Ideal S2048x4096 .f32) (i : S4096x4096.Idx) :
    Host.dotGeneral (F := Ideal) (φ₁ := .f32) (φ₂ := .f32) dot_S4096x2048_S2048x4096_S4096x4096_1_0_0_1_n_n none x y i = ∑ k : Fin 2048, (x (ix2 (i 0) k) : EReal) * (y (ix2 k (i 1)) : EReal) := by
  simp only [Host.dotGeneral]
  rw [Ideal.dotGeneral_apply, ← Equiv.sum_comp (ValueIdx.contrEquiv1 dot_S4096x2048_S2048x4096_S4096x4096_1_0_0_1_n_n 2048 rfl rfl).symm]
  refine Finset.sum_congr rfl fun k _ => ?_
  have hk := ValueIdx.contrEquiv1_symm_val dot_S4096x2048_S2048x4096_S4096x4096_1_0_0_1_n_n 2048 rfl rfl k
  have el : dot_S4096x2048_S2048x4096_S4096x4096_1_0_0_1_n_n.lhsIdx i ((ValueIdx.contrEquiv1 dot_S4096x2048_S2048x4096_S4096x4096_1_0_0_1_n_n 2048 rfl rfl).symm k) = ix2 (i 0) k := funext fun a => Fin.ext (by
    match a with
    | ⟨0, _⟩ => exact lhsC_0 _ _
    | ⟨1, _⟩ => exact (lhsC_1 _ _).trans hk)
  have er : dot_S4096x2048_S2048x4096_S4096x4096_1_0_0_1_n_n.rhsIdx i ((ValueIdx.contrEquiv1 dot_S4096x2048_S2048x4096_S4096x4096_1_0_0_1_n_n 2048 rfl rfl).symm k) = ix2 k (i 1) := funext fun a => Fin.ext (by
    match a with
    | ⟨0, _⟩ => exact (rhsC_0 _ _).trans hk
    | ⟨1, _⟩ => exact rhsC_1 _ _)
  rw [el, er]
  rfl

/-! The product dot_S4096x64_S64x4096_S4096x4096_1_0_0_1_n_n, read at an index. -/

theorem lhsD_0 (i : S4096x4096.Idx) (q : dot_S4096x64_S64x4096_S4096x4096_1_0_0_1_n_n.contr.Idx) : (dot_S4096x64_S64x4096_S4096x4096_1_0_0_1_n_n.lhsIdx i q 0).val = (i 0).val := by
  unfold DotDims.lhsIdx
  rw [dif_neg (show ¬(0 : Fin S4096x64.rank) ∈ dot_S4096x64_S64x4096_S4096x4096_1_0_0_1_n_n.lhsBatch by decide), dif_pos (show (0 : Fin S4096x64.rank) ∈ dot_S4096x64_S64x4096_S4096x4096_1_0_0_1_n_n.lhsNonContracting by decide)]
  rfl
theorem lhsD_1 (i : S4096x4096.Idx) (q : dot_S4096x64_S64x4096_S4096x4096_1_0_0_1_n_n.contr.Idx) : (dot_S4096x64_S64x4096_S4096x4096_1_0_0_1_n_n.lhsIdx i q 1).val = (q ⟨0, by decide⟩).val :=
  dot_S4096x64_S64x4096_S4096x4096_1_0_0_1_n_n.lhsIdx_val_of_single rfl i q
theorem rhsD_0 (i : S4096x4096.Idx) (q : dot_S4096x64_S64x4096_S4096x4096_1_0_0_1_n_n.contr.Idx) : (dot_S4096x64_S64x4096_S4096x4096_1_0_0_1_n_n.rhsIdx i q 0).val = (q ⟨0, by decide⟩).val :=
  dot_S4096x64_S64x4096_S4096x4096_1_0_0_1_n_n.rhsIdx_val_of_single rfl i q
theorem rhsD_1 (i : S4096x4096.Idx) (q : dot_S4096x64_S64x4096_S4096x4096_1_0_0_1_n_n.contr.Idx) : (dot_S4096x64_S64x4096_S4096x4096_1_0_0_1_n_n.rhsIdx i q 1).val = (i 1).val := by
  unfold DotDims.rhsIdx
  rw [dif_neg (show ¬(1 : Fin S64x4096.rank) ∈ dot_S4096x64_S64x4096_S4096x4096_1_0_0_1_n_n.rhsBatch by decide), dif_pos (show (1 : Fin S64x4096.rank) ∈ dot_S4096x64_S64x4096_S4096x4096_1_0_0_1_n_n.rhsNonContracting by decide)]
  rfl

/-- The product's entry is the sum over the contracted axis of the factors' products. -/
theorem dotD_apply (x : FVec Ideal S4096x64 .f32) (y : FVec Ideal S64x4096 .f32) (i : S4096x4096.Idx) :
    Host.dotGeneral (F := Ideal) (φ₁ := .f32) (φ₂ := .f32) dot_S4096x64_S64x4096_S4096x4096_1_0_0_1_n_n none x y i = ∑ k : Fin 64, (x (ix2 (i 0) k) : EReal) * (y (ix2 k (i 1)) : EReal) := by
  simp only [Host.dotGeneral]
  rw [Ideal.dotGeneral_apply, ← Equiv.sum_comp (ValueIdx.contrEquiv1 dot_S4096x64_S64x4096_S4096x4096_1_0_0_1_n_n 64 rfl rfl).symm]
  refine Finset.sum_congr rfl fun k _ => ?_
  have hk := ValueIdx.contrEquiv1_symm_val dot_S4096x64_S64x4096_S4096x4096_1_0_0_1_n_n 64 rfl rfl k
  have el : dot_S4096x64_S64x4096_S4096x4096_1_0_0_1_n_n.lhsIdx i ((ValueIdx.contrEquiv1 dot_S4096x64_S64x4096_S4096x4096_1_0_0_1_n_n 64 rfl rfl).symm k) = ix2 (i 0) k := funext fun a => Fin.ext (by
    match a with
    | ⟨0, _⟩ => exact lhsD_0 _ _
    | ⟨1, _⟩ => exact (lhsD_1 _ _).trans hk)
  have er : dot_S4096x64_S64x4096_S4096x4096_1_0_0_1_n_n.rhsIdx i ((ValueIdx.contrEquiv1 dot_S4096x64_S64x4096_S4096x4096_1_0_0_1_n_n 64 rfl rfl).symm k) = ix2 k (i 1) := funext fun a => Fin.ext (by
    match a with
    | ⟨0, _⟩ => exact (rhsD_0 _ _).trans hk
    | ⟨1, _⟩ => exact rhsD_1 _ _)
  rw [el, er]
  rfl

/-- A row added to every row of a matrix: read at an index it is the row's entry at the column. -/
theorem biasRowB_apply (x : FVec Ideal S2048 .f32) (i : S4096x2048.Idx) :
    broadcastInDim S4096x2048 ![0, 1] bcast_S1x2048_S4096x2048_0_1 (broadcastInDim S1x2048 ![1] bcast_S2048_S1x2048_1 x) i = x (ix1 (i 1)) := by
  rw [broadcastInDim_apply _ bcast_S1x2048_S4096x2048_0_1 _ i (ix2 ⟨0, Nat.one_pos⟩ (i 1)) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])]
  rw [broadcastInDim_apply _ bcast_S2048_S1x2048_1 _ (ix2 ⟨0, Nat.one_pos⟩ (i 1)) (ix1 (i 1)) (fun a => match a with
    | ⟨0, _⟩ => by show (i 1).val = if (2048 : Nat) = 1 then 0 else (i 1).val; rw [if_neg (by decide)])]

/-- A scalar spread over a matrix: read at an index it is the scalar. -/
theorem splatB_apply (x : FVec Ideal S_ .f32) (i : S4096x2048.Idx) :
    broadcastInDim S4096x2048 ![] bcast_S_S4096x2048 x i = x ix0 :=
  broadcastInDim_apply _ bcast_S_S4096x2048 x i ix0 (fun a => a.elim0)

/-- A row added to every row of a matrix: read at an index it is the row's entry at the column. -/
theorem biasRowC_apply (x : FVec Ideal S4096 .f32) (i : S4096x4096.Idx) :
    broadcastInDim S4096x4096 ![0, 1] bcast_S1x4096_S4096x4096_0_1 (broadcastInDim S1x4096 ![1] bcast_S4096_S1x4096_1 x) i = x (ix1 (i 1)) := by
  rw [broadcastInDim_apply _ bcast_S1x4096_S4096x4096_0_1 _ i (ix2 ⟨0, Nat.one_pos⟩ (i 1)) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])]
  rw [broadcastInDim_apply _ bcast_S4096_S1x4096_1 _ (ix2 ⟨0, Nat.one_pos⟩ (i 1)) (ix1 (i 1)) (fun a => match a with
    | ⟨0, _⟩ => by show (i 1).val = if (4096 : Nat) = 1 then 0 else (i 1).val; rw [if_neg (by decide)])]

/-- A scalar spread over a matrix: read at an index it is the scalar. -/
theorem splatC_apply (x : FVec Ideal S_ .f32) (i : S4096x4096.Idx) :
    broadcastInDim S4096x4096 ![] bcast_S_S4096x4096 x i = x ix0 :=
  broadcastInDim_apply _ bcast_S_S4096x4096 x i ix0 (fun a => a.elim0)

/-! The five products of the reference, entry by entry. -/

/-- The third product: no bias, no epilogue. -/
theorem refQ3 (VR : Valuation Cert.ReferenceIdeal.τ Cert.ReferenceIdeal.sig (Elt Ideal)) (i : S4096x64.Idx) :
    (StableHlo.after Cert.ReferenceIdeal.Hand.Q3 VR (Proc.devRef .tc main_v268) : Vec Ideal S4096x64 .f32) i
      = Cert.Spec.mmEntry (K := 4096) (fun k => (VR (Proc.devRef .tc main_v261) : Vec Ideal S4096x4096 .f32) (ix2 (i 0) k))
          (fun k => (VR (Proc.devRef .tc main_v267) : Vec Ideal S4096x64 .f32) (ix2 k (i 1))) (Ideal.ofBits .f32 0x00000000#32) := by
  have e : (StableHlo.after Cert.ReferenceIdeal.Hand.Q3 VR (Proc.devRef .tc main_v268) : Vec Ideal S4096x64 .f32)
      = Host.dotGeneral (F := Ideal) (φ₁ := .f32) (φ₂ := .f32) dot_S4096x4096_S4096x64_S4096x64_1_0_0_1_n_n none (VR (Proc.devRef .tc main_v261) : Vec Ideal S4096x4096 .f32) (VR (Proc.devRef .tc main_v267) : Vec Ideal S4096x64 .f32) := by
    after_results
  rw [e, dotA_apply]
  unfold Cert.Spec.mmEntry
  rw [Ideal.ofBits_zero_f32, add_zero]

/-- The fourth product: no bias, no epilogue. -/
theorem refQ7 (VR : Valuation Cert.ReferenceIdeal.τ Cert.ReferenceIdeal.sig (Elt Ideal)) (i : S4096x64.Idx) :
    (StableHlo.after Cert.ReferenceIdeal.Hand.Q7 VR (Proc.devRef .tc main_v280) : Vec Ideal S4096x64 .f32) i
      = Cert.Spec.mmEntry (K := 4096) (fun k => (VR (Proc.devRef .tc main_v261) : Vec Ideal S4096x4096 .f32) (ix2 (i 0) k))
          (fun k => (VR (Proc.devRef .tc main_v279) : Vec Ideal S4096x64 .f32) (ix2 k (i 1))) (Ideal.ofBits .f32 0x00000000#32) := by
  have e : (StableHlo.after Cert.ReferenceIdeal.Hand.Q7 VR (Proc.devRef .tc main_v280) : Vec Ideal S4096x64 .f32)
      = Host.dotGeneral (F := Ideal) (φ₁ := .f32) (φ₂ := .f32) dot_S4096x4096_S4096x64_S4096x64_1_0_0_1_n_n none (VR (Proc.devRef .tc main_v261) : Vec Ideal S4096x4096 .f32) (VR (Proc.devRef .tc main_v279) : Vec Ideal S4096x64 .f32) := by
    after_results
  rw [e, dotA_apply]
  unfold Cert.Spec.mmEntry
  rw [Ideal.ofBits_zero_f32, add_zero]

/-- The fifth product: no bias, no epilogue. -/
theorem refQ9 (VR : Valuation Cert.ReferenceIdeal.τ Cert.ReferenceIdeal.sig (Elt Ideal)) (i : S4096x4096.Idx) :
    (StableHlo.after Cert.ReferenceIdeal.Hand.Q9 VR (Proc.devRef .tc main_v289) : Vec Ideal S4096x4096 .f32) i
      = Cert.Spec.mmEntry (K := 64) (fun k => (VR (Proc.devRef .tc main_v287) : Vec Ideal S4096x64 .f32) (ix2 (i 0) k))
          (fun k => (VR (Proc.devRef .tc main_v288) : Vec Ideal S64x4096 .f32) (ix2 k (i 1))) (Ideal.ofBits .f32 0x00000000#32) := by
  have e : (StableHlo.after Cert.ReferenceIdeal.Hand.Q9 VR (Proc.devRef .tc main_v289) : Vec Ideal S4096x4096 .f32)
      = Host.dotGeneral (F := Ideal) (φ₁ := .f32) (φ₂ := .f32) dot_S4096x64_S64x4096_S4096x4096_1_0_0_1_n_n none (VR (Proc.devRef .tc main_v287) : Vec Ideal S4096x64 .f32) (VR (Proc.devRef .tc main_v288) : Vec Ideal S64x4096 .f32) := by
    after_results
  rw [e, dotD_apply]
  unfold Cert.Spec.mmEntry
  rw [Ideal.ofBits_zero_f32, add_zero]

/-- The first product: a bias row, then the maximum with zero. -/
theorem refQ0 (VR : Valuation Cert.ReferenceIdeal.τ Cert.ReferenceIdeal.sig (Elt Ideal)) (i : S4096x2048.Idx) :
    (StableHlo.after Cert.ReferenceIdeal.Hand.Q0 VR (Proc.devRef .tc main_v241) : Vec Ideal S4096x2048 .f32) i
      = Cert.Spec.relu0 (Cert.Spec.mmEntry (K := 4096) (fun k => (VR (Proc.devRef .tc main_v236) : Vec Ideal S4096x4096 .f32) (ix2 (i 0) k))
          (fun k => (VR (Proc.devRef .tc main_arg24) : Vec Ideal S4096x2048 .f32) (ix2 k (i 1))) ((VR (Proc.devRef .tc main_arg25) : Vec Ideal S2048 .f32) (ix1 (i 1)))) := by
  have e : (StableHlo.after Cert.ReferenceIdeal.Hand.Q0 VR (Proc.devRef .tc main_v241) : Vec Ideal S4096x2048 .f32)
      = maximumf (F := Ideal) (addf (F := Ideal) (Host.dotGeneral (F := Ideal) (φ₁ := .f32) (φ₂ := .f32) dot_S4096x4096_S4096x2048_S4096x2048_1_0_0_1_n_n none (VR (Proc.devRef .tc main_v236) : Vec Ideal S4096x4096 .f32) (VR (Proc.devRef .tc main_arg24) : Vec Ideal S4096x2048 .f32))
          (broadcastInDim S4096x2048 ![0, 1] bcast_S1x2048_S4096x2048_0_1 (broadcastInDim S1x2048 ![1] bcast_S2048_S1x2048_1 (VR (Proc.devRef .tc main_arg25) : Vec Ideal S2048 .f32))))
          (broadcastInDim S4096x2048 ![] bcast_S_S4096x2048 (constant (F := Ideal) S_ .f32 0x00000000#32)) := by
    after_results
    rfl
  rw [e, maximumf_apply, addf_apply, dotB_apply, biasRowB_apply, splatB_apply, constant_apply]
  rfl

/-- The second product: a bias row, then the clamp to [0, 1], the added word and the rounding. -/
theorem refQ1 (VR : Valuation Cert.ReferenceIdeal.τ Cert.ReferenceIdeal.sig (Elt Ideal)) (i : S4096x4096.Idx) :
    (StableHlo.after Cert.ReferenceIdeal.Hand.Q1 VR (Proc.devRef .tc main_v249) : Vec Ideal S4096x4096 .f32) i
      = Cert.Spec.clipRound (Cert.Spec.mmEntry (K := 2048) (fun k => (VR (Proc.devRef .tc main_v241) : Vec Ideal S4096x2048 .f32) (ix2 (i 0) k))
          (fun k => (VR (Proc.devRef .tc main_arg26) : Vec Ideal S2048x4096 .f32) (ix2 k (i 1))) ((VR (Proc.devRef .tc main_arg27) : Vec Ideal S4096 .f32) (ix1 (i 1)))) := by
  have e : (StableHlo.after Cert.ReferenceIdeal.Hand.Q1 VR (Proc.devRef .tc main_v249) : Vec Ideal S4096x4096 .f32)
      = Host.roundeven (F := Ideal) (addf (F := Ideal) (minimumf (F := Ideal) (broadcastInDim S4096x4096 ![] bcast_S_S4096x4096 (constant (F := Ideal) S_ .f32 0x3F800000#32))
          (maximumf (F := Ideal) (broadcastInDim S4096x4096 ![] bcast_S_S4096x4096 (constant (F := Ideal) S_ .f32 0x00000000#32))
            (addf (F := Ideal) (Host.dotGeneral (F := Ideal) (φ₁ := .f32) (φ₂ := .f32) dot_S4096x2048_S2048x4096_S4096x4096_1_0_0_1_n_n none (VR (Proc.devRef .tc main_v241) : Vec Ideal S4096x2048 .f32) (VR (Proc.devRef .tc main_arg26) : Vec Ideal S2048x4096 .f32))
              (broadcastInDim S4096x4096 ![0, 1] bcast_S1x4096_S4096x4096_0_1 (broadcastInDim S1x4096 ![1] bcast_S4096_S1x4096_1 (VR (Proc.devRef .tc main_arg27) : Vec Ideal S4096 .f32))))))
          (broadcastInDim S4096x4096 ![] bcast_S_S4096x4096 (constant (F := Ideal) S_ .f32 0x3DCCCCCD#32))) := by
    after_results
    rfl
  rw [e]
  show FloatOps.hostUnary .roundeven (addf _ _ i) = _
  rw [Ideal.hostUnary_roundeven_def, addf_apply, minimumf_apply, maximumf_apply, addf_apply, dotC_apply, biasRowC_apply,
    splatC_apply, splatC_apply, splatC_apply, constant_apply, constant_apply, constant_apply]
  rfl

end Cert.Bridge

end
-- ==== Proof.BridgeRegions.lean ====
import proofs.«122112_j6631429505271_1_alg».proof.Proof.BridgeRefMM
import proofs.«122112_j6631429505271_1_alg».proof.Proof.RefRun
import proofs.«122112_j6631429505271_1_alg».proof.Proof.KiRunW
import proofs.«122112_j6631429505271_1_alg».proof.Proof.BridgeHostC
import proofs.«122112_j6631429505271_1_alg».proof.Proof.Spec

/-! The five tiled products against the reference's five whole products. For each: when the two programs' factors
    (and the bias row, where there is one) agree at the product's entry, and the tiled side's output array holds at
    every index the sum over the contracted axis plus the bias entry under the product's epilogue, the two outputs
    agree. The bias row of the tiled side is the argument row with a leading unit axis added, or all zero. -/

set_option maxRecDepth 16384

noncomputable section

namespace Cert.Bridge

open Idealize.ShloMosaic Idealize.ShloMosaic.TcCoe Idealize.SL.Sem Idealize.ShloMosaic.StableHlo Idealize.ShloMosaic.ValueIdx
open scoped BigOperators

/-! ## Over arbitrary valuations of the two programs' buffers -/

/-- Product 0: the tiled side's array and the whole product agree once their factors do. -/
theorem core0 (VK : Valuation Cert.KernelIdeal.τ Cert.KernelIdeal.sig (Elt Ideal)) (VR : Valuation Cert.ReferenceIdeal.τ Cert.ReferenceIdeal.sig (Elt Ideal))
    (out : Vec Ideal Cert.KernelIdeal.S4096x2048 .f32)
    (ha : VK (Proc.devRef .tc Cert.KernelIdeal.main_v236) = VR (Proc.devRef .tc Cert.ReferenceIdeal.main_v236))
    (hb' : VK (Proc.devRef .tc Cert.KernelIdeal.main_arg24) = VR (Proc.devRef .tc Cert.ReferenceIdeal.main_arg24))
    (row : Vec Ideal Cert.KernelIdeal.S2048 .f32)
    (hrow : row = VR (Proc.devRef .tc Cert.ReferenceIdeal.main_arg25))
    (hbias : VK (Proc.devRef .tc Cert.KernelIdeal.main_v237) = shapeCast Cert.KernelIdeal.S1x2048 row Cert.KernelIdeal.Gen.shapeCasts_S2048_S1x2048)
    (hfinal : ∀ i : Cert.KernelIdeal.S4096x2048.Idx, out i = Cert.Spec.relu0 (Cert.Spec.mmEntry (K := 4096) (fun k => (VK (Proc.devRef .tc Cert.KernelIdeal.main_v236) : Vec Ideal Cert.KernelIdeal.S4096x4096 .f32) (ix2 (i 0) k))
          (fun k => (VK (Proc.devRef .tc Cert.KernelIdeal.main_arg24) : Vec Ideal Cert.KernelIdeal.S4096x2048 .f32) (ix2 k (i 1))) ((VK (Proc.devRef .tc Cert.KernelIdeal.main_v237) : Vec Ideal Cert.KernelIdeal.S1x2048 .f32) (ix2 0 (i 1))))) :
    out = StableHlo.after Cert.ReferenceIdeal.Hand.Q0 VR (Proc.devRef .tc Cert.ReferenceIdeal.main_v241) := by
  funext i
  refine (hfinal i).trans (Eq.trans ?_ (refQ0 VR i).symm)
  have hb : (VK (Proc.devRef .tc Cert.KernelIdeal.main_v237) : Vec Ideal Cert.KernelIdeal.S1x2048 .f32) (ix2 0 (i 1)) = (VR (Proc.devRef .tc Cert.ReferenceIdeal.main_arg25) : Vec Ideal Cert.ReferenceIdeal.S2048 .f32) (ix1 (i 1)) := by
    rw [hbias, shapeCast_addUnit_apply, hrow]
    exact congrArg (VR (Proc.devRef .tc Cert.ReferenceIdeal.main_arg25) : Vec Ideal Cert.ReferenceIdeal.S2048 .f32) (funext fun a => match a with | ⟨0, _⟩ => rfl)
  rw [hb, ha, hb']

/-- Product 1: the tiled side's array and the whole product agree once their factors do. -/
theorem core1 (VK : Valuation Cert.KernelIdeal.τ Cert.KernelIdeal.sig (Elt Ideal)) (VR : Valuation Cert.ReferenceIdeal.τ Cert.ReferenceIdeal.sig (Elt Ideal))
    (out : Vec Ideal Cert.KernelIdeal.S4096x4096 .f32)
    (ha : VK (Proc.devRef .tc Cert.KernelIdeal.main_v238) = VR (Proc.devRef .tc Cert.ReferenceIdeal.main_v241))
    (hb' : VK (Proc.devRef .tc Cert.KernelIdeal.main_arg26) = VR (Proc.devRef .tc Cert.ReferenceIdeal.main_arg26))
    (row : Vec Ideal Cert.KernelIdeal.S4096 .f32)
    (hrow : row = VR (Proc.devRef .tc Cert.ReferenceIdeal.main_arg27))
    (hbias : VK (Proc.devRef .tc Cert.KernelIdeal.main_v239) = shapeCast Cert.KernelIdeal.S1x4096 row Cert.KernelIdeal.Gen.shapeCasts_S4096_S1x4096)
    (hfinal : ∀ i : Cert.KernelIdeal.S4096x4096.Idx, out i = Cert.Spec.clipRound (Cert.Spec.mmEntry (K := 2048) (fun k => (VK (Proc.devRef .tc Cert.KernelIdeal.main_v238) : Vec Ideal Cert.KernelIdeal.S4096x2048 .f32) (ix2 (i 0) k))
          (fun k => (VK (Proc.devRef .tc Cert.KernelIdeal.main_arg26) : Vec Ideal Cert.KernelIdeal.S2048x4096 .f32) (ix2 k (i 1))) ((VK (Proc.devRef .tc Cert.KernelIdeal.main_v239) : Vec Ideal Cert.KernelIdeal.S1x4096 .f32) (ix2 0 (i 1))))) :
    out = StableHlo.after Cert.ReferenceIdeal.Hand.Q1 VR (Proc.devRef .tc Cert.ReferenceIdeal.main_v249) := by
  funext i
  refine (hfinal i).trans (Eq.trans ?_ (refQ1 VR i).symm)
  have hb : (VK (Proc.devRef .tc Cert.KernelIdeal.main_v239) : Vec Ideal Cert.KernelIdeal.S1x4096 .f32) (ix2 0 (i 1)) = (VR (Proc.devRef .tc Cert.ReferenceIdeal.main_arg27) : Vec Ideal Cert.ReferenceIdeal.S4096 .f32) (ix1 (i 1)) := by
    rw [hbias, shapeCast_addUnit_apply, hrow]
    exact congrArg (VR (Proc.devRef .tc Cert.ReferenceIdeal.main_arg27) : Vec Ideal Cert.ReferenceIdeal.S4096 .f32) (funext fun a => match a with | ⟨0, _⟩ => rfl)
  rw [hb, ha, hb']

/-- Product 2: the tiled side's array and the whole product agree once their factors do. -/
theorem core2 (VK : Valuation Cert.KernelIdeal.τ Cert.KernelIdeal.sig (Elt Ideal)) (VR : Valuation Cert.ReferenceIdeal.τ Cert.ReferenceIdeal.sig (Elt Ideal))
    (out : Vec Ideal Cert.KernelIdeal.S4096x64 .f32)
    (ha : VK (Proc.devRef .tc Cert.KernelIdeal.main_v252) = VR (Proc.devRef .tc Cert.ReferenceIdeal.main_v261))
    (hb' : VK (Proc.devRef .tc Cert.KernelIdeal.main_v259) = VR (Proc.devRef .tc Cert.ReferenceIdeal.main_v267))
    (row : Vec Ideal Cert.KernelIdeal.S64 .f32)
    (hrow : row = (broadcastInDim Cert.KernelIdeal.S64 ![] Cert.KernelIdeal.Gen.bcast_S_S64 (constant (F := Ideal) Cert.KernelIdeal.S_ .f32 0x00000000#32) : Vec Ideal Cert.KernelIdeal.S64 .f32))
    (hbias : VK (Proc.devRef .tc Cert.KernelIdeal.main_v260) = shapeCast Cert.KernelIdeal.S1x64 row Cert.KernelIdeal.Gen.shapeCasts_S64_S1x64)
    (hfinal : ∀ i : Cert.KernelIdeal.S4096x64.Idx, out i = Cert.Spec.mmEntry (K := 4096) (fun k => (VK (Proc.devRef .tc Cert.KernelIdeal.main_v252) : Vec Ideal Cert.KernelIdeal.S4096x4096 .f32) (ix2 (i 0) k))
          (fun k => (VK (Proc.devRef .tc Cert.KernelIdeal.main_v259) : Vec Ideal Cert.KernelIdeal.S4096x64 .f32) (ix2 k (i 1))) ((VK (Proc.devRef .tc Cert.KernelIdeal.main_v260) : Vec Ideal Cert.KernelIdeal.S1x64 .f32) (ix2 0 (i 1)))) :
    out = StableHlo.after Cert.ReferenceIdeal.Hand.Q3 VR (Proc.devRef .tc Cert.ReferenceIdeal.main_v268) := by
  funext i
  refine (hfinal i).trans (Eq.trans ?_ (refQ3 VR i).symm)
  have hb : (VK (Proc.devRef .tc Cert.KernelIdeal.main_v260) : Vec Ideal Cert.KernelIdeal.S1x64 .f32) (ix2 0 (i 1)) = Ideal.ofBits .f32 0x00000000#32 := by
    rw [hbias, shapeCast_addUnit_apply, hrow]
    exact broadcastInDim_apply _ Cert.KernelIdeal.Gen.bcast_S_S64 (constant (F := Ideal) Cert.KernelIdeal.S_ .f32 0x00000000#32) _ ix0 (fun a => a.elim0)
  rw [hb, ha, hb']

/-- Product 3: the tiled side's array and the whole product agree once their factors do. -/
theorem core3 (VK : Valuation Cert.KernelIdeal.τ Cert.KernelIdeal.sig (Elt Ideal)) (VR : Valuation Cert.ReferenceIdeal.τ Cert.ReferenceIdeal.sig (Elt Ideal))
    (out : Vec Ideal Cert.KernelIdeal.S4096x64 .f32)
    (ha : VK (Proc.devRef .tc Cert.KernelIdeal.main_v252) = VR (Proc.devRef .tc Cert.ReferenceIdeal.main_v261))
    (hb' : VK (Proc.devRef .tc Cert.KernelIdeal.main_v272) = VR (Proc.devRef .tc Cert.ReferenceIdeal.main_v279))
    (row : Vec Ideal Cert.KernelIdeal.S64 .f32)
    (hrow : row = (broadcastInDim Cert.KernelIdeal.S64 ![] Cert.KernelIdeal.Gen.bcast_S_S64 (constant (F := Ideal) Cert.KernelIdeal.S_ .f32 0x00000000#32) : Vec Ideal Cert.KernelIdeal.S64 .f32))
    (hbias : VK (Proc.devRef .tc Cert.KernelIdeal.main_v273) = shapeCast Cert.KernelIdeal.S1x64 row Cert.KernelIdeal.Gen.shapeCasts_S64_S1x64)
    (hfinal : ∀ i : Cert.KernelIdeal.S4096x64.Idx, out i = Cert.Spec.mmEntry (K := 4096) (fun k => (VK (Proc.devRef .tc Cert.KernelIdeal.main_v252) : Vec Ideal Cert.KernelIdeal.S4096x4096 .f32) (ix2 (i 0) k))
          (fun k => (VK (Proc.devRef .tc Cert.KernelIdeal.main_v272) : Vec Ideal Cert.KernelIdeal.S4096x64 .f32) (ix2 k (i 1))) ((VK (Proc.devRef .tc Cert.KernelIdeal.main_v273) : Vec Ideal Cert.KernelIdeal.S1x64 .f32) (ix2 0 (i 1)))) :
    out = StableHlo.after Cert.ReferenceIdeal.Hand.Q7 VR (Proc.devRef .tc Cert.ReferenceIdeal.main_v280) := by
  funext i
  refine (hfinal i).trans (Eq.trans ?_ (refQ7 VR i).symm)
  have hb : (VK (Proc.devRef .tc Cert.KernelIdeal.main_v273) : Vec Ideal Cert.KernelIdeal.S1x64 .f32) (ix2 0 (i 1)) = Ideal.ofBits .f32 0x00000000#32 := by
    rw [hbias, shapeCast_addUnit_apply, hrow]
    exact broadcastInDim_apply _ Cert.KernelIdeal.Gen.bcast_S_S64 (constant (F := Ideal) Cert.KernelIdeal.S_ .f32 0x00000000#32) _ ix0 (fun a => a.elim0)
  rw [hb, ha, hb']

/-- Product 4: the tiled side's array and the whole product agree once their factors do. -/
theorem core4 (VK : Valuation Cert.KernelIdeal.τ Cert.KernelIdeal.sig (Elt Ideal)) (VR : Valuation Cert.ReferenceIdeal.τ Cert.ReferenceIdeal.sig (Elt Ideal))
    (out : Vec Ideal Cert.KernelIdeal.S4096x4096 .f32)
    (ha : VK (Proc.devRef .tc Cert.KernelIdeal.main_v281) = VR (Proc.devRef .tc Cert.ReferenceIdeal.main_v287))
    (hb' : VK (Proc.devRef .tc Cert.KernelIdeal.main_v283) = VR (Proc.devRef .tc Cert.ReferenceIdeal.main_v288))
    (row : Vec Ideal Cert.KernelIdeal.S4096 .f32)
    (hrow : row = (broadcastInDim Cert.KernelIdeal.S4096 ![] Cert.KernelIdeal.Gen.bcast_S_S4096 (constant (F := Ideal) Cert.KernelIdeal.S_ .f32 0x00000000#32) : Vec Ideal Cert.KernelIdeal.S4096 .f32))
    (hbias : VK (Proc.devRef .tc Cert.KernelIdeal.main_v284) = shapeCast Cert.KernelIdeal.S1x4096 row Cert.KernelIdeal.Gen.shapeCasts_S4096_S1x4096)
    (hfinal : ∀ i : Cert.KernelIdeal.S4096x4096.Idx, out i = Cert.Spec.mmEntry (K := 64) (fun k => (VK (Proc.devRef .tc Cert.KernelIdeal.main_v281) : Vec Ideal Cert.KernelIdeal.S4096x64 .f32) (ix2 (i 0) k))
          (fun k => (VK (Proc.devRef .tc Cert.KernelIdeal.main_v283) : Vec Ideal Cert.KernelIdeal.S64x4096 .f32) (ix2 k (i 1))) ((VK (Proc.devRef .tc Cert.KernelIdeal.main_v284) : Vec Ideal Cert.KernelIdeal.S1x4096 .f32) (ix2 0 (i 1)))) :
    out = StableHlo.after Cert.ReferenceIdeal.Hand.Q9 VR (Proc.devRef .tc Cert.ReferenceIdeal.main_v289) := by
  funext i
  refine (hfinal i).trans (Eq.trans ?_ (refQ9 VR i).symm)
  have hb : (VK (Proc.devRef .tc Cert.KernelIdeal.main_v284) : Vec Ideal Cert.KernelIdeal.S1x4096 .f32) (ix2 0 (i 1)) = Ideal.ofBits .f32 0x00000000#32 := by
    rw [hbias, shapeCast_addUnit_apply, hrow]
    exact broadcastInDim_apply _ Cert.KernelIdeal.Gen.bcast_S_S4096 (constant (F := Ideal) Cert.KernelIdeal.S_ .f32 0x00000000#32) _ ix0 (fun a => a.elim0)
  rw [hb, ha, hb']

/-! ## At the boundaries of the two runs -/

section Steps

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- Region 0: from the agreement of the two factors and of the bias row at its entry, and the value of the tiled product, the
    agreement of its output with the reference's product. -/
theorem region0_step
    (ha : Cert.KernelIdeal.Hand.W9 (F := Ideal) m ρ c (Proc.devRef .tc Cert.KernelIdeal.main_v236) = Cert.ReferenceIdeal.Hand.R9 (F := Ideal) m' c (Proc.devRef .tc Cert.ReferenceIdeal.main_v236))
    (hb : Cert.KernelIdeal.Hand.W9 (F := Ideal) m ρ c (Proc.devRef .tc Cert.KernelIdeal.main_arg24) = Cert.ReferenceIdeal.Hand.R9 (F := Ideal) m' c (Proc.devRef .tc Cert.ReferenceIdeal.main_arg24))
    (hrow : Cert.KernelIdeal.Hand.W8 (F := Ideal) m ρ c (Proc.devRef .tc Cert.KernelIdeal.main_arg25) = Cert.ReferenceIdeal.Hand.R9 (F := Ideal) m' c (Proc.devRef .tc Cert.ReferenceIdeal.main_arg25))
    (hfinal0 : ∀ i : Cert.KernelIdeal.S4096x2048.Idx, ((Cert.KernelIdeal.Hand.dat0 (F := Ideal) (Cert.KernelIdeal.Hand.V9 (F := Ideal) m ρ) c).arrAt 3 Cert.KernelIdeal.cfg0.N : Vec Ideal Cert.KernelIdeal.S4096x2048 .f32) i
        = Cert.Spec.relu0 (Cert.Spec.mmEntry (K := 4096) (fun k => (Cert.KernelIdeal.Hand.V9 (F := Ideal) m ρ c Cert.KernelIdeal.main_v236 : Vec Ideal Cert.KernelIdeal.S4096x4096 .f32) (ix2 (i 0) k))
          (fun k => (Cert.KernelIdeal.Hand.V9 (F := Ideal) m ρ c Cert.KernelIdeal.main_arg24 : Vec Ideal Cert.KernelIdeal.S4096x2048 .f32) (ix2 k (i 1))) ((Cert.KernelIdeal.Hand.V9 (F := Ideal) m ρ c Cert.KernelIdeal.main_v237 : Vec Ideal Cert.KernelIdeal.S1x2048 .f32) (ix2 0 (i 1))))) :
    Cert.KernelIdeal.Hand.W10 (F := Ideal) m ρ c (Proc.devRef .tc Cert.KernelIdeal.main_v238) = Cert.ReferenceIdeal.Hand.R10 (F := Ideal) m' c (Proc.devRef .tc Cert.ReferenceIdeal.main_v241) :=
  (Cert.KernelIdeal.Hand.W10_arr (F := Ideal) m ρ c 3).trans
    (core0 (Cert.KernelIdeal.Hand.W9 (F := Ideal) m ρ c) (Cert.ReferenceIdeal.Hand.R9 (F := Ideal) m' c) _ ha hb (Cert.KernelIdeal.Hand.W8 (F := Ideal) m ρ c (Proc.devRef .tc Cert.KernelIdeal.main_arg25)) hrow (stage8_v237 (Cert.KernelIdeal.Hand.W8 (F := Ideal) m ρ c)) hfinal0)

/-- Region 1: from the agreement of the two factors and of the bias row at its entry, and the value of the tiled product, the
    agreement of its output with the reference's product. -/
theorem region1_step
    (ha : Cert.KernelIdeal.Hand.W11 (F := Ideal) m ρ c (Proc.devRef .tc Cert.KernelIdeal.main_v238) = Cert.ReferenceIdeal.Hand.R10 (F := Ideal) m' c (Proc.devRef .tc Cert.ReferenceIdeal.main_v241))
    (hb : Cert.KernelIdeal.Hand.W11 (F := Ideal) m ρ c (Proc.devRef .tc Cert.KernelIdeal.main_arg26) = Cert.ReferenceIdeal.Hand.R10 (F := Ideal) m' c (Proc.devRef .tc Cert.ReferenceIdeal.main_arg26))
    (hrow : Cert.KernelIdeal.Hand.W10 (F := Ideal) m ρ c (Proc.devRef .tc Cert.KernelIdeal.main_arg27) = Cert.ReferenceIdeal.Hand.R10 (F := Ideal) m' c (Proc.devRef .tc Cert.ReferenceIdeal.main_arg27))
    (hfinal1 : ∀ i : Cert.KernelIdeal.S4096x4096.Idx, ((Cert.KernelIdeal.Hand.dat1 (F := Ideal) (Cert.KernelIdeal.Hand.V11 (F := Ideal) m ρ) c).arrAt 3 Cert.KernelIdeal.cfg1.N : Vec Ideal Cert.KernelIdeal.S4096x4096 .f32) i
        = Cert.Spec.clipRound (Cert.Spec.mmEntry (K := 2048) (fun k => (Cert.KernelIdeal.Hand.V11 (F := Ideal) m ρ c Cert.KernelIdeal.main_v238 : Vec Ideal Cert.KernelIdeal.S4096x2048 .f32) (ix2 (i 0) k))
          (fun k => (Cert.KernelIdeal.Hand.V11 (F := Ideal) m ρ c Cert.KernelIdeal.main_arg26 : Vec Ideal Cert.KernelIdeal.S2048x4096 .f32) (ix2 k (i 1))) ((Cert.KernelIdeal.Hand.V11 (F := Ideal) m ρ c Cert.KernelIdeal.main_v239 : Vec Ideal Cert.KernelIdeal.S1x4096 .f32) (ix2 0 (i 1))))) :
    Cert.KernelIdeal.Hand.W12 (F := Ideal) m ρ c (Proc.devRef .tc Cert.KernelIdeal.main_v240) = Cert.ReferenceIdeal.Hand.R11 (F := Ideal) m' c (Proc.devRef .tc Cert.ReferenceIdeal.main_v249) :=
  (Cert.KernelIdeal.Hand.W12_arr (F := Ideal) m ρ c 3).trans
    (core1 (Cert.KernelIdeal.Hand.W11 (F := Ideal) m ρ c) (Cert.ReferenceIdeal.Hand.R10 (F := Ideal) m' c) _ ha hb (Cert.KernelIdeal.Hand.W10 (F := Ideal) m ρ c (Proc.devRef .tc Cert.KernelIdeal.main_arg27)) hrow (stage10_v239 (Cert.KernelIdeal.Hand.W10 (F := Ideal) m ρ c)) hfinal1)

/-- Region 2: from the agreement of the two factors at its entry, and the value of the tiled product, the
    agreement of its output with the reference's product. -/
theorem region2_step
    (ha : Cert.KernelIdeal.Hand.W13 (F := Ideal) m ρ c (Proc.devRef .tc Cert.KernelIdeal.main_v252) = Cert.ReferenceIdeal.Hand.R12 (F := Ideal) m' c (Proc.devRef .tc Cert.ReferenceIdeal.main_v261))
    (hb : Cert.KernelIdeal.Hand.W13 (F := Ideal) m ρ c (Proc.devRef .tc Cert.KernelIdeal.main_v259) = Cert.ReferenceIdeal.Hand.R12 (F := Ideal) m' c (Proc.devRef .tc Cert.ReferenceIdeal.main_v267))
    (hfinal2 : ∀ i : Cert.KernelIdeal.S4096x64.Idx, ((Cert.KernelIdeal.Hand.dat2 (F := Ideal) (Cert.KernelIdeal.Hand.V13 (F := Ideal) m ρ) c).arrAt 3 Cert.KernelIdeal.cfg2.N : Vec Ideal Cert.KernelIdeal.S4096x64 .f32) i
        = Cert.Spec.mmEntry (K := 4096) (fun k => (Cert.KernelIdeal.Hand.V13 (F := Ideal) m ρ c Cert.KernelIdeal.main_v252 : Vec Ideal Cert.KernelIdeal.S4096x4096 .f32) (ix2 (i 0) k))
          (fun k => (Cert.KernelIdeal.Hand.V13 (F := Ideal) m ρ c Cert.KernelIdeal.main_v259 : Vec Ideal Cert.KernelIdeal.S4096x64 .f32) (ix2 k (i 1))) ((Cert.KernelIdeal.Hand.V13 (F := Ideal) m ρ c Cert.KernelIdeal.main_v260 : Vec Ideal Cert.KernelIdeal.S1x64 .f32) (ix2 0 (i 1)))) :
    Cert.KernelIdeal.Hand.W14 (F := Ideal) m ρ c (Proc.devRef .tc Cert.KernelIdeal.main_v261) = Cert.ReferenceIdeal.Hand.R13 (F := Ideal) m' c (Proc.devRef .tc Cert.ReferenceIdeal.main_v268) :=
  (Cert.KernelIdeal.Hand.W14_arr (F := Ideal) m ρ c 3).trans
    (core2 (Cert.KernelIdeal.Hand.W13 (F := Ideal) m ρ c) (Cert.ReferenceIdeal.Hand.R12 (F := Ideal) m' c) _ ha hb _ rfl (stage12_v260 (Cert.KernelIdeal.Hand.W12 (F := Ideal) m ρ c)) hfinal2)

/-- Region 3: from the agreement of the two factors at its entry, and the value of the tiled product, the
    agreement of its output with the reference's product. -/
theorem region3_step
    (ha : Cert.KernelIdeal.Hand.W17 (F := Ideal) m ρ c (Proc.devRef .tc Cert.KernelIdeal.main_v252) = Cert.ReferenceIdeal.Hand.R16 (F := Ideal) m' c (Proc.devRef .tc Cert.ReferenceIdeal.main_v261))
    (hb : Cert.KernelIdeal.Hand.W17 (F := Ideal) m ρ c (Proc.devRef .tc Cert.KernelIdeal.main_v272) = Cert.ReferenceIdeal.Hand.R16 (F := Ideal) m' c (Proc.devRef .tc Cert.ReferenceIdeal.main_v279))
    (hzero : Cert.KernelIdeal.Hand.W16 (F := Ideal) m ρ c (Proc.devRef .tc Cert.KernelIdeal.main_v256) = (broadcastInDim Cert.KernelIdeal.S64 ![] Cert.KernelIdeal.Gen.bcast_S_S64 (constant (F := Ideal) Cert.KernelIdeal.S_ .f32 0x00000000#32) : Vec Ideal Cert.KernelIdeal.S64 .f32))
    (hfinal3 : ∀ i : Cert.KernelIdeal.S4096x64.Idx, ((Cert.KernelIdeal.Hand.dat3 (F := Ideal) (Cert.KernelIdeal.Hand.V17 (F := Ideal) m ρ) c).arrAt 3 Cert.KernelIdeal.cfg3.N : Vec Ideal Cert.KernelIdeal.S4096x64 .f32) i
        = Cert.Spec.mmEntry (K := 4096) (fun k => (Cert.KernelIdeal.Hand.V17 (F := Ideal) m ρ c Cert.KernelIdeal.main_v252 : Vec Ideal Cert.KernelIdeal.S4096x4096 .f32) (ix2 (i 0) k))
          (fun k => (Cert.KernelIdeal.Hand.V17 (F := Ideal) m ρ c Cert.KernelIdeal.main_v272 : Vec Ideal Cert.KernelIdeal.S4096x64 .f32) (ix2 k (i 1))) ((Cert.KernelIdeal.Hand.V17 (F := Ideal) m ρ c Cert.KernelIdeal.main_v273 : Vec Ideal Cert.KernelIdeal.S1x64 .f32) (ix2 0 (i 1)))) :
    Cert.KernelIdeal.Hand.W18 (F := Ideal) m ρ c (Proc.devRef .tc Cert.KernelIdeal.main_v274) = Cert.ReferenceIdeal.Hand.R17 (F := Ideal) m' c (Proc.devRef .tc Cert.ReferenceIdeal.main_v280) :=
  (Cert.KernelIdeal.Hand.W18_arr (F := Ideal) m ρ c 3).trans
    (core3 (Cert.KernelIdeal.Hand.W17 (F := Ideal) m ρ c) (Cert.ReferenceIdeal.Hand.R16 (F := Ideal) m' c) _ ha hb (Cert.KernelIdeal.Hand.W16 (F := Ideal) m ρ c (Proc.devRef .tc Cert.KernelIdeal.main_v256)) hzero (stage16_v273 (Cert.KernelIdeal.Hand.W16 (F := Ideal) m ρ c)) hfinal3)

/-- Region 4: from the agreement of the two factors at its entry, and the value of the tiled product, the
    agreement of its output with the reference's product. -/
theorem region4_step
    (ha : Cert.KernelIdeal.Hand.W19 (F := Ideal) m ρ c (Proc.devRef .tc Cert.KernelIdeal.main_v281) = Cert.ReferenceIdeal.Hand.R18 (F := Ideal) m' c (Proc.devRef .tc Cert.ReferenceIdeal.main_v287))
    (hb : Cert.KernelIdeal.Hand.W19 (F := Ideal) m ρ c (Proc.devRef .tc Cert.KernelIdeal.main_v283) = Cert.ReferenceIdeal.Hand.R18 (F := Ideal) m' c (Proc.devRef .tc Cert.ReferenceIdeal.main_v288))
    (hfinal4 : ∀ i : Cert.KernelIdeal.S4096x4096.Idx, ((Cert.KernelIdeal.Hand.dat4 (F := Ideal) (Cert.KernelIdeal.Hand.V19 (F := Ideal) m ρ) c).arrAt 3 Cert.KernelIdeal.cfg4.N : Vec Ideal Cert.KernelIdeal.S4096x4096 .f32) i
        = Cert.Spec.mmEntry (K := 64) (fun k => (Cert.KernelIdeal.Hand.V19 (F := Ideal) m ρ c Cert.KernelIdeal.main_v281 : Vec Ideal Cert.KernelIdeal.S4096x64 .f32) (ix2 (i 0) k))
          (fun k => (Cert.KernelIdeal.Hand.V19 (F := Ideal) m ρ c Cert.KernelIdeal.main_v283 : Vec Ideal Cert.KernelIdeal.S64x4096 .f32) (ix2 k (i 1))) ((Cert.KernelIdeal.Hand.V19 (F := Ideal) m ρ c Cert.KernelIdeal.main_v284 : Vec Ideal Cert.KernelIdeal.S1x4096 .f32) (ix2 0 (i 1)))) :
    Cert.KernelIdeal.Hand.W20 (F := Ideal) m ρ c (Proc.devRef .tc Cert.KernelIdeal.main_v285) = Cert.ReferenceIdeal.Hand.R19 (F := Ideal) m' c (Proc.devRef .tc Cert.ReferenceIdeal.main_v289) :=
  (Cert.KernelIdeal.Hand.W20_arr (F := Ideal) m ρ c 3).trans
    (core4 (Cert.KernelIdeal.Hand.W19 (F := Ideal) m ρ c) (Cert.ReferenceIdeal.Hand.R18 (F := Ideal) m' c) _ ha hb _ rfl (stage18_v284 (Cert.KernelIdeal.Hand.W18 (F := Ideal) m ρ c)) hfinal4)

end Steps

end Cert.Bridge

end
-- ==== Proof.BridgeChain.lean ====
/-
  The two runs side by side. Both are folds over the same sequence of stretches: a host stretch on the kernel side
  against the same host stretch on the reference side, a tiled product against a whole product. From launch memories
  holding the same arguments, every buffer that is read later holds the same contents on both sides at every
  boundary, and so do the three results at the end. The whole walk is one statement, so that the comparison of the
  two programs' buffer types is made once.
-/
import proofs.«122112_j6631429505271_1_alg».proof.Proof.BridgeHost
import proofs.«122112_j6631429505271_1_alg».proof.Proof.BridgeRegions
import proofs.«122112_j6631429505271_1_alg».proof.Proof.KiRunW
import proofs.«122112_j6631429505271_1_alg».proof.Proof.RefRun
import proofs.«122112_j6631429505271_1_alg».proof.Proof.RefRunArgs

set_option maxRecDepth 16384
set_option maxHeartbeats 4000000

noncomputable section

namespace Cert.Bridge

open Idealize.ShloMosaic Idealize.ShloMosaic.TcCoe Idealize.SL.Sem Idealize.ShloMosaic.StableHlo
open Idealize.ShloMosaic.ValueIdx
open scoped BigOperators

/-- The two launch memories hold the same thirty-two argument arrays on core `c`. -/
def Hag (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
    ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
    ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
    ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
    ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
    ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
    ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
    ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
    ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
    ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
    ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
    ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)

/-- From launch memories holding the same arguments, and the five tiled products' values, the two runs end with
    the same three results: the rounded adjacency estimate, the reconstructed adjacency product and the second
    layer's node features. Step by step along the boundaries: an argument is written by neither side; a buffer a
    host stretch writes agrees by the stretch's lemma from the agreements of the buffers it depends on; a buffer a
    stretch does not write is carried on both sides; a tiled product's output agrees by that product's step. -/
theorem bridge_all (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD) (hag : Hag m m' c)
    (hf0 : ∀ i : Cert.KernelIdeal.S4096x2048.Idx, ((Cert.KernelIdeal.Hand.dat0 (F := Ideal) (Cert.KernelIdeal.Hand.V9 (F := Ideal) m ρ) c).arrAt 3 Cert.KernelIdeal.cfg0.N : Vec Ideal Cert.KernelIdeal.S4096x2048 .f32) i
        = Cert.Spec.relu0 (Cert.Spec.mmEntry (K := 4096) (fun k => (Cert.KernelIdeal.Hand.V9 (F := Ideal) m ρ c Cert.KernelIdeal.main_v236 : Vec Ideal Cert.KernelIdeal.S4096x4096 .f32) (ix2 (i 0) k))
          (fun k => (Cert.KernelIdeal.Hand.V9 (F := Ideal) m ρ c Cert.KernelIdeal.main_arg24 : Vec Ideal Cert.KernelIdeal.S4096x2048 .f32) (ix2 k (i 1))) ((Cert.KernelIdeal.Hand.V9 (F := Ideal) m ρ c Cert.KernelIdeal.main_v237 : Vec Ideal Cert.KernelIdeal.S1x2048 .f32) (ix2 0 (i 1)))))
    (hf1 : ∀ i : Cert.KernelIdeal.S4096x4096.Idx, ((Cert.KernelIdeal.Hand.dat1 (F := Ideal) (Cert.KernelIdeal.Hand.V11 (F := Ideal) m ρ) c).arrAt 3 Cert.KernelIdeal.cfg1.N : Vec Ideal Cert.KernelIdeal.S4096x4096 .f32) i
        = Cert.Spec.clipRound (Cert.Spec.mmEntry (K := 2048) (fun k => (Cert.KernelIdeal.Hand.V11 (F := Ideal) m ρ c Cert.KernelIdeal.main_v238 : Vec Ideal Cert.KernelIdeal.S4096x2048 .f32) (ix2 (i 0) k))
          (fun k => (Cert.KernelIdeal.Hand.V11 (F := Ideal) m ρ c Cert.KernelIdeal.main_arg26 : Vec Ideal Cert.KernelIdeal.S2048x4096 .f32) (ix2 k (i 1))) ((Cert.KernelIdeal.Hand.V11 (F := Ideal) m ρ c Cert.KernelIdeal.main_v239 : Vec Ideal Cert.KernelIdeal.S1x4096 .f32) (ix2 0 (i 1)))))
    (hf2 : ∀ i : Cert.KernelIdeal.S4096x64.Idx, ((Cert.KernelIdeal.Hand.dat2 (F := Ideal) (Cert.KernelIdeal.Hand.V13 (F := Ideal) m ρ) c).arrAt 3 Cert.KernelIdeal.cfg2.N : Vec Ideal Cert.KernelIdeal.S4096x64 .f32) i
        = Cert.Spec.mmEntry (K := 4096) (fun k => (Cert.KernelIdeal.Hand.V13 (F := Ideal) m ρ c Cert.KernelIdeal.main_v252 : Vec Ideal Cert.KernelIdeal.S4096x4096 .f32) (ix2 (i 0) k))
          (fun k => (Cert.KernelIdeal.Hand.V13 (F := Ideal) m ρ c Cert.KernelIdeal.main_v259 : Vec Ideal Cert.KernelIdeal.S4096x64 .f32) (ix2 k (i 1))) ((Cert.KernelIdeal.Hand.V13 (F := Ideal) m ρ c Cert.KernelIdeal.main_v260 : Vec Ideal Cert.KernelIdeal.S1x64 .f32) (ix2 0 (i 1))))
    (hf3 : ∀ i : Cert.KernelIdeal.S4096x64.Idx, ((Cert.KernelIdeal.Hand.dat3 (F := Ideal) (Cert.KernelIdeal.Hand.V17 (F := Ideal) m ρ) c).arrAt 3 Cert.KernelIdeal.cfg3.N : Vec Ideal Cert.KernelIdeal.S4096x64 .f32) i
        = Cert.Spec.mmEntry (K := 4096) (fun k => (Cert.KernelIdeal.Hand.V17 (F := Ideal) m ρ c Cert.KernelIdeal.main_v252 : Vec Ideal Cert.KernelIdeal.S4096x4096 .f32) (ix2 (i 0) k))
          (fun k => (Cert.KernelIdeal.Hand.V17 (F := Ideal) m ρ c Cert.KernelIdeal.main_v272 : Vec Ideal Cert.KernelIdeal.S4096x64 .f32) (ix2 k (i 1))) ((Cert.KernelIdeal.Hand.V17 (F := Ideal) m ρ c Cert.KernelIdeal.main_v273 : Vec Ideal Cert.KernelIdeal.S1x64 .f32) (ix2 0 (i 1))))
    (hf4 : ∀ i : Cert.KernelIdeal.S4096x4096.Idx, ((Cert.KernelIdeal.Hand.dat4 (F := Ideal) (Cert.KernelIdeal.Hand.V19 (F := Ideal) m ρ) c).arrAt 3 Cert.KernelIdeal.cfg4.N : Vec Ideal Cert.KernelIdeal.S4096x4096 .f32) i
        = Cert.Spec.mmEntry (K := 64) (fun k => (Cert.KernelIdeal.Hand.V19 (F := Ideal) m ρ c Cert.KernelIdeal.main_v281 : Vec Ideal Cert.KernelIdeal.S4096x64 .f32) (ix2 (i 0) k))
          (fun k => (Cert.KernelIdeal.Hand.V19 (F := Ideal) m ρ c Cert.KernelIdeal.main_v283 : Vec Ideal Cert.KernelIdeal.S64x4096 .f32) (ix2 k (i 1))) ((Cert.KernelIdeal.Hand.V19 (F := Ideal) m ρ c Cert.KernelIdeal.main_v284 : Vec Ideal Cert.KernelIdeal.S1x4096 .f32) (ix2 0 (i 1)))) :
    (Cert.KernelIdeal.Hand.W20 (F := Ideal) m ρ c (Proc.devRef .tc Cert.KernelIdeal.main_v240)
        = Cert.ReferenceIdeal.Hand.R19 (F := Ideal) m' c (Proc.devRef .tc Cert.ReferenceIdeal.main_v249))
    ∧ (Cert.KernelIdeal.Hand.W20 (F := Ideal) m ρ c (Proc.devRef .tc Cert.KernelIdeal.main_v285)
        = Cert.ReferenceIdeal.Hand.R19 (F := Ideal) m' c (Proc.devRef .tc Cert.ReferenceIdeal.main_v289))
    ∧ (Cert.KernelIdeal.Hand.W20 (F := Ideal) m ρ c (Proc.devRef .tc Cert.KernelIdeal.main_v281)
        = Cert.ReferenceIdeal.Hand.R19 (F := Ideal) m' c (Proc.devRef .tc Cert.ReferenceIdeal.main_v287)) := by
  obtain ⟨h0, h1, h2, h3, h4, h5, h6, h7, h8, h9, h10, h11, h12, h13, h14, h15, h16, h17, h18, h19, h20, h21, h22, h23, h24, h25, h26, h27, h28, h29, h30, h31⟩ := hag
  have agr9_v236 : Cert.KernelIdeal.Hand.W9 (F := Ideal) m ρ c (Proc.devRef .tc Cert.KernelIdeal.main_v236)
        = Cert.ReferenceIdeal.Hand.R9 (F := Ideal) m' c (Proc.devRef .tc Cert.ReferenceIdeal.main_v236) :=
    stage8_v236 (Cert.KernelIdeal.Hand.W8 (F := Ideal) m ρ c) (Cert.ReferenceIdeal.Hand.R8 (F := Ideal) m' c)
      ((Cert.KernelIdeal.Hand.W8_args (F := Ideal) m ρ c Cert.KernelIdeal.main_arg3 (by decide)).trans (h3.symm.trans (Cert.ReferenceIdeal.Hand.R8_args (F := Ideal) m' c Cert.ReferenceIdeal.main_arg3 (by decide)).symm))
      ((Cert.KernelIdeal.Hand.W8_args (F := Ideal) m ρ c Cert.KernelIdeal.main_arg4 (by decide)).trans (h4.symm.trans (Cert.ReferenceIdeal.Hand.R8_args (F := Ideal) m' c Cert.ReferenceIdeal.main_arg4 (by decide)).symm))
      ((Cert.KernelIdeal.Hand.W8_args (F := Ideal) m ρ c Cert.KernelIdeal.main_arg5 (by decide)).trans (h5.symm.trans (Cert.ReferenceIdeal.Hand.R8_args (F := Ideal) m' c Cert.ReferenceIdeal.main_arg5 (by decide)).symm))
      ((Cert.KernelIdeal.Hand.W8_args (F := Ideal) m ρ c Cert.KernelIdeal.main_arg6 (by decide)).trans (h6.symm.trans (Cert.ReferenceIdeal.Hand.R8_args (F := Ideal) m' c Cert.ReferenceIdeal.main_arg6 (by decide)).symm))
      ((Cert.KernelIdeal.Hand.W8_args (F := Ideal) m ρ c Cert.KernelIdeal.main_arg7 (by decide)).trans (h7.symm.trans (Cert.ReferenceIdeal.Hand.R8_args (F := Ideal) m' c Cert.ReferenceIdeal.main_arg7 (by decide)).symm))
      ((Cert.KernelIdeal.Hand.W8_args (F := Ideal) m ρ c Cert.KernelIdeal.main_arg8 (by decide)).trans (h8.symm.trans (Cert.ReferenceIdeal.Hand.R8_args (F := Ideal) m' c Cert.ReferenceIdeal.main_arg8 (by decide)).symm))
  have agr10_v238 : Cert.KernelIdeal.Hand.W10 (F := Ideal) m ρ c (Proc.devRef .tc Cert.KernelIdeal.main_v238)
        = Cert.ReferenceIdeal.Hand.R10 (F := Ideal) m' c (Proc.devRef .tc Cert.ReferenceIdeal.main_v241) :=
    region0_step m ρ m' c
      agr9_v236
      ((Cert.KernelIdeal.Hand.W9_args (F := Ideal) m ρ c Cert.KernelIdeal.main_arg24 (by decide)).trans (h24.symm.trans (Cert.ReferenceIdeal.Hand.R9_args (F := Ideal) m' c Cert.ReferenceIdeal.main_arg24 (by decide)).symm))
      ((Cert.KernelIdeal.Hand.W8_args (F := Ideal) m ρ c Cert.KernelIdeal.main_arg25 (by decide)).trans (h25.symm.trans (Cert.ReferenceIdeal.Hand.R9_args (F := Ideal) m' c Cert.ReferenceIdeal.main_arg25 (by decide)).symm))
      hf0
  have agr11_v238 : Cert.KernelIdeal.Hand.W11 (F := Ideal) m ρ c (Proc.devRef .tc Cert.KernelIdeal.main_v238)
        = Cert.ReferenceIdeal.Hand.R10 (F := Ideal) m' c (Proc.devRef .tc Cert.ReferenceIdeal.main_v241) :=
    (Cert.KernelIdeal.Hand.W11_of (F := Ideal) m ρ c Cert.KernelIdeal.main_v238 (by decide)).trans agr10_v238
  have agr12_v240 : Cert.KernelIdeal.Hand.W12 (F := Ideal) m ρ c (Proc.devRef .tc Cert.KernelIdeal.main_v240)
        = Cert.ReferenceIdeal.Hand.R11 (F := Ideal) m' c (Proc.devRef .tc Cert.ReferenceIdeal.main_v249) :=
    region1_step m ρ m' c
      agr11_v238
      ((Cert.KernelIdeal.Hand.W11_args (F := Ideal) m ρ c Cert.KernelIdeal.main_arg26 (by decide)).trans (h26.symm.trans (Cert.ReferenceIdeal.Hand.R10_args (F := Ideal) m' c Cert.ReferenceIdeal.main_arg26 (by decide)).symm))
      ((Cert.KernelIdeal.Hand.W10_args (F := Ideal) m ρ c Cert.KernelIdeal.main_arg27 (by decide)).trans (h27.symm.trans (Cert.ReferenceIdeal.Hand.R10_args (F := Ideal) m' c Cert.ReferenceIdeal.main_arg27 (by decide)).symm))
      hf1
  have agr13_v240 : Cert.KernelIdeal.Hand.W13 (F := Ideal) m ρ c (Proc.devRef .tc Cert.KernelIdeal.main_v240)
        = Cert.ReferenceIdeal.Hand.R12 (F := Ideal) m' c (Proc.devRef .tc Cert.ReferenceIdeal.main_v249) :=
    (Cert.KernelIdeal.Hand.W13_of (F := Ideal) m ρ c Cert.KernelIdeal.main_v240 (by decide)).trans (agr12_v240.trans (Cert.ReferenceIdeal.Hand.R12_of (F := Ideal) m' c Cert.ReferenceIdeal.main_v249 (by decide)).symm)
  have agr14_v240 : Cert.KernelIdeal.Hand.W14 (F := Ideal) m ρ c (Proc.devRef .tc Cert.KernelIdeal.main_v240)
        = Cert.ReferenceIdeal.Hand.R13 (F := Ideal) m' c (Proc.devRef .tc Cert.ReferenceIdeal.main_v249) :=
    (Cert.KernelIdeal.Hand.W14_of_ne (F := Ideal) m ρ c Cert.KernelIdeal.main_v240 (by decide +kernel)).trans (agr13_v240.trans (Cert.ReferenceIdeal.Hand.R13_of (F := Ideal) m' c Cert.ReferenceIdeal.main_v249 (by decide)).symm)
  have agr15_v240 : Cert.KernelIdeal.Hand.W15 (F := Ideal) m ρ c (Proc.devRef .tc Cert.KernelIdeal.main_v240)
        = Cert.ReferenceIdeal.Hand.R14 (F := Ideal) m' c (Proc.devRef .tc Cert.ReferenceIdeal.main_v249) :=
    (Cert.KernelIdeal.Hand.W15_of (F := Ideal) m ρ c Cert.KernelIdeal.main_v240 (by decide)).trans (agr14_v240.trans (Cert.ReferenceIdeal.Hand.R14_of (F := Ideal) m' c Cert.ReferenceIdeal.main_v249 (by decide)).symm)
  have agr16_v240 : Cert.KernelIdeal.Hand.W16 (F := Ideal) m ρ c (Proc.devRef .tc Cert.KernelIdeal.main_v240)
        = Cert.ReferenceIdeal.Hand.R15 (F := Ideal) m' c (Proc.devRef .tc Cert.ReferenceIdeal.main_v249) :=
    (Cert.KernelIdeal.Hand.W16_of (F := Ideal) m ρ c Cert.KernelIdeal.main_v240 (by decide)).trans (agr15_v240.trans (Cert.ReferenceIdeal.Hand.R15_of (F := Ideal) m' c Cert.ReferenceIdeal.main_v249 (by decide)).symm)
  have agr17_v240 : Cert.KernelIdeal.Hand.W17 (F := Ideal) m ρ c (Proc.devRef .tc Cert.KernelIdeal.main_v240)
        = Cert.ReferenceIdeal.Hand.R16 (F := Ideal) m' c (Proc.devRef .tc Cert.ReferenceIdeal.main_v249) :=
    (Cert.KernelIdeal.Hand.W17_of (F := Ideal) m ρ c Cert.KernelIdeal.main_v240 (by decide)).trans (agr16_v240.trans (Cert.ReferenceIdeal.Hand.R16_of (F := Ideal) m' c Cert.ReferenceIdeal.main_v249 (by decide)).symm)
  have agr18_v240 : Cert.KernelIdeal.Hand.W18 (F := Ideal) m ρ c (Proc.devRef .tc Cert.KernelIdeal.main_v240)
        = Cert.ReferenceIdeal.Hand.R17 (F := Ideal) m' c (Proc.devRef .tc Cert.ReferenceIdeal.main_v249) :=
    (Cert.KernelIdeal.Hand.W18_of_ne (F := Ideal) m ρ c Cert.KernelIdeal.main_v240 (by decide +kernel)).trans (agr17_v240.trans (Cert.ReferenceIdeal.Hand.R17_of (F := Ideal) m' c Cert.ReferenceIdeal.main_v249 (by decide)).symm)
  have agr19_v240 : Cert.KernelIdeal.Hand.W19 (F := Ideal) m ρ c (Proc.devRef .tc Cert.KernelIdeal.main_v240)
        = Cert.ReferenceIdeal.Hand.R18 (F := Ideal) m' c (Proc.devRef .tc Cert.ReferenceIdeal.main_v249) :=
    (Cert.KernelIdeal.Hand.W19_of (F := Ideal) m ρ c Cert.KernelIdeal.main_v240 (by decide)).trans (agr18_v240.trans (Cert.ReferenceIdeal.Hand.R18_of (F := Ideal) m' c Cert.ReferenceIdeal.main_v249 (by decide)).symm)
  have agr20_v240 : Cert.KernelIdeal.Hand.W20 (F := Ideal) m ρ c (Proc.devRef .tc Cert.KernelIdeal.main_v240)
        = Cert.ReferenceIdeal.Hand.R19 (F := Ideal) m' c (Proc.devRef .tc Cert.ReferenceIdeal.main_v249) :=
    (Cert.KernelIdeal.Hand.W20_of_ne (F := Ideal) m ρ c Cert.KernelIdeal.main_v240 (by decide +kernel)).trans (agr19_v240.trans (Cert.ReferenceIdeal.Hand.R19_of (F := Ideal) m' c Cert.ReferenceIdeal.main_v249 (by decide)).symm)
  have agr13_v255 : Cert.KernelIdeal.Hand.W13 (F := Ideal) m ρ c (Proc.devRef .tc Cert.KernelIdeal.main_v255)
        = Cert.ReferenceIdeal.Hand.R12 (F := Ideal) m' c (Proc.devRef .tc Cert.ReferenceIdeal.main_v264) :=
    stage12_v255 (Cert.KernelIdeal.Hand.W12 (F := Ideal) m ρ c) (Cert.ReferenceIdeal.Hand.R11 (F := Ideal) m' c)
      agr12_v240
  have agr14_v255 : Cert.KernelIdeal.Hand.W14 (F := Ideal) m ρ c (Proc.devRef .tc Cert.KernelIdeal.main_v255)
        = Cert.ReferenceIdeal.Hand.R13 (F := Ideal) m' c (Proc.devRef .tc Cert.ReferenceIdeal.main_v264) :=
    (Cert.KernelIdeal.Hand.W14_of_ne (F := Ideal) m ρ c Cert.KernelIdeal.main_v255 (by decide +kernel)).trans (agr13_v255.trans (Cert.ReferenceIdeal.Hand.R13_of (F := Ideal) m' c Cert.ReferenceIdeal.main_v264 (by decide)).symm)
  have agr15_v255 : Cert.KernelIdeal.Hand.W15 (F := Ideal) m ρ c (Proc.devRef .tc Cert.KernelIdeal.main_v255)
        = Cert.ReferenceIdeal.Hand.R14 (F := Ideal) m' c (Proc.devRef .tc Cert.ReferenceIdeal.main_v264) :=
    (Cert.KernelIdeal.Hand.W15_of (F := Ideal) m ρ c Cert.KernelIdeal.main_v255 (by decide)).trans (agr14_v255.trans (Cert.ReferenceIdeal.Hand.R14_of (F := Ideal) m' c Cert.ReferenceIdeal.main_v264 (by decide)).symm)
  have agr16_v255 : Cert.KernelIdeal.Hand.W16 (F := Ideal) m ρ c (Proc.devRef .tc Cert.KernelIdeal.main_v255)
        = Cert.ReferenceIdeal.Hand.R15 (F := Ideal) m' c (Proc.devRef .tc Cert.ReferenceIdeal.main_v264) :=
    (Cert.KernelIdeal.Hand.W16_of (F := Ideal) m ρ c Cert.KernelIdeal.main_v255 (by decide)).trans (agr15_v255.trans (Cert.ReferenceIdeal.Hand.R15_of (F := Ideal) m' c Cert.ReferenceIdeal.main_v264 (by decide)).symm)
  have agr17_v255 : Cert.KernelIdeal.Hand.W17 (F := Ideal) m ρ c (Proc.devRef .tc Cert.KernelIdeal.main_v255)
        = Cert.ReferenceIdeal.Hand.R16 (F := Ideal) m' c (Proc.devRef .tc Cert.ReferenceIdeal.main_v264) :=
    (Cert.KernelIdeal.Hand.W17_of (F := Ideal) m ρ c Cert.KernelIdeal.main_v255 (by decide)).trans (agr16_v255.trans (Cert.ReferenceIdeal.Hand.R16_of (F := Ideal) m' c Cert.ReferenceIdeal.main_v264 (by decide)).symm)
  have agr18_v255 : Cert.KernelIdeal.Hand.W18 (F := Ideal) m ρ c (Proc.devRef .tc Cert.KernelIdeal.main_v255)
        = Cert.ReferenceIdeal.Hand.R17 (F := Ideal) m' c (Proc.devRef .tc Cert.ReferenceIdeal.main_v264) :=
    (Cert.KernelIdeal.Hand.W18_of_ne (F := Ideal) m ρ c Cert.KernelIdeal.main_v255 (by decide +kernel)).trans (agr17_v255.trans (Cert.ReferenceIdeal.Hand.R17_of (F := Ideal) m' c Cert.ReferenceIdeal.main_v264 (by decide)).symm)
  have agr13_v252 : Cert.KernelIdeal.Hand.W13 (F := Ideal) m ρ c (Proc.devRef .tc Cert.KernelIdeal.main_v252)
        = Cert.ReferenceIdeal.Hand.R12 (F := Ideal) m' c (Proc.devRef .tc Cert.ReferenceIdeal.main_v261) :=
    stage12_v252 (Cert.KernelIdeal.Hand.W12 (F := Ideal) m ρ c) (Cert.ReferenceIdeal.Hand.R11 (F := Ideal) m' c)
      agr12_v240
  have agr14_v252 : Cert.KernelIdeal.Hand.W14 (F := Ideal) m ρ c (Proc.devRef .tc Cert.KernelIdeal.main_v252)
        = Cert.ReferenceIdeal.Hand.R13 (F := Ideal) m' c (Proc.devRef .tc Cert.ReferenceIdeal.main_v261) :=
    (show Cert.KernelIdeal.Hand.W14 (F := Ideal) m ρ c (Proc.devRef .tc Cert.KernelIdeal.main_v252) = Cert.KernelIdeal.Hand.W13 (F := Ideal) m ρ c (Proc.devRef .tc Cert.KernelIdeal.main_v252) from
      (Cert.KernelIdeal.Hand.W14_arr (F := Ideal) m ρ c 0).trans (((Cert.KernelIdeal.Hand.dat2 (F := Ideal) (Cert.KernelIdeal.Hand.V13 (F := Ideal) m ρ) c).arrAt_in 0 rfl _).trans (Cert.KernelIdeal.Hand.A_eq2 (F := Ideal) (Cert.KernelIdeal.Hand.V13 (F := Ideal) m ρ) c 0))).trans (agr13_v252.trans (Cert.ReferenceIdeal.Hand.R13_of (F := Ideal) m' c Cert.ReferenceIdeal.main_v261 (by decide)).symm)
  have agr15_v252 : Cert.KernelIdeal.Hand.W15 (F := Ideal) m ρ c (Proc.devRef .tc Cert.KernelIdeal.main_v252)
        = Cert.ReferenceIdeal.Hand.R14 (F := Ideal) m' c (Proc.devRef .tc Cert.ReferenceIdeal.main_v261) :=
    (Cert.KernelIdeal.Hand.W15_of (F := Ideal) m ρ c Cert.KernelIdeal.main_v252 (by decide)).trans (agr14_v252.trans (Cert.ReferenceIdeal.Hand.R14_of (F := Ideal) m' c Cert.ReferenceIdeal.main_v261 (by decide)).symm)
  have agr16_v252 : Cert.KernelIdeal.Hand.W16 (F := Ideal) m ρ c (Proc.devRef .tc Cert.KernelIdeal.main_v252)
        = Cert.ReferenceIdeal.Hand.R15 (F := Ideal) m' c (Proc.devRef .tc Cert.ReferenceIdeal.main_v261) :=
    (Cert.KernelIdeal.Hand.W16_of (F := Ideal) m ρ c Cert.KernelIdeal.main_v252 (by decide)).trans (agr15_v252.trans (Cert.ReferenceIdeal.Hand.R15_of (F := Ideal) m' c Cert.ReferenceIdeal.main_v261 (by decide)).symm)
  have agr17_v252 : Cert.KernelIdeal.Hand.W17 (F := Ideal) m ρ c (Proc.devRef .tc Cert.KernelIdeal.main_v252)
        = Cert.ReferenceIdeal.Hand.R16 (F := Ideal) m' c (Proc.devRef .tc Cert.ReferenceIdeal.main_v261) :=
    (Cert.KernelIdeal.Hand.W17_of (F := Ideal) m ρ c Cert.KernelIdeal.main_v252 (by decide)).trans (agr16_v252.trans (Cert.ReferenceIdeal.Hand.R16_of (F := Ideal) m' c Cert.ReferenceIdeal.main_v261 (by decide)).symm)
  have agr1_v12 : Cert.KernelIdeal.Hand.W1 (F := Ideal) m ρ c (Proc.devRef .tc Cert.KernelIdeal.main_v12)
        = Cert.ReferenceIdeal.Hand.R1 (F := Ideal) m' c (Proc.devRef .tc Cert.ReferenceIdeal.main_v12) :=
    stage0_v12 (Cert.KernelIdeal.Hand.W0 (F := Ideal) m ρ c) (Cert.ReferenceIdeal.Hand.R0 (F := Ideal) m' c)
      ((Cert.KernelIdeal.Hand.W0_args (F := Ideal) m ρ c Cert.KernelIdeal.main_arg3 (by decide)).trans (h3.symm.trans (Cert.ReferenceIdeal.Hand.R0_args (F := Ideal) m' c Cert.ReferenceIdeal.main_arg3 (by decide)).symm))
  have agr2_v12 : Cert.KernelIdeal.Hand.W2 (F := Ideal) m ρ c (Proc.devRef .tc Cert.KernelIdeal.main_v12)
        = Cert.ReferenceIdeal.Hand.R2 (F := Ideal) m' c (Proc.devRef .tc Cert.ReferenceIdeal.main_v12) :=
    (Cert.KernelIdeal.Hand.W2_of (F := Ideal) m ρ c Cert.KernelIdeal.main_v12 (by decide)).trans (agr1_v12.trans (Cert.ReferenceIdeal.Hand.R2_of (F := Ideal) m' c Cert.ReferenceIdeal.main_v12 (by decide)).symm)
  have agr1_v14 : Cert.KernelIdeal.Hand.W1 (F := Ideal) m ρ c (Proc.devRef .tc Cert.KernelIdeal.main_v14)
        = Cert.ReferenceIdeal.Hand.R1 (F := Ideal) m' c (Proc.devRef .tc Cert.ReferenceIdeal.main_v14) :=
    stage0_v14 (Cert.KernelIdeal.Hand.W0 (F := Ideal) m ρ c) (Cert.ReferenceIdeal.Hand.R0 (F := Ideal) m' c)
      ((Cert.KernelIdeal.Hand.W0_args (F := Ideal) m ρ c Cert.KernelIdeal.main_arg4 (by decide)).trans (h4.symm.trans (Cert.ReferenceIdeal.Hand.R0_args (F := Ideal) m' c Cert.ReferenceIdeal.main_arg4 (by decide)).symm))
  have agr2_v14 : Cert.KernelIdeal.Hand.W2 (F := Ideal) m ρ c (Proc.devRef .tc Cert.KernelIdeal.main_v14)
        = Cert.ReferenceIdeal.Hand.R2 (F := Ideal) m' c (Proc.devRef .tc Cert.ReferenceIdeal.main_v14) :=
    (Cert.KernelIdeal.Hand.W2_of (F := Ideal) m ρ c Cert.KernelIdeal.main_v14 (by decide)).trans (agr1_v14.trans (Cert.ReferenceIdeal.Hand.R2_of (F := Ideal) m' c Cert.ReferenceIdeal.main_v14 (by decide)).symm)
  have agr1_v34 : Cert.KernelIdeal.Hand.W1 (F := Ideal) m ρ c (Proc.devRef .tc Cert.KernelIdeal.main_v34)
        = Cert.ReferenceIdeal.Hand.R1 (F := Ideal) m' c (Proc.devRef .tc Cert.ReferenceIdeal.main_v34) :=
    stage0_v34 (Cert.KernelIdeal.Hand.W0 (F := Ideal) m ρ c) (Cert.ReferenceIdeal.Hand.R0 (F := Ideal) m' c)
      ((Cert.KernelIdeal.Hand.W0_args (F := Ideal) m ρ c Cert.KernelIdeal.main_arg0 (by decide)).trans (h0.symm.trans (Cert.ReferenceIdeal.Hand.R0_args (F := Ideal) m' c Cert.ReferenceIdeal.main_arg0 (by decide)).symm))
      ((Cert.KernelIdeal.Hand.W0_args (F := Ideal) m ρ c Cert.KernelIdeal.main_arg3 (by decide)).trans (h3.symm.trans (Cert.ReferenceIdeal.Hand.R0_args (F := Ideal) m' c Cert.ReferenceIdeal.main_arg3 (by decide)).symm))
      ((Cert.KernelIdeal.Hand.W0_args (F := Ideal) m ρ c Cert.KernelIdeal.main_arg4 (by decide)).trans (h4.symm.trans (Cert.ReferenceIdeal.Hand.R0_args (F := Ideal) m' c Cert.ReferenceIdeal.main_arg4 (by decide)).symm))
      ((Cert.KernelIdeal.Hand.W0_args (F := Ideal) m ρ c Cert.KernelIdeal.main_arg9 (by decide)).trans (h9.symm.trans (Cert.ReferenceIdeal.Hand.R0_args (F := Ideal) m' c Cert.ReferenceIdeal.main_arg9 (by decide)).symm))
      ((Cert.KernelIdeal.Hand.W0_args (F := Ideal) m ρ c Cert.KernelIdeal.main_arg10 (by decide)).trans (h10.symm.trans (Cert.ReferenceIdeal.Hand.R0_args (F := Ideal) m' c Cert.ReferenceIdeal.main_arg10 (by decide)).symm))
  have agr2_v35 : Cert.KernelIdeal.Hand.W2 (F := Ideal) m ρ c (Proc.devRef .tc Cert.KernelIdeal.main_v35)
        = Cert.ReferenceIdeal.Hand.R2 (F := Ideal) m' c (Proc.devRef .tc Cert.ReferenceIdeal.main_v35) :=
    stage1_v35 (Cert.KernelIdeal.Hand.W1 (F := Ideal) m ρ c) (Cert.ReferenceIdeal.Hand.R1 (F := Ideal) m' c)
      agr1_v34
  have agr3_v55 : Cert.KernelIdeal.Hand.W3 (F := Ideal) m ρ c (Proc.devRef .tc Cert.KernelIdeal.main_v55)
        = Cert.ReferenceIdeal.Hand.R3 (F := Ideal) m' c (Proc.devRef .tc Cert.ReferenceIdeal.main_v55) :=
    stage2_v55 (Cert.KernelIdeal.Hand.W2 (F := Ideal) m ρ c) (Cert.ReferenceIdeal.Hand.R2 (F := Ideal) m' c)
      agr2_v12
      agr2_v14
      agr2_v35
      ((Cert.KernelIdeal.Hand.W2_args (F := Ideal) m ρ c Cert.KernelIdeal.main_arg3 (by decide)).trans (h3.symm.trans (Cert.ReferenceIdeal.Hand.R2_args (F := Ideal) m' c Cert.ReferenceIdeal.main_arg3 (by decide)).symm))
      ((Cert.KernelIdeal.Hand.W2_args (F := Ideal) m ρ c Cert.KernelIdeal.main_arg4 (by decide)).trans (h4.symm.trans (Cert.ReferenceIdeal.Hand.R2_args (F := Ideal) m' c Cert.ReferenceIdeal.main_arg4 (by decide)).symm))
      ((Cert.KernelIdeal.Hand.W2_args (F := Ideal) m ρ c Cert.KernelIdeal.main_arg11 (by decide)).trans (h11.symm.trans (Cert.ReferenceIdeal.Hand.R2_args (F := Ideal) m' c Cert.ReferenceIdeal.main_arg11 (by decide)).symm))
      ((Cert.KernelIdeal.Hand.W2_args (F := Ideal) m ρ c Cert.KernelIdeal.main_arg12 (by decide)).trans (h12.symm.trans (Cert.ReferenceIdeal.Hand.R2_args (F := Ideal) m' c Cert.ReferenceIdeal.main_arg12 (by decide)).symm))
  have agr4_v55 : Cert.KernelIdeal.Hand.W4 (F := Ideal) m ρ c (Proc.devRef .tc Cert.KernelIdeal.main_v55)
        = Cert.ReferenceIdeal.Hand.R4 (F := Ideal) m' c (Proc.devRef .tc Cert.ReferenceIdeal.main_v55) :=
    (Cert.KernelIdeal.Hand.W4_of (F := Ideal) m ρ c Cert.KernelIdeal.main_v55 (by decide)).trans (agr3_v55.trans (Cert.ReferenceIdeal.Hand.R4_of (F := Ideal) m' c Cert.ReferenceIdeal.main_v55 (by decide)).symm)
  have agr5_v55 : Cert.KernelIdeal.Hand.W5 (F := Ideal) m ρ c (Proc.devRef .tc Cert.KernelIdeal.main_v55)
        = Cert.ReferenceIdeal.Hand.R5 (F := Ideal) m' c (Proc.devRef .tc Cert.ReferenceIdeal.main_v55) :=
    (Cert.KernelIdeal.Hand.W5_of (F := Ideal) m ρ c Cert.KernelIdeal.main_v55 (by decide)).trans (agr4_v55.trans (Cert.ReferenceIdeal.Hand.R5_of (F := Ideal) m' c Cert.ReferenceIdeal.main_v55 (by decide)).symm)
  have agr6_v55 : Cert.KernelIdeal.Hand.W6 (F := Ideal) m ρ c (Proc.devRef .tc Cert.KernelIdeal.main_v55)
        = Cert.ReferenceIdeal.Hand.R6 (F := Ideal) m' c (Proc.devRef .tc Cert.ReferenceIdeal.main_v55) :=
    (Cert.KernelIdeal.Hand.W6_of (F := Ideal) m ρ c Cert.KernelIdeal.main_v55 (by decide)).trans (agr5_v55.trans (Cert.ReferenceIdeal.Hand.R6_of (F := Ideal) m' c Cert.ReferenceIdeal.main_v55 (by decide)).symm)
  have agr3_v68 : Cert.KernelIdeal.Hand.W3 (F := Ideal) m ρ c (Proc.devRef .tc Cert.KernelIdeal.main_v68)
        = Cert.ReferenceIdeal.Hand.R3 (F := Ideal) m' c (Proc.devRef .tc Cert.ReferenceIdeal.main_v68) :=
    stage2_v68 (Cert.KernelIdeal.Hand.W2 (F := Ideal) m ρ c) (Cert.ReferenceIdeal.Hand.R2 (F := Ideal) m' c)
      ((Cert.KernelIdeal.Hand.W2_args (F := Ideal) m ρ c Cert.KernelIdeal.main_arg5 (by decide)).trans (h5.symm.trans (Cert.ReferenceIdeal.Hand.R2_args (F := Ideal) m' c Cert.ReferenceIdeal.main_arg5 (by decide)).symm))
  have agr4_v68 : Cert.KernelIdeal.Hand.W4 (F := Ideal) m ρ c (Proc.devRef .tc Cert.KernelIdeal.main_v68)
        = Cert.ReferenceIdeal.Hand.R4 (F := Ideal) m' c (Proc.devRef .tc Cert.ReferenceIdeal.main_v68) :=
    (Cert.KernelIdeal.Hand.W4_of (F := Ideal) m ρ c Cert.KernelIdeal.main_v68 (by decide)).trans (agr3_v68.trans (Cert.ReferenceIdeal.Hand.R4_of (F := Ideal) m' c Cert.ReferenceIdeal.main_v68 (by decide)).symm)
  have agr3_v70 : Cert.KernelIdeal.Hand.W3 (F := Ideal) m ρ c (Proc.devRef .tc Cert.KernelIdeal.main_v70)
        = Cert.ReferenceIdeal.Hand.R3 (F := Ideal) m' c (Proc.devRef .tc Cert.ReferenceIdeal.main_v70) :=
    stage2_v70 (Cert.KernelIdeal.Hand.W2 (F := Ideal) m ρ c) (Cert.ReferenceIdeal.Hand.R2 (F := Ideal) m' c)
      ((Cert.KernelIdeal.Hand.W2_args (F := Ideal) m ρ c Cert.KernelIdeal.main_arg6 (by decide)).trans (h6.symm.trans (Cert.ReferenceIdeal.Hand.R2_args (F := Ideal) m' c Cert.ReferenceIdeal.main_arg6 (by decide)).symm))
  have agr4_v70 : Cert.KernelIdeal.Hand.W4 (F := Ideal) m ρ c (Proc.devRef .tc Cert.KernelIdeal.main_v70)
        = Cert.ReferenceIdeal.Hand.R4 (F := Ideal) m' c (Proc.devRef .tc Cert.ReferenceIdeal.main_v70) :=
    (Cert.KernelIdeal.Hand.W4_of (F := Ideal) m ρ c Cert.KernelIdeal.main_v70 (by decide)).trans (agr3_v70.trans (Cert.ReferenceIdeal.Hand.R4_of (F := Ideal) m' c Cert.ReferenceIdeal.main_v70 (by decide)).symm)
  have agr3_v90 : Cert.KernelIdeal.Hand.W3 (F := Ideal) m ρ c (Proc.devRef .tc Cert.KernelIdeal.main_v90)
        = Cert.ReferenceIdeal.Hand.R3 (F := Ideal) m' c (Proc.devRef .tc Cert.ReferenceIdeal.main_v90) :=
    stage2_v90 (Cert.KernelIdeal.Hand.W2 (F := Ideal) m ρ c) (Cert.ReferenceIdeal.Hand.R2 (F := Ideal) m' c)
      ((Cert.KernelIdeal.Hand.W2_args (F := Ideal) m ρ c Cert.KernelIdeal.main_arg1 (by decide)).trans (h1.symm.trans (Cert.ReferenceIdeal.Hand.R2_args (F := Ideal) m' c Cert.ReferenceIdeal.main_arg1 (by decide)).symm))
      ((Cert.KernelIdeal.Hand.W2_args (F := Ideal) m ρ c Cert.KernelIdeal.main_arg5 (by decide)).trans (h5.symm.trans (Cert.ReferenceIdeal.Hand.R2_args (F := Ideal) m' c Cert.ReferenceIdeal.main_arg5 (by decide)).symm))
      ((Cert.KernelIdeal.Hand.W2_args (F := Ideal) m ρ c Cert.KernelIdeal.main_arg6 (by decide)).trans (h6.symm.trans (Cert.ReferenceIdeal.Hand.R2_args (F := Ideal) m' c Cert.ReferenceIdeal.main_arg6 (by decide)).symm))
      ((Cert.KernelIdeal.Hand.W2_args (F := Ideal) m ρ c Cert.KernelIdeal.main_arg13 (by decide)).trans (h13.symm.trans (Cert.ReferenceIdeal.Hand.R2_args (F := Ideal) m' c Cert.ReferenceIdeal.main_arg13 (by decide)).symm))
      ((Cert.KernelIdeal.Hand.W2_args (F := Ideal) m ρ c Cert.KernelIdeal.main_arg14 (by decide)).trans (h14.symm.trans (Cert.ReferenceIdeal.Hand.R2_args (F := Ideal) m' c Cert.ReferenceIdeal.main_arg14 (by decide)).symm))
  have agr4_v91 : Cert.KernelIdeal.Hand.W4 (F := Ideal) m ρ c (Proc.devRef .tc Cert.KernelIdeal.main_v91)
        = Cert.ReferenceIdeal.Hand.R4 (F := Ideal) m' c (Proc.devRef .tc Cert.ReferenceIdeal.main_v91) :=
    stage3_v91 (Cert.KernelIdeal.Hand.W3 (F := Ideal) m ρ c) (Cert.ReferenceIdeal.Hand.R3 (F := Ideal) m' c)
      agr3_v90
  have agr5_v111 : Cert.KernelIdeal.Hand.W5 (F := Ideal) m ρ c (Proc.devRef .tc Cert.KernelIdeal.main_v111)
        = Cert.ReferenceIdeal.Hand.R5 (F := Ideal) m' c (Proc.devRef .tc Cert.ReferenceIdeal.main_v111) :=
    stage4_v111 (Cert.KernelIdeal.Hand.W4 (F := Ideal) m ρ c) (Cert.ReferenceIdeal.Hand.R4 (F := Ideal) m' c)
      agr4_v68
      agr4_v70
      agr4_v91
      ((Cert.KernelIdeal.Hand.W4_args (F := Ideal) m ρ c Cert.KernelIdeal.main_arg5 (by decide)).trans (h5.symm.trans (Cert.ReferenceIdeal.Hand.R4_args (F := Ideal) m' c Cert.ReferenceIdeal.main_arg5 (by decide)).symm))
      ((Cert.KernelIdeal.Hand.W4_args (F := Ideal) m ρ c Cert.KernelIdeal.main_arg6 (by decide)).trans (h6.symm.trans (Cert.ReferenceIdeal.Hand.R4_args (F := Ideal) m' c Cert.ReferenceIdeal.main_arg6 (by decide)).symm))
      ((Cert.KernelIdeal.Hand.W4_args (F := Ideal) m ρ c Cert.KernelIdeal.main_arg15 (by decide)).trans (h15.symm.trans (Cert.ReferenceIdeal.Hand.R4_args (F := Ideal) m' c Cert.ReferenceIdeal.main_arg15 (by decide)).symm))
      ((Cert.KernelIdeal.Hand.W4_args (F := Ideal) m ρ c Cert.KernelIdeal.main_arg16 (by decide)).trans (h16.symm.trans (Cert.ReferenceIdeal.Hand.R4_args (F := Ideal) m' c Cert.ReferenceIdeal.main_arg16 (by decide)).symm))
  have agr6_v111 : Cert.KernelIdeal.Hand.W6 (F := Ideal) m ρ c (Proc.devRef .tc Cert.KernelIdeal.main_v111)
        = Cert.ReferenceIdeal.Hand.R6 (F := Ideal) m' c (Proc.devRef .tc Cert.ReferenceIdeal.main_v111) :=
    (Cert.KernelIdeal.Hand.W6_of (F := Ideal) m ρ c Cert.KernelIdeal.main_v111 (by decide)).trans (agr5_v111.trans (Cert.ReferenceIdeal.Hand.R6_of (F := Ideal) m' c Cert.ReferenceIdeal.main_v111 (by decide)).symm)
  have agr5_v124 : Cert.KernelIdeal.Hand.W5 (F := Ideal) m ρ c (Proc.devRef .tc Cert.KernelIdeal.main_v124)
        = Cert.ReferenceIdeal.Hand.R5 (F := Ideal) m' c (Proc.devRef .tc Cert.ReferenceIdeal.main_v124) :=
    stage4_v124 (Cert.KernelIdeal.Hand.W4 (F := Ideal) m ρ c) (Cert.ReferenceIdeal.Hand.R4 (F := Ideal) m' c)
      ((Cert.KernelIdeal.Hand.W4_args (F := Ideal) m ρ c Cert.KernelIdeal.main_arg7 (by decide)).trans (h7.symm.trans (Cert.ReferenceIdeal.Hand.R4_args (F := Ideal) m' c Cert.ReferenceIdeal.main_arg7 (by decide)).symm))
  have agr6_v124 : Cert.KernelIdeal.Hand.W6 (F := Ideal) m ρ c (Proc.devRef .tc Cert.KernelIdeal.main_v124)
        = Cert.ReferenceIdeal.Hand.R6 (F := Ideal) m' c (Proc.devRef .tc Cert.ReferenceIdeal.main_v124) :=
    (Cert.KernelIdeal.Hand.W6_of (F := Ideal) m ρ c Cert.KernelIdeal.main_v124 (by decide)).trans (agr5_v124.trans (Cert.ReferenceIdeal.Hand.R6_of (F := Ideal) m' c Cert.ReferenceIdeal.main_v124 (by decide)).symm)
  have agr5_v126 : Cert.KernelIdeal.Hand.W5 (F := Ideal) m ρ c (Proc.devRef .tc Cert.KernelIdeal.main_v126)
        = Cert.ReferenceIdeal.Hand.R5 (F := Ideal) m' c (Proc.devRef .tc Cert.ReferenceIdeal.main_v126) :=
    stage4_v126 (Cert.KernelIdeal.Hand.W4 (F := Ideal) m ρ c) (Cert.ReferenceIdeal.Hand.R4 (F := Ideal) m' c)
      ((Cert.KernelIdeal.Hand.W4_args (F := Ideal) m ρ c Cert.KernelIdeal.main_arg8 (by decide)).trans (h8.symm.trans (Cert.ReferenceIdeal.Hand.R4_args (F := Ideal) m' c Cert.ReferenceIdeal.main_arg8 (by decide)).symm))
  have agr6_v126 : Cert.KernelIdeal.Hand.W6 (F := Ideal) m ρ c (Proc.devRef .tc Cert.KernelIdeal.main_v126)
        = Cert.ReferenceIdeal.Hand.R6 (F := Ideal) m' c (Proc.devRef .tc Cert.ReferenceIdeal.main_v126) :=
    (Cert.KernelIdeal.Hand.W6_of (F := Ideal) m ρ c Cert.KernelIdeal.main_v126 (by decide)).trans (agr5_v126.trans (Cert.ReferenceIdeal.Hand.R6_of (F := Ideal) m' c Cert.ReferenceIdeal.main_v126 (by decide)).symm)
  have agr5_v146 : Cert.KernelIdeal.Hand.W5 (F := Ideal) m ρ c (Proc.devRef .tc Cert.KernelIdeal.main_v146)
        = Cert.ReferenceIdeal.Hand.R5 (F := Ideal) m' c (Proc.devRef .tc Cert.ReferenceIdeal.main_v146) :=
    stage4_v146 (Cert.KernelIdeal.Hand.W4 (F := Ideal) m ρ c) (Cert.ReferenceIdeal.Hand.R4 (F := Ideal) m' c)
      ((Cert.KernelIdeal.Hand.W4_args (F := Ideal) m ρ c Cert.KernelIdeal.main_arg2 (by decide)).trans (h2.symm.trans (Cert.ReferenceIdeal.Hand.R4_args (F := Ideal) m' c Cert.ReferenceIdeal.main_arg2 (by decide)).symm))
      ((Cert.KernelIdeal.Hand.W4_args (F := Ideal) m ρ c Cert.KernelIdeal.main_arg7 (by decide)).trans (h7.symm.trans (Cert.ReferenceIdeal.Hand.R4_args (F := Ideal) m' c Cert.ReferenceIdeal.main_arg7 (by decide)).symm))
      ((Cert.KernelIdeal.Hand.W4_args (F := Ideal) m ρ c Cert.KernelIdeal.main_arg8 (by decide)).trans (h8.symm.trans (Cert.ReferenceIdeal.Hand.R4_args (F := Ideal) m' c Cert.ReferenceIdeal.main_arg8 (by decide)).symm))
      ((Cert.KernelIdeal.Hand.W4_args (F := Ideal) m ρ c Cert.KernelIdeal.main_arg17 (by decide)).trans (h17.symm.trans (Cert.ReferenceIdeal.Hand.R4_args (F := Ideal) m' c Cert.ReferenceIdeal.main_arg17 (by decide)).symm))
      ((Cert.KernelIdeal.Hand.W4_args (F := Ideal) m ρ c Cert.KernelIdeal.main_arg18 (by decide)).trans (h18.symm.trans (Cert.ReferenceIdeal.Hand.R4_args (F := Ideal) m' c Cert.ReferenceIdeal.main_arg18 (by decide)).symm))
  have agr6_v147 : Cert.KernelIdeal.Hand.W6 (F := Ideal) m ρ c (Proc.devRef .tc Cert.KernelIdeal.main_v147)
        = Cert.ReferenceIdeal.Hand.R6 (F := Ideal) m' c (Proc.devRef .tc Cert.ReferenceIdeal.main_v147) :=
    stage5_v147 (Cert.KernelIdeal.Hand.W5 (F := Ideal) m ρ c) (Cert.ReferenceIdeal.Hand.R5 (F := Ideal) m' c)
      agr5_v146
  have agr7_v183 : Cert.KernelIdeal.Hand.W7 (F := Ideal) m ρ c (Proc.devRef .tc Cert.KernelIdeal.main_v183)
        = Cert.ReferenceIdeal.Hand.R7 (F := Ideal) m' c (Proc.devRef .tc Cert.ReferenceIdeal.main_v183) :=
    stage6_v183 (Cert.KernelIdeal.Hand.W6 (F := Ideal) m ρ c) (Cert.ReferenceIdeal.Hand.R6 (F := Ideal) m' c)
      agr6_v55
      agr6_v111
      agr6_v124
      agr6_v126
      agr6_v147
      ((Cert.KernelIdeal.Hand.W6_args (F := Ideal) m ρ c Cert.KernelIdeal.main_arg7 (by decide)).trans (h7.symm.trans (Cert.ReferenceIdeal.Hand.R6_args (F := Ideal) m' c Cert.ReferenceIdeal.main_arg7 (by decide)).symm))
      ((Cert.KernelIdeal.Hand.W6_args (F := Ideal) m ρ c Cert.KernelIdeal.main_arg8 (by decide)).trans (h8.symm.trans (Cert.ReferenceIdeal.Hand.R6_args (F := Ideal) m' c Cert.ReferenceIdeal.main_arg8 (by decide)).symm))
      ((Cert.KernelIdeal.Hand.W6_args (F := Ideal) m ρ c Cert.KernelIdeal.main_arg19 (by decide)).trans (h19.symm.trans (Cert.ReferenceIdeal.Hand.R6_args (F := Ideal) m' c Cert.ReferenceIdeal.main_arg19 (by decide)).symm))
      ((Cert.KernelIdeal.Hand.W6_args (F := Ideal) m ρ c Cert.KernelIdeal.main_arg20 (by decide)).trans (h20.symm.trans (Cert.ReferenceIdeal.Hand.R6_args (F := Ideal) m' c Cert.ReferenceIdeal.main_arg20 (by decide)).symm))
      ((Cert.KernelIdeal.Hand.W6_args (F := Ideal) m ρ c Cert.KernelIdeal.main_arg21 (by decide)).trans (h21.symm.trans (Cert.ReferenceIdeal.Hand.R6_args (F := Ideal) m' c Cert.ReferenceIdeal.main_arg21 (by decide)).symm))
      ((Cert.KernelIdeal.Hand.W6_args (F := Ideal) m ρ c Cert.KernelIdeal.main_arg22 (by decide)).trans (h22.symm.trans (Cert.ReferenceIdeal.Hand.R6_args (F := Ideal) m' c Cert.ReferenceIdeal.main_arg22 (by decide)).symm))
      ((Cert.KernelIdeal.Hand.W6_args (F := Ideal) m ρ c Cert.KernelIdeal.main_arg23 (by decide)).trans (h23.symm.trans (Cert.ReferenceIdeal.Hand.R6_args (F := Ideal) m' c Cert.ReferenceIdeal.main_arg23 (by decide)).symm))
  have agr8_v184 : Cert.KernelIdeal.Hand.W8 (F := Ideal) m ρ c (Proc.devRef .tc Cert.KernelIdeal.main_v184)
        = Cert.ReferenceIdeal.Hand.R8 (F := Ideal) m' c (Proc.devRef .tc Cert.ReferenceIdeal.main_v184) :=
    stage7_v184 (Cert.KernelIdeal.Hand.W7 (F := Ideal) m ρ c) (Cert.ReferenceIdeal.Hand.R7 (F := Ideal) m' c)
      agr7_v183
  have agr9_v184 : Cert.KernelIdeal.Hand.W9 (F := Ideal) m ρ c (Proc.devRef .tc Cert.KernelIdeal.main_v184)
        = Cert.ReferenceIdeal.Hand.R9 (F := Ideal) m' c (Proc.devRef .tc Cert.ReferenceIdeal.main_v184) :=
    (Cert.KernelIdeal.Hand.W9_of (F := Ideal) m ρ c Cert.KernelIdeal.main_v184 (by decide)).trans (agr8_v184.trans (Cert.ReferenceIdeal.Hand.R9_of (F := Ideal) m' c Cert.ReferenceIdeal.main_v184 (by decide)).symm)
  have agr10_v184 : Cert.KernelIdeal.Hand.W10 (F := Ideal) m ρ c (Proc.devRef .tc Cert.KernelIdeal.main_v184)
        = Cert.ReferenceIdeal.Hand.R10 (F := Ideal) m' c (Proc.devRef .tc Cert.ReferenceIdeal.main_v184) :=
    (Cert.KernelIdeal.Hand.W10_of_ne (F := Ideal) m ρ c Cert.KernelIdeal.main_v184 (by decide +kernel)).trans (agr9_v184.trans (Cert.ReferenceIdeal.Hand.R10_of (F := Ideal) m' c Cert.ReferenceIdeal.main_v184 (by decide)).symm)
  have agr11_v184 : Cert.KernelIdeal.Hand.W11 (F := Ideal) m ρ c (Proc.devRef .tc Cert.KernelIdeal.main_v184)
        = Cert.ReferenceIdeal.Hand.R10 (F := Ideal) m' c (Proc.devRef .tc Cert.ReferenceIdeal.main_v184) :=
    (Cert.KernelIdeal.Hand.W11_of (F := Ideal) m ρ c Cert.KernelIdeal.main_v184 (by decide)).trans agr10_v184
  have agr12_v184 : Cert.KernelIdeal.Hand.W12 (F := Ideal) m ρ c (Proc.devRef .tc Cert.KernelIdeal.main_v184)
        = Cert.ReferenceIdeal.Hand.R11 (F := Ideal) m' c (Proc.devRef .tc Cert.ReferenceIdeal.main_v184) :=
    (Cert.KernelIdeal.Hand.W12_of_ne (F := Ideal) m ρ c Cert.KernelIdeal.main_v184 (by decide +kernel)).trans (agr11_v184.trans (Cert.ReferenceIdeal.Hand.R11_of (F := Ideal) m' c Cert.ReferenceIdeal.main_v184 (by decide)).symm)
  have agr13_v259 : Cert.KernelIdeal.Hand.W13 (F := Ideal) m ρ c (Proc.devRef .tc Cert.KernelIdeal.main_v259)
        = Cert.ReferenceIdeal.Hand.R12 (F := Ideal) m' c (Proc.devRef .tc Cert.ReferenceIdeal.main_v267) :=
    stage12_v259 (Cert.KernelIdeal.Hand.W12 (F := Ideal) m ρ c) (Cert.ReferenceIdeal.Hand.R11 (F := Ideal) m' c)
      agr12_v184
      agr12_v240
  have agr14_v261 : Cert.KernelIdeal.Hand.W14 (F := Ideal) m ρ c (Proc.devRef .tc Cert.KernelIdeal.main_v261)
        = Cert.ReferenceIdeal.Hand.R13 (F := Ideal) m' c (Proc.devRef .tc Cert.ReferenceIdeal.main_v268) :=
    region2_step m ρ m' c
      agr13_v252
      agr13_v259
      hf2
  have agr15_v268 : Cert.KernelIdeal.Hand.W15 (F := Ideal) m ρ c (Proc.devRef .tc Cert.KernelIdeal.main_v268)
        = Cert.ReferenceIdeal.Hand.R14 (F := Ideal) m' c (Proc.devRef .tc Cert.ReferenceIdeal.main_v275) :=
    stage14_v268 (Cert.KernelIdeal.Hand.W14 (F := Ideal) m ρ c) (Cert.ReferenceIdeal.Hand.R13 (F := Ideal) m' c)
      agr14_v255
      agr14_v261
      ((Cert.KernelIdeal.Hand.W14_args (F := Ideal) m ρ c Cert.KernelIdeal.main_arg28 (by decide)).trans (h28.symm.trans (Cert.ReferenceIdeal.Hand.R13_args (F := Ideal) m' c Cert.ReferenceIdeal.main_arg28 (by decide)).symm))
      ((Cert.KernelIdeal.Hand.W14_args (F := Ideal) m ρ c Cert.KernelIdeal.main_arg29 (by decide)).trans (h29.symm.trans (Cert.ReferenceIdeal.Hand.R13_args (F := Ideal) m' c Cert.ReferenceIdeal.main_arg29 (by decide)).symm))
  have agr16_v269 : Cert.KernelIdeal.Hand.W16 (F := Ideal) m ρ c (Proc.devRef .tc Cert.KernelIdeal.main_v269)
        = Cert.ReferenceIdeal.Hand.R15 (F := Ideal) m' c (Proc.devRef .tc Cert.ReferenceIdeal.main_v276) :=
    stage15_v269 (Cert.KernelIdeal.Hand.W15 (F := Ideal) m ρ c) (Cert.ReferenceIdeal.Hand.R14 (F := Ideal) m' c)
      agr15_v268
  have agr17_v272 : Cert.KernelIdeal.Hand.W17 (F := Ideal) m ρ c (Proc.devRef .tc Cert.KernelIdeal.main_v272)
        = Cert.ReferenceIdeal.Hand.R16 (F := Ideal) m' c (Proc.devRef .tc Cert.ReferenceIdeal.main_v279) :=
    stage16_v272 (Cert.KernelIdeal.Hand.W16 (F := Ideal) m ρ c) (Cert.ReferenceIdeal.Hand.R15 (F := Ideal) m' c)
      agr16_v255
      agr16_v269
  have zero13_v256 : Cert.KernelIdeal.Hand.W13 (F := Ideal) m ρ c (Proc.devRef .tc Cert.KernelIdeal.main_v256)
        = (broadcastInDim Cert.KernelIdeal.S64 ![] Cert.KernelIdeal.Gen.bcast_S_S64 (constant (F := Ideal) Cert.KernelIdeal.S_ .f32 0x00000000#32) : ((⟨Cert.KernelIdeal.S64, .f32⟩ : BufTy).Contents (Elt Ideal))) :=
    stage12_v256 (Cert.KernelIdeal.Hand.W12 (F := Ideal) m ρ c)
  have zero14_v256 : Cert.KernelIdeal.Hand.W14 (F := Ideal) m ρ c (Proc.devRef .tc Cert.KernelIdeal.main_v256)
        = (broadcastInDim Cert.KernelIdeal.S64 ![] Cert.KernelIdeal.Gen.bcast_S_S64 (constant (F := Ideal) Cert.KernelIdeal.S_ .f32 0x00000000#32) : ((⟨Cert.KernelIdeal.S64, .f32⟩ : BufTy).Contents (Elt Ideal))) :=
    (Cert.KernelIdeal.Hand.W14_of_ne (F := Ideal) m ρ c Cert.KernelIdeal.main_v256 (by decide +kernel)).trans zero13_v256
  have zero15_v256 : Cert.KernelIdeal.Hand.W15 (F := Ideal) m ρ c (Proc.devRef .tc Cert.KernelIdeal.main_v256)
        = (broadcastInDim Cert.KernelIdeal.S64 ![] Cert.KernelIdeal.Gen.bcast_S_S64 (constant (F := Ideal) Cert.KernelIdeal.S_ .f32 0x00000000#32) : ((⟨Cert.KernelIdeal.S64, .f32⟩ : BufTy).Contents (Elt Ideal))) :=
    (Cert.KernelIdeal.Hand.W15_of (F := Ideal) m ρ c Cert.KernelIdeal.main_v256 (by decide)).trans zero14_v256
  have zero16_v256 : Cert.KernelIdeal.Hand.W16 (F := Ideal) m ρ c (Proc.devRef .tc Cert.KernelIdeal.main_v256)
        = (broadcastInDim Cert.KernelIdeal.S64 ![] Cert.KernelIdeal.Gen.bcast_S_S64 (constant (F := Ideal) Cert.KernelIdeal.S_ .f32 0x00000000#32) : ((⟨Cert.KernelIdeal.S64, .f32⟩ : BufTy).Contents (Elt Ideal))) :=
    (Cert.KernelIdeal.Hand.W16_of (F := Ideal) m ρ c Cert.KernelIdeal.main_v256 (by decide)).trans zero15_v256
  have agr18_v274 : Cert.KernelIdeal.Hand.W18 (F := Ideal) m ρ c (Proc.devRef .tc Cert.KernelIdeal.main_v274)
        = Cert.ReferenceIdeal.Hand.R17 (F := Ideal) m' c (Proc.devRef .tc Cert.ReferenceIdeal.main_v280) :=
    region3_step m ρ m' c
      agr17_v252
      agr17_v272
      zero16_v256
      hf3
  have agr19_v281 : Cert.KernelIdeal.Hand.W19 (F := Ideal) m ρ c (Proc.devRef .tc Cert.KernelIdeal.main_v281)
        = Cert.ReferenceIdeal.Hand.R18 (F := Ideal) m' c (Proc.devRef .tc Cert.ReferenceIdeal.main_v287) :=
    stage18_v281 (Cert.KernelIdeal.Hand.W18 (F := Ideal) m ρ c) (Cert.ReferenceIdeal.Hand.R17 (F := Ideal) m' c)
      agr18_v255
      agr18_v274
      ((Cert.KernelIdeal.Hand.W18_args (F := Ideal) m ρ c Cert.KernelIdeal.main_arg30 (by decide)).trans (h30.symm.trans (Cert.ReferenceIdeal.Hand.R17_args (F := Ideal) m' c Cert.ReferenceIdeal.main_arg30 (by decide)).symm))
      ((Cert.KernelIdeal.Hand.W18_args (F := Ideal) m ρ c Cert.KernelIdeal.main_arg31 (by decide)).trans (h31.symm.trans (Cert.ReferenceIdeal.Hand.R17_args (F := Ideal) m' c Cert.ReferenceIdeal.main_arg31 (by decide)).symm))
  have agr19_v283 : Cert.KernelIdeal.Hand.W19 (F := Ideal) m ρ c (Proc.devRef .tc Cert.KernelIdeal.main_v283)
        = Cert.ReferenceIdeal.Hand.R18 (F := Ideal) m' c (Proc.devRef .tc Cert.ReferenceIdeal.main_v288) :=
    stage18_v283 (Cert.KernelIdeal.Hand.W18 (F := Ideal) m ρ c) (Cert.ReferenceIdeal.Hand.R17 (F := Ideal) m' c)
      agr18_v255
      agr18_v274
      ((Cert.KernelIdeal.Hand.W18_args (F := Ideal) m ρ c Cert.KernelIdeal.main_arg30 (by decide)).trans (h30.symm.trans (Cert.ReferenceIdeal.Hand.R17_args (F := Ideal) m' c Cert.ReferenceIdeal.main_arg30 (by decide)).symm))
      ((Cert.KernelIdeal.Hand.W18_args (F := Ideal) m ρ c Cert.KernelIdeal.main_arg31 (by decide)).trans (h31.symm.trans (Cert.ReferenceIdeal.Hand.R17_args (F := Ideal) m' c Cert.ReferenceIdeal.main_arg31 (by decide)).symm))
  have agr20_v285 : Cert.KernelIdeal.Hand.W20 (F := Ideal) m ρ c (Proc.devRef .tc Cert.KernelIdeal.main_v285)
        = Cert.ReferenceIdeal.Hand.R19 (F := Ideal) m' c (Proc.devRef .tc Cert.ReferenceIdeal.main_v289) :=
    region4_step m ρ m' c
      agr19_v281
      agr19_v283
      hf4
  have agr20_v281 : Cert.KernelIdeal.Hand.W20 (F := Ideal) m ρ c (Proc.devRef .tc Cert.KernelIdeal.main_v281)
        = Cert.ReferenceIdeal.Hand.R19 (F := Ideal) m' c (Proc.devRef .tc Cert.ReferenceIdeal.main_v287) :=
    (show Cert.KernelIdeal.Hand.W20 (F := Ideal) m ρ c (Proc.devRef .tc Cert.KernelIdeal.main_v281) = Cert.KernelIdeal.Hand.W19 (F := Ideal) m ρ c (Proc.devRef .tc Cert.KernelIdeal.main_v281) from
      (Cert.KernelIdeal.Hand.W20_arr (F := Ideal) m ρ c 0).trans (((Cert.KernelIdeal.Hand.dat4 (F := Ideal) (Cert.KernelIdeal.Hand.V19 (F := Ideal) m ρ) c).arrAt_in 0 rfl _).trans (Cert.KernelIdeal.Hand.A_eq4 (F := Ideal) (Cert.KernelIdeal.Hand.V19 (F := Ideal) m ρ) c 0))).trans (agr19_v281.trans (Cert.ReferenceIdeal.Hand.R19_of (F := Ideal) m' c Cert.ReferenceIdeal.main_v287 (by decide)).symm)
  exact ⟨agr20_v240, agr20_v285, agr20_v281⟩

end Cert.Bridge

end
-- ==== Proof.KiR0Value.lean ====
import proofs.«122112_j6631429505271_1_alg».proof.Proof.KiR0Body
import proofs.«122112_j6631429505271_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

section ValueAny0
variable (V : (c : Dev nD) → (b : Ref sig .tc) → Buf (Elt F) ((c : Thread nD τ).loc b))

theorem hzv0 : (![0, 0] : Fin 2 → Nat) = fun _ => 0 := funext fun a => by fin_cases a <;> rfl

/-- The zero block the reset stores. -/
abbrev zero0 : Vec F S512x2048 .f32 := broadcast S512x2048 (Scalar.ofBits .f32 0x00000000#32)
/-- The product of a block of the left factor and a block of the right factor. -/
abbrev mm0 (a : Vec F S512x512 .f32) (b : Vec F S512x2048 .f32) : Vec F S512x2048 .f32 :=
  matmul dot_S512x512_S512x2048_S512x2048_1_0_0_1_n_n (some .fp32) a b (constant S512x2048 .f32 0x00000000#32)

/-! ## What each case leaves, as values -/

/-- Case B leaves in the accumulator what it held plus the block product. -/
theorem sout0_B_eq (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i) (x0 : Vec F S512x512 .f32) (x1 : Vec F S512x2048 .f32) (x2 : Vec F S1x2048 .f32) (xs0 : Vec F S512x2048 .f32) :
    sout0_B_0 c i arg3 harg3 arg4 harg4 arg5 harg5 arg6 harg6 arg7 harg7 hc0 hc1 x0 x1 x2 xs0 = addf xs0 (mm0 x0 x1) := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hzv0]
  unfold k0_pay2
  simp only [View.readAt_eq_ld, harg3.read_unread, harg4.read_unread, harg5.read_unread, harg7.read_unread, View.ld_unit_zero (S := S512x512) hzv0, View.ld_unit_zero (S := S512x2048) hzv0, View.ld_unit_zero (S := S1x2048) hzv0, shapeCast_self]

/-- Case C leaves the same in the accumulator, -/
theorem sout0_C_eq (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i) (x0 : Vec F S512x512 .f32) (x1 : Vec F S512x2048 .f32) (x2 : Vec F S1x2048 .f32) (xs0 : Vec F S512x2048 .f32) :
    sout0_C_0 c i arg3 harg3 arg4 harg4 arg5 harg5 arg6 harg6 arg7 harg7 hc0 hc1 x0 x1 x2 xs0 = addf xs0 (mm0 x0 x1) := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hzv0]
  unfold k0_pay2
  simp only [View.readAt_eq_ld, harg3.read_unread, harg4.read_unread, harg5.read_unread, harg7.read_unread, View.ld_unit_zero (S := S512x512) hzv0, View.ld_unit_zero (S := S512x2048) hzv0, View.ld_unit_zero (S := S1x2048) hzv0, shapeCast_self]

/-- and in the output's buffer the larger of zero and that plus the bias row laid along every row. -/
theorem out0_C_eq (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i) (x0 : Vec F S512x512 .f32) (x1 : Vec F S512x2048 .f32) (x2 : Vec F S1x2048 .f32) (xs0 : Vec F S512x2048 .f32) :
    out0_C_3 c i arg3 harg3 arg4 harg4 arg5 harg5 arg6 harg6 arg7 harg7 hc0 hc1 x0 x1 x2 xs0 = maximumf (addf (addf xs0 (mm0 x0 x1)) (broadcastTo S512x2048 x2 broadcasts_S1x2048_S512x2048)) zero0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hzv0, View.readCov_unit_zero _ hzv0]
  unfold k0_pay3 k0_pay2
  simp only [View.readAt_eq_ld, harg3.read_unread, harg4.read_unread, harg5.read_unread, harg7.read_unread, View.ld_unit_zero (S := S512x512) hzv0, View.ld_unit_zero (S := S512x2048) hzv0, View.ld_unit_zero (S := S1x2048) hzv0, shapeCast_self]

/-- Case A resets the accumulator first: it leaves the zero block plus the block product. -/
theorem sout0_A_eq (c : Dev nD) (i : grid0.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i) (x0 : Vec F S512x512 .f32) (x1 : Vec F S512x2048 .f32) (x2 : Vec F S1x2048 .f32) :
    sout0_A_0 c i arg3 harg3 arg4 harg4 arg5 harg5 arg6 harg6 arg7 harg7 hc0 hc1 x0 x1 x2 = addf zero0 (mm0 x0 x1) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x2048) hzv0, View.readCov_unit_zero (S := S512x2048) _ hzv0]
  unfold k0_pay2 k0_pay1
  simp only [View.readAt_eq_ld, harg3.read_unread, harg4.read_unread, harg5.read_unread, harg7.read_unread, View.ld_unit_zero (S := S512x512) hzv0, View.ld_unit_zero (S := S512x2048) hzv0, View.ld_unit_zero (S := S1x2048) hzv0, shapeCast_self]

end ValueAny0

section ValueIdeal0
variable (V : (c : Dev nD) → (b : Ref sig .tc) → Buf (Elt Ideal) ((c : Thread nD τ).loc b))

/-! ## The arrays at natural-number coordinates -/

/-- The left factor, the right factor and the bias row read at natural-number coordinates (zero outside their extents). -/
def An0 (c : Dev nD) (r k : ℕ) : EReal :=
  if h : r < 4096 ∧ k < 4096 then (V c main_v236 : S4096x4096.Idx → EReal) (ix2 ⟨r, h.1⟩ ⟨k, h.2⟩) else 0
def Bn0 (c : Dev nD) (k n : ℕ) : EReal :=
  if h : k < 4096 ∧ n < 2048 then (V c main_arg24 : S4096x2048.Idx → EReal) (ix2 ⟨k, h.1⟩ ⟨n, h.2⟩) else 0
def Cn0 (c : Dev nD) (n : ℕ) : EReal :=
  if h : n < 2048 then (V c main_v237 : S1x2048.Idx → EReal) (ix2 ⟨0, Nat.one_pos⟩ ⟨n, h⟩) else 0

/-- Sums over consecutive blocks of 512 indices concatenate. -/
theorem sum_range_block0 (f : ℕ → EReal) (m : ℕ) :
    ∑ k ∈ Finset.range (512 * (m + 1)), f k = ∑ k ∈ Finset.range (512 * m), f k + ∑ l : Fin 512, f (512 * m + l.val) := by
  rw [show 512 * (m + 1) = 512 * m + 512 by ring, Finset.sum_range_add, Fin.sum_univ_eq_sum_range (fun l => f (512 * m + l)) 512]

/-- The block product at an output index: the sum over the block's 512 contraction positions. -/
theorem mm0_apply (lhs : FVec Ideal S512x512 .f32) (rhs : FVec Ideal S512x2048 .f32) (j : S512x2048.Idx) :
    mm0 (F := Ideal) lhs rhs j = ∑ l : Fin 512, lhs (ix2 (j 0) l) * rhs (ix2 l (j 1)) := by
  simp only [mm0, matmul]
  rw [Ideal.matmul_constant_zero_apply]
  rw [← Equiv.sum_comp (contrEquiv1 dot_S512x512_S512x2048_S512x2048_1_0_0_1_n_n 512 rfl rfl).symm]
  refine Finset.sum_congr rfl fun l _ => ?_
  congr 2
  · funext a
    match a with
    | ⟨0, _⟩ => exact Fin.ext rfl
    | ⟨1, _⟩ => exact Fin.ext (by simp [contrEquiv1]; rfl)
  · funext a
    match a with
    | ⟨0, _⟩ => exact Fin.ext (by simp [contrEquiv1]; rfl)
    | ⟨1, _⟩ => exact Fin.ext rfl

/-- Where the windows' block indices are at a point of the grid (row block, reduction block). -/
theorem index0_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem index0_1 : ∀ t : Fin cfg0.N, win0_1.index t 0 = t.val % 8 ∧ win0_1.index t 1 = 0 :=
  (by decide +kernel : ∀ t : Fin grid0.N, win0_1.index t 0 = t.val % 8 ∧ win0_1.index t 1 = 0)
theorem index0_2 : ∀ t : Fin cfg0.N, win0_2.index t 0 = 0 ∧ win0_2.index t 1 = 0 :=
  (by decide +kernel : ∀ t : Fin grid0.N, win0_2.index t 0 = 0 ∧ win0_2.index t 1 = 0)
theorem index0_3 : ∀ t : Fin cfg0.N, win0_3.index t 0 = t.val / 8 ∧ win0_3.index t 1 = 0 :=
  (by decide +kernel : ∀ t : Fin grid0.N, win0_3.index t 0 = t.val / 8 ∧ win0_3.index t 1 = 0)

/-! ## The windows' blocks at an index -/

theorem iblk0_0_apply (c : Dev nD) (t : Fin cfg0.N) (j : S512x512.Idx) :
    (iblk0 V c 0 t : S512x512.Idx → EReal) j = An0 V c (512 * (t.val / 8) + (j 0).val) (512 * (t.val % 8) + (j 1).val) := by
  have hN : t.val < 64 := lt_of_lt_of_eq t.isLt (show cfg0.N = 64 from N_0)
  have h0 : (j 0).val < 512 := idx2_lt0 j
  have h1 : (j 1).val < 512 := idx2_lt1 j
  unfold An0
  rw [dif_pos ⟨by omega, by omega⟩]
  unfold iblk0
  rw [View.read_apply]
  show V c main_v236 _ = V c main_v236 _
  congr 1
  funext a
  apply Fin.ext
  match a with
  | ⟨0, _⟩ => show win0_0.index t 0 * 512 + 1 * (j 0).val = 512 * (t.val / 8) + (j 0).val; rw [(index0_0 t).1]; omega
  | ⟨1, _⟩ => show win0_0.index t 1 * 512 + 1 * (j 1).val = 512 * (t.val % 8) + (j 1).val; rw [(index0_0 t).2]; omega

theorem iblk0_1_apply (c : Dev nD) (t : Fin cfg0.N) (j : S512x2048.Idx) :
    (iblk0 V c 1 t : S512x2048.Idx → EReal) j = Bn0 V c (512 * (t.val % 8) + (j 0).val) (j 1).val := by
  have hN : t.val < 64 := lt_of_lt_of_eq t.isLt (show cfg0.N = 64 from N_0)
  have h0 : (j 0).val < 512 := idx2_lt0 j
  have h1 : (j 1).val < 2048 := idx2_lt1 j
  unfold Bn0
  rw [dif_pos ⟨by omega, by omega⟩]
  unfold iblk0
  rw [View.read_apply]
  show V c main_arg24 _ = V c main_arg24 _
  congr 1
  funext a
  apply Fin.ext
  match a with
  | ⟨0, _⟩ => show win0_1.index t 0 * 512 + 1 * (j 0).val = 512 * (t.val % 8) + (j 0).val; rw [(index0_1 t).1]; omega
  | ⟨1, _⟩ => show win0_1.index t 1 * 2048 + 1 * (j 1).val = (j 1).val; rw [(index0_1 t).2]; omega

theorem iblk0_2_apply (c : Dev nD) (t : Fin cfg0.N) (j : S1x2048.Idx) :
    (iblk0 V c 2 t : S1x2048.Idx → EReal) j = Cn0 V c (j 1).val := by
  have h0 : (j 0).val < 1 := idx2_lt0 j
  have h1 : (j 1).val < 2048 := idx2_lt1 j
  unfold Cn0
  rw [dif_pos h1]
  unfold iblk0
  rw [View.read_apply]
  show V c main_v237 _ = V c main_v237 _
  congr 1
  funext a
  apply Fin.ext
  match a with
  | ⟨0, _⟩ => show win0_2.index t 0 * 1 + 1 * (j 0).val = 0; rw [(index0_2 t).1]; omega
  | ⟨1, _⟩ => show win0_2.index t 1 * 2048 + 1 * (j 1).val = (j 1).val; rw [(index0_2 t).2]; omega

/-- The block product at a point, at an output index. -/
theorem step0 (c : Dev nD) (t : Fin cfg0.N) (j : S512x2048.Idx) :
    mm0 (F := Ideal) (iblk0 V c 0 t) (iblk0 V c 1 t) j
      = ∑ l : Fin 512, An0 V c (512 * (t.val / 8) + (j 0).val) (512 * (t.val % 8) + l.val) * Bn0 V c (512 * (t.val % 8) + l.val) (j 1).val := by
  rw [mm0_apply]
  refine Finset.sum_congr rfl fun l _ => ?_
  rw [iblk0_0_apply, iblk0_1_apply]

/-! ## The accumulator after each point, in closed form -/

/-- One more block: the sum so far plus the block's 512 products is the sum over one more block. -/
theorem acc_step0 (f : ℕ → EReal) (m : ℕ) (prev : EReal) (hprev : prev = ∑ k ∈ Finset.range (512 * m), f k) :
    prev + ∑ l : Fin 512, f (512 * m + l.val) = ∑ k ∈ Finset.range (512 * (m + 1)), f k := by
  rw [sum_range_block0, hprev]

/-- After point `n` the accumulator holds, at each index, the sum of the factors' products over the reduction
    positions of the blocks visited so far in the current row block. -/
theorem acc0_apply (c : Dev nD) : ∀ (n : ℕ) (h : n < cfg0.N) (j : S512x2048.Idx),
    (outsAt0 V c n h).2 j
      = ∑ k ∈ Finset.range (512 * (n % 8 + 1)), An0 V c (512 * (n / 8) + (j 0).val) k * Bn0 V c k (j 1).val := by
  intro n
  induction n with
  | zero =>
    intro h j
    rw [outsAt0_A V c ⟨0, h⟩ rfl (fun h7 => by dsimp only at h7; omega)]
    dsimp only
    rw [sout0_A_eq, addf_apply, step0]
    dsimp only
    refine acc_step0 (fun k => An0 V c (512 * (0 / 8) + (j 0).val) k * Bn0 V c k (j 1).val) (0 % 8) _ ?_
    show Ideal.ofBits .f32 0x00000000#32 = _
    rw [Ideal.ofBits_zero_f32]; simp
  | succ n ih =>
    intro h j
    have hN : n + 1 < 64 := lt_of_lt_of_eq h (show cfg0.N = 64 from N_0)
    by_cases h0 : (n + 1) % 8 = 0
    · have h1 : ¬(n + 1) % 8 = 7 := by omega
      rw [outsAt0_A V c ⟨n + 1, h⟩ h0 h1]
      dsimp only
      rw [sout0_A_eq, addf_apply, step0]
      dsimp only
      refine acc_step0 (fun k => An0 V c (512 * ((n + 1) / 8) + (j 0).val) k * Bn0 V c k (j 1).val) ((n + 1) % 8) _ ?_
      show Ideal.ofBits .f32 0x00000000#32 = _
      rw [Ideal.ofBits_zero_f32, h0]; simp
    · have e1 : (n + 1) / 8 = n / 8 := by omega
      have e2 : n % 8 + 1 = (n + 1) % 8 := by omega
      by_cases h1 : (n + 1) % 8 = 7
      · rw [outsAt0_C V c ⟨n + 1, h⟩ h0 h1]
        dsimp only
        rw [sout0_C_eq, addf_apply, step0]
        dsimp only
        refine acc_step0 (fun k => An0 V c (512 * ((n + 1) / 8) + (j 0).val) k * Bn0 V c k (j 1).val) ((n + 1) % 8) _ ?_
        rw [e1, ← e2]
        exact ih _ j
      · rw [outsAt0_B V c ⟨n + 1, h⟩ h0 h1]
        dsimp only
        rw [sout0_B_eq, addf_apply, step0]
        dsimp only
        refine acc_step0 (fun k => An0 V c (512 * ((n + 1) / 8) + (j 0).val) k * Bn0 V c k (j 1).val) ((n + 1) % 8) _ ?_
        rw [e1, ← e2]
        exact ih _ j

/-- At a point that stores the output, its buffer holds the larger of zero and the accumulator plus the bias row along every row. -/
theorem out0_fst (c : Dev nD) (t : Fin cfg0.N) (h0 : ¬t.val % 8 = 0) (h1 : t.val % 8 = 7) :
    (outsAt0 V c t.val t.isLt).1
      = @maximumf Ideal _ S512x2048 .f32 (@addf Ideal _ S512x2048 .f32 (outsAt0 V c t.val t.isLt).2 (broadcastTo S512x2048 (iblk0 V c 2 t : S1x2048.Idx → Ideal .f32) broadcasts_S1x2048_S512x2048)) (zero0 (F := Ideal)) := by
  rw [outsAt0_C V c t h0 h1]
  dsimp only
  rw [out0_C_eq, sout0_C_eq]

/-! ## The result array -/

/-- The specified result: each entry the larger of zero and the product's entry plus the bias. -/
def G0 (c : Dev nD) : S4096x2048.Idx → EReal := fun i =>
  Cert.Spec.relu0 (Cert.Spec.mmEntry (K := 4096) (fun k => (V c main_v236 : S4096x4096.Idx → EReal) (ix2 (i 0) k))
    (fun k => (V c main_arg24 : S4096x2048.Idx → EReal) (ix2 k (i 1))) ((V c main_v237 : S1x2048.Idx → EReal) (ix2 0 (i 1))))

theorem G0_apply (c : Dev nD) (i : S4096x2048.Idx) :
    G0 V c i = max ((∑ k ∈ Finset.range 4096, An0 V c (i 0).val k * Bn0 V c k (i 1).val) + Cn0 V c (i 1).val) (Ideal.ofBits .f32 0x00000000#32) := by
  have h0 : (i 0).val < 4096 := idx2_lt0 i
  have h1 : (i 1).val < 2048 := idx2_lt1 i
  unfold G0 Cert.Spec.relu0 Cert.Spec.mmEntry
  congr 1
  congr 1
  · rw [← Fin.sum_univ_eq_sum_range (fun k => An0 V c (i 0).val k * Bn0 V c k (i 1).val) 4096]
    refine Finset.sum_congr rfl fun k _ => ?_
    unfold An0 Bn0
    rw [dif_pos ⟨h0, k.isLt⟩, dif_pos ⟨k.isLt, h1⟩]
    rfl
  · unfold Cn0
    rw [dif_pos h1]
    rfl

/-- What a write-back writes is the specified result's block. -/
theorem flushed0_eq (c : Dev nD) (t : Fin cfg0.N) (hf : (cfg0.win 3).flush t = true) :
    (dat0 V c).flushed 3 t = ((cfg0.win 3).blk t).view.read (Elt Ideal) (G0 V c) := by
  have h7 : t.val % 8 = 7 := (flush0_3 t).mp hf
  have hN : t.val < 64 := lt_of_lt_of_eq t.isLt (show cfg0.N = 64 from N_0)
  funext j
  show (cfg0.win 3).cut (grid0.coords t) ((dat0 V c).after 3 t) j = _
  rw [after0_3]
  show (outsAt0 V c t.val t.isLt).1 ((cfg0.win 3).xinj (grid0.coords t) j) = _
  rw [out0_fst V c t (by omega) h7, maximumf_apply, addf_apply, acc0_apply, View.read_apply]
  show _ = G0 V c _
  rw [G0_apply]
  have e0 : (((cfg0.win 3).blk t).view.emb j 0).val = 512 * (t.val / 8) + (j 0).val := by
    show win0_3.index t 0 * 512 + 1 * (j 0).val = _; rw [(index0_3 t).1]; omega
  have e1 : (((cfg0.win 3).blk t).view.emb j 1).val = (j 1).val := by
    show win0_3.index t 1 * 2048 + 1 * (j 1).val = _; rw [(index0_3 t).2]; omega
  rw [e0, e1, h7]
  show max ((∑ k ∈ Finset.range (512 * (7 + 1)), An0 V c (512 * (t.val / 8) + (j 0).val) k * Bn0 V c k (j 1).val) + _) _ = _
  congr 1
  congr 1
  rw [broadcastTo_apply (iblk0 V c 2 t : S1x2048.Idx → Ideal .f32) broadcasts_S1x2048_S512x2048 _ (ix2 0 ((cfg0.win 3).xinj (grid0.coords t) j 1))
    (fun a => by match a with | ⟨0, _⟩ => rfl | ⟨1, _⟩ => rfl)]
  exact iblk0_2_apply V c t _

/-- Every index of the result array lies in the block some storing point writes back. -/
theorem cover0 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 4096 := (i 0).isLt
  have h1 : (i 1 : Nat) < 2048 := (i 1).isLt
  have hN : cfg0.N = 64 := N_0
  obtain ⟨t, ht⟩ : ∃ t : Fin cfg0.N, t.val = 8 * ((i 0 : Nat) / 512) + 7 := ⟨⟨8 * ((i 0 : Nat) / 512) + 7, by rw [hN]; omega⟩, rfl⟩
  refine ⟨t, (flush0_3 t).mpr (by rw [ht]; omega), ?_⟩
  show i ∈ ((View.whole main_v238).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [(index0_3 t).1, ht]; omega
  | ⟨1, _⟩ =>
    show win0_3.index t 1 * 2048 ≤ (i 1 : Nat) ∧ (i 1 : Nat) < win0_3.index t 1 * 2048 + 2048
    rw [(index0_3 t).2]; omega

/-- THE VALUE of region 0: when the region ends, each entry of its result array is the sum over the contracted axis
    of the factors' products, plus the bias, or zero if that is negative. -/
theorem final0 (c : Dev nD) (i : S4096x2048.Idx) :
    (dat0 (F := Ideal) V c).arrAt 3 cfg0.N i
      = Cert.Spec.relu0 (Cert.Spec.mmEntry (K := 4096) (fun k => (V c main_v236 : S4096x4096.Idx → EReal) (ix2 (i 0) k))
          (fun k => (V c main_arg24 : S4096x2048.Idx → EReal) (ix2 k (i 1))) ((V c main_v237 : S1x2048.Idx → EReal) (ix2 0 (i 1)))) :=
  congrFun ((dat0 V c).arrAt_eq_of_cover 3 (G0 V c) (flushed0_eq V c) (cover0 c)) i

end ValueIdeal0

end Cert.KernelIdeal.Hand

end
-- ==== Proof.KiR1Value.lean ====
import proofs.«122112_j6631429505271_1_alg».proof.Proof.KiR1Body
import proofs.«122112_j6631429505271_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

section ValueAny1
variable (V : (c : Dev nD) → (b : Ref sig .tc) → Buf (Elt F) ((c : Thread nD τ).loc b))

theorem hz1 : (![0, 0] : Fin 2 → Nat) = fun _ => 0 := funext fun a => by fin_cases a <;> rfl

/-- The zero block the reset stores. -/
abbrev zero1 : Vec F S512x2048 .f32 := broadcast S512x2048 (Scalar.ofBits .f32 0x00000000#32)
/-- The product of a block of the left factor and a block of the right factor. -/
abbrev mm1 (a : Vec F S512x512 .f32) (b : Vec F S512x2048 .f32) : Vec F S512x2048 .f32 :=
  matmul dot_S512x512_S512x2048_S512x2048_1_0_0_1_n_n (some .fp32) a b (constant S512x2048 .f32 0x00000000#32)

/-- The epilogue applied to the accumulator plus bias before the output is stored: clamp to [0, 1], add the word
    nearest one tenth, round to the nearest integer, ties to even. -/
abbrev epi1 (x : Vec F S512x2048 .f32) : Vec F S512x2048 .f32 :=
  roundeven (addf (minimumf (broadcast S512x2048 (Scalar.ofBits .f32 0x3F800000#32)) (maximumf (broadcast S512x2048 (Scalar.ofBits .f32 0x00000000#32)) x))
    (broadcast S512x2048 (Scalar.ofBits .f32 0x3DCCCCCD#32)))

/-! ## What each case leaves, as values -/

/-- Case B leaves in the accumulator what it held plus the block product. -/
theorem sout1_B_eq (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i) (x0 : Vec F S512x512 .f32) (x1 : Vec F S512x2048 .f32) (x2 : Vec F S1x2048 .f32) (xs0 : Vec F S512x2048 .f32) :
    sout1_B_0 c i arg3 harg3 arg4 harg4 arg5 harg5 arg6 harg6 arg7 harg7 hc0 hc1 x0 x1 x2 xs0 = addf xs0 (mm1 x0 x1) := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  rw [View.canon_unit_zero hz1]
  unfold k1_pay2
  simp only [View.readAt_eq_ld, harg3.read_unread, harg4.read_unread, harg5.read_unread, harg7.read_unread, View.ld_unit_zero (S := S512x512) hz1, View.ld_unit_zero (S := S512x2048) hz1, View.ld_unit_zero (S := S1x2048) hz1, shapeCast_self]

/-- Case C leaves the same in the accumulator, -/
theorem sout1_C_eq (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i) (x0 : Vec F S512x512 .f32) (x1 : Vec F S512x2048 .f32) (x2 : Vec F S1x2048 .f32) (xs0 : Vec F S512x2048 .f32) :
    sout1_C_0 c i arg3 harg3 arg4 harg4 arg5 harg5 arg6 harg6 arg7 harg7 hc0 hc1 x0 x1 x2 xs0 = addf xs0 (mm1 x0 x1) := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero hz1]
  unfold k1_pay2
  simp only [View.readAt_eq_ld, harg3.read_unread, harg4.read_unread, harg5.read_unread, harg7.read_unread, View.ld_unit_zero (S := S512x512) hz1, View.ld_unit_zero (S := S512x2048) hz1, View.ld_unit_zero (S := S1x2048) hz1, shapeCast_self]

/-- and in the output's buffer the epilogue of that plus the bias row laid along every row. -/
theorem out1_C_eq (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i) (x0 : Vec F S512x512 .f32) (x1 : Vec F S512x2048 .f32) (x2 : Vec F S1x2048 .f32) (xs0 : Vec F S512x2048 .f32) :
    out1_C_3 c i arg3 harg3 arg4 harg4 arg5 harg5 arg6 harg6 arg7 harg7 hc0 hc1 x0 x1 x2 xs0 = epi1 (addf (addf xs0 (mm1 x0 x1)) (broadcastTo S512x2048 x2 broadcasts_S1x2048_S512x2048)) := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz1, View.readCov_unit_zero _ hz1]
  unfold k1_pay3 k1_pay2
  simp only [View.readAt_eq_ld, harg3.read_unread, harg4.read_unread, harg5.read_unread, harg7.read_unread, View.ld_unit_zero (S := S512x512) hz1, View.ld_unit_zero (S := S512x2048) hz1, View.ld_unit_zero (S := S1x2048) hz1, shapeCast_self]

/-- Case A resets the accumulator first: it leaves the zero block plus the block product. -/
theorem sout1_A_eq (c : Dev nD) (i : grid1.Coords) (arg3 : Memref sig .tc .vmem S512x512 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i) (x0 : Vec F S512x512 .f32) (x1 : Vec F S512x2048 .f32) (x2 : Vec F S1x2048 .f32) :
    sout1_A_0 c i arg3 harg3 arg4 harg4 arg5 harg5 arg6 harg6 arg7 harg7 hc0 hc1 x0 x1 x2 = addf zero1 (mm1 x0 x1) := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S512x2048) hz1, View.readCov_unit_zero (S := S512x2048) _ hz1]
  unfold k1_pay2 k1_pay1
  simp only [View.readAt_eq_ld, harg3.read_unread, harg4.read_unread, harg5.read_unread, harg7.read_unread, View.ld_unit_zero (S := S512x512) hz1, View.ld_unit_zero (S := S512x2048) hz1, View.ld_unit_zero (S := S1x2048) hz1, shapeCast_self]

end ValueAny1

section ValueIdeal1
variable (V : (c : Dev nD) → (b : Ref sig .tc) → Buf (Elt Ideal) ((c : Thread nD τ).loc b))

/-! ## The arrays at natural-number coordinates -/

/-- The left factor, the right factor and the bias row read at natural-number coordinates (zero outside their extents). -/
def An1 (c : Dev nD) (r k : ℕ) : EReal :=
  if h : r < 4096 ∧ k < 2048 then (V c main_v238 : S4096x2048.Idx → EReal) (ix2 ⟨r, h.1⟩ ⟨k, h.2⟩) else 0
def Bn1 (c : Dev nD) (k n : ℕ) : EReal :=
  if h : k < 2048 ∧ n < 4096 then (V c main_arg26 : S2048x4096.Idx → EReal) (ix2 ⟨k, h.1⟩ ⟨n, h.2⟩) else 0
def Cn1 (c : Dev nD) (n : ℕ) : EReal :=
  if h : n < 4096 then (V c main_v239 : S1x4096.Idx → EReal) (ix2 ⟨0, Nat.one_pos⟩ ⟨n, h⟩) else 0

/-- Sums over consecutive blocks of 512 indices concatenate. -/
theorem sum_range_block1 (f : ℕ → EReal) (m : ℕ) :
    ∑ k ∈ Finset.range (512 * (m + 1)), f k = ∑ k ∈ Finset.range (512 * m), f k + ∑ l : Fin 512, f (512 * m + l.val) := by
  rw [show 512 * (m + 1) = 512 * m + 512 by ring, Finset.sum_range_add, Fin.sum_univ_eq_sum_range (fun l => f (512 * m + l)) 512]

/-- The block product at an output index: the sum over the block's 512 contraction positions. -/
theorem mm1_apply (lhs : FVec Ideal S512x512 .f32) (rhs : FVec Ideal S512x2048 .f32) (j : S512x2048.Idx) :
    mm1 (F := Ideal) lhs rhs j = ∑ l : Fin 512, lhs (ix2 (j 0) l) * rhs (ix2 l (j 1)) := by
  simp only [mm1, matmul]
  rw [Ideal.matmul_constant_zero_apply]
  rw [← Equiv.sum_comp (contrEquiv1 dot_S512x512_S512x2048_S512x2048_1_0_0_1_n_n 512 rfl rfl).symm]
  refine Finset.sum_congr rfl fun l _ => ?_
  congr 2
  · funext a
    match a with
    | ⟨0, _⟩ => exact Fin.ext rfl
    | ⟨1, _⟩ => exact Fin.ext (by simp [contrEquiv1]; rfl)
  · funext a
    match a with
    | ⟨0, _⟩ => exact Fin.ext (by simp [contrEquiv1]; rfl)
    | ⟨1, _⟩ => exact Fin.ext rfl

/-- Where the windows' block indices are at a point of the grid (row block, column block, reduction block). -/
theorem index1_0 : ∀ t : Fin cfg1.N, win1_0.index t 0 = t.val / 8 ∧ win1_0.index t 1 = t.val % 4 :=
  (by decide +kernel : ∀ t : Fin grid1.N, win1_0.index t 0 = t.val / 8 ∧ win1_0.index t 1 = t.val % 4)
theorem index1_1 : ∀ t : Fin cfg1.N, win1_1.index t 0 = t.val % 4 ∧ win1_1.index t 1 = t.val / 4 % 2 :=
  (by decide +kernel : ∀ t : Fin grid1.N, win1_1.index t 0 = t.val % 4 ∧ win1_1.index t 1 = t.val / 4 % 2)
theorem index1_2 : ∀ t : Fin cfg1.N, win1_2.index t 0 = 0 ∧ win1_2.index t 1 = t.val / 4 % 2 :=
  (by decide +kernel : ∀ t : Fin grid1.N, win1_2.index t 0 = 0 ∧ win1_2.index t 1 = t.val / 4 % 2)
theorem index1_3 : ∀ t : Fin cfg1.N, win1_3.index t 0 = t.val / 8 ∧ win1_3.index t 1 = t.val / 4 % 2 :=
  (by decide +kernel : ∀ t : Fin grid1.N, win1_3.index t 0 = t.val / 8 ∧ win1_3.index t 1 = t.val / 4 % 2)

/-! ## The windows' blocks at an index -/

theorem iblk1_0_apply (c : Dev nD) (t : Fin cfg1.N) (j : S512x512.Idx) :
    (iblk1 V c 0 t : S512x512.Idx → EReal) j = An1 V c (512 * (t.val / 8) + (j 0).val) (512 * (t.val % 4) + (j 1).val) := by
  have hN : t.val < 64 := lt_of_lt_of_eq t.isLt (show cfg1.N = 64 from N_1)
  have h0 : (j 0).val < 512 := idx2_lt0 j
  have h1 : (j 1).val < 512 := idx2_lt1 j
  unfold An1
  rw [dif_pos ⟨by omega, by omega⟩]
  unfold iblk1
  rw [View.read_apply]
  show V c main_v238 _ = V c main_v238 _
  congr 1
  funext a
  apply Fin.ext
  match a with
  | ⟨0, _⟩ => show win1_0.index t 0 * 512 + 1 * (j 0).val = 512 * (t.val / 8) + (j 0).val; rw [(index1_0 t).1]; omega
  | ⟨1, _⟩ => show win1_0.index t 1 * 512 + 1 * (j 1).val = 512 * (t.val % 4) + (j 1).val; rw [(index1_0 t).2]; omega

theorem iblk1_1_apply (c : Dev nD) (t : Fin cfg1.N) (j : S512x2048.Idx) :
    (iblk1 V c 1 t : S512x2048.Idx → EReal) j = Bn1 V c (512 * (t.val % 4) + (j 0).val) (2048 * (t.val / 4 % 2) + (j 1).val) := by
  have hN : t.val < 64 := lt_of_lt_of_eq t.isLt (show cfg1.N = 64 from N_1)
  have h0 : (j 0).val < 512 := idx2_lt0 j
  have h1 : (j 1).val < 2048 := idx2_lt1 j
  unfold Bn1
  rw [dif_pos ⟨by omega, by omega⟩]
  unfold iblk1
  rw [View.read_apply]
  show V c main_arg26 _ = V c main_arg26 _
  congr 1
  funext a
  apply Fin.ext
  match a with
  | ⟨0, _⟩ => show win1_1.index t 0 * 512 + 1 * (j 0).val = 512 * (t.val % 4) + (j 0).val; rw [(index1_1 t).1]; omega
  | ⟨1, _⟩ => show win1_1.index t 1 * 2048 + 1 * (j 1).val = 2048 * (t.val / 4 % 2) + (j 1).val; rw [(index1_1 t).2]; omega

theorem iblk1_2_apply (c : Dev nD) (t : Fin cfg1.N) (j : S1x2048.Idx) :
    (iblk1 V c 2 t : S1x2048.Idx → EReal) j = Cn1 V c (2048 * (t.val / 4 % 2) + (j 1).val) := by
  have hN : t.val < 64 := lt_of_lt_of_eq t.isLt (show cfg1.N = 64 from N_1)
  have h0 : (j 0).val < 1 := idx2_lt0 j
  have h1 : (j 1).val < 2048 := idx2_lt1 j
  unfold Cn1
  rw [dif_pos (by omega)]
  unfold iblk1
  rw [View.read_apply]
  show V c main_v239 _ = V c main_v239 _
  congr 1
  funext a
  apply Fin.ext
  match a with
  | ⟨0, _⟩ => show win1_2.index t 0 * 1 + 1 * (j 0).val = 0; rw [(index1_2 t).1]; omega
  | ⟨1, _⟩ => show win1_2.index t 1 * 2048 + 1 * (j 1).val = 2048 * (t.val / 4 % 2) + (j 1).val; rw [(index1_2 t).2]; omega

/-- The block product at a point, at an output index. -/
theorem step1 (c : Dev nD) (t : Fin cfg1.N) (j : S512x2048.Idx) :
    mm1 (F := Ideal) (iblk1 V c 0 t) (iblk1 V c 1 t) j
      = ∑ l : Fin 512, An1 V c (512 * (t.val / 8) + (j 0).val) (512 * (t.val % 4) + l.val) * Bn1 V c (512 * (t.val % 4) + l.val) (2048 * (t.val / 4 % 2) + (j 1).val) := by
  rw [mm1_apply]
  refine Finset.sum_congr rfl fun l _ => ?_
  rw [iblk1_0_apply, iblk1_1_apply]

/-! ## The accumulator after each point, in closed form -/

/-- One more block: the sum so far plus the block's 512 products is the sum over one more block. -/
theorem acc_step1 (f : ℕ → EReal) (m : ℕ) (prev : EReal) (hprev : prev = ∑ k ∈ Finset.range (512 * m), f k) :
    prev + ∑ l : Fin 512, f (512 * m + l.val) = ∑ k ∈ Finset.range (512 * (m + 1)), f k := by
  rw [sum_range_block1, hprev]

/-- After point `n` the accumulator holds, at each index, the sum of the factors' products over the reduction
    positions of the blocks visited so far for the current output block. -/
theorem acc1_apply (c : Dev nD) : ∀ (n : ℕ) (h : n < cfg1.N) (j : S512x2048.Idx),
    (outsAt1 V c n h).2 j
      = ∑ k ∈ Finset.range (512 * (n % 4 + 1)), An1 V c (512 * (n / 8) + (j 0).val) k * Bn1 V c k (2048 * (n / 4 % 2) + (j 1).val) := by
  intro n
  induction n with
  | zero =>
    intro h j
    rw [outsAt1_A V c ⟨0, h⟩ rfl (fun h7 => by dsimp only at h7; omega)]
    dsimp only
    rw [sout1_A_eq, addf_apply, step1]
    dsimp only
    refine acc_step1 (fun k => An1 V c (512 * (0 / 8) + (j 0).val) k * Bn1 V c k (2048 * (0 / 4 % 2) + (j 1).val)) (0 % 4) _ ?_
    show Ideal.ofBits .f32 0x00000000#32 = _
    rw [Ideal.ofBits_zero_f32]; simp
  | succ n ih =>
    intro h j
    have hN : n + 1 < 64 := lt_of_lt_of_eq h (show cfg1.N = 64 from N_1)
    by_cases h0 : (n + 1) % 4 = 0
    · have h1 : ¬(n + 1) % 4 = 3 := by omega
      rw [outsAt1_A V c ⟨n + 1, h⟩ h0 h1]
      dsimp only
      rw [sout1_A_eq, addf_apply, step1]
      dsimp only
      refine acc_step1 (fun k => An1 V c (512 * ((n + 1) / 8) + (j 0).val) k * Bn1 V c k (2048 * ((n + 1) / 4 % 2) + (j 1).val)) ((n + 1) % 4) _ ?_
      show Ideal.ofBits .f32 0x00000000#32 = _
      rw [Ideal.ofBits_zero_f32, h0]; simp
    · have e1 : (n + 1) / 8 = n / 8 := by omega
      have e2 : n % 4 + 1 = (n + 1) % 4 := by omega
      have e3 : (n + 1) / 4 % 2 = n / 4 % 2 := by omega
      by_cases h1 : (n + 1) % 4 = 3
      · rw [outsAt1_C V c ⟨n + 1, h⟩ h0 h1]
        dsimp only
        rw [sout1_C_eq, addf_apply, step1]
        dsimp only
        refine acc_step1 (fun k => An1 V c (512 * ((n + 1) / 8) + (j 0).val) k * Bn1 V c k (2048 * ((n + 1) / 4 % 2) + (j 1).val)) ((n + 1) % 4) _ ?_
        rw [e1, e3, ← e2]
        exact ih _ j
      · rw [outsAt1_B V c ⟨n + 1, h⟩ h0 h1]
        dsimp only
        rw [sout1_B_eq, addf_apply, step1]
        dsimp only
        refine acc_step1 (fun k => An1 V c (512 * ((n + 1) / 8) + (j 0).val) k * Bn1 V c k (2048 * ((n + 1) / 4 % 2) + (j 1).val)) ((n + 1) % 4) _ ?_
        rw [e1, e3, ← e2]
        exact ih _ j

/-- At a point that stores the output, its buffer holds the epilogue of the accumulator plus the bias row along every row. -/
theorem out1_fst (c : Dev nD) (t : Fin cfg1.N) (h0 : ¬t.val % 4 = 0) (h1 : t.val % 4 = 3) :
    (outsAt1 V c t.val t.isLt).1
      = @epi1 Ideal _ (@addf Ideal _ S512x2048 .f32 (outsAt1 V c t.val t.isLt).2 (broadcastTo S512x2048 (iblk1 V c 2 t : S1x2048.Idx → Ideal .f32) broadcasts_S1x2048_S512x2048)) := by
  rw [outsAt1_C V c t h0 h1]
  dsimp only
  rw [out1_C_eq, sout1_C_eq]

/-! ## The result array -/

/-- The specified result: each entry the epilogue of the product's entry plus the bias. -/
def G1 (c : Dev nD) : S4096x4096.Idx → EReal := fun i =>
  Cert.Spec.clipRound (Cert.Spec.mmEntry (K := 2048) (fun k => (V c main_v238 : S4096x2048.Idx → EReal) (ix2 (i 0) k))
    (fun k => (V c main_arg26 : S2048x4096.Idx → EReal) (ix2 k (i 1))) ((V c main_v239 : S1x4096.Idx → EReal) (ix2 0 (i 1))))

theorem G1_apply (c : Dev nD) (i : S4096x4096.Idx) :
    G1 V c i = Cert.Spec.clipRound ((∑ k ∈ Finset.range 2048, An1 V c (i 0).val k * Bn1 V c k (i 1).val) + Cn1 V c (i 1).val) := by
  have h0 : (i 0).val < 4096 := idx2_lt0 i
  have h1 : (i 1).val < 4096 := idx2_lt1 i
  unfold G1 Cert.Spec.mmEntry
  congr 2
  · rw [← Fin.sum_univ_eq_sum_range (fun k => An1 V c (i 0).val k * Bn1 V c k (i 1).val) 2048]
    refine Finset.sum_congr rfl fun k _ => ?_
    unfold An1 Bn1
    rw [dif_pos ⟨h0, k.isLt⟩, dif_pos ⟨k.isLt, h1⟩]
    rfl
  · unfold Cn1
    rw [dif_pos h1]
    rfl

/-- What a write-back writes is the specified result's block. -/
theorem flushed1_eq (c : Dev nD) (t : Fin cfg1.N) (hf : (cfg1.win 3).flush t = true) :
    (dat1 V c).flushed 3 t = ((cfg1.win 3).blk t).view.read (Elt Ideal) (G1 V c) := by
  have h7 : t.val % 4 = 3 := (flush1_3 t).mp hf
  have hN : t.val < 64 := lt_of_lt_of_eq t.isLt (show cfg1.N = 64 from N_1)
  funext j
  show (cfg1.win 3).cut (grid1.coords t) ((dat1 V c).after 3 t) j = _
  rw [after1_3]
  show (outsAt1 V c t.val t.isLt).1 ((cfg1.win 3).xinj (grid1.coords t) j) = _
  rw [out1_fst V c t (by omega) h7]
  show Cert.Spec.clipRound (@addf Ideal _ S512x2048 .f32 _ _ ((cfg1.win 3).xinj (grid1.coords t) j)) = _
  rw [addf_apply, acc1_apply, View.read_apply]
  show _ = G1 V c _
  rw [G1_apply]
  have e0 : (((cfg1.win 3).blk t).view.emb j 0).val = 512 * (t.val / 8) + (j 0).val := by
    show win1_3.index t 0 * 512 + 1 * (j 0).val = _; rw [(index1_3 t).1]; omega
  have e1 : (((cfg1.win 3).blk t).view.emb j 1).val = 2048 * (t.val / 4 % 2) + (j 1).val := by
    show win1_3.index t 1 * 2048 + 1 * (j 1).val = _; rw [(index1_3 t).2]; omega
  rw [e0, e1, h7]
  show Cert.Spec.clipRound ((∑ k ∈ Finset.range (512 * (3 + 1)), An1 V c (512 * (t.val / 8) + (j 0).val) k * Bn1 V c k (2048 * (t.val / 4 % 2) + (j 1).val)) + _) = _
  congr 2
  rw [broadcastTo_apply (iblk1 V c 2 t : S1x2048.Idx → Ideal .f32) broadcasts_S1x2048_S512x2048 _ (ix2 0 ((cfg1.win 3).xinj (grid1.coords t) j 1))
    (fun a => by match a with | ⟨0, _⟩ => rfl | ⟨1, _⟩ => rfl)]
  exact iblk1_2_apply V c t _

/-- Every index of the result array lies in the block some storing point writes back. -/
theorem cover1 (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0 : Nat) < 4096 := (i 0).isLt
  have h1 : (i 1 : Nat) < 4096 := (i 1).isLt
  have hN : cfg1.N = 64 := N_1
  obtain ⟨t, ht⟩ : ∃ t : Fin cfg1.N, t.val = 8 * ((i 0 : Nat) / 512) + 4 * ((i 1 : Nat) / 2048) + 3 := ⟨⟨8 * ((i 0 : Nat) / 512) + 4 * ((i 1 : Nat) / 2048) + 3, by rw [hN]; omega⟩, rfl⟩
  refine ⟨t, (flush1_3 t).mpr (by rw [ht]; omega), ?_⟩
  show i ∈ ((View.whole main_v240).slice (win1_3.rect t)).set
  rw [View.set_slice_whole, Rect.mem_set_unit]
  intro a
  match a with
  | ⟨0, _⟩ =>
    show win1_3.index t 0 * 512 ≤ (i 0 : Nat) ∧ (i 0 : Nat) < win1_3.index t 0 * 512 + 512
    rw [(index1_3 t).1, ht]; omega
  | ⟨1, _⟩ =>
    show win1_3.index t 1 * 2048 ≤ (i 1 : Nat) ∧ (i 1 : Nat) < win1_3.index t 1 * 2048 + 2048
    rw [(index1_3 t).2, ht]; omega

/-- THE VALUE of region 1: when the region ends, each entry of its result array is the epilogue of the sum over the
    contracted axis of the factors' products, plus the bias. -/
theorem final1 (c : Dev nD) (i : S4096x4096.Idx) :
    (dat1 (F := Ideal) V c).arrAt 3 cfg1.N i
      = Cert.Spec.clipRound (Cert.Spec.mmEntry (K := 2048) (fun k => (V c main_v238 : S4096x2048.Idx → EReal) (ix2 (i 0) k))
    (fun k => (V c main_arg26 : S2048x4096.Idx → EReal) (ix2 k (i 1))) ((V c main_v239 : S1x4096.Idx → EReal) (ix2 0 (i 1)))) :=
  congrFun ((dat1 V c).arrAt_eq_of_cover 3 (G1 V c) (flushed1_eq V c) (cover1 c)) i

end ValueIdeal1

end Cert.KernelIdeal.Hand

end
-- ==== Proof.KiR2Value.lean ====
import proofs.«122112_j6631429505271_1_alg».proof.Proof.KiR2Body
import proofs.«122112_j6631429505271_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

section ValueAny2
variable (V : (c : Dev nD) → (b : Ref sig .tc) → Buf (Elt F) ((c : Thread nD τ).loc b))

theorem hz2 : (![0, 0] : Fin 2 → Nat) = fun _ => 0 := funext fun a => by fin_cases a <;> rfl

/-- The zero block the reset stores. -/
abbrev zero2 : Vec F S512x64 .f32 := broadcast S512x64 (Scalar.ofBits .f32 0x00000000#32)
/-- The product of a block of the left factor and a block of the right factor. -/
abbrev mm2 (a : Vec F S512x512 .f32) (b : Vec F S512x64 .f32) : Vec F S512x64 .f32 :=
  matmul dot_S512x512_S512x64_S512x64_1_0_0_1_n_n (some .fp32) a b (constant S512x64 .f32 0x00000000#32)

/-! ## What each case leaves, as values -/

/-- Case B leaves in the accumulator what it held plus the block product. -/
theorem sout2_B_eq (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : ¬cond2_1 i) (x0 : Vec F S512x512 .f32) (x1 : Vec F S512x64 .f32) (x2 : Vec F S1x64 .f32) (xs0 : Vec F S512x64 .f32) :
    sout2_B_0 c i arg3 harg3 arg4 harg4 arg5 harg5 arg6 harg6 arg7 harg7 hc0 hc1 x0 x1 x2 xs0 = addf xs0 (mm2 x0 x1) := by
  unfold sout2_B_0
  rw [View.read_writes_eq_canon _ _ _ (scover2_B_0 c i arg3 harg3 arg4 harg4 arg5 harg5 arg6 harg6 arg7 harg7 hc0 hc1 x0 x1 x2 xs0)]
  unfold kernelRun2_B
  dsimp only
  rw [View.canon_unit_zero hz2]
  unfold k2_pay2
  simp only [View.readAt_eq_ld, harg3.read_unread, harg4.read_unread, harg5.read_unread, harg7.read_unread, View.ld_unit_zero (S := S512x512) hz2, View.ld_unit_zero (S := S512x64) hz2, View.ld_unit_zero (S := S1x64) hz2, shapeCast_self]

/-- Case C leaves the same in the accumulator, -/
theorem sout2_C_eq (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i) (x0 : Vec F S512x512 .f32) (x1 : Vec F S512x64 .f32) (x2 : Vec F S1x64 .f32) (xs0 : Vec F S512x64 .f32) :
    sout2_C_0 c i arg3 harg3 arg4 harg4 arg5 harg5 arg6 harg6 arg7 harg7 hc0 hc1 x0 x1 x2 xs0 = addf xs0 (mm2 x0 x1) := by
  unfold sout2_C_0
  rw [View.read_writes_eq_canon _ _ _ (scover2_C_0 c i arg3 harg3 arg4 harg4 arg5 harg5 arg6 harg6 arg7 harg7 hc0 hc1 x0 x1 x2 xs0)]
  unfold kernelRun2_C
  dsimp only
  sl_unfold_words
  rw [View.canon_unit_zero hz2]
  unfold k2_pay2
  simp only [View.readAt_eq_ld, harg3.read_unread, harg4.read_unread, harg5.read_unread, harg7.read_unread, View.ld_unit_zero (S := S512x512) hz2, View.ld_unit_zero (S := S512x64) hz2, View.ld_unit_zero (S := S1x64) hz2, shapeCast_self]

/-- and in the output's buffer that plus the bias row laid along every row. -/
theorem out2_C_eq (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond2_0 i) (hc1 : cond2_1 i) (x0 : Vec F S512x512 .f32) (x1 : Vec F S512x64 .f32) (x2 : Vec F S1x64 .f32) (xs0 : Vec F S512x64 .f32) :
    out2_C_3 c i arg3 harg3 arg4 harg4 arg5 harg5 arg6 harg6 arg7 harg7 hc0 hc1 x0 x1 x2 xs0 = addf (addf xs0 (mm2 x0 x1)) (broadcastTo S512x64 x2 broadcasts_S1x64_S512x64) := by
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  sl_unfold_words
  rw [View.canon_unit_zero hz2, View.readCov_unit_zero _ hz2]
  unfold k2_pay3 k2_pay2
  simp only [View.readAt_eq_ld, harg3.read_unread, harg4.read_unread, harg5.read_unread, harg7.read_unread, View.ld_unit_zero (S := S512x512) hz2, View.ld_unit_zero (S := S512x64) hz2, View.ld_unit_zero (S := S1x64) hz2, shapeCast_self]

/-- Case A resets the accumulator first: it leaves the zero block plus the block product. -/
theorem sout2_A_eq (c : Dev nD) (i : grid2.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond2_0 i) (hc1 : ¬cond2_1 i) (x0 : Vec F S512x512 .f32) (x1 : Vec F S512x64 .f32) (x2 : Vec F S1x64 .f32) :
    sout2_A_0 c i arg3 harg3 arg4 harg4 arg5 harg5 arg6 harg6 arg7 harg7 hc0 hc1 x0 x1 x2 = addf zero2 (mm2 x0 x1) := by
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  sl_unfold_words
  rw [View.canon_cons_unit_zero (S := S512x64) hz2, View.readCov_unit_zero (S := S512x64) _ hz2]
  unfold k2_pay2 k2_pay1
  simp only [View.readAt_eq_ld, harg3.read_unread, harg4.read_unread, harg5.read_unread, harg7.read_unread, View.ld_unit_zero (S := S512x512) hz2, View.ld_unit_zero (S := S512x64) hz2, View.ld_unit_zero (S := S1x64) hz2, shapeCast_self]

end ValueAny2

section ValueIdeal2
variable (V : (c : Dev nD) → (b : Ref sig .tc) → Buf (Elt Ideal) ((c : Thread nD τ).loc b))

/-! ## The arrays at natural-number coordinates -/

/-- The left factor, the right factor and the bias row read at natural-number coordinates (zero outside their extents). -/
def An2 (c : Dev nD) (r k : ℕ) : EReal :=
  if h : r < 4096 ∧ k < 4096 then (V c main_v252 : S4096x4096.Idx → EReal) (ix2 ⟨r, h.1⟩ ⟨k, h.2⟩) else 0
def Bn2 (c : Dev nD) (k n : ℕ) : EReal :=
  if h : k < 4096 ∧ n < 64 then (V c main_v259 : S4096x64.Idx → EReal) (ix2 ⟨k, h.1⟩ ⟨n, h.2⟩) else 0
def Cn2 (c : Dev nD) (n : ℕ) : EReal :=
  if h : n < 64 then (V c main_v260 : S1x64.Idx → EReal) (ix2 ⟨0, Nat.one_pos⟩ ⟨n, h⟩) else 0

/-- Sums over consecutive blocks of 512 indices concatenate. -/
theorem sum_range_block2 (f : ℕ → EReal) (m : ℕ) :
    ∑ k ∈ Finset.range (512 * (m + 1)), f k = ∑ k ∈ Finset.range (512 * m), f k + ∑ l : Fin 512, f (512 * m + l.val) := by
  rw [show 512 * (m + 1) = 512 * m + 512 by ring, Finset.sum_range_add, Fin.sum_univ_eq_sum_range (fun l => f (512 * m + l)) 512]

/-- The block product at an output index: the sum over the block's 512 contraction positions. -/
theorem mm2_apply (lhs : FVec Ideal S512x512 .f32) (rhs : FVec Ideal S512x64 .f32) (j : S512x64.Idx) :
    mm2 (F := Ideal) lhs rhs j = ∑ l : Fin 512, lhs (ix2 (j 0) l) * rhs (ix2 l (j 1)) := by
  simp only [mm2, matmul]
  rw [Ideal.matmul_constant_zero_apply]
  rw [← Equiv.sum_comp (contrEquiv1 dot_S512x512_S512x64_S512x64_1_0_0_1_n_n 512 rfl rfl).symm]
  refine Finset.sum_congr rfl fun l _ => ?_
  congr 2
  · funext a
    match a with
    | ⟨0, _⟩ => exact Fin.ext rfl
    | ⟨1, _⟩ => exact Fin.ext (by simp [contrEquiv1]; rfl)
  · funext a
    match a with
    | ⟨0, _⟩ => exact Fin.ext (by simp [contrEquiv1]; rfl)
    | ⟨1, _⟩ => exact Fin.ext rfl

/-- Where the windows' block indices are at a point of the grid (row block, reduction block). -/
theorem index2_0 : ∀ t : Fin cfg2.N, win2_0.index t 0 = t.val / 8 ∧ win2_0.index t 1 = t.val % 8 :=
  (by decide +kernel : ∀ t : Fin grid2.N, win2_0.index t 0 = t.val / 8 ∧ win2_0.index t 1 = t.val % 8)
theorem index2_1 : ∀ t : Fin cfg2.N, win2_1.index t 0 = t.val % 8 ∧ win2_1.index t 1 = 0 :=
  (by decide +kernel : ∀ t : Fin grid2.N, win2_1.index t 0 = t.val % 8 ∧ win2_1.index t 1 = 0)
theorem index2_2 : ∀ t : Fin cfg2.N, win2_2.index t 0 = 0 ∧ win2_2.index t 1 = 0 :=
  (by decide +kernel : ∀ t : Fin grid2.N, win2_2.index t 0 = 0 ∧ win2_2.index t 1 = 0)
theorem index2_3 : ∀ t : Fin cfg2.N, win2_3.index t 0 = t.val / 8 ∧ win2_3.index t 1 = 0 :=
  (by decide +kernel : ∀ t : Fin grid2.N, win2_3.index t 0 = t.val / 8 ∧ win2_3.index t 1 = 0)

/-! ## The windows' blocks at an index -/

theorem iblk2_0_apply (c : Dev nD) (t : Fin cfg2.N) (j : S512x512.Idx) :
    (iblk2 V c 0 t : S512x512.Idx → EReal) j = An2 V c (512 * (t.val / 8) + (j 0).val) (512 * (t.val % 8) + (j 1).val) := by
  have hN : t.val < 64 := lt_of_lt_of_eq t.isLt (show cfg2.N = 64 from N_2)
  have h0 : (j 0).val < 512 := idx2_lt0 j
  have h1 : (j 1).val < 512 := idx2_lt1 j
  unfold An2
  rw [dif_pos ⟨by omega, by omega⟩]
  unfold iblk2
  rw [View.read_apply]
  show V c main_v252 _ = V c main_v252 _
  congr 1
  funext a
  apply Fin.ext
  match a with
  | ⟨0, _⟩ => show win2_0.index t 0 * 512 + 1 * (j 0).val = 512 * (t.val / 8) + (j 0).val; rw [(index2_0 t).1]; omega
  | ⟨1, _⟩ => show win2_0.index t 1 * 512 + 1 * (j 1).val = 512 * (t.val % 8) + (j 1).val; rw [(index2_0 t).2]; omega

theorem iblk2_1_apply (c : Dev nD) (t : Fin cfg2.N) (j : S512x64.Idx) :
    (iblk2 V c 1 t : S512x64.Idx → EReal) j = Bn2 V c (512 * (t.val % 8) + (j 0).val) (j 1).val := by
  have hN : t.val < 64 := lt_of_lt_of_eq t.isLt (show cfg2.N = 64 from N_2)
  have h0 : (j 0).val < 512 := idx2_lt0 j
  have h1 : (j 1).val < 64 := idx2_lt1 j
  unfold Bn2
  rw [dif_pos ⟨by omega, by omega⟩]
  unfold iblk2
  rw [View.read_apply]
  show V c main_v259 _ = V c main_v259 _
  congr 1
  funext a
  apply Fin.ext
  match a with
  | ⟨0, _⟩ => show win2_1.index t 0 * 512 + 1 * (j 0).val = 512 * (t.val % 8) + (j 0).val; rw [(index2_1 t).1]; omega
  | ⟨1, _⟩ => show win2_1.index t 1 * 64 + 1 * (j 1).val = (j 1).val; rw [(index2_1 t).2]; omega

theorem iblk2_2_apply (c : Dev nD) (t : Fin cfg2.N) (j : S1x64.Idx) :
    (iblk2 V c 2 t : S1x64.Idx → EReal) j = Cn2 V c (j 1).val := by
  have h0 : (j 0).val < 1 := idx2_lt0 j
  have h1 : (j 1).val < 64 := idx2_lt1 j
  unfold Cn2
  rw [dif_pos h1]
  unfold iblk2
  rw [View.read_apply]
  show V c main_v260 _ = V c main_v260 _
  congr 1
  funext a
  apply Fin.ext
  match a with
  | ⟨0, _⟩ => show win2_2.index t 0 * 1 + 1 * (j 0).val = 0; rw [(index2_2 t).1]; omega
  | ⟨1, _⟩ => show win2_2.index t 1 * 64 + 1 * (j 1).val = (j 1).val; rw [(index2_2 t).2]; omega

/-- The block product at a point, at an output index. -/
theorem step2 (c : Dev nD) (t : Fin cfg2.N) (j : S512x64.Idx) :
    mm2 (F := Ideal) (iblk2 V c 0 t) (iblk2 V c 1 t) j
      = ∑ l : Fin 512, An2 V c (512 * (t.val / 8) + (j 0).val) (512 * (t.val % 8) + l.val) * Bn2 V c (512 * (t.val % 8) + l.val) (j 1).val := by
  rw [mm2_apply]
  refine Finset.sum_congr rfl fun l _ => ?_
  rw [iblk2_0_apply, iblk2_1_apply]

/-! ## The accumulator after each point, in closed form -/

/-- One more block: the sum so far plus the block's 512 products is the sum over one more block. -/
theorem acc_step2 (f : ℕ → EReal) (m : ℕ) (prev : EReal) (hprev : prev = ∑ k ∈ Finset.range (512 * m), f k) :
    prev + ∑ l : Fin 512, f (512 * m + l.val) = ∑ k ∈ Finset.range (512 * (m + 1)), f k := by
  rw [sum_range_block2, hprev]

/-- After point `n` the accumulator holds, at each index, the sum of the factors' products over the reduction
    positions of the blocks visited so far in the current row block. -/
theorem acc2_apply (c : Dev nD) : ∀ (n : ℕ) (h : n < cfg2.N) (j : S512x64.Idx),
    (outsAt2 V c n h).2 j
      = ∑ k ∈ Finset.range (512 * (n % 8 + 1)), An2 V c (512 * (n / 8) + (j 0).val) k * Bn2 V c k (j 1).val := by
  intro n
  induction n with
  | zero =>
    intro h j
    rw [outsAt2_A V c ⟨0, h⟩ rfl (fun h7 => by dsimp only at h7; omega)]
    dsimp only
    rw [sout2_A_eq, addf_apply, step2]
    dsimp only
    refine acc_step2 (fun k => An2 V c (512 * (0 / 8) + (j 0).val) k * Bn2 V c k (j 1).val) (0 % 8) _ ?_
    show Ideal.ofBits .f32 0x00000000#32 = _
    rw [Ideal.ofBits_zero_f32]; simp
  | succ n ih =>
    intro h j
    have hN : n + 1 < 64 := lt_of_lt_of_eq h (show cfg2.N = 64 from N_2)
    by_cases h0 : (n + 1) % 8 = 0
    · have h1 : ¬(n + 1) % 8 = 7 := by omega
      rw [outsAt2_A V c ⟨n + 1, h⟩ h0 h1]
      dsimp only
      rw [sout2_A_eq, addf_apply, step2]
      dsimp only
      refine acc_step2 (fun k => An2 V c (512 * ((n + 1) / 8) + (j 0).val) k * Bn2 V c k (j 1).val) ((n + 1) % 8) _ ?_
      show Ideal.ofBits .f32 0x00000000#32 = _
      rw [Ideal.ofBits_zero_f32, h0]; simp
    · have e1 : (n + 1) / 8 = n / 8 := by omega
      have e2 : n % 8 + 1 = (n + 1) % 8 := by omega
      by_cases h1 : (n + 1) % 8 = 7
      · rw [outsAt2_C V c ⟨n + 1, h⟩ h0 h1]
        dsimp only
        rw [sout2_C_eq, addf_apply, step2]
        dsimp only
        refine acc_step2 (fun k => An2 V c (512 * ((n + 1) / 8) + (j 0).val) k * Bn2 V c k (j 1).val) ((n + 1) % 8) _ ?_
        rw [e1, ← e2]
        exact ih _ j
      · rw [outsAt2_B V c ⟨n + 1, h⟩ h0 h1]
        dsimp only
        rw [sout2_B_eq, addf_apply, step2]
        dsimp only
        refine acc_step2 (fun k => An2 V c (512 * ((n + 1) / 8) + (j 0).val) k * Bn2 V c k (j 1).val) ((n + 1) % 8) _ ?_
        rw [e1, ← e2]
        exact ih _ j

/-- At a point that stores the output, its buffer holds the accumulator plus the bias row along every row. -/
theorem out2_fst (c : Dev nD) (t : Fin cfg2.N) (h0 : ¬t.val % 8 = 0) (h1 : t.val % 8 = 7) :
    (outsAt2 V c t.val t.isLt).1
      = @addf Ideal _ S512x64 .f32 (outsAt2 V c t.val t.isLt).2 (broadcastTo S512x64 (iblk2 V c 2 t : S1x64.Idx → Ideal .f32) broadcasts_S1x64_S512x64) := by
  rw [outsAt2_C V c t h0 h1]
  dsimp only
  rw [out2_C_eq, sout2_C_eq]

/-! ## The result array -/

/-- The specified result: each entry the product's entry plus the bias. -/
def G2 (c : Dev nD) : S4096x64.Idx → EReal := fun i =>
  Cert.Spec.mmEntry (K := 4096) (fun k => (V c main_v252 : S4096x4096.Idx → EReal) (ix2 (i 0) k))
    (fun k => (V c main_v259 : S4096x64.Idx → EReal) (ix2 k (i 1))) ((V c main_v260 : S1x64.Idx → EReal) (ix2 0 (i 1)))

theorem G2_apply (c : Dev nD) (i : S4096x64.Idx) :
    G2 V c i = (∑ k ∈ Finset.range 4096, An2 V c (i 0).val k * Bn2 V c k (i 1).val) + Cn2 V c (i 1).val := by
  have h0 : (i 0).val < 4096 := idx2_lt0 i
  have h1 : (i 1).val < 64 := idx2_lt1 i
  unfold G2 Cert.Spec.mmEntry
  congr 1
  · rw [← Fin.sum_univ_eq_sum_range (fun k => An2 V c (i 0).val k * Bn2 V c k (i 1).val) 4096]
    refine Finset.sum_congr rfl fun k _ => ?_
    unfold An2 Bn2
    rw [dif_pos ⟨h0, k.isLt⟩, dif_pos ⟨k.isLt, h1⟩]
    rfl
  · unfold Cn2
    rw [dif_pos h1]
    rfl

/-- What a write-back writes is the specified result's block. -/
theorem flushed2_eq (c : Dev nD) (t : Fin cfg2.N) (hf : (cfg2.win 3).flush t = true) :
    (dat2 V c).flushed 3 t = ((cfg2.win 3).blk t).view.read (Elt Ideal) (G2 V c) := by
  have h7 : t.val % 8 = 7 := (flush2_3 t).mp hf
  have hN : t.val < 64 := lt_of_lt_of_eq t.isLt (show cfg2.N = 64 from N_2)
  funext j
  show (cfg2.win 3).cut (grid2.coords t) ((dat2 V c).after 3 t) j = _
  rw [after2_3]
  show (outsAt2 V c t.val t.isLt).1 ((cfg2.win 3).xinj (grid2.coords t) j) = _
  rw [out2_fst V c t (by omega) h7, addf_apply, acc2_apply, View.read_apply]
  show _ = G2 V c _
  rw [G2_apply]
  have e0 : (((cfg2.win 3).blk t).view.emb j 0).val = 512 * (t.val / 8) + (j 0).val := by
    show win2_3.index t 0 * 512 + 1 * (j 0).val = _; rw [(index2_3 t).1]; omega
  have e1 : (((cfg2.win 3).blk t).view.emb j 1).val = (j 1).val := by
    show win2_3.index t 1 * 64 + 1 * (j 1).val = _; rw [(index2_3 t).2]; omega
  rw [e0, e1, h7]
  show (∑ k ∈ Finset.range (512 * (7 + 1)), An2 V c (512 * (t.val / 8) + (j 0).val) k * Bn2 V c k (j 1).val) + _ = _
  congr 1
  rw [broadcastTo_apply (iblk2 V c 2 t : S1x64.Idx → Ideal .f32) broadcasts_S1x64_S512x64 _ (ix2 0 ((cfg2.win 3).xinj (grid2.coords t) j 1))
    (fun a => by match a with | ⟨0, _⟩ => rfl | ⟨1, _⟩ => rfl)]
  exact iblk2_2_apply V c t _

/-- Every index of the result array lies in the block some storing point writes back. -/
theorem cover2 (c : Dev nD) (i : ((cfg2.win 3).arr.view.loc (c.tc : Thread nD τ)).2.ty.Idx) :
    ∃ t : Fin cfg2.N, (cfg2.win 3).flush t = true ∧ i ∈ ((cfg2.win 3).blk t).view.set := by
  have h0 : (i 0 : Nat) < 4096 := (i 0).isLt
  have h1 : (i 1 : Nat) < 64 := (i 1).isLt
  have hN : cfg2.N = 64 := N_2
  obtain ⟨t, ht⟩ : ∃ t : Fin cfg2.N, t.val = 8 * ((i 0 : Nat) / 512) + 7 := ⟨⟨8 * ((i 0 : Nat) / 512) + 7, by rw [hN]; omega⟩, rfl⟩
  refine ⟨t, (flush2_3 t).mpr (by rw [ht]; omega), ?_⟩
  show i ∈ ((View.whole main_v261).slice (win2_3.rect t)).set
  rw [View.set_slice_whole, Rect.mem_set_unit]
  intro a
  match a with
  | ⟨0, _⟩ =>
    show win2_3.index t 0 * 512 ≤ (i 0 : Nat) ∧ (i 0 : Nat) < win2_3.index t 0 * 512 + 512
    rw [(index2_3 t).1, ht]; omega
  | ⟨1, _⟩ =>
    show win2_3.index t 1 * 64 ≤ (i 1 : Nat) ∧ (i 1 : Nat) < win2_3.index t 1 * 64 + 64
    rw [(index2_3 t).2]; omega

/-- THE VALUE of region 2: when the region ends, each entry of its result array is the sum over the contracted axis
    of the factors' products, plus the bias. -/
theorem final2 (c : Dev nD) (i : S4096x64.Idx) :
    (dat2 (F := Ideal) V c).arrAt 3 cfg2.N i
      = Cert.Spec.mmEntry (K := 4096) (fun k => (V c main_v252 : S4096x4096.Idx → EReal) (ix2 (i 0) k))
          (fun k => (V c main_v259 : S4096x64.Idx → EReal) (ix2 k (i 1))) ((V c main_v260 : S1x64.Idx → EReal) (ix2 0 (i 1))) :=
  congrFun ((dat2 V c).arrAt_eq_of_cover 3 (G2 V c) (flushed2_eq V c) (cover2 c)) i

end ValueIdeal2

end Cert.KernelIdeal.Hand

end
-- ==== Proof.KiR3Value.lean ====
import proofs.«122112_j6631429505271_1_alg».proof.Proof.KiR3Body
import proofs.«122112_j6631429505271_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

section ValueAny3
variable (V : (c : Dev nD) → (b : Ref sig .tc) → Buf (Elt F) ((c : Thread nD τ).loc b))

theorem hz3 : (![0, 0] : Fin 2 → Nat) = fun _ => 0 := funext fun a => by fin_cases a <;> rfl

/-- The zero block the reset stores. -/
abbrev zero3 : Vec F S512x64 .f32 := broadcast S512x64 (Scalar.ofBits .f32 0x00000000#32)
/-- The product of a block of the left factor and a block of the right factor. -/
abbrev mm3 (a : Vec F S512x512 .f32) (b : Vec F S512x64 .f32) : Vec F S512x64 .f32 :=
  matmul dot_S512x512_S512x64_S512x64_1_0_0_1_n_n (some .fp32) a b (constant S512x64 .f32 0x00000000#32)

/-! ## What each case leaves, as values -/

/-- Case B leaves in the accumulator what it held plus the block product. -/
theorem sout3_B_eq (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : ¬cond3_1 i) (x0 : Vec F S512x512 .f32) (x1 : Vec F S512x64 .f32) (x2 : Vec F S1x64 .f32) (xs0 : Vec F S512x64 .f32) :
    sout3_B_0 c i arg3 harg3 arg4 harg4 arg5 harg5 arg6 harg6 arg7 harg7 hc0 hc1 x0 x1 x2 xs0 = addf xs0 (mm3 x0 x1) := by
  unfold sout3_B_0
  rw [View.read_writes_eq_canon _ _ _ (scover3_B_0 c i arg3 harg3 arg4 harg4 arg5 harg5 arg6 harg6 arg7 harg7 hc0 hc1 x0 x1 x2 xs0)]
  unfold kernelRun3_B
  dsimp only
  rw [View.canon_unit_zero hz3]
  unfold k3_pay2
  simp only [View.readAt_eq_ld, harg3.read_unread, harg4.read_unread, harg5.read_unread, harg7.read_unread, View.ld_unit_zero (S := S512x512) hz3, View.ld_unit_zero (S := S512x64) hz3, View.ld_unit_zero (S := S1x64) hz3, shapeCast_self]

/-- Case C leaves the same in the accumulator, -/
theorem sout3_C_eq (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : cond3_1 i) (x0 : Vec F S512x512 .f32) (x1 : Vec F S512x64 .f32) (x2 : Vec F S1x64 .f32) (xs0 : Vec F S512x64 .f32) :
    sout3_C_0 c i arg3 harg3 arg4 harg4 arg5 harg5 arg6 harg6 arg7 harg7 hc0 hc1 x0 x1 x2 xs0 = addf xs0 (mm3 x0 x1) := by
  unfold sout3_C_0
  rw [View.read_writes_eq_canon _ _ _ (scover3_C_0 c i arg3 harg3 arg4 harg4 arg5 harg5 arg6 harg6 arg7 harg7 hc0 hc1 x0 x1 x2 xs0)]
  unfold kernelRun3_C
  dsimp only
  sl_unfold_words
  rw [View.canon_unit_zero hz3]
  unfold k3_pay2
  simp only [View.readAt_eq_ld, harg3.read_unread, harg4.read_unread, harg5.read_unread, harg7.read_unread, View.ld_unit_zero (S := S512x512) hz3, View.ld_unit_zero (S := S512x64) hz3, View.ld_unit_zero (S := S1x64) hz3, shapeCast_self]

/-- and in the output's buffer that plus the bias row laid along every row. -/
theorem out3_C_eq (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond3_0 i) (hc1 : cond3_1 i) (x0 : Vec F S512x512 .f32) (x1 : Vec F S512x64 .f32) (x2 : Vec F S1x64 .f32) (xs0 : Vec F S512x64 .f32) :
    out3_C_3 c i arg3 harg3 arg4 harg4 arg5 harg5 arg6 harg6 arg7 harg7 hc0 hc1 x0 x1 x2 xs0 = addf (addf xs0 (mm3 x0 x1)) (broadcastTo S512x64 x2 broadcasts_S1x64_S512x64) := by
  unfold out3_C_3
  rw [View.read_writes_eq_canon _ _ _ (cover3_C_3 c i arg3 harg3 arg4 harg4 arg5 harg5 arg6 harg6 arg7 harg7 hc0 hc1 x0 x1 x2 xs0)]
  unfold kernelRun3_C
  dsimp only
  sl_unfold_words
  rw [View.canon_unit_zero hz3, View.readCov_unit_zero _ hz3]
  unfold k3_pay3 k3_pay2
  simp only [View.readAt_eq_ld, harg3.read_unread, harg4.read_unread, harg5.read_unread, harg7.read_unread, View.ld_unit_zero (S := S512x512) hz3, View.ld_unit_zero (S := S512x64) hz3, View.ld_unit_zero (S := S1x64) hz3, shapeCast_self]

/-- Case A resets the accumulator first: it leaves the zero block plus the block product. -/
theorem sout3_A_eq (c : Dev nD) (i : grid3.Coords) (arg3 : Memref sig .tc .vmem S512x512 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond3_0 i) (hc1 : ¬cond3_1 i) (x0 : Vec F S512x512 .f32) (x1 : Vec F S512x64 .f32) (x2 : Vec F S1x64 .f32) :
    sout3_A_0 c i arg3 harg3 arg4 harg4 arg5 harg5 arg6 harg6 arg7 harg7 hc0 hc1 x0 x1 x2 = addf zero3 (mm3 x0 x1) := by
  unfold sout3_A_0
  rw [View.read_writes_eq_canon _ _ _ (scover3_A_0 c i arg3 harg3 arg4 harg4 arg5 harg5 arg6 harg6 arg7 harg7 hc0 hc1 x0 x1 x2)]
  unfold kernelRun3_A
  dsimp only
  sl_unfold_words
  rw [View.canon_cons_unit_zero (S := S512x64) hz3, View.readCov_unit_zero (S := S512x64) _ hz3]
  unfold k3_pay2 k3_pay1
  simp only [View.readAt_eq_ld, harg3.read_unread, harg4.read_unread, harg5.read_unread, harg7.read_unread, View.ld_unit_zero (S := S512x512) hz3, View.ld_unit_zero (S := S512x64) hz3, View.ld_unit_zero (S := S1x64) hz3, shapeCast_self]

end ValueAny3

section ValueIdeal3
variable (V : (c : Dev nD) → (b : Ref sig .tc) → Buf (Elt Ideal) ((c : Thread nD τ).loc b))

/-! ## The arrays at natural-number coordinates -/

/-- The left factor, the right factor and the bias row read at natural-number coordinates (zero outside their extents). -/
def An3 (c : Dev nD) (r k : ℕ) : EReal :=
  if h : r < 4096 ∧ k < 4096 then (V c main_v252 : S4096x4096.Idx → EReal) (ix2 ⟨r, h.1⟩ ⟨k, h.2⟩) else 0
def Bn3 (c : Dev nD) (k n : ℕ) : EReal :=
  if h : k < 4096 ∧ n < 64 then (V c main_v272 : S4096x64.Idx → EReal) (ix2 ⟨k, h.1⟩ ⟨n, h.2⟩) else 0
def Cn3 (c : Dev nD) (n : ℕ) : EReal :=
  if h : n < 64 then (V c main_v273 : S1x64.Idx → EReal) (ix2 ⟨0, Nat.one_pos⟩ ⟨n, h⟩) else 0

/-- Sums over consecutive blocks of 512 indices concatenate. -/
theorem sum_range_block3 (f : ℕ → EReal) (m : ℕ) :
    ∑ k ∈ Finset.range (512 * (m + 1)), f k = ∑ k ∈ Finset.range (512 * m), f k + ∑ l : Fin 512, f (512 * m + l.val) := by
  rw [show 512 * (m + 1) = 512 * m + 512 by ring, Finset.sum_range_add, Fin.sum_univ_eq_sum_range (fun l => f (512 * m + l)) 512]

/-- The block product at an output index: the sum over the block's 512 contraction positions. -/
theorem mm3_apply (lhs : FVec Ideal S512x512 .f32) (rhs : FVec Ideal S512x64 .f32) (j : S512x64.Idx) :
    mm3 (F := Ideal) lhs rhs j = ∑ l : Fin 512, lhs (ix2 (j 0) l) * rhs (ix2 l (j 1)) := by
  simp only [mm3, matmul]
  rw [Ideal.matmul_constant_zero_apply]
  rw [← Equiv.sum_comp (contrEquiv1 dot_S512x512_S512x64_S512x64_1_0_0_1_n_n 512 rfl rfl).symm]
  refine Finset.sum_congr rfl fun l _ => ?_
  congr 2
  · funext a
    match a with
    | ⟨0, _⟩ => exact Fin.ext rfl
    | ⟨1, _⟩ => exact Fin.ext (by simp [contrEquiv1]; rfl)
  · funext a
    match a with
    | ⟨0, _⟩ => exact Fin.ext (by simp [contrEquiv1]; rfl)
    | ⟨1, _⟩ => exact Fin.ext rfl

/-- Where the windows' block indices are at a point of the grid (row block, reduction block). -/
theorem index3_0 : ∀ t : Fin cfg3.N, win3_0.index t 0 = t.val / 8 ∧ win3_0.index t 1 = t.val % 8 :=
  (by decide +kernel : ∀ t : Fin grid3.N, win3_0.index t 0 = t.val / 8 ∧ win3_0.index t 1 = t.val % 8)
theorem index3_1 : ∀ t : Fin cfg3.N, win3_1.index t 0 = t.val % 8 ∧ win3_1.index t 1 = 0 :=
  (by decide +kernel : ∀ t : Fin grid3.N, win3_1.index t 0 = t.val % 8 ∧ win3_1.index t 1 = 0)
theorem index3_2 : ∀ t : Fin cfg3.N, win3_2.index t 0 = 0 ∧ win3_2.index t 1 = 0 :=
  (by decide +kernel : ∀ t : Fin grid3.N, win3_2.index t 0 = 0 ∧ win3_2.index t 1 = 0)
theorem index3_3 : ∀ t : Fin cfg3.N, win3_3.index t 0 = t.val / 8 ∧ win3_3.index t 1 = 0 :=
  (by decide +kernel : ∀ t : Fin grid3.N, win3_3.index t 0 = t.val / 8 ∧ win3_3.index t 1 = 0)

/-! ## The windows' blocks at an index -/

theorem iblk3_0_apply (c : Dev nD) (t : Fin cfg3.N) (j : S512x512.Idx) :
    (iblk3 V c 0 t : S512x512.Idx → EReal) j = An3 V c (512 * (t.val / 8) + (j 0).val) (512 * (t.val % 8) + (j 1).val) := by
  have hN : t.val < 64 := lt_of_lt_of_eq t.isLt (show cfg3.N = 64 from N_3)
  have h0 : (j 0).val < 512 := idx2_lt0 j
  have h1 : (j 1).val < 512 := idx2_lt1 j
  unfold An3
  rw [dif_pos ⟨by omega, by omega⟩]
  unfold iblk3
  rw [View.read_apply]
  show V c main_v252 _ = V c main_v252 _
  congr 1
  funext a
  apply Fin.ext
  match a with
  | ⟨0, _⟩ => show win3_0.index t 0 * 512 + 1 * (j 0).val = 512 * (t.val / 8) + (j 0).val; rw [(index3_0 t).1]; omega
  | ⟨1, _⟩ => show win3_0.index t 1 * 512 + 1 * (j 1).val = 512 * (t.val % 8) + (j 1).val; rw [(index3_0 t).2]; omega

theorem iblk3_1_apply (c : Dev nD) (t : Fin cfg3.N) (j : S512x64.Idx) :
    (iblk3 V c 1 t : S512x64.Idx → EReal) j = Bn3 V c (512 * (t.val % 8) + (j 0).val) (j 1).val := by
  have hN : t.val < 64 := lt_of_lt_of_eq t.isLt (show cfg3.N = 64 from N_3)
  have h0 : (j 0).val < 512 := idx2_lt0 j
  have h1 : (j 1).val < 64 := idx2_lt1 j
  unfold Bn3
  rw [dif_pos ⟨by omega, by omega⟩]
  unfold iblk3
  rw [View.read_apply]
  show V c main_v272 _ = V c main_v272 _
  congr 1
  funext a
  apply Fin.ext
  match a with
  | ⟨0, _⟩ => show win3_1.index t 0 * 512 + 1 * (j 0).val = 512 * (t.val % 8) + (j 0).val; rw [(index3_1 t).1]; omega
  | ⟨1, _⟩ => show win3_1.index t 1 * 64 + 1 * (j 1).val = (j 1).val; rw [(index3_1 t).2]; omega

theorem iblk3_2_apply (c : Dev nD) (t : Fin cfg3.N) (j : S1x64.Idx) :
    (iblk3 V c 2 t : S1x64.Idx → EReal) j = Cn3 V c (j 1).val := by
  have h0 : (j 0).val < 1 := idx2_lt0 j
  have h1 : (j 1).val < 64 := idx2_lt1 j
  unfold Cn3
  rw [dif_pos h1]
  unfold iblk3
  rw [View.read_apply]
  show V c main_v273 _ = V c main_v273 _
  congr 1
  funext a
  apply Fin.ext
  match a with
  | ⟨0, _⟩ => show win3_2.index t 0 * 1 + 1 * (j 0).val = 0; rw [(index3_2 t).1]; omega
  | ⟨1, _⟩ => show win3_2.index t 1 * 64 + 1 * (j 1).val = (j 1).val; rw [(index3_2 t).2]; omega

/-- The block product at a point, at an output index. -/
theorem step3 (c : Dev nD) (t : Fin cfg3.N) (j : S512x64.Idx) :
    mm3 (F := Ideal) (iblk3 V c 0 t) (iblk3 V c 1 t) j
      = ∑ l : Fin 512, An3 V c (512 * (t.val / 8) + (j 0).val) (512 * (t.val % 8) + l.val) * Bn3 V c (512 * (t.val % 8) + l.val) (j 1).val := by
  rw [mm3_apply]
  refine Finset.sum_congr rfl fun l _ => ?_
  rw [iblk3_0_apply, iblk3_1_apply]

/-! ## The accumulator after each point, in closed form -/

/-- One more block: the sum so far plus the block's 512 products is the sum over one more block. -/
theorem acc_step3 (f : ℕ → EReal) (m : ℕ) (prev : EReal) (hprev : prev = ∑ k ∈ Finset.range (512 * m), f k) :
    prev + ∑ l : Fin 512, f (512 * m + l.val) = ∑ k ∈ Finset.range (512 * (m + 1)), f k := by
  rw [sum_range_block3, hprev]

/-- After point `n` the accumulator holds, at each index, the sum of the factors' products over the reduction
    positions of the blocks visited so far in the current row block. -/
theorem acc3_apply (c : Dev nD) : ∀ (n : ℕ) (h : n < cfg3.N) (j : S512x64.Idx),
    (outsAt3 V c n h).2 j
      = ∑ k ∈ Finset.range (512 * (n % 8 + 1)), An3 V c (512 * (n / 8) + (j 0).val) k * Bn3 V c k (j 1).val := by
  intro n
  induction n with
  | zero =>
    intro h j
    rw [outsAt3_A V c ⟨0, h⟩ rfl (fun h7 => by dsimp only at h7; omega)]
    dsimp only
    rw [sout3_A_eq, addf_apply, step3]
    dsimp only
    refine acc_step3 (fun k => An3 V c (512 * (0 / 8) + (j 0).val) k * Bn3 V c k (j 1).val) (0 % 8) _ ?_
    show Ideal.ofBits .f32 0x00000000#32 = _
    rw [Ideal.ofBits_zero_f32]; simp
  | succ n ih =>
    intro h j
    have hN : n + 1 < 64 := lt_of_lt_of_eq h (show cfg3.N = 64 from N_3)
    by_cases h0 : (n + 1) % 8 = 0
    · have h1 : ¬(n + 1) % 8 = 7 := by omega
      rw [outsAt3_A V c ⟨n + 1, h⟩ h0 h1]
      dsimp only
      rw [sout3_A_eq, addf_apply, step3]
      dsimp only
      refine acc_step3 (fun k => An3 V c (512 * ((n + 1) / 8) + (j 0).val) k * Bn3 V c k (j 1).val) ((n + 1) % 8) _ ?_
      show Ideal.ofBits .f32 0x00000000#32 = _
      rw [Ideal.ofBits_zero_f32, h0]; simp
    · have e1 : (n + 1) / 8 = n / 8 := by omega
      have e2 : n % 8 + 1 = (n + 1) % 8 := by omega
      by_cases h1 : (n + 1) % 8 = 7
      · rw [outsAt3_C V c ⟨n + 1, h⟩ h0 h1]
        dsimp only
        rw [sout3_C_eq, addf_apply, step3]
        dsimp only
        refine acc_step3 (fun k => An3 V c (512 * ((n + 1) / 8) + (j 0).val) k * Bn3 V c k (j 1).val) ((n + 1) % 8) _ ?_
        rw [e1, ← e2]
        exact ih _ j
      · rw [outsAt3_B V c ⟨n + 1, h⟩ h0 h1]
        dsimp only
        rw [sout3_B_eq, addf_apply, step3]
        dsimp only
        refine acc_step3 (fun k => An3 V c (512 * ((n + 1) / 8) + (j 0).val) k * Bn3 V c k (j 1).val) ((n + 1) % 8) _ ?_
        rw [e1, ← e2]
        exact ih _ j

/-- At a point that stores the output, its buffer holds the accumulator plus the bias row along every row. -/
theorem out3_fst (c : Dev nD) (t : Fin cfg3.N) (h0 : ¬t.val % 8 = 0) (h1 : t.val % 8 = 7) :
    (outsAt3 V c t.val t.isLt).1
      = @addf Ideal _ S512x64 .f32 (outsAt3 V c t.val t.isLt).2 (broadcastTo S512x64 (iblk3 V c 2 t : S1x64.Idx → Ideal .f32) broadcasts_S1x64_S512x64) := by
  rw [outsAt3_C V c t h0 h1]
  dsimp only
  rw [out3_C_eq, sout3_C_eq]

/-! ## The result array -/

/-- The specified result: each entry the product's entry plus the bias. -/
def G3 (c : Dev nD) : S4096x64.Idx → EReal := fun i =>
  Cert.Spec.mmEntry (K := 4096) (fun k => (V c main_v252 : S4096x4096.Idx → EReal) (ix2 (i 0) k))
    (fun k => (V c main_v272 : S4096x64.Idx → EReal) (ix2 k (i 1))) ((V c main_v273 : S1x64.Idx → EReal) (ix2 0 (i 1)))

theorem G3_apply (c : Dev nD) (i : S4096x64.Idx) :
    G3 V c i = (∑ k ∈ Finset.range 4096, An3 V c (i 0).val k * Bn3 V c k (i 1).val) + Cn3 V c (i 1).val := by
  have h0 : (i 0).val < 4096 := idx2_lt0 i
  have h1 : (i 1).val < 64 := idx2_lt1 i
  unfold G3 Cert.Spec.mmEntry
  congr 1
  · rw [← Fin.sum_univ_eq_sum_range (fun k => An3 V c (i 0).val k * Bn3 V c k (i 1).val) 4096]
    refine Finset.sum_congr rfl fun k _ => ?_
    unfold An3 Bn3
    rw [dif_pos ⟨h0, k.isLt⟩, dif_pos ⟨k.isLt, h1⟩]
    rfl
  · unfold Cn3
    rw [dif_pos h1]
    rfl

/-- What a write-back writes is the specified result's block. -/
theorem flushed3_eq (c : Dev nD) (t : Fin cfg3.N) (hf : (cfg3.win 3).flush t = true) :
    (dat3 V c).flushed 3 t = ((cfg3.win 3).blk t).view.read (Elt Ideal) (G3 V c) := by
  have h7 : t.val % 8 = 7 := (flush3_3 t).mp hf
  have hN : t.val < 64 := lt_of_lt_of_eq t.isLt (show cfg3.N = 64 from N_3)
  funext j
  show (cfg3.win 3).cut (grid3.coords t) ((dat3 V c).after 3 t) j = _
  rw [after3_3]
  show (outsAt3 V c t.val t.isLt).1 ((cfg3.win 3).xinj (grid3.coords t) j) = _
  rw [out3_fst V c t (by omega) h7, addf_apply, acc3_apply, View.read_apply]
  show _ = G3 V c _
  rw [G3_apply]
  have e0 : (((cfg3.win 3).blk t).view.emb j 0).val = 512 * (t.val / 8) + (j 0).val := by
    show win3_3.index t 0 * 512 + 1 * (j 0).val = _; rw [(index3_3 t).1]; omega
  have e1 : (((cfg3.win 3).blk t).view.emb j 1).val = (j 1).val := by
    show win3_3.index t 1 * 64 + 1 * (j 1).val = _; rw [(index3_3 t).2]; omega
  rw [e0, e1, h7]
  show (∑ k ∈ Finset.range (512 * (7 + 1)), An3 V c (512 * (t.val / 8) + (j 0).val) k * Bn3 V c k (j 1).val) + _ = _
  congr 1
  rw [broadcastTo_apply (iblk3 V c 2 t : S1x64.Idx → Ideal .f32) broadcasts_S1x64_S512x64 _ (ix2 0 ((cfg3.win 3).xinj (grid3.coords t) j 1))
    (fun a => by match a with | ⟨0, _⟩ => rfl | ⟨1, _⟩ => rfl)]
  exact iblk3_2_apply V c t _

/-- Every index of the result array lies in the block some storing point writes back. -/
theorem cover3 (c : Dev nD) (i : ((cfg3.win 3).arr.view.loc (c.tc : Thread nD τ)).2.ty.Idx) :
    ∃ t : Fin cfg3.N, (cfg3.win 3).flush t = true ∧ i ∈ ((cfg3.win 3).blk t).view.set := by
  have h0 : (i 0 : Nat) < 4096 := (i 0).isLt
  have h1 : (i 1 : Nat) < 64 := (i 1).isLt
  have hN : cfg3.N = 64 := N_3
  obtain ⟨t, ht⟩ : ∃ t : Fin cfg3.N, t.val = 8 * ((i 0 : Nat) / 512) + 7 := ⟨⟨8 * ((i 0 : Nat) / 512) + 7, by rw [hN]; omega⟩, rfl⟩
  refine ⟨t, (flush3_3 t).mpr (by rw [ht]; omega), ?_⟩
  show i ∈ ((View.whole main_v274).slice (win3_3.rect t)).set
  rw [View.set_slice_whole, Rect.mem_set_unit]
  intro a
  match a with
  | ⟨0, _⟩ =>
    show win3_3.index t 0 * 512 ≤ (i 0 : Nat) ∧ (i 0 : Nat) < win3_3.index t 0 * 512 + 512
    rw [(index3_3 t).1, ht]; omega
  | ⟨1, _⟩ =>
    show win3_3.index t 1 * 64 ≤ (i 1 : Nat) ∧ (i 1 : Nat) < win3_3.index t 1 * 64 + 64
    rw [(index3_3 t).2]; omega

/-- THE VALUE of region 3: when the region ends, each entry of its result array is the sum over the contracted axis
    of the factors' products, plus the bias. -/
theorem final3 (c : Dev nD) (i : S4096x64.Idx) :
    (dat3 (F := Ideal) V c).arrAt 3 cfg3.N i
      = Cert.Spec.mmEntry (K := 4096) (fun k => (V c main_v252 : S4096x4096.Idx → EReal) (ix2 (i 0) k))
          (fun k => (V c main_v272 : S4096x64.Idx → EReal) (ix2 k (i 1))) ((V c main_v273 : S1x64.Idx → EReal) (ix2 0 (i 1))) :=
  congrFun ((dat3 V c).arrAt_eq_of_cover 3 (G3 V c) (flushed3_eq V c) (cover3 c)) i

end ValueIdeal3

end Cert.KernelIdeal.Hand

end
-- ==== Proof.KiR4Value.lean ====
/-
  The value of region 4 over the extended reals. Its grid is 8 row blocks by 2 column blocks with a single step of the
  contracted axis, so at every point the accumulator is reset to the zero block, receives the product of a 512×64 block
  of the first factor with a 64×2048 block of the second, and the output block is that sum plus the bias row broadcast
  down the rows. Read at an entry this is the sum over the 64 contracted coordinates of the factors' products, plus the
  bias entry of the column; block (r, s) of the result array is what point 2r + s writes back, and these sixteen blocks
  tile the 4096×4096 array.
-/
import proofs.«122112_j6631429505271_1_alg».proof.Proof.KiR4Body
import proofs.«122112_j6631429505271_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

theorem hz4 : (![0, 0] : Fin 2 → Nat) = fun _ => 0 := funext fun a => by fin_cases a <;> rfl

/-- A load of the whole accumulator after a store of the whole accumulator reads that store's payload, whatever was
    stored before. -/
theorem readCov_cons_unit_zero4 {F : FTy → Type} [FloatOps F] (v : View sig .tc .vmem S512x2048 .f32) (w : Vec F S512x2048 .f32)
    (L : List (View.Piece (Elt F) S512x2048 .f32)) :
    v.readCov (⟨Rect.unit ![0, 0] S512x2048.size inb_S512x2048_S512x2048_0_0, w⟩ :: L)
      (Rect.unit ![0, 0] S512x2048.size inb_S512x2048_S512x2048_0_0).toLoadRect = w := by
  rw [View.readCov_eq_canon_ld _ _ _ (fun y => ⟨_, List.mem_cons_self .., View.mem_set_unit_zero hz4 inb_S512x2048_S512x2048_0_0 y⟩),
    View.canon_cons_unit_zero (S := S512x2048) hz4, View.ld_unit_zero (S := S512x2048) hz4]

/-- The one case's value, for any float values: the body resets the accumulator to the zero block, adds the product of
    the two input blocks, and leaves in the output's buffer that sum plus the broadcast bias row. -/
theorem out4_D_3_eq {F : FTy → Type} [FloatOps F] (c : Dev nD) (i : grid4.Coords) (arg3 : Memref sig .tc .vmem S512x64 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond4_0 i) (hc1 : cond4_1 i)
    (x0 : Vec F S512x64 .f32) (x1 : Vec F S64x2048 .f32) (x2 : Vec F S1x2048 .f32) :
    out4_D_3 c i arg3 harg3 arg4 harg4 arg5 harg5 arg6 harg6 arg7 harg7 hc0 hc1 x0 x1 x2
      = k4_pay3 (k4_pay2 (k4_pay1 (F := F)) x0 x1) x2 := by
  unfold out4_D_3
  rw [View.read_writes_eq_canon _ _ _ (cover4_D_3 c i arg3 harg3 arg4 harg4 arg5 harg5 arg6 harg6 arg7 harg7 hc0 hc1 x0 x1 x2)]
  unfold kernelRun4_D
  dsimp only
  sl_unfold_words
  rw [View.canon_unit_zero hz4, readCov_cons_unit_zero4, View.readCov_unit_zero (S := S512x2048) _ hz4]
  simp only [View.readAt_eq_ld, harg3.read_unread, harg4.read_unread, harg5.read_unread,
    View.ld_unit_zero (S := S512x64) hz4, View.ld_unit_zero (S := S64x2048) hz4, View.ld_unit_zero (S := S1x2048) hz4]

/-- The block product read at an entry: the sum over the 64 contracted coordinates of the factors' products. -/
theorem mm4_apply (A : FVec Ideal S512x64 .f32) (B : FVec Ideal S64x2048 .f32) (a : Fin 512) (b : Fin 2048) :
    FloatOps.matmul dot_S512x64_S64x2048_S512x2048_1_0_0_1_n_n (some .fp32) A B (constant S512x2048 .f32 0x00000000#32) (ix2 a b)
      = ∑ k : Fin 64, A (ix2 a k) * B (ix2 k b) := by
  rw [Ideal.matmul_constant_zero_apply, ← Equiv.sum_comp (contrEquiv1 dot_S512x64_S64x2048_S512x2048_1_0_0_1_n_n 64 rfl rfl).symm]
  refine Finset.sum_congr rfl fun k _ => ?_
  have c2 := contrEquiv1_symm_val dot_S512x64_S64x2048_S512x2048_1_0_0_1_n_n 64 rfl rfl k
  have l2 : (dot_S512x64_S64x2048_S512x2048_1_0_0_1_n_n).lhsIdx (ix2 a b) ((contrEquiv1 _ 64 rfl rfl).symm k) = ix2 a k := by
    funext ax; apply Fin.ext
    match ax with
    | ⟨0, _⟩ => simp [DotDims.lhsIdx, dot_S512x64_S64x2048_S512x2048_1_0_0_1_n_n]; rfl
    | ⟨1, _⟩ => simp [DotDims.lhsIdx, dot_S512x64_S64x2048_S512x2048_1_0_0_1_n_n]; exact c2
  have r2 : (dot_S512x64_S64x2048_S512x2048_1_0_0_1_n_n).rhsIdx (ix2 a b) ((contrEquiv1 _ 64 rfl rfl).symm k) = ix2 k b := by
    funext ax; apply Fin.ext
    match ax with
    | ⟨0, _⟩ => simp [DotDims.rhsIdx, dot_S512x64_S64x2048_S512x2048_1_0_0_1_n_n]; exact c2
    | ⟨1, _⟩ => simp [DotDims.rhsIdx, dot_S512x64_S64x2048_S512x2048_1_0_0_1_n_n]; rfl
  rw [l2, r2]

/-- The one case's arithmetic read at an entry of the output block, over the extended reals: zero plus the block
    product's entry, plus the bias row's entry in that column. -/
theorem pay4_apply (x0 : Vec Ideal S512x64 .f32) (x1 : Vec Ideal S64x2048 .f32) (x2 : Vec Ideal S1x2048 .f32)
    (a : Fin 512) (b : Fin 2048) :
    k4_pay3 (k4_pay2 (k4_pay1 (F := Ideal)) x0 x1) x2 (ix2 a b)
      = Cert.Spec.mmEntry (K := 64) (fun k => x0 (ix2 a k)) (fun k => x1 (ix2 k b)) (x2 (ix2 0 b)) := by
  unfold k4_pay3 k4_pay2 k4_pay1 Cert.Spec.mmEntry
  simp only [shapeCast_self]
  rw [addf_apply, addf_apply]
  refine congrArg₂ (· + ·) ?_ ?_
  · refine (congrArg₂ (· + ·) (Ideal.ofBits_zero_f32) (mm4_apply x0 x1 a b)).trans ?_
    exact zero_add _
  · exact broadcastTo_apply x2 broadcasts_S1x2048_S512x2048 (ix2 a b) (ix2 0 b) (fun ax => by
      match ax with
      | ⟨0, _⟩ => rfl
      | ⟨1, _⟩ => rfl)

/-! ## The windows' block indices over the grid -/

/-- At every point the first factor's row block and the bias' and the second factor's column block are the output
    block's, and the contracted axis has one block. -/
theorem idx4 : ∀ t : Fin grid4.N, win4_0.index t 0 = win4_3.index t 0 ∧ win4_0.index t 1 = 0 ∧ win4_1.index t 0 = 0
    ∧ win4_1.index t 1 = win4_3.index t 1 ∧ win4_2.index t 0 = 0 ∧ win4_2.index t 1 = win4_3.index t 1 := by decide +kernel

/-- The output's block at point `t` is block (t / 2, t % 2). -/
theorem idx4_3 : ∀ t : Fin grid4.N, win4_3.index t 0 = t.val / 2 ∧ win4_3.index t 1 = t.val % 2 := by decide +kernel

section
variable {F : FTy → Type} [FloatOps F]
variable (V : (c : Dev nD) → (b : Ref sig .tc) → Buf (Elt F) ((c : Thread nD τ).loc b))

/-- The first factor's block at point `t`, read at an entry: row `512·(row block) + a` of the array. -/
theorem iblk4_0_apply (c : Dev nD) (t : Fin cfg4.N) (a : Fin 512) (k : Fin 64) (R : Fin 4096)
    (hR : R.val = win4_3.index t 0 * 512 + a.val) :
    (iblk4 V c 0 t : Vec F S512x64 .f32) (ix2 a k) = (V c main_v281 : Vec F S4096x64 .f32) (ix2 R k) := by
  obtain ⟨e0, e1, -⟩ := idx4 t
  unfold iblk4
  rw [View.read_apply]
  show (V c main_v281 : Vec F S4096x64 .f32) _ = (V c main_v281 : Vec F S4096x64 .f32) _
  congr 1
  funext ax; apply Fin.ext
  match ax with
  | ⟨0, _⟩ => show win4_0.index t 0 * 512 + 1 * a.val = R.val; rw [e0, hR]; omega
  | ⟨1, _⟩ => show win4_0.index t 1 * 64 + 1 * k.val = k.val; rw [e1]; omega

/-- The second factor's block at point `t`, read at an entry: column `2048·(column block) + b` of the array. -/
theorem iblk4_1_apply (c : Dev nD) (t : Fin cfg4.N) (k : Fin 64) (b : Fin 2048) (C : Fin 4096)
    (hC : C.val = win4_3.index t 1 * 2048 + b.val) :
    (iblk4 V c 1 t : Vec F S64x2048 .f32) (ix2 k b) = (V c main_v283 : Vec F S64x4096 .f32) (ix2 k C) := by
  obtain ⟨-, -, e0, e1, -⟩ := idx4 t
  unfold iblk4
  rw [View.read_apply]
  show (V c main_v283 : Vec F S64x4096 .f32) _ = (V c main_v283 : Vec F S64x4096 .f32) _
  congr 1
  funext ax; apply Fin.ext
  match ax with
  | ⟨0, _⟩ => show win4_1.index t 0 * 64 + 1 * k.val = k.val; rw [e0]; omega
  | ⟨1, _⟩ => show win4_1.index t 1 * 2048 + 1 * b.val = C.val; rw [e1, hC]; omega

/-- The bias row's block at point `t`, read at an entry: the same column of the row. -/
theorem iblk4_2_apply (c : Dev nD) (t : Fin cfg4.N) (b : Fin 2048) (C : Fin 4096)
    (hC : C.val = win4_3.index t 1 * 2048 + b.val) :
    (iblk4 V c 2 t : Vec F S1x2048 .f32) (ix2 0 b) = (V c main_v284 : Vec F S1x4096 .f32) (ix2 0 C) := by
  obtain ⟨-, -, -, -, e0, e1⟩ := idx4 t
  unfold iblk4
  rw [View.read_apply]
  show (V c main_v284 : Vec F S1x4096 .f32) _ = (V c main_v284 : Vec F S1x4096 .f32) _
  congr 1
  funext ax; apply Fin.ext
  match ax with
  | ⟨0, _⟩ => show win4_2.index t 0 * 1 + 1 * 0 = 0; rw [e0]
  | ⟨1, _⟩ => show win4_2.index t 1 * 2048 + 1 * b.val = C.val; rw [e1, hC]; omega

end

/-! ## The product array -/

section
variable (V : (c : Dev nD) → (b : Ref sig .tc) → Buf (Elt Ideal) ((c : Thread nD τ).loc b))

/-- The array the region leaves: entry (r, l) is the product's entry plus the bias, over the extended reals. -/
def res4 (c : Dev nD) : Buf (Elt Ideal) ((c : Thread nD τ).loc main_v285) := fun i =>
  Cert.Spec.mmEntry (K := 64) (fun k => (V c main_v281 : Vec Ideal S4096x64 .f32) (ix2 (i 0) k))
    (fun k => (V c main_v283 : Vec Ideal S64x4096 .f32) (ix2 k (i 1))) ((V c main_v284 : Vec Ideal S1x4096 .f32) (ix2 0 (i 1)))

/-- Each point writes back its block of that array. -/
theorem flushed4_eq (c : Dev nD) (t : Fin cfg4.N) (hf : (cfg4.win 3).flush t = true) :
    (dat4 V c).flushed 3 t = ((cfg4.win 3).blk t).view.read (Elt Ideal) (res4 V c) := by
  show (cfg4.win 3).cut (grid4.coords t) ((dat4 V c).after 3 t) = _
  rw [after4_3, outsAt4_D V c t]
  dsimp only
  rw [out4_D_3_eq]
  funext y
  obtain ⟨a, b, rfl⟩ : ∃ (a : Fin 512) (b : Fin 2048), y = ix2 a b := ⟨y 0, y 1, eq_ix2 y⟩
  rw [View.read_apply]
  show k4_pay3 (k4_pay2 (k4_pay1 (F := Ideal)) (iblk4 V c 0 t) (iblk4 V c 1 t)) (iblk4 V c 2 t) (ix2 a b)
    = res4 V c (((cfg4.win 3).blk t).view.emb (ix2 a b))
  rw [pay4_apply]
  unfold res4
  have hR : ((((cfg4.win 3).blk t).view.emb (ix2 a b)) 0 : Fin 4096).val = win4_3.index t 0 * 512 + a.val := by
    show win4_3.index t 0 * 512 + 1 * a.val = _; omega
  have hC : ((((cfg4.win 3).blk t).view.emb (ix2 a b)) 1 : Fin 4096).val = win4_3.index t 1 * 2048 + b.val := by
    show win4_3.index t 1 * 2048 + 1 * b.val = _; omega
  generalize ((cfg4.win 3).blk t).view.emb (ix2 a b) = I at hR hC ⊢
  have ea : (fun k : Fin 64 => (iblk4 V c 0 t : Vec Ideal S512x64 .f32) (ix2 a k))
      = fun k : Fin 64 => (V c main_v281 : Vec Ideal S4096x64 .f32) (ix2 (I 0 : Fin 4096) k) :=
    funext fun k => iblk4_0_apply V c t a k (I 0) hR
  have eb : (fun k : Fin 64 => (iblk4 V c 1 t : Vec Ideal S64x2048 .f32) (ix2 k b))
      = fun k : Fin 64 => (V c main_v283 : Vec Ideal S64x4096 .f32) (ix2 k (I 1 : Fin 4096)) :=
    funext fun k => iblk4_1_apply V c t k b (I 1) hC
  have ec : (iblk4 V c 2 t : Vec Ideal S1x2048 .f32) (ix2 0 b) = (V c main_v284 : Vec Ideal S1x4096 .f32) (ix2 0 (I 1 : Fin 4096)) :=
    iblk4_2_apply V c t b (I 1) hC
  exact congr (congr (congrArg (Cert.Spec.mmEntry (K := 64)) ea) eb) ec

/-- Every entry of the array is in the block of the point of its row block and column block. -/
theorem cover4 (c : Dev nD) (i : ((cfg4.win 3).arr.view.loc (c.tc : Thread nD τ)).2.ty.Idx) :
    ∃ t : Fin cfg4.N, (cfg4.win 3).flush t = true ∧ i ∈ ((cfg4.win 3).blk t).view.set := by
  have h0 : ((i 0 : Fin 4096) : Nat) < 4096 := (i 0).isLt
  have h1 : ((i 1 : Fin 4096) : Nat) < 4096 := (i 1).isLt
  have hN : grid4.N = 16 := N_4
  have ht : ((i 0 : Fin 4096) : Nat) / 512 * 2 + ((i 1 : Fin 4096) : Nat) / 2048 < grid4.N := by rw [hN]; omega
  refine ⟨⟨_, ht⟩, flush4_3 _, ?_⟩
  obtain ⟨e0, e1⟩ := idx4_3 ⟨_, ht⟩
  show i ∈ ((View.whole main_v285).slice (win4_3.rect ⟨_, ht⟩)).set
  rw [View.set_slice_whole, Rect.mem_set_unit]
  intro ax
  match ax with
  | ⟨0, _⟩ =>
    show win4_3.index ⟨_, ht⟩ 0 * 512 ≤ ((i 0 : Fin 4096) : Nat) ∧ ((i 0 : Fin 4096) : Nat) < win4_3.index ⟨_, ht⟩ 0 * 512 + 512
    rw [e0]; dsimp only; omega
  | ⟨1, _⟩ =>
    show win4_3.index ⟨_, ht⟩ 1 * 2048 ≤ ((i 1 : Fin 4096) : Nat) ∧ ((i 1 : Fin 4096) : Nat) < win4_3.index ⟨_, ht⟩ 1 * 2048 + 2048
    rw [e1]; dsimp only; omega

/-- So the region leaves the product array. -/
theorem final4_arr (c : Dev nD) : (dat4 V c).arrAt 3 cfg4.N = res4 V c :=
  (dat4 V c).arrAt_eq_of_cover 3 (res4 V c) (flushed4_eq V c) (cover4 c)

/-- Entry by entry. -/
theorem final4 (c : Dev nD) (i : S4096x4096.Idx) :
    (dat4 (F := Ideal) V c).arrAt 3 cfg4.N i
      = Cert.Spec.mmEntry (K := 64) (fun k => (V c main_v281 : S4096x64.Idx → EReal) (ix2 (i 0) k))
          (fun k => (V c main_v283 : S64x4096.Idx → EReal) (ix2 k (i 1))) ((V c main_v284 : S1x4096.Idx → EReal) (ix2 0 (i 1))) :=
  congrFun (final4_arr V c) i

end

end Cert.KernelIdeal.Hand

end
-- ==== Proof.Algebraic.lean ====
/-
  The value claim. Both idealized programs run the same host code around five dense products; the kernel takes each
  product block by block on a grid (i, j, k), accumulating the block products over k in a scratch that is zeroed at
  k = 0, and applies bias and epilogue at the last k, where the reference takes the product whole. Over the extended
  reals addition is commutative and associative, so the sum over the contracted axis split into consecutive blocks is the
  whole sum: each kernel region's output array equals the reference's host term entry by entry, and the host stretches
  between the regions are the same operations applied to equal operands. Hence the three results (the rounded consensus
  adjacency, the decoded adjacency, the node features) agree, and neither program writes an argument.
-/
import proofs.«122112_j6631429505271_1_alg».proof.Defs
import proofs.«122112_j6631429505271_1_alg».proof.Proof.Gen.Pre_finite_inputs
import proofs.«122112_j6631429505271_1_alg».proof.Proof.KiRunSegs
import proofs.«122112_j6631429505271_1_alg».proof.Proof.RefRun
import proofs.«122112_j6631429505271_1_alg».proof.Proof.RefRunArgs
import proofs.«122112_j6631429505271_1_alg».proof.Proof.BridgeChain
import proofs.«122112_j6631429505271_1_alg».proof.Proof.KiR0Value
import proofs.«122112_j6631429505271_1_alg».proof.Proof.KiR1Value
import proofs.«122112_j6631429505271_1_alg».proof.Proof.KiR2Value
import proofs.«122112_j6631429505271_1_alg».proof.Proof.KiR3Value
import proofs.«122112_j6631429505271_1_alg».proof.Proof.KiR4Value

set_option maxRecDepth 16384

noncomputable section

open Idealize.ShloMosaic Idealize.ShloMosaic.TcCoe Idealize.SL.Sem Idealize.ShloMosaic.StableHlo

namespace Cert.Proof

/-- From memories that agree on the arguments both programs run to the end with the same three results, entry by entry
    over the extended reals, and with their arguments unchanged. -/
theorem algebraic : Cert.algebraic_KernelIdeal_ReferenceIdeal := by
  intro m ρ m' ρ' _ hagree
  refine ⟨fun c => Cert.KernelIdeal.Hand.W20 (F := Ideal) m ρ c (Proc.devRef .tc Cert.KernelIdeal.main_v240),
    fun c => Cert.KernelIdeal.Hand.W20 (F := Ideal) m ρ c (Proc.devRef .tc Cert.KernelIdeal.main_v285),
    fun c => Cert.KernelIdeal.Hand.W20 (F := Ideal) m ρ c (Proc.devRef .tc Cert.KernelIdeal.main_v281), ?_, ?_⟩
  · exact (θ_run Cert.KernelIdeal.defs _ _).mono (fun r h c =>
      ⟨(Cert.KernelIdeal.Hand.post_res m ρ r h c).1, (Cert.KernelIdeal.Hand.post_res m ρ r h c).2.1,
        (Cert.KernelIdeal.Hand.post_res m ρ r h c).2.2, Cert.KernelIdeal.Hand.post_args m ρ r h c⟩)
      (Cert.KernelIdeal.Hand.run_all (F := Ideal) m ρ)
  · exact (θ_run Cert.ReferenceIdeal.defs _ _).mono (fun r h c =>
      have hb := Cert.Bridge.bridge_all m ρ m' c (hagree c)
        (fun i => Cert.KernelIdeal.Hand.final0 (Cert.KernelIdeal.Hand.V9 (F := Ideal) m ρ) c i)
        (fun i => Cert.KernelIdeal.Hand.final1 (Cert.KernelIdeal.Hand.V11 (F := Ideal) m ρ) c i)
        (fun i => Cert.KernelIdeal.Hand.final2 (Cert.KernelIdeal.Hand.V13 (F := Ideal) m ρ) c i)
        (fun i => Cert.KernelIdeal.Hand.final3 (Cert.KernelIdeal.Hand.V17 (F := Ideal) m ρ) c i)
        (fun i => Cert.KernelIdeal.Hand.final4 (Cert.KernelIdeal.Hand.V19 (F := Ideal) m ρ) c i)
      ⟨((h c Cert.ReferenceIdeal.main_v249).trans (congrFun (Cert.ReferenceIdeal.Hand.after_flat m' c) _)).trans hb.1.symm,
        ((h c Cert.ReferenceIdeal.main_v289).trans (congrFun (Cert.ReferenceIdeal.Hand.after_flat m' c) _)).trans hb.2.1.symm,
        ((h c Cert.ReferenceIdeal.main_v287).trans (congrFun (Cert.ReferenceIdeal.Hand.after_flat m' c) _)).trans hb.2.2.symm,
        Cert.ReferenceIdeal.Hand.post_args_ref m' r h c⟩)
      (Cert.ReferenceIdeal.Hand.run_ref (F := Ideal) m' ρ')

end Cert.Proof

end
-- ==== Proof.lean ====
/-
  The claim. A dense-graph network's forward pass contains five dense products: the adjacency estimate times two weight
  matrices in turn (each followed by a bias row and a pointwise map: the maximum with zero; a clamp to [0, 1], a shift
  by a tenth and rounding to the nearest integer), the normalised adjacency times the node features twice, and the final
  features times their own transpose. One program takes each product on a grid (i, j, k) of blocks: block (i, j) of the
  result is accumulated over the steps k of the contracted axis, the accumulator being zero before the first step, one
  block product being added per step, and the bias row and the pointwise map being applied after the last step. The
  other program takes each product whole.

  Every block (i, j) of a result is written once, after its last step, and these blocks tile the result array, so the
  array is determined entry by entry by the accumulated sums. Over the extended reals addition is associative and
  commutative, so the sum over the contracted axis split into consecutive blocks, each block summed separately and the
  partial sums added in order starting from zero, is the sum over the whole axis: each tiled product equals the whole
  product entry by entry. The operations between the products are the same in both programs and are applied to equal
  operands, so the three results (the rounded adjacency estimate, the decoded adjacency and the node features) agree.
  Neither program writes an argument array: every operation writes a buffer of its own and every product writes its
  result array only, which gives the three frames. The idealization rewrote no operation, so its ledger is empty.
-/
import proofs.«122112_j6631429505271_1_alg».proof.Defs
import proofs.«122112_j6631429505271_1_alg».proof.Proof.Gen.Kernel
import proofs.«122112_j6631429505271_1_alg».proof.Proof.Gen.KernelIdeal
import proofs.«122112_j6631429505271_1_alg».proof.Proof.Gen.ReferenceIdeal
import proofs.«122112_j6631429505271_1_alg».proof.Proof.Gen.Pre_finite_inputs
import proofs.«122112_j6631429505271_1_alg».proof.Proof.KbRunSegs
import proofs.«122112_j6631429505271_1_alg».proof.Proof.KiRunSegs
import proofs.«122112_j6631429505271_1_alg».proof.Proof.RefRunArgs
import proofs.«122112_j6631429505271_1_alg».proof.Proof.Algebraic
import Idealize.ShloMosaic.Adequacy
import Idealize.ShloMosaic.Init

noncomputable section

open Idealize.ShloMosaic Idealize.SL.Sem

/-- The facts the programs state, the three frames, the empty ledger of the idealization, and the equality of the
    results. -/
theorem Cert.Proof.claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => Cert.ReferenceIdeal.Hand.frame_ref (F := Ideal) m ρ,
  trivial,
  Cert.Proof.algebraic⟩

end
